-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S64x64 : Shape := ⟨2, ![64, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 999999#32
  let main_v18 : IVec S16384 32 := broadcastInDim S16384 ![] bcast_S_S16384 main_c_6
  let main_v19 : IVec S16384 1 := cmpi .sle main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : IVec S16384 32) (main_arg1 : IVec S16384 32) (main_arg2 : FVec F S1000000x64 .f32) (main_arg3 : FVec F S64x64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16384 : Shape := ⟨1, ![16384]⟩
abbrev S1000000x64 : Shape := ⟨2, ![1000000, 64]⟩
abbrev S64x64 : Shape := ⟨2, ![64, 64]⟩
abbrev S500000x128 : Shape := ⟨2, ![500000, 128]⟩
abbrev S32768 : Shape := ⟨1, ![32768]⟩
abbrev S32768x128 : Shape := ⟨2, ![32768, 128]⟩
abbrev S1024 : Shape := ⟨1, ![1024]⟩
abbrev S128x128 : Shape := ⟨2, ![128, 128]⟩
abbrev S_ : Shape := ⟨0, ![]⟩
abbrev S16 : Shape := ⟨1, ![16]⟩
abbrev S128 : Shape := ⟨1, ![128]⟩
abbrev S16384x1 : Shape := ⟨2, ![16384, 1]⟩
abbrev S2048x128 : Shape := ⟨2, ![2048, 128]⟩
abbrev S2048x1 : Shape := ⟨2, ![2048, 1]⟩
abbrev S2048x64 : Shape := ⟨2, ![2048, 64]⟩
abbrev S2048 : Shape := ⟨1, ![2048]⟩

abbrev nBuf : Table → Nat
  | .hbm => 11
  | .local .tc .vmem => 11
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S64x64, .f32⟩
  | .hbm, ⟨4, _⟩ => ⟨S500000x128, .f32⟩
  | .hbm, ⟨5, _⟩ => ⟨S32768, .i32⟩
  | .hbm, ⟨6, _⟩ => ⟨S32768x128, .f32⟩
  | .hbm, ⟨7, _⟩ => ⟨S16384x1, .i32⟩
  | .hbm, ⟨8, _⟩ => ⟨S16384x1, .i32⟩
  | .hbm, ⟨9, _⟩ => ⟨S16384x1, .f32⟩
  | .hbm, ⟨10, _⟩ => ⟨S16384, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x1, .i32⟩
  | .local .tc .vmem, ⟨5, _⟩ => ⟨S2048x1, .i32⟩
  | .local .tc .vmem, ⟨6, _⟩ => ⟨S2048x1, .i32⟩
  | .local .tc .vmem, ⟨7, _⟩ => ⟨S2048x1, .i32⟩
  | .local .tc .vmem, ⟨8, _⟩ => ⟨S64x64, .f32⟩
  | .local .tc .vmem, ⟨9, _⟩ => ⟨S2048x1, .f32⟩
  | .local .tc .vmem, ⟨10, _⟩ => ⟨S2048x1, .f32⟩
  | .local .scVector .vmem, ⟨0, _⟩ => ⟨S1024, .i32⟩
  | .local .scVector .vmem, ⟨1, _⟩ => ⟨S128x128, .f32⟩
  | .local .scVector .vmem, ⟨2, _⟩ => ⟨S128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) (c0_i32_134 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v457 : BitVec 32 := Scalar.addi v2 c0_i32_134
  let c0_i32_175_r1 : BitVec 32 := 0#32
  ![v457.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x64_S500000x128 : S1000000x64.ShapeCasts S500000x128
  concatenates_S16384_S16384_S32768_d0 : Shape.Concatenates [S16384, S16384] S32768 0
  inb_S1024_S16_0 : ∀ a, (![0] : Fin 1 → Nat) a + S16.size a ≤ S1024.size a
  h_S16 : 0 < S16.numel
  shapeCasts_S16_S16 : S16.ShapeCasts S16
  inb_S1024_S16_16 : ∀ a, (![16] : Fin 1 → Nat) a + S16.size a ≤ S1024.size a
  inb_S1024_S16_32 : ∀ a, (![32] : Fin 1 → Nat) a + S16.size a ≤ S1024.size a
  inb_S1024_S16_48 : ∀ a, (![48] : Fin 1 → Nat) a + S16.size a ≤ S1024.size a
  inb_S1024_S16_64 : ∀ a, (![64] : Fin 1 → Nat) a + S16.size a ≤ S1024.size a
  inb_S1024_S16_80 : ∀ a, (![80] : Fin 1 → Nat) a + S16.size a ≤ S1024.size a
  inb_S1024_S16_96 : ∀ a, (![96] : Fin 1 → Nat) a + S16.size a ≤ S1024.size a
  inb_S1024_S16_112 : ∀ a, (![112] : Fin 1 → Nat) a + S16.size a ≤ S1024.size a
  inb_S1024_S16_128 : ∀ a, (![128] : Fin 1 → Nat) a + S16.size a ≤ S1024.size a
  inb_S1024_S16_144 : ∀ a, (![144] : Fin 1 → Nat) a + S16.size a ≤ S1024.size a
  inb_S1024_S16_160 : ∀ a, (![160] : Fin 1 → Nat) a + S16.size a ≤ S1024.size a
  inb_S1024_S16_176 : ∀ a, (![176] : Fin 1 → Nat) a + S16.size a ≤ S1024.size a
  inb_S1024_S16_192 : ∀ a, (![192] : Fin 1 → Nat) a + S16.size a ≤ S1024.size a
  inb_S1024_S16_208 : ∀ a, (![208] : Fin 1 → Nat) a + S16.size a ≤ S1024.size a
  inb_S1024_S16_224 : ∀ a, (![224] : Fin 1 → Nat) a + S16.size a ≤ S1024.size a
  inb_S1024_S16_240 : ∀ a, (![240] : Fin 1 → Nat) a + S16.size a ≤ S1024.size a
  inb_S1024_S16_256 : ∀ a, (![256] : Fin 1 → Nat) a + S16.size a ≤ S1024.size a
  inb_S1024_S16_272 : ∀ a, (![272] : Fin 1 → Nat) a + S16.size a ≤ S1024.size a
  inb_S1024_S16_288 : ∀ a, (![288] : Fin 1 → Nat) a + S16.size a ≤ S1024.size a
  inb_S1024_S16_304 : ∀ a, (![304] : Fin 1 → Nat) a + S16.size a ≤ S1024.size a
  inb_S1024_S16_320 : ∀ a, (![320] : Fin 1 → Nat) a + S16.size a ≤ S1024.size a
  inb_S1024_S16_336 : ∀ a, (![336] : Fin 1 → Nat) a + S16.size a ≤ S1024.size a
  inb_S1024_S16_352 : ∀ a, (![352] : Fin 1 → Nat) a + S16.size a ≤ S1024.size a
  inb_S1024_S16_368 : ∀ a, (![368] : Fin 1 → Nat) a + S16.size a ≤ S1024.size a
  inb_S1024_S16_384 : ∀ a, (![384] : Fin 1 → Nat) a + S16.size a ≤ S1024.size a
  inb_S1024_S16_400 : ∀ a, (![400] : Fin 1 → Nat) a + S16.size a ≤ S1024.size a
  inb_S1024_S16_416 : ∀ a, (![416] : Fin 1 → Nat) a + S16.size a ≤ S1024.size a
  inb_S1024_S16_432 : ∀ a, (![432] : Fin 1 → Nat) a + S16.size a ≤ S1024.size a
  inb_S1024_S16_448 : ∀ a, (![448] : Fin 1 → Nat) a + S16.size a ≤ S1024.size a
  inb_S1024_S16_464 : ∀ a, (![464] : Fin 1 → Nat) a + S16.size a ≤ S1024.size a
  inb_S1024_S16_480 : ∀ a, (![480] : Fin 1 → Nat) a + S16.size a ≤ S1024.size a
  inb_S1024_S16_496 : ∀ a, (![496] : Fin 1 → Nat) a + S16.size a ≤ S1024.size a
  inb_S1024_S16_512 : ∀ a, (![512] : Fin 1 → Nat) a + S16.size a ≤ S1024.size a
  inb_S1024_S16_528 : ∀ a, (![528] : Fin 1 → Nat) a + S16.size a ≤ S1024.size a
  inb_S1024_S16_544 : ∀ a, (![544] : Fin 1 → Nat) a + S16.size a ≤ S1024.size a
  inb_S1024_S16_560 : ∀ a, (![560] : Fin 1 → Nat) a + S16.size a ≤ S1024.size a
  inb_S1024_S16_576 : ∀ a, (![576] : Fin 1 → Nat) a + S16.size a ≤ S1024.size a
  inb_S1024_S16_592 : ∀ a, (![592] : Fin 1 → Nat) a + S16.size a ≤ S1024.size a
  inb_S1024_S16_608 : ∀ a, (![608] : Fin 1 → Nat) a + S16.size a ≤ S1024.size a
  inb_S1024_S16_624 : ∀ a, (![624] : Fin 1 → Nat) a + S16.size a ≤ S1024.size a
  inb_S1024_S16_640 : ∀ a, (![640] : Fin 1 → Nat) a + S16.size a ≤ S1024.size a
  inb_S1024_S16_656 : ∀ a, (![656] : Fin 1 → Nat) a + S16.size a ≤ S1024.size a
  inb_S1024_S16_672 : ∀ a, (![672] : Fin 1 → Nat) a + S16.size a ≤ S1024.size a
  inb_S1024_S16_688 : ∀ a, (![688] : Fin 1 → Nat) a + S16.size a ≤ S1024.size a
  inb_S1024_S16_704 : ∀ a, (![704] : Fin 1 → Nat) a + S16.size a ≤ S1024.size a
  inb_S1024_S16_720 : ∀ a, (![720] : Fin 1 → Nat) a + S16.size a ≤ S1024.size a
  inb_S1024_S16_736 : ∀ a, (![736] : Fin 1 → Nat) a + S16.size a ≤ S1024.size a
  inb_S1024_S16_752 : ∀ a, (![752] : Fin 1 → Nat) a + S16.size a ≤ S1024.size a
  inb_S1024_S16_768 : ∀ a, (![768] : Fin 1 → Nat) a + S16.size a ≤ S1024.size a
  inb_S1024_S16_784 : ∀ a, (![784] : Fin 1 → Nat) a + S16.size a ≤ S1024.size a
  inb_S1024_S16_800 : ∀ a, (![800] : Fin 1 → Nat) a + S16.size a ≤ S1024.size a
  inb_S1024_S16_816 : ∀ a, (![816] : Fin 1 → Nat) a + S16.size a ≤ S1024.size a
  inb_S1024_S16_832 : ∀ a, (![832] : Fin 1 → Nat) a + S16.size a ≤ S1024.size a
  inb_S1024_S16_848 : ∀ a, (![848] : Fin 1 → Nat) a + S16.size a ≤ S1024.size a
  inb_S1024_S16_864 : ∀ a, (![864] : Fin 1 → Nat) a + S16.size a ≤ S1024.size a
  inb_S1024_S16_880 : ∀ a, (![880] : Fin 1 → Nat) a + S16.size a ≤ S1024.size a
  inb_S1024_S16_896 : ∀ a, (![896] : Fin 1 → Nat) a + S16.size a ≤ S1024.size a
  inb_S1024_S16_912 : ∀ a, (![912] : Fin 1 → Nat) a + S16.size a ≤ S1024.size a
  inb_S1024_S16_928 : ∀ a, (![928] : Fin 1 → Nat) a + S16.size a ≤ S1024.size a
  inb_S1024_S16_944 : ∀ a, (![944] : Fin 1 → Nat) a + S16.size a ≤ S1024.size a
  inb_S1024_S16_960 : ∀ a, (![960] : Fin 1 → Nat) a + S16.size a ≤ S1024.size a
  inb_S1024_S16_976 : ∀ a, (![976] : Fin 1 → Nat) a + S16.size a ≤ S1024.size a
  inb_S1024_S16_992 : ∀ a, (![992] : Fin 1 → Nat) a + S16.size a ≤ S1024.size a
  inb_S1024_S16_1008 : ∀ a, (![1008] : Fin 1 → Nat) a + S16.size a ≤ S1024.size a
  inb_S1024_S128_0 : ∀ a, (![0] : Fin 1 → Nat) a + S128.size a ≤ S1024.size a
  inb_S500000x128_S500000x128_0_0 : ∀ a, (![0, 0] : Fin 2 → Nat) a + S500000x128.size a ≤ S500000x128.size a
  gathers_S500000x128_S128x128 : S500000x128.Gathers 0 S128x128
  inb_S1024_S128_128 : ∀ a, (![128] : Fin 1 → Nat) a + S128.size a ≤ S1024.size a
  inb_S1024_S128_256 : ∀ a, (![256] : Fin 1 → Nat) a + S128.size a ≤ S1024.size a
  inb_S1024_S128_384 : ∀ a, (![384] : Fin 1 → Nat) a + S128.size a ≤ S1024.size a
  inb_S1024_S128_512 : ∀ a, (![512] : Fin 1 → Nat) a + S128.size a ≤ S1024.size a
  inb_S1024_S128_640 : ∀ a, (![640] : Fin 1 → Nat) a + S128.size a ≤ S1024.size a
  inb_S1024_S128_768 : ∀ a, (![768] : Fin 1 → Nat) a + S128.size a ≤ S1024.size a
  inb_S1024_S128_896 : ∀ a, (![896] : Fin 1 → Nat) a + S128.size a ≤ S1024.size a
  shapeCasts_S16384_S16384x1 : S16384.ShapeCasts S16384x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  slices_S2048x128_o0_64_S2048x64 : S2048x128.Slices ![0, 64] S2048x64
  slices_S2048x128_o0_0_S2048x64 : S2048x128.Slices ![0, 0] S2048x64
  broadcasts_S2048x1_S2048x64 : S2048x1.Broadcasts S2048x64
  inb_S64x64_S64x64_0_0 : ∀ a, (![0, 0] : Fin 2 → Nat) a + S64x64.size a ≤ S64x64.size a
  h_S64x64 : 0 < S64x64.numel
  reduces_S2048x64_S2048 : S2048x64.Reduces [1] S2048
  shapeCasts_S2048_S2048x1 : S2048.ShapeCasts S2048x1
  shapeCasts_S16384x1_S16384 : S16384x1.ShapeCasts S16384
  dot_S2048x64_S64x64_S2048x64_1_1_0_0_n_n_wf : DotDims.WF S2048x64 S64x64 S2048x64 [1] [1] [0] [0] [] []
  hcc0_scratch3 : 0 + S_.numel ≤ 22
  hcc0_scratch4 : 1 + S_.numel ≤ 22
  hcc0_scoped0 : 2 + S_.numel ≤ 22
  hcc0_scoped1 : 3 + S_.numel ≤ 22
  hcc0_scoped2 : 4 + S_.numel ≤ 22
  hcc0_scoped3 : 5 + S_.numel ≤ 22
  hcc0_scoped4 : 6 + S_.numel ≤ 22
  hcc0_scoped5 : 7 + S_.numel ≤ 22
  hcc0_scoped6 : 8 + S_.numel ≤ 22
  hcc0_scoped7 : 9 + S_.numel ≤ 22
  hcc0_scoped8 : 10 + S_.numel ≤ 22
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S32768.size a
  k0_off2_inb : ∀ i : grid0.Coords, ∀ (r : Fin 8), ∀ a, (k0_off2 i (BitVec.ofNat 32 (128 * r.val))) a + S128x128.size a ≤ S32768x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S32768x128.size a
  hwx1_0 : ∀ i : grid1.Coords, EltTy.bits .f32 = 32 ∨ (Rect.block (s := S32768x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S32768x128.size a
  hwx1_1 : ∀ i : grid1.Coords, EltTy.bits .f32 = 32 ∨ (Rect.block (s := S32768x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .i32 = 32 ∨ (Rect.block (s := S16384x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S16384x1.size a
  hwx1_3 : ∀ i : grid1.Coords, EltTy.bits .i32 = 32 ∨ (Rect.block (s := S16384x1) S2048x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1.size a ≤ S16384x1.size a
  hwx1_5 : ∀ i : grid1.Coords, EltTy.bits .f32 = 32 ∨ (Rect.block (s := S16384x1) S2048x1.size (cc1_transform_5 i) (hinb1_5 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
abbrev cc0_scoped7 : DmaSems sig S_ := SemArray.consecutive 9 S_ hcc0_scoped7
abbrev cc0_scoped8 : DmaSems sig S_ := SemArray.consecutive 10 S_ hcc0_scoped8
def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf

abbrev win1_0 : Pipeline.Window sig grid1 :=
  Pipeline.Window.ofSpec (Memref.whole main_v2) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2048x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384 : Shape := ⟨1, ![16384]⟩
abbrev S1000000x64 : Shape := ⟨2, ![1000000, 64]⟩
abbrev S64x64 : Shape := ⟨2, ![64, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 66
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S64x64, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x64, .f32⟩
  | .hbm, ⟨46, _⟩ => ⟨S16384x64, .i1⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S64x64, .f32⟩
  | .hbm, ⟨51, _⟩ => ⟨S16384x64, .f32⟩
  | .hbm, ⟨52, _⟩ => ⟨S16384x64, .f32⟩
  | .hbm, ⟨53, _⟩ => ⟨S_, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_cst : Ref sig .tc := ⟨.hbm, 53, rfl⟩
abbrev main_v5 : Ref sig .tc := ⟨.hbm, 54, rfl⟩
abbrev main_cst_0 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_cst_1 : Ref sig .tc := ⟨.hbm, 60, rfl⟩
abbrev main_v10 : Ref sig .tc := ⟨.hbm, 61, rfl⟩
abbrev main_v11 : Ref sig .tc := ⟨.hbm, 62, rfl⟩
abbrev main_cst_2 : Ref sig .tc := ⟨.hbm, 63, rfl⟩
abbrev main_v12 : Ref sig .tc := ⟨.hbm, 64, rfl⟩
abbrev main_v13 : Ref sig .tc := ⟨.hbm, 65, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  transposes_S64x64_S64x64_1_0 : S64x64.Transposes [1, 0] S64x64
  reducesTo_S16384x64_S16384_d1 : S16384x64.ReducesTo [1] S16384
  gather_S1000000x64_S16384x1_S16384x64_1_0_n_n_0_1_164_wf : GatherDims.WF S1000000x64 S16384x1 S16384x64 [1] [0] [] [0] [] 1 ![1, 64]
  dot_S16384x64_S64x64_S16384x64_1_0_0_1_n_n_wf : DotDims.WF S16384x64 S64x64 S16384x64 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.ArchI.lean ====
/-
  The idealized kernel's program as the launch theorem of a device with SparseCores sees it, and the ghost state of its
  proof: the handshakes' rounds (start, go, task done, done), the rounds of the one TensorCore pipeline's staging
  cells, and the counters of the transfers a tile issues and waits for itself. Stated at any float instance.
-/
import proofs.«206720_g66460323938928_cont_9to1_m_1264_22_alg».proof.KernelIdeal
import proofs.«206720_g66460323938928_cont_9to1_m_1264_22_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

example : CountersIn UU := inferInstance

end Cert.KernelIdeal.Hand

end
-- ==== Proof.SlicesI.lean ====
/-
  The memory a vector subcore's task touches, spelt as the task's body slices it: its eight 128-row pieces of the
  gathered array, the eight 128-word slices of its index scratch, and its 1024 words of the index array. The task
  of core `c`, subcore `s` owns rows `2048 s + 1024 c + 128 k + [0, 128)`, `k < 8`, of the gathered array: the 256
  pieces over all tasks partition its 32768 rows.
-/
import proofs.«206720_g66460323938928_cont_9to1_m_1264_22_alg».proof.Proof.ArchI

noncomputable section

namespace Cert.KernelIdeal.Hand

open Cert.KernelIdeal Cert.KernelIdeal.Gen
open Idealize.ShloMosaic
open Idealize.ShloMosaic.SparseCore (S V T)

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The vector subcore the grid point `L` runs on. -/
abbrev thrV (d : Dev nD) (L : grid0.Coords) : Thread nD τ := V d ((L 0).castLE hcore0) ((L 1).castLE hsub0)

abbrev oP0 (L : grid0.Coords) : Memref sig .scVector .hbm S128x128 .f32 := (Memref.whole main_v2_scv : Memref sig .scVector .hbm S32768x128 .f32).slice (Rect.unit (s := S32768x128) (k0_off2 L 0#32) S128x128.size (k0_off2_inb L 0)) (fun _ => rfl)
abbrev oP1 (L : grid0.Coords) : Memref sig .scVector .hbm S128x128 .f32 := (Memref.whole main_v2_scv : Memref sig .scVector .hbm S32768x128 .f32).slice (Rect.unit (s := S32768x128) (k0_off2 L 128#32) S128x128.size (k0_off2_inb L 1)) (fun _ => rfl)
abbrev oP2 (L : grid0.Coords) : Memref sig .scVector .hbm S128x128 .f32 := (Memref.whole main_v2_scv : Memref sig .scVector .hbm S32768x128 .f32).slice (Rect.unit (s := S32768x128) (k0_off2 L 256#32) S128x128.size (k0_off2_inb L 2)) (fun _ => rfl)
abbrev oP3 (L : grid0.Coords) : Memref sig .scVector .hbm S128x128 .f32 := (Memref.whole main_v2_scv : Memref sig .scVector .hbm S32768x128 .f32).slice (Rect.unit (s := S32768x128) (k0_off2 L 384#32) S128x128.size (k0_off2_inb L 3)) (fun _ => rfl)
abbrev oP4 (L : grid0.Coords) : Memref sig .scVector .hbm S128x128 .f32 := (Memref.whole main_v2_scv : Memref sig .scVector .hbm S32768x128 .f32).slice (Rect.unit (s := S32768x128) (k0_off2 L 512#32) S128x128.size (k0_off2_inb L 4)) (fun _ => rfl)
abbrev oP5 (L : grid0.Coords) : Memref sig .scVector .hbm S128x128 .f32 := (Memref.whole main_v2_scv : Memref sig .scVector .hbm S32768x128 .f32).slice (Rect.unit (s := S32768x128) (k0_off2 L 640#32) S128x128.size (k0_off2_inb L 5)) (fun _ => rfl)
abbrev oP6 (L : grid0.Coords) : Memref sig .scVector .hbm S128x128 .f32 := (Memref.whole main_v2_scv : Memref sig .scVector .hbm S32768x128 .f32).slice (Rect.unit (s := S32768x128) (k0_off2 L 768#32) S128x128.size (k0_off2_inb L 6)) (fun _ => rfl)
abbrev oP7 (L : grid0.Coords) : Memref sig .scVector .hbm S128x128 .f32 := (Memref.whole main_v2_scv : Memref sig .scVector .hbm S32768x128 .f32).slice (Rect.unit (s := S32768x128) (k0_off2 L 896#32) S128x128.size (k0_off2_inb L 7)) (fun _ => rfl)

abbrev iL0 : Memref sig .scVector .vmem S128 .i32 := (Memref.whole cc0_scratch0 : Memref sig .scVector .vmem S1024 .i32).slice (Rect.unit (s := S1024) ![0] S128.size inb_S1024_S128_0) (fun _ => rfl)
abbrev iL1 : Memref sig .scVector .vmem S128 .i32 := (Memref.whole cc0_scratch0 : Memref sig .scVector .vmem S1024 .i32).slice (Rect.unit (s := S1024) ![128] S128.size inb_S1024_S128_128) (fun _ => rfl)
abbrev iL2 : Memref sig .scVector .vmem S128 .i32 := (Memref.whole cc0_scratch0 : Memref sig .scVector .vmem S1024 .i32).slice (Rect.unit (s := S1024) ![256] S128.size inb_S1024_S128_256) (fun _ => rfl)
abbrev iL3 : Memref sig .scVector .vmem S128 .i32 := (Memref.whole cc0_scratch0 : Memref sig .scVector .vmem S1024 .i32).slice (Rect.unit (s := S1024) ![384] S128.size inb_S1024_S128_384) (fun _ => rfl)
abbrev iL4 : Memref sig .scVector .vmem S128 .i32 := (Memref.whole cc0_scratch0 : Memref sig .scVector .vmem S1024 .i32).slice (Rect.unit (s := S1024) ![512] S128.size inb_S1024_S128_512) (fun _ => rfl)
abbrev iL5 : Memref sig .scVector .vmem S128 .i32 := (Memref.whole cc0_scratch0 : Memref sig .scVector .vmem S1024 .i32).slice (Rect.unit (s := S1024) ![640] S128.size inb_S1024_S128_640) (fun _ => rfl)
abbrev iL6 : Memref sig .scVector .vmem S128 .i32 := (Memref.whole cc0_scratch0 : Memref sig .scVector .vmem S1024 .i32).slice (Rect.unit (s := S1024) ![768] S128.size inb_S1024_S128_768) (fun _ => rfl)
abbrev iL7 : Memref sig .scVector .vmem S128 .i32 := (Memref.whole cc0_scratch0 : Memref sig .scVector .vmem S1024 .i32).slice (Rect.unit (s := S1024) ![896] S128.size inb_S1024_S128_896) (fun _ => rfl)

/-- The tile's 1024 words of the index array, as the body slices them. -/
abbrev idxSl (L : grid0.Coords) : Memref sig .scVector .hbm S1024 .i32 :=
  (Memref.whole main_v1_scv : Memref sig .scVector .hbm S32768 .i32).slice (Rect.unit (s := S32768) (k0_off1 L) S1024.size (k0_off1_inb L)) (fun _ => rfl)

/-- The elements of piece `k` of the task at `L`. -/
def oSet (L : grid0.Coords) : Fin 8 → Finset S32768x128.Idx
  | 0 => (oP0 L).view.set | 1 => (oP1 L).view.set | 2 => (oP2 L).view.set | 3 => (oP3 L).view.set
  | 4 => (oP4 L).view.set | 5 => (oP5 L).view.set | 6 => (oP6 L).view.set | 7 => (oP7 L).view.set

/-- The same over (core, subcore, piece). -/
def oSetT (a : Fin (grid0.bound 0) × Fin (grid0.bound 1) × Fin 8) : Finset S32768x128.Idx := oSet (coordsV a.1 a.2.1) a.2.2

end Cert.KernelIdeal.Hand

end
-- ==== Proof.SliceFactsI.lean ====
/-
  Facts about finite sets of array indices, none about a run.

  The eight 128-word slices of the 1024-word index scratch are intervals `[128 k, 128 k + 128)`, `k < 8`: carved one
  after another out of the whole they are each inside what the earlier ones left, and together they leave nothing.
  Piece `(c, s, k)` of the gathered array is the rows `2048 s + 1024 c + 128 k + [0, 128)` at every column; as
  `c < 2`, `s < 16`, `k < 8` the first rows `128 (16 s + 8 c + k)` run through the multiples of 128 below 32768 once
  each, so the 256 pieces are pairwise disjoint and cover the array.
-/
import proofs.«206720_g66460323938928_cont_9to1_m_1264_22_alg».proof.Proof.SlicesI

noncomputable section

namespace Cert.KernelIdeal.Hand

open Cert.KernelIdeal Cert.KernelIdeal.Gen
open Idealize.ShloMosaic
open Idealize.ShloMosaic.SparseCore (S V T)

/-! ## The index scratch's slices -/

/-- The slice of the index scratch at offset `o` holds the indices from `o` to below `o + 128`. -/
theorem mem_scratch_slice (o : ℕ) (inb : ∀ a, (![o] : Fin 1 → ℕ) a + S128.size a ≤ S1024.size a) (y : S1024.Idx) :
    y ∈ ((Memref.whole cc0_scratch0 : Memref sig .scVector .vmem S1024 .i32).slice
        (Rect.unit (s := S1024) ![o] S128.size inb) (fun _ => rfl)).view.set
      ↔ o ≤ (y 0).val ∧ (y 0).val < o + 128 := by
  show y ∈ ((View.whole cc0_scratch0).slice (Rect.unit (s := S1024) ![o] S128.size inb)).set ↔ _
  rw [View.set_slice_whole, Rect.mem_set_unit]
  constructor
  · intro h; exact h 0
  · intro h a
    have ha : a = (0 : Fin 1) := Subsingleton.elim (α := Fin 1) a 0
    rw [ha]
    exact h

theorem mem_iL0 (y : S1024.Idx) : y ∈ (iL0).view.set ↔ 0 ≤ (y 0).val ∧ (y 0).val < 0 + 128 := mem_scratch_slice 0 _ y
theorem mem_iL1 (y : S1024.Idx) : y ∈ (iL1).view.set ↔ 128 ≤ (y 0).val ∧ (y 0).val < 128 + 128 := mem_scratch_slice 128 _ y
theorem mem_iL2 (y : S1024.Idx) : y ∈ (iL2).view.set ↔ 256 ≤ (y 0).val ∧ (y 0).val < 256 + 128 := mem_scratch_slice 256 _ y
theorem mem_iL3 (y : S1024.Idx) : y ∈ (iL3).view.set ↔ 384 ≤ (y 0).val ∧ (y 0).val < 384 + 128 := mem_scratch_slice 384 _ y
theorem mem_iL4 (y : S1024.Idx) : y ∈ (iL4).view.set ↔ 512 ≤ (y 0).val ∧ (y 0).val < 512 + 128 := mem_scratch_slice 512 _ y
theorem mem_iL5 (y : S1024.Idx) : y ∈ (iL5).view.set ↔ 640 ≤ (y 0).val ∧ (y 0).val < 640 + 128 := mem_scratch_slice 640 _ y
theorem mem_iL6 (y : S1024.Idx) : y ∈ (iL6).view.set ↔ 768 ≤ (y 0).val ∧ (y 0).val < 768 + 128 := mem_scratch_slice 768 _ y
theorem mem_iL7 (y : S1024.Idx) : y ∈ (iL7).view.set ↔ 896 ≤ (y 0).val ∧ (y 0).val < 896 + 128 := mem_scratch_slice 896 _ y

theorem hsub0 : (iL0).view.set ⊆ (Finset.univ : Finset S1024.Idx) := Finset.subset_univ _

theorem hsub1 : (iL1).view.set ⊆ ((Finset.univ : Finset S1024.Idx) \ (iL0).view.set) := by
  intro y hy
  have hk := (mem_iL1 y).1 hy
  have n0 : y ∉ (iL0).view.set := fun h => by have := (mem_iL0 y).1 h; omega
  exact Finset.mem_sdiff.2 ⟨Finset.mem_univ y, n0⟩

theorem hsub2 : (iL2).view.set ⊆ (((Finset.univ : Finset S1024.Idx) \ (iL0).view.set) \ (iL1).view.set) := by
  intro y hy
  have hk := (mem_iL2 y).1 hy
  have n0 : y ∉ (iL0).view.set := fun h => by have := (mem_iL0 y).1 h; omega
  have n1 : y ∉ (iL1).view.set := fun h => by have := (mem_iL1 y).1 h; omega
  exact Finset.mem_sdiff.2 ⟨Finset.mem_sdiff.2 ⟨Finset.mem_univ y, n0⟩, n1⟩

theorem hsub3 : (iL3).view.set ⊆ ((((Finset.univ : Finset S1024.Idx) \ (iL0).view.set) \ (iL1).view.set) \ (iL2).view.set) := by
  intro y hy
  have hk := (mem_iL3 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  exact Finset.mem_sdiff.2 ⟨Finset.mem_sdiff.2 ⟨Finset.mem_sdiff.2 ⟨Finset.mem_univ y, n0⟩, n1⟩, n2⟩

theorem hsub4 : (iL4).view.set ⊆ (((((Finset.univ : Finset S1024.Idx) \ (iL0).view.set) \ (iL1).view.set) \ (iL2).view.set) \ (iL3).view.set) := by
  intro y hy
  have hk := (mem_iL4 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  have n3 : y ∉ (iL3).view.set := fun h => by have := (mem_iL3 y).1 h; omega
  exact Finset.mem_sdiff.2 ⟨Finset.mem_sdiff.2 ⟨Finset.mem_sdiff.2 ⟨Finset.mem_sdiff.2 ⟨Finset.mem_univ y, n0⟩, n1⟩, n2⟩, n3⟩

theorem hsub5 : (iL5).view.set ⊆ ((((((Finset.univ : Finset S1024.Idx) \ (iL0).view.set) \ (iL1).view.set) \ (iL2).view.set) \ (iL3).view.set) \ (iL4).view.set) := by
  intro y hy
  have hk := (mem_iL5 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  have n3 : y ∉ (iL3).view.set := fun h => by have := (mem_iL3 y).1 h; omega
  have n4 : y ∉ (iL4).view.set := fun h => by have := (mem_iL4 y).1 h; omega
  exact Finset.mem_sdiff.2 ⟨Finset.mem_sdiff.2 ⟨Finset.mem_sdiff.2 ⟨Finset.mem_sdiff.2 ⟨Finset.mem_sdiff.2 ⟨Finset.mem_univ y, n0⟩, n1⟩, n2⟩, n3⟩, n4⟩

theorem hsub6 : (iL6).view.set ⊆ (((((((Finset.univ : Finset S1024.Idx) \ (iL0).view.set) \ (iL1).view.set) \ (iL2).view.set) \ (iL3).view.set) \ (iL4).view.set) \ (iL5).view.set) := by
  intro y hy
  have hk := (mem_iL6 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  have n3 : y ∉ (iL3).view.set := fun h => by have := (mem_iL3 y).1 h; omega
  have n4 : y ∉ (iL4).view.set := fun h => by have := (mem_iL4 y).1 h; omega
  have n5 : y ∉ (iL5).view.set := fun h => by have := (mem_iL5 y).1 h; omega
  exact Finset.mem_sdiff.2 ⟨Finset.mem_sdiff.2 ⟨Finset.mem_sdiff.2 ⟨Finset.mem_sdiff.2 ⟨Finset.mem_sdiff.2 ⟨Finset.mem_sdiff.2 ⟨Finset.mem_univ y, n0⟩, n1⟩, n2⟩, n3⟩, n4⟩, n5⟩

theorem hsub7 : (iL7).view.set ⊆ ((((((((Finset.univ : Finset S1024.Idx) \ (iL0).view.set) \ (iL1).view.set) \ (iL2).view.set) \ (iL3).view.set) \ (iL4).view.set) \ (iL5).view.set) \ (iL6).view.set) := by
  intro y hy
  have hk := (mem_iL7 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  have n3 : y ∉ (iL3).view.set := fun h => by have := (mem_iL3 y).1 h; omega
  have n4 : y ∉ (iL4).view.set := fun h => by have := (mem_iL4 y).1 h; omega
  have n5 : y ∉ (iL5).view.set := fun h => by have := (mem_iL5 y).1 h; omega
  have n6 : y ∉ (iL6).view.set := fun h => by have := (mem_iL6 y).1 h; omega
  exact Finset.mem_sdiff.2 ⟨Finset.mem_sdiff.2 ⟨Finset.mem_sdiff.2 ⟨Finset.mem_sdiff.2 ⟨Finset.mem_sdiff.2 ⟨Finset.mem_sdiff.2 ⟨Finset.mem_sdiff.2 ⟨Finset.mem_univ y, n0⟩, n1⟩, n2⟩, n3⟩, n4⟩, n5⟩, n6⟩

theorem rest_empty : ((((((((Finset.univ : Finset S1024.Idx) \ (iL0).view.set) \ (iL1).view.set) \ (iL2).view.set) \ (iL3).view.set) \ (iL4).view.set) \ (iL5).view.set) \ (iL6).view.set) \ (iL7).view.set = ∅ := by
  refine Finset.eq_empty_of_forall_notMem fun y hy => ?_
  have hlt : (y 0).val < 1024 := (y 0).isLt
  obtain ⟨hy, n7⟩ := Finset.mem_sdiff.1 hy
  obtain ⟨hy, n6⟩ := Finset.mem_sdiff.1 hy
  obtain ⟨hy, n5⟩ := Finset.mem_sdiff.1 hy
  obtain ⟨hy, n4⟩ := Finset.mem_sdiff.1 hy
  obtain ⟨hy, n3⟩ := Finset.mem_sdiff.1 hy
  obtain ⟨hy, n2⟩ := Finset.mem_sdiff.1 hy
  obtain ⟨hy, n1⟩ := Finset.mem_sdiff.1 hy
  obtain ⟨hy, n0⟩ := Finset.mem_sdiff.1 hy
  have a0 : ¬(0 ≤ (y 0).val ∧ (y 0).val < 0 + 128) := fun h => n0 ((mem_iL0 y).2 h)
  have a1 : ¬(128 ≤ (y 0).val ∧ (y 0).val < 128 + 128) := fun h => n1 ((mem_iL1 y).2 h)
  have a2 : ¬(256 ≤ (y 0).val ∧ (y 0).val < 256 + 128) := fun h => n2 ((mem_iL2 y).2 h)
  have a3 : ¬(384 ≤ (y 0).val ∧ (y 0).val < 384 + 128) := fun h => n3 ((mem_iL3 y).2 h)
  have a4 : ¬(512 ≤ (y 0).val ∧ (y 0).val < 512 + 128) := fun h => n4 ((mem_iL4 y).2 h)
  have a5 : ¬(640 ≤ (y 0).val ∧ (y 0).val < 640 + 128) := fun h => n5 ((mem_iL5 y).2 h)
  have a6 : ¬(768 ≤ (y 0).val ∧ (y 0).val < 768 + 128) := fun h => n6 ((mem_iL6 y).2 h)
  have a7 : ¬(896 ≤ (y 0).val ∧ (y 0).val < 896 + 128) := fun h => n7 ((mem_iL7 y).2 h)
  omega

/-! ## The gathered array's pieces -/

/-- A 128-row piece of the gathered array whose offsets are `(o, 0)` holds the indices of rows `o` to below `o + 128`, at
    every column. -/
theorem mem_piece (L : grid0.Coords) (w : BitVec 32) (inb : ∀ a, (k0_off2 L w) a + S128x128.size a ≤ S32768x128.size a)
    (o : ℕ) (ho : k0_off2 L w = ![o, 0]) (y : S32768x128.Idx) :
    y ∈ ((Memref.whole main_v2_scv : Memref sig .scVector .hbm S32768x128 .f32).slice
        (Rect.unit (s := S32768x128) (k0_off2 L w) S128x128.size inb) (fun _ => rfl)).view.set
      ↔ o ≤ (y 0).val ∧ (y 0).val < o + 128 := by
  show y ∈ ((View.whole main_v2_scv).slice (Rect.unit (s := S32768x128) (k0_off2 L w) S128x128.size inb)).set ↔ _
  rw [View.set_slice_whole, Rect.mem_set_unit]
  constructor
  · intro h
    have h0 := h (0 : Fin 2)
    rw [ho] at h0
    exact h0
  · intro h a
    rw [ho]
    match a with
    | ⟨0, _⟩ => exact h
    | ⟨1, _⟩ =>
      have h1 : (y (1 : Fin 2)).val < 128 := (y (1 : Fin 2)).isLt
      exact ⟨Nat.zero_le _, by show (y (1 : Fin 2)).val < 0 + 128; omega⟩

/-- Piece `k` of the task at `L`: rows `2048 (L 1) + 1024 (L 0) + 128 k` to below that plus 128. -/
theorem mem_oSet (L : grid0.Coords) (k : Fin 8) (y : S32768x128.Idx) :
    y ∈ oSet L k ↔ 2048 * (L 1).val + 1024 * (L 0).val + 128 * k.val ≤ (y 0).val
      ∧ (y 0).val < 2048 * (L 1).val + 1024 * (L 0).val + 128 * k.val + 128 := by
  match k with
  | ⟨0, _⟩ => exact mem_piece L _ _ _ (k0_off2_eq L ⟨0, by decide⟩) y
  | ⟨1, _⟩ => exact mem_piece L _ _ _ (k0_off2_eq L ⟨1, by decide⟩) y
  | ⟨2, _⟩ => exact mem_piece L _ _ _ (k0_off2_eq L ⟨2, by decide⟩) y
  | ⟨3, _⟩ => exact mem_piece L _ _ _ (k0_off2_eq L ⟨3, by decide⟩) y
  | ⟨4, _⟩ => exact mem_piece L _ _ _ (k0_off2_eq L ⟨4, by decide⟩) y
  | ⟨5, _⟩ => exact mem_piece L _ _ _ (k0_off2_eq L ⟨5, by decide⟩) y
  | ⟨6, _⟩ => exact mem_piece L _ _ _ (k0_off2_eq L ⟨6, by decide⟩) y
  | ⟨7, _⟩ => exact mem_piece L _ _ _ (k0_off2_eq L ⟨7, by decide⟩) y

/-- The first row of piece `(c, s, k)`. -/
theorem mem_oSetT (a : Fin (grid0.bound 0) × Fin (grid0.bound 1) × Fin 8) (y : S32768x128.Idx) :
    y ∈ oSetT a ↔ 2048 * a.2.1.val + 1024 * a.1.val + 128 * a.2.2.val ≤ (y 0).val
      ∧ (y 0).val < 2048 * a.2.1.val + 1024 * a.1.val + 128 * a.2.2.val + 128 :=
  mem_oSet (coordsV a.1 a.2.1) a.2.2 y

theorem oSet_disjoint : ∀ a ∈ (Finset.univ : Finset (Fin (grid0.bound 0) × Fin (grid0.bound 1) × Fin 8)),
    ∀ b ∈ (Finset.univ : Finset (Fin (grid0.bound 0) × Fin (grid0.bound 1) × Fin 8)), a ≠ b → Disjoint (oSetT a) (oSetT b) := by
  intro a _ b _ hab
  refine Finset.disjoint_left.2 fun y hya hyb => hab ?_
  have ha := (mem_oSetT a y).1 hya
  have hb := (mem_oSetT b y).1 hyb
  have hc : a.1.val < 2 := a.1.isLt
  have hc' : b.1.val < 2 := b.1.isLt
  have hk : a.2.2.val < 8 := a.2.2.isLt
  have hk' : b.2.2.val < 8 := b.2.2.isLt
  have e1 : a.1.val = b.1.val := by omega
  have e2 : a.2.1.val = b.2.1.val := by omega
  have e3 : a.2.2.val = b.2.2.val := by omega
  exact Prod.ext (Fin.ext e1) (Prod.ext (Fin.ext e2) (Fin.ext e3))

theorem oSet_cover : (Finset.univ : Finset (Fin (grid0.bound 0) × Fin (grid0.bound 1) × Fin 8)).biUnion oSetT = Finset.univ := by
  refine Finset.eq_univ_iff_forall.2 fun y => Finset.mem_biUnion.2 ?_
  have hy : (y 0).val < 32768 := (y 0).isLt
  refine ⟨(⟨(y 0).val % 2048 / 1024, by show (y 0).val % 2048 / 1024 < 2; omega⟩,
    ⟨(y 0).val / 2048, by show (y 0).val / 2048 < 16; omega⟩,
    ⟨(y 0).val % 1024 / 128, by omega⟩), Finset.mem_univ _, (mem_oSetT _ y).2 ?_⟩
  show 2048 * ((y 0).val / 2048) + 1024 * ((y 0).val % 2048 / 1024) + 128 * ((y 0).val % 1024 / 128) ≤ (y 0).val
    ∧ (y 0).val < 2048 * ((y 0).val / 2048) + 1024 * ((y 0).val % 2048 / 1024) + 128 * ((y 0).val % 1024 / 128) + 128
  omega

end Cert.KernelIdeal.Hand

end
-- ==== Proof.TileDefsI.lean ====
/-
  What a vector subcore's task computes, as terms of the arrays it reads. The task copies its 1024 words of the index
  array into its scratch (`landed`), halves each (`halved`: a pair of 64-wide table rows shares one 128-wide row of the
  reshaped table), and gathers, 128 at a time, the rows of the reshaped table those halves name into rows
  `base + 128 k + [0, 128)` of the output. So the output, as ONE function of the table and the index array, holds at
  row `n` the table's row `idx[n] / 2` (`gathered`).
-/
import proofs.«206720_g66460323938928_cont_9to1_m_1264_22_alg».proof.Proof.SliceFactsI
import Idealize.ShloMosaic.Lib.SparseCore.Stream
import Idealize.ShloMosaic.Lib.ValueIdx

noncomputable section

namespace Cert.KernelIdeal.Hand

open Cert.KernelIdeal Cert.KernelIdeal.Gen
open Idealize.ShloMosaic Idealize.ShloMosaic.ValueIdx
open Idealize.ShloMosaic.SparseCore (S V T)

variable {F : FTy → Type} [FloatOps F]

/-- The reshaped table as a gather's source: the whole of it, as the body slices it. -/
abbrev tblSl : Memref sig .scVector .hbm S500000x128 .f32 :=
  (Memref.whole main_v0_scv : Memref sig .scVector .hbm S500000x128 .f32).slice (Rect.unit (s := S500000x128) ![0, 0] S500000x128.size inb_S500000x128_S500000x128_0_0) (fun _ => rfl)

/-- What the copy of the tile's words lands in the index scratch. -/
def landed (d : Dev nD) (L : grid0.Coords) (ia : Buf (Elt F) ((Memref.whole main_v1_scv : Memref sig .scVector .hbm S32768 .i32).view.loc (thrV d L))) : IVec S1024 32 :=
  ReadAs.same.apply (View.read (Elt F) (idxSl L).view ia)

/-- The index scratch after the sixty-four shifts: every landed word halved. -/
def halved (d : Dev nD) (L : grid0.Coords) (ia : Buf (Elt F) ((Memref.whole main_v1_scv : Memref sig .scVector .hbm S32768 .i32).view.loc (thrV d L))) : IVec S1024 32 :=
  shrui (landed d L ia) (broadcast S1024 1#32)

/-- The output as one function of the reshaped table and the index array: row `n` is the table's row `idx[n] / 2`
    (total: the row number reduced modulo the table's 500000 rows, which on an index word below `10^6` changes nothing). -/
def gathered (tbl : S500000x128.Idx → Elt F .f32) (ia : S32768.Idx → Elt F .i32) : S32768x128.Idx → Elt F .f32 :=
  fun y => tbl (ix2 (⟨((ia (ix1 (⟨(y 0).val, (y 0).isLt⟩ : Fin 32768))).toNat / 2) % 500000, Nat.mod_lt _ (by decide)⟩ : Fin 500000)
    (⟨(y 1).val, (y 1).isLt⟩ : Fin 128))

/-- The payload of the gather over the `k`-th list slice, as the body's run spells it. -/
def gpay0 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL0).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL0).view (halved d L ia)) rfl hin)
def gpay1 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL1).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL1).view (halved d L ia)) rfl hin)
def gpay2 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL2).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL2).view (halved d L ia)) rfl hin)
def gpay3 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL3).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL3).view (halved d L ia)) rfl hin)
def gpay4 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL4).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL4).view (halved d L ia)) rfl hin)
def gpay5 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL5).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL5).view (halved d L ia)) rfl hin)
def gpay6 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL6).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL6).view (halved d L ia)) rfl hin)
def gpay7 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL7).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL7).view (halved d L ia)) rfl hin)

end Cert.KernelIdeal.Hand

end
-- ==== Proof.TileValueI.lean ====
/-
  The value a vector subcore's task writes, as lemmas about terms; none about a run.

  Every word of the index array is below `10^6`, so its half is below the reshaped table's 500000 rows: each list the
  gathers read is in range. A buffer whose newest write is of the whole buffer reads back that write. And piece `k` of
  the task at `L`, at what the copy of the `k`-th gathered block wrote, is the one whole-array function `gathered`:
  row `2048 (L 1) + 1024 (L 0) + 128 k + j` holds the table's row `idx[that row] / 2`.
-/
import proofs.«206720_g66460323938928_cont_9to1_m_1264_22_alg».proof.Proof.TileDefsI
import Idealize.ShloMosaic.Lib.Writes

noncomputable section

namespace Cert.KernelIdeal.Hand

open Cert.KernelIdeal Cert.KernelIdeal.Gen
open Idealize.ShloMosaic Idealize.ShloMosaic.ValueIdx
open Idealize.ShloMosaic.SparseCore (S V T)

variable {F : FTy → Type} [FloatOps F]

/-! ## The halved words are in range -/

/-- A logical shift right by one halves the word's number. -/
theorem shrui_one_toNat (w : BitVec 32) : (IntOp.shrui .vector w 1#32).toNat = w.toNat / 2 := by
  unfold IntOp.shrui
  rw [if_pos (by decide), BitVec.ushiftRight_eq', BitVec.toNat_ushiftRight]
  show w.toNat >>> 1 = w.toNat / 2
  rw [Nat.shiftRight_eq_div_pow]

/-- Each landed word is a word of the index array. -/
theorem landed_lt (d : Dev nD) (L : grid0.Coords)
    (ia : Buf (Elt F) ((Memref.whole main_v1_scv : Memref sig .scVector .hbm S32768 .i32).view.loc (thrV d L)))
    (hr : ∀ j, (ia j).toNat < 1000000) (i : S1024.Idx) : (landed d L ia i).toNat < 1000000 :=
  hr ((idxSl L).view.emb i)

/-- Each halved word is below 500000. -/
theorem halved_lt (d : Dev nD) (L : grid0.Coords)
    (ia : Buf (Elt F) ((Memref.whole main_v1_scv : Memref sig .scVector .hbm S32768 .i32).view.loc (thrV d L)))
    (hr : ∀ j, (ia j).toNat < 1000000) (i : S1024.Idx) : (halved d L ia i).toNat < 500000 := by
  have h := landed_lt d L ia hr i
  show (IntOp.shrui .vector (landed d L ia i) 1#32).toNat < 500000
  rw [shrui_one_toNat]
  omega

theorem hin0_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL0).view.read (Elt F) (halved d L ia) x).toNat < S500000x128.size gathers_S500000x128_S128x128.axis :=
  fun x => halved_lt d L ia hr ((iL0).view.emb x)

theorem hin1_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL1).view.read (Elt F) (halved d L ia) x).toNat < S500000x128.size gathers_S500000x128_S128x128.axis :=
  fun x => halved_lt d L ia hr ((iL1).view.emb x)

theorem hin2_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL2).view.read (Elt F) (halved d L ia) x).toNat < S500000x128.size gathers_S500000x128_S128x128.axis :=
  fun x => halved_lt d L ia hr ((iL2).view.emb x)

theorem hin3_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL3).view.read (Elt F) (halved d L ia) x).toNat < S500000x128.size gathers_S500000x128_S128x128.axis :=
  fun x => halved_lt d L ia hr ((iL3).view.emb x)

theorem hin4_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL4).view.read (Elt F) (halved d L ia) x).toNat < S500000x128.size gathers_S500000x128_S128x128.axis :=
  fun x => halved_lt d L ia hr ((iL4).view.emb x)

theorem hin5_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL5).view.read (Elt F) (halved d L ia) x).toNat < S500000x128.size gathers_S500000x128_S128x128.axis :=
  fun x => halved_lt d L ia hr ((iL5).view.emb x)

theorem hin6_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL6).view.read (Elt F) (halved d L ia) x).toNat < S500000x128.size gathers_S500000x128_S128x128.axis :=
  fun x => halved_lt d L ia hr ((iL6).view.emb x)

theorem hin7_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL7).view.read (Elt F) (halved d L ia) x).toNat < S500000x128.size gathers_S500000x128_S128x128.axis :=
  fun x => halved_lt d L ia hr ((iL7).view.emb x)

/-! ## A whole write read back -/

/-- The first gather buffer, its newest write one of the whole buffer, reads back that write. -/
theorem same_read_whole1
    (f0 : BufTy.Contents (Elt F) (Memref.whole cc0_scratch1 : Memref sig .scVector .vmem S128x128 .f32).view.ty)
    (g : S128x128.Idx → Elt F .f32) (rest : List (View.Piece (Elt F) cc0_scratch1.ty.shape cc0_scratch1.ty.elt)) :
    ReadAs.same.apply (View.read (Elt F) (Memref.whole cc0_scratch1 : Memref sig .scVector .vmem S128x128 .f32).view
      ((Memref.whole cc0_scratch1 : Memref sig .scVector .vmem S128x128 .f32).view.writes (Elt F) f0
        (⟨Rect.whole cc0_scratch1.ty.shape, g⟩ :: rest))) = g := by
  funext x
  have h := View.read_writes_cons_emb (Memref.whole cc0_scratch1 : Memref sig .scVector .vmem S128x128 .f32).view f0
    (Rect.whole cc0_scratch1.ty.shape) g rest x
  rw [Rect.emb_whole_apply] at h
  exact h

/-- The second gather buffer, its newest write one of the whole buffer, reads back that write. -/
theorem same_read_whole2
    (f0 : BufTy.Contents (Elt F) (Memref.whole cc0_scratch2 : Memref sig .scVector .vmem S128x128 .f32).view.ty)
    (g : S128x128.Idx → Elt F .f32) (rest : List (View.Piece (Elt F) cc0_scratch2.ty.shape cc0_scratch2.ty.elt)) :
    ReadAs.same.apply (View.read (Elt F) (Memref.whole cc0_scratch2 : Memref sig .scVector .vmem S128x128 .f32).view
      ((Memref.whole cc0_scratch2 : Memref sig .scVector .vmem S128x128 .f32).view.writes (Elt F) f0
        (⟨Rect.whole cc0_scratch2.ty.shape, g⟩ :: rest))) = g := by
  funext x
  have h := View.read_writes_cons_emb (Memref.whole cc0_scratch2 : Memref sig .scVector .vmem S128x128 .f32).view f0
    (Rect.whole cc0_scratch2.ty.shape) g rest x
  rw [Rect.emb_whole_apply] at h
  exact h

/-! ## A piece at what the copy of a gathered block wrote -/

/-- One write of a whole view's shape, at the element under index `x`, leaves the payload at `x`. -/
theorem writes_whole_emb {κ : Kind} {sp : Space} {s : Shape} {e : EltTy} (v : View sig κ sp s e)
    (f : v.ty.Contents (Elt F)) (g : s.Idx → Elt F e) (x : s.Idx) :
    v.writes (Elt F) f [⟨Rect.whole s, g⟩] (v.emb x) = _root_.cast (congrArg (Elt F) v.elt_eq.symm) (g x) := by
  rw [View.writes_singleton]
  have h := View.write_emb_of_mem (v := v.slice (Rect.whole s)) f g (Finset.mem_univ x)
  rw [View.emb_slice] at h
  have hx : ((Rect.whole s).emb.trans v.emb) x = v.emb x := by
    show v.emb ((Rect.whole s).emb x) = v.emb x
    rw [Rect.emb_whole_apply]
  rw [hx] at h
  exact h

/-- The coordinate of a rank-1 index at a row-major position is the position. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- Two rank-2 indices with equal coordinates are equal. -/
theorem idx2_ext {n0 n1 : ℕ} (i j : (⟨2, ![n0, n1]⟩ : Shape).Idx) (h0 : (i 0).val = (j 0).val) (h1 : (i 1).val = (j 1).val) :
    i = j := by
  funext a
  match a with
  | ⟨0, _⟩ => exact Fin.ext h0
  | ⟨1, _⟩ => exact Fin.ext h1

/-- Two rank-1 indices with equal coordinates are equal. -/
theorem idx1_ext {n : ℕ} (i j : (⟨1, ![n]⟩ : Shape).Idx) (h0 : (i 0).val = (j 0).val) : i = j := by
  funext a
  match a with
  | ⟨0, _⟩ => exact Fin.ext h0

/-- The piece of the gathered array at the offsets `k0_off2 L w`. -/
abbrev pieceAt (L : grid0.Coords) (w : BitVec 32) (inb : ∀ a, (k0_off2 L w) a + S128x128.size a ≤ S32768x128.size a) :
    Memref sig .scVector .hbm S128x128 .f32 :=
  (Memref.whole main_v2_scv : Memref sig .scVector .hbm S32768x128 .f32).slice
    (Rect.unit (s := S32768x128) (k0_off2 L w) S128x128.size inb) (fun _ => rfl)

/-- The slice of the index scratch at offset `p`. -/
abbrev listAt (p : ℕ) (inbL : ∀ a, (![p] : Fin 1 → ℕ) a + S128.size a ≤ S1024.size a) : Memref sig .scVector .vmem S128 .i32 :=
  (Memref.whole cc0_scratch0 : Memref sig .scVector .vmem S1024 .i32).slice (Rect.unit (s := S1024) ![p] S128.size inbL) (fun _ => rfl)

/-- The piece whose offsets are `(2048 (L 1) + 1024 (L 0) + p, 0)`, at what one write of the whole of it left when the
    payload is the gather over the list slice at offset `p` of the halved words, is `gathered`. -/
theorem piece_value_gen (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (w : BitVec 32) (inb : ∀ a, (k0_off2 L w) a + S128x128.size a ≤ S32768x128.size a)
    (p : ℕ) (inbL : ∀ a, (![p] : Fin 1 → ℕ) a + S128.size a ≤ S1024.size a)
    (ho : k0_off2 L w = ![2048 * (L 1).val + 1024 * (L 0).val + p, 0])
    (hin : ∀ x, ((listAt p inbL).view.read (Elt F) (halved d L ia) x).toNat
          < S500000x128.size gathers_S500000x128_S128x128.axis) :
    ∀ y ∈ (pieceAt L w inb).view.set,
      ((pieceAt L w inb).view.writes (Elt F) fo
          [⟨Rect.whole S128x128, SparseCore.gatherPayload gathers_S500000x128_S128x128 (View.read (Elt F) (tblSl).view tbl)
            (SparseCore.rows (View.read (Elt F) (listAt p inbL).view (halved d L ia)) rfl hin)⟩]) y
        = gathered tbl ia y := by
  intro y hy
  obtain ⟨x, -, rfl⟩ := Finset.mem_map.mp hy
  refine (writes_whole_emb (pieceAt L w inb).view fo _ x).trans ?_
  show tbl _ = tbl _
  refine congrArg tbl (idx2_ext (n0 := 500000) (n1 := 128) _ _ ?_ ?_)
  · -- the row: the halved word the list names for row `x 0`
    have hax := Shape.Gathers.idx_axis gathers_S500000x128_S128x128
      (SparseCore.rows (View.read (Elt F) (listAt p inbL).view (halved d L ia)) rfl hin) x
    have hI0 : ((((listAt p inbL).view.emb (S128.rowMajor.symm ((x (0 : Fin 2)).cast rfl)) : S1024.Idx)) 0).val = p + (x 0).val := by
      show p + 1 * ((S128.rowMajor.symm ((x (0 : Fin 2)).cast rfl)) 0).val = _
      rw [rowMajor_symm_val_one, Nat.one_mul]
      rfl
    -- the index array's word under that landed word is the word at the piece's own row
    have hJ : ((idxSl L).view.emb ((listAt p inbL).view.emb (S128.rowMajor.symm ((x (0 : Fin 2)).cast rfl))) : S32768.Idx)
        = ix1 (⟨((pieceAt L w inb).view.emb x 0).val, ((pieceAt L w inb).view.emb x 0).isLt⟩ : Fin 32768) := by
      refine idx1_ext _ _ ?_
      show k0_off1 L 0 + 1 * (((listAt p inbL).view.emb (S128.rowMajor.symm ((x (0 : Fin 2)).cast rfl)) : S1024.Idx) 0).val
        = k0_off2 L w 0 + 1 * (x 0).val
      rw [hI0, k0_off1_eq, ho]
      show 2048 * (L 1).val + 1024 * (L 0).val + 1 * (p + (x 0).val) = 2048 * (L 1).val + 1024 * (L 0).val + p + 1 * (x 0).val
      omega
    have hL : (tblSl.view.emb (gathers_S500000x128_S128x128.idx
          (SparseCore.rows (View.read (Elt F) (listAt p inbL).view (halved d L ia)) rfl hin) x) 0).val
        = (ia ((idxSl L).view.emb ((listAt p inbL).view.emb (S128.rowMajor.symm ((x (0 : Fin 2)).cast rfl))))).toNat / 2 := by
      show 0 + 1 * (gathers_S500000x128_S128x128.idx
          (SparseCore.rows (View.read (Elt F) (listAt p inbL).view (halved d L ia)) rfl hin) x gathers_S500000x128_S128x128.axis).val = _
      rw [hax]
      show 0 + 1 * (IntOp.shrui .vector (landed d L ia ((listAt p inbL).view.emb (S128.rowMajor.symm ((x (0 : Fin 2)).cast rfl)))) 1#32).toNat = _
      rw [shrui_one_toNat, Nat.zero_add, Nat.one_mul]
      rfl
    rw [hL, hJ]
    -- below 500000, so reducing modulo the table's rows changes nothing
    have hlt := hr (ix1 (⟨((pieceAt L w inb).view.emb x 0).val, ((pieceAt L w inb).view.emb x 0).isLt⟩ : Fin 32768))
    show _ = (ia (ix1 (⟨((pieceAt L w inb).view.emb x 0).val, ((pieceAt L w inb).view.emb x 0).isLt⟩ : Fin 32768))).toNat / 2 % 500000
    rw [Nat.mod_eq_of_lt (by omega)]
  · -- the column is the index's own
    generalize SparseCore.rows (View.read (Elt F) (listAt p inbL).view (halved d L ia)) rfl hin = R
    have hz := Shape.Gathers.idx_of_ne gathers_S500000x128_S128x128 R x (1 : Fin 2) (by decide)
    have hp : k0_off2 L w 1 = 0 := by rw [ho]; rfl
    show 0 + 1 * (gathers_S500000x128_S128x128.idx R x 1).val = k0_off2 L w 1 + 1 * (x 1).val
    rw [hz, hp]
    rfl

/-! ## The eight pieces of a task -/

theorem piece_value0 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL0).view.read (Elt F) (halved d L ia) x).toNat < S500000x128.size gathers_S500000x128_S128x128.axis) :
    ∀ y ∈ (oP0 L).view.set,
      ((oP0 L).view.writes (Elt F) fo [⟨Rect.whole S128x128, gpay0 d L tbl ia hin⟩]) y = gathered tbl ia y :=
  piece_value_gen d L tbl ia fo hr 0#32 (k0_off2_inb L 0) 0 inb_S1024_S128_0 (k0_off2_eq L ⟨0, by decide⟩) hin

theorem piece_value1 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL1).view.read (Elt F) (halved d L ia) x).toNat < S500000x128.size gathers_S500000x128_S128x128.axis) :
    ∀ y ∈ (oP1 L).view.set,
      ((oP1 L).view.writes (Elt F) fo [⟨Rect.whole S128x128, gpay1 d L tbl ia hin⟩]) y = gathered tbl ia y :=
  piece_value_gen d L tbl ia fo hr 128#32 (k0_off2_inb L 1) 128 inb_S1024_S128_128 (k0_off2_eq L ⟨1, by decide⟩) hin

theorem piece_value2 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL2).view.read (Elt F) (halved d L ia) x).toNat < S500000x128.size gathers_S500000x128_S128x128.axis) :
    ∀ y ∈ (oP2 L).view.set,
      ((oP2 L).view.writes (Elt F) fo [⟨Rect.whole S128x128, gpay2 d L tbl ia hin⟩]) y = gathered tbl ia y :=
  piece_value_gen d L tbl ia fo hr 256#32 (k0_off2_inb L 2) 256 inb_S1024_S128_256 (k0_off2_eq L ⟨2, by decide⟩) hin

theorem piece_value3 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL3).view.read (Elt F) (halved d L ia) x).toNat < S500000x128.size gathers_S500000x128_S128x128.axis) :
    ∀ y ∈ (oP3 L).view.set,
      ((oP3 L).view.writes (Elt F) fo [⟨Rect.whole S128x128, gpay3 d L tbl ia hin⟩]) y = gathered tbl ia y :=
  piece_value_gen d L tbl ia fo hr 384#32 (k0_off2_inb L 3) 384 inb_S1024_S128_384 (k0_off2_eq L ⟨3, by decide⟩) hin

theorem piece_value4 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL4).view.read (Elt F) (halved d L ia) x).toNat < S500000x128.size gathers_S500000x128_S128x128.axis) :
    ∀ y ∈ (oP4 L).view.set,
      ((oP4 L).view.writes (Elt F) fo [⟨Rect.whole S128x128, gpay4 d L tbl ia hin⟩]) y = gathered tbl ia y :=
  piece_value_gen d L tbl ia fo hr 512#32 (k0_off2_inb L 4) 512 inb_S1024_S128_512 (k0_off2_eq L ⟨4, by decide⟩) hin

theorem piece_value5 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL5).view.read (Elt F) (halved d L ia) x).toNat < S500000x128.size gathers_S500000x128_S128x128.axis) :
    ∀ y ∈ (oP5 L).view.set,
      ((oP5 L).view.writes (Elt F) fo [⟨Rect.whole S128x128, gpay5 d L tbl ia hin⟩]) y = gathered tbl ia y :=
  piece_value_gen d L tbl ia fo hr 640#32 (k0_off2_inb L 5) 640 inb_S1024_S128_640 (k0_off2_eq L ⟨5, by decide⟩) hin

theorem piece_value6 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL6).view.read (Elt F) (halved d L ia) x).toNat < S500000x128.size gathers_S500000x128_S128x128.axis) :
    ∀ y ∈ (oP6 L).view.set,
      ((oP6 L).view.writes (Elt F) fo [⟨Rect.whole S128x128, gpay6 d L tbl ia hin⟩]) y = gathered tbl ia y :=
  piece_value_gen d L tbl ia fo hr 768#32 (k0_off2_inb L 6) 768 inb_S1024_S128_768 (k0_off2_eq L ⟨6, by decide⟩) hin

theorem piece_value7 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL7).view.read (Elt F) (halved d L ia) x).toNat < S500000x128.size gathers_S500000x128_S128x128.axis) :
    ∀ y ∈ (oP7 L).view.set,
      ((oP7 L).view.writes (Elt F) fo [⟨Rect.whole S128x128, gpay7 d L tbl ia hin⟩]) y = gathered tbl ia y :=
  piece_value_gen d L tbl ia fo hr 896#32 (k0_off2_inb L 7) 896 inb_S1024_S128_896 (k0_off2_eq L ⟨7, by decide⟩) hin

end Cert.KernelIdeal.Hand

end
-- ==== Proof.TileBodyI.lean ====
/-
  A vector subcore's task, run once at a symbolic grid point. The task copies its 1024 index words into a scratch,
  halves each of them in place (sixty-four 16-lane pieces), and then, for each of its eight chunks of 128 words, gathers
  the 128 table rows the halves name into one of two buffers and copies that buffer out to its 128 rows of the output;
  the next chunk's gather is issued before the previous one is waited for, so two gathers read the table at once, each
  on a semaphore and a buffer of its own.

  What is proved: holding a share of the table, a share of the index array and its eight pieces of the output, the task
  runs to its end without a fault, waits only on semaphores of its own, gives back its scratch and semaphores, and
  leaves each of its pieces at the ONE whole-array function `gathered` (row `n` of the output is the table's row
  `idx[n] / 2`). The scratch after the shifts is read back as one function (`halved`) by the cover of its sixty-four
  pieces; each gather's list is in range because every index word is below `10^6`.
-/
import proofs.«206720_g66460323938928_cont_9to1_m_1264_22_alg».proof.Proof.TileValueI
import proofs.«206720_g66460323938928_cont_9to1_m_1264_22_alg».proof.Proof.Gen.KernelIdeal.Skeleton
import Idealize.ShloMosaic.Lib.SparseCore.Ops
import Idealize.ShloMosaic.Lib.Pipeline.FrameBody
import Idealize.ShloMosaic.Lib.Pipeline.Value
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tblW" => (Memref.whole Cert.KernelIdeal.main_v0_scv : Memref Cert.KernelIdeal.sig Kind.scVector Space.hbm Cert.KernelIdeal.S500000x128 EltTy.f32)
local notation "idxW" => (Memref.whole Cert.KernelIdeal.main_v1_scv : Memref Cert.KernelIdeal.sig Kind.scVector Space.hbm Cert.KernelIdeal.S32768 EltTy.i32)
local notation "outW" => (Memref.whole Cert.KernelIdeal.main_v2_scv : Memref Cert.KernelIdeal.sig Kind.scVector Space.hbm Cert.KernelIdeal.S32768x128 EltTy.f32)
local notation "sIdx" => (Memref.whole Cert.KernelIdeal.cc0_scratch0 : Memref Cert.KernelIdeal.sig Kind.scVector Space.vmem Cert.KernelIdeal.S1024 EltTy.i32)
local notation "sB0" => (Memref.whole Cert.KernelIdeal.cc0_scratch1 : Memref Cert.KernelIdeal.sig Kind.scVector Space.vmem Cert.KernelIdeal.S128x128 EltTy.f32)
local notation "sB1" => (Memref.whole Cert.KernelIdeal.cc0_scratch2 : Memref Cert.KernelIdeal.sig Kind.scVector Space.vmem Cert.KernelIdeal.S128x128 EltTy.f32)

omit [FloatOps F] in
/-- The subcore's eleven DMA semaphores are among its own cells: they are them, at zero, and the rest. -/
theorem ownSems0_V' (d : Dev nD) (L : grid0.Coords) :
    (ownSems0 (thrV d L) : sProp 𝕄)
      = iprop(semVal ((thrV d L, SemLoc.dma cc0_scratch3.sem) : GSem nD τ sig) 0 ∗ semVal ((thrV d L, SemLoc.dma cc0_scratch4.sem) : GSem nD τ sig) 0 ∗ semVal ((thrV d L, SemLoc.dma cc0_scoped0.sem) : GSem nD τ sig) 0 ∗ semVal ((thrV d L, SemLoc.dma cc0_scoped1.sem) : GSem nD τ sig) 0 ∗ semVal ((thrV d L, SemLoc.dma cc0_scoped2.sem) : GSem nD τ sig) 0 ∗ semVal ((thrV d L, SemLoc.dma cc0_scoped3.sem) : GSem nD τ sig) 0 ∗ semVal ((thrV d L, SemLoc.dma cc0_scoped4.sem) : GSem nD τ sig) 0 ∗ semVal ((thrV d L, SemLoc.dma cc0_scoped5.sem) : GSem nD τ sig) 0 ∗ semVal ((thrV d L, SemLoc.dma cc0_scoped6.sem) : GSem nD τ sig) 0 ∗ semVal ((thrV d L, SemLoc.dma cc0_scoped7.sem) : GSem nD τ sig) 0 ∗ semVal ((thrV d L, SemLoc.dma cc0_scoped8.sem) : GSem nD τ sig) 0
          ∗ bigSep ((((((((((((ownCells (thrV d L)).erase ((thrV d L, SemLoc.dma cc0_scratch3.sem) : GSem nD τ sig)).erase ((thrV d L, SemLoc.dma cc0_scratch4.sem) : GSem nD τ sig)).erase ((thrV d L, SemLoc.dma cc0_scoped0.sem) : GSem nD τ sig)).erase ((thrV d L, SemLoc.dma cc0_scoped1.sem) : GSem nD τ sig)).erase ((thrV d L, SemLoc.dma cc0_scoped2.sem) : GSem nD τ sig)).erase ((thrV d L, SemLoc.dma cc0_scoped3.sem) : GSem nD τ sig)).erase ((thrV d L, SemLoc.dma cc0_scoped4.sem) : GSem nD τ sig)).erase ((thrV d L, SemLoc.dma cc0_scoped5.sem) : GSem nD τ sig)).erase ((thrV d L, SemLoc.dma cc0_scoped6.sem) : GSem nD τ sig)).erase ((thrV d L, SemLoc.dma cc0_scoped7.sem) : GSem nD τ sig)).erase ((thrV d L, SemLoc.dma cc0_scoped8.sem) : GSem nD τ sig)) fun g => semVal g 0) := by
  unfold SparseCore.Cfg.ownSems0
  rw [SparseCore.bigSep_erase' ((mem_ownCells (g := ((thrV d L, SemLoc.dma cc0_scratch3.sem) : GSem nD τ sig))).mpr ⟨rfl, by show (SemLoc.dma cc0_scratch3.sem : SemLoc sig).isScoped .scVector = true; decide⟩),
    SparseCore.bigSep_erase' (Finset.mem_erase.mpr ⟨fun e => absurd (Prod.mk.inj e).2 (by decide), (mem_ownCells (g := ((thrV d L, SemLoc.dma cc0_scratch4.sem) : GSem nD τ sig))).mpr ⟨rfl, by show (SemLoc.dma cc0_scratch4.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := ((thrV d L, SemLoc.dma cc0_scoped0.sem) : GSem nD τ sig))).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped1.sem) : GSem nD τ sig))).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped2.sem) : GSem nD τ sig))).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped3.sem) : GSem nD τ sig))).mpr ⟨rfl, by show (SemLoc.dma cc0_scoped3.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped4.sem) : GSem nD τ sig))).mpr ⟨rfl, by show (SemLoc.dma cc0_scoped4.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped5.sem) : GSem nD τ sig))).mpr ⟨rfl, by show (SemLoc.dma cc0_scoped5.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped6.sem) : GSem nD τ sig))).mpr ⟨rfl, by show (SemLoc.dma cc0_scoped6.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped7.sem) : GSem nD τ sig))).mpr ⟨rfl, by show (SemLoc.dma cc0_scoped7.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped8.sem) : GSem nD τ sig))).mpr ⟨rfl, by show (SemLoc.dma cc0_scoped8.sem : SemLoc sig).isScoped .scVector = true; decide⟩⟩⟩⟩⟩⟩⟩⟩⟩⟩⟩)]

omit [FloatOps F] in
/-- The three scratch buffers are among the subcore's own: they are them, at some contents, and the rest. -/
theorem ownBufs_V' (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f)
          ∗ bigSep ((((ownRefs (τ := τ) (.scVector ((L 0).castLE hcore0) ((L 1).castLE Gen.hsub0))).erase ((Proc.scVector ((L 0).castLE hcore0) ((L 1).castLE Gen.hsub0)).devRef cc0_scratch0)).erase ((Proc.scVector ((L 0).castLE hcore0) ((L 1).castLE Gen.hsub0)).devRef cc0_scratch1)).erase ((Proc.scVector ((L 0).castLE hcore0) ((L 1).castLE Gen.hsub0)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE Gen.hsub0)) (b := ((Proc.scVector ((L 0).castLE hcore0) ((L 1).castLE Gen.hsub0)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector ((L 0).castLE hcore0) ((L 1).castLE Gen.hsub0)) (b := ((Proc.scVector ((L 0).castLE hcore0) ((L 1).castLE Gen.hsub0)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector ((L 0).castLE hcore0) ((L 1).castLE Gen.hsub0)) (b := ((Proc.scVector ((L 0).castLE hcore0) ((L 1).castLE Gen.hsub0)).devRef cc0_scratch2)) rfl⟩⟩)]

omit [FloatOps F] in
/-- A wait at index `none` recorded beyond `W` keeps "every recorded pair is in `W` or at `none`". -/
theorem ins_ok {thr' : SemLoc sig} {W W' : Waits sig (HIx 1)} (h : ∀ p ∈ W', p ∈ W ∨ p.2 = none) :
    ∀ p ∈ insert (thr', (default : HIx 1)) W', p ∈ W ∨ p.2 = none := by
  intro p hp
  rcases Finset.mem_insert.mp hp with rfl | hp
  · exact .inr rfl
  · exact h p hp

set_option maxHeartbeats 16000000 in
/-- The task of the vector subcore at grid point `L`: from a share of the reshaped table, a share of the index array
    and its eight pieces of the output, it ends holding the same shares and the pieces at the one whole-array
    function `gathered`, its scratch and semaphores given back, every wait of its own at index `none`. -/
theorem tile_body [∀ e, Nonempty (Elt F e)] (hF : (K (F := F)).Facts) (d : Dev nD) (L : grid0.Coords) (q qi : PosShare TreeShare)
    (tbl : Buf (Elt F) ((tblW).view.loc (thrV d L))) (ia : Buf (Elt F) ((idxW).view.loc (thrV d L))) (fo : Buf (Elt F) ((outW).view.loc (thrV d L)))
    (hr : ∀ j, (ia j).toNat < 1000000)
    (O : CellTallies nD τ sig (HIx 1)) (W : Waits sig (HIx 1)) (hO : ∀ g, O g none = 0) :
    iprop(levAts (K (F := F)).L (K (F := F)).lev
        ∗ (((tblW).view.loc (thrV d L) ↦{q} tbl) ∗ ((idxW).view.loc (thrV d L) ↦{qi} ia)
          ∗ ((oP0 L).view.loc (thrV d L) ↦[(oP0 L).view.set]{fullShare} fo) ∗ ((oP1 L).view.loc (thrV d L) ↦[(oP1 L).view.set]{fullShare} fo) ∗ ((oP2 L).view.loc (thrV d L) ↦[(oP2 L).view.set]{fullShare} fo) ∗ ((oP3 L).view.loc (thrV d L) ↦[(oP3 L).view.set]{fullShare} fo) ∗ ((oP4 L).view.loc (thrV d L) ↦[(oP4 L).view.set]{fullShare} fo) ∗ ((oP5 L).view.loc (thrV d L) ↦[(oP5 L).view.set]{fullShare} fo) ∗ ((oP6 L).view.loc (thrV d L) ↦[(oP6 L).view.set]{fullShare} fo) ∗ ((oP7 L).view.loc (thrV d L) ↦[(oP7 L).view.set]{fullShare} fo))
        ∗ scopedBufs (thrV d L) ∗ scopedSems0 (thrV d L) ∗ owes (thrV d L) O W)
      ⊢ wp frame (wpE (defs₀ (F := F)) 𝒱₀ (thrV d L) none) Set.univ
          (cc0_gather_k L tblW (Memref.isWhole_whole _) idxW (Memref.isWhole_whole _) outW (Memref.isWhole_whole _)
            sIdx (Memref.isWhole_whole _) sB0 (Memref.isWhole_whole _) sB1 (Memref.isWhole_whole _)
            cc0_scratch3 cc0_scratch4 cc0_scoped0 cc0_scoped1 cc0_scoped2 cc0_scoped3 cc0_scoped4 cc0_scoped5 cc0_scoped6 cc0_scoped7 cc0_scoped8)
          fun _ => (iprop((((tblW).view.loc (thrV d L) ↦{q} tbl) ∗ ((idxW).view.loc (thrV d L) ↦{qi} ia)
          ∗ ((oP0 L).view.loc (thrV d L) ↦[(oP0 L).view.set]{fullShare} (gathered tbl ia)) ∗ ((oP1 L).view.loc (thrV d L) ↦[(oP1 L).view.set]{fullShare} (gathered tbl ia)) ∗ ((oP2 L).view.loc (thrV d L) ↦[(oP2 L).view.set]{fullShare} (gathered tbl ia)) ∗ ((oP3 L).view.loc (thrV d L) ↦[(oP3 L).view.set]{fullShare} (gathered tbl ia)) ∗ ((oP4 L).view.loc (thrV d L) ↦[(oP4 L).view.set]{fullShare} (gathered tbl ia)) ∗ ((oP5 L).view.loc (thrV d L) ↦[(oP5 L).view.set]{fullShare} (gathered tbl ia)) ∗ ((oP6 L).view.loc (thrV d L) ↦[(oP6 L).view.set]{fullShare} (gathered tbl ia)) ∗ ((oP7 L).view.loc (thrV d L) ↦[(oP7 L).view.set]{fullShare} (gathered tbl ia)))
            ∗ scopedBufs (thrV d L) ∗ scopedSems0 (thrV d L) ∗ ∃ W', ⌜∀ p ∈ W', p ∈ W ∨ p.2 = none⌝ ∗ owes (thrV d L) O W') : sProp 𝕄) := by
  simp only [cc0_gather_k_eq_skeleton]; unfold cc0_gather_k_skel
  rw [(K (F := F)).scopedBufs_V hF d _ _, SparseCore.Cfg.scopedSems0_V (Val := Elt F) d _ _, ownSems0_V', ownBufs_V']
  iintro ⟨#Hlv, ⟨Ht, Hi, Ho0, Ho1, Ho2, Ho3, Ho4, Ho5, Ho6, Ho7⟩, ⟨⟨%fs, Hs⟩, ⟨%f0, Hb0⟩, ⟨%f1, Hb1⟩, Hbufs⟩, ⟨Hm0, Hm1, Hm2, Hm3, Hm4, Hm5, Hm6, Hm7, Hm8, Hm9, Hm10, Hsems⟩, HO⟩
  ihave Hmw := ((K (F := F)).mayWaits_none (thr := (thrV d L)) hO) $$ Hlv
  ihave Ht := ((pointsTo_share (PosShare.mem_left_op_right q)).1) $$ Ht
  icases Ht with ⟨Ht, Ht2⟩
  ihave Ht := (Entails.of_eq (rfl : ((tblW).view.loc (thrV d L) ↦{q.left} tbl : sProp 𝕄) = (tblW).view.loc (thrV d L) ↦{q.left} tbl)) $$ Ht
  ihave Ht2 := (Entails.of_eq (rfl : ((tblW).view.loc (thrV d L) ↦{q.right} tbl : sProp 𝕄) = (tblW).view.loc (thrV d L) ↦{q.right} tbl)) $$ Ht2
  ihave Hi := (Entails.of_eq (rfl : ((idxW).view.loc (thrV d L) ↦{qi} ia : sProp 𝕄) = (idxW).view.loc (thrV d L) ↦{qi} ia)) $$ Hi
  ihave Ho0 := (Entails.of_eq (rfl : ((oP0 L).view.loc (thrV d L) ↦[(oP0 L).view.set]{fullShare} fo : sProp 𝕄) = (oP0 L).view.loc (thrV d L) ↦[(oP0 L).view.set]{fullShare} fo)) $$ Ho0
  ihave Ho1 := (Entails.of_eq (rfl : ((oP1 L).view.loc (thrV d L) ↦[(oP1 L).view.set]{fullShare} fo : sProp 𝕄) = (oP1 L).view.loc (thrV d L) ↦[(oP1 L).view.set]{fullShare} fo)) $$ Ho1
  ihave Ho2 := (Entails.of_eq (rfl : ((oP2 L).view.loc (thrV d L) ↦[(oP2 L).view.set]{fullShare} fo : sProp 𝕄) = (oP2 L).view.loc (thrV d L) ↦[(oP2 L).view.set]{fullShare} fo)) $$ Ho2
  ihave Ho3 := (Entails.of_eq (rfl : ((oP3 L).view.loc (thrV d L) ↦[(oP3 L).view.set]{fullShare} fo : sProp 𝕄) = (oP3 L).view.loc (thrV d L) ↦[(oP3 L).view.set]{fullShare} fo)) $$ Ho3
  ihave Ho4 := (Entails.of_eq (rfl : ((oP4 L).view.loc (thrV d L) ↦[(oP4 L).view.set]{fullShare} fo : sProp 𝕄) = (oP4 L).view.loc (thrV d L) ↦[(oP4 L).view.set]{fullShare} fo)) $$ Ho4
  ihave Ho5 := (Entails.of_eq (rfl : ((oP5 L).view.loc (thrV d L) ↦[(oP5 L).view.set]{fullShare} fo : sProp 𝕄) = (oP5 L).view.loc (thrV d L) ↦[(oP5 L).view.set]{fullShare} fo)) $$ Ho5
  ihave Ho6 := (Entails.of_eq (rfl : ((oP6 L).view.loc (thrV d L) ↦[(oP6 L).view.set]{fullShare} fo : sProp 𝕄) = (oP6 L).view.loc (thrV d L) ↦[(oP6 L).view.set]{fullShare} fo)) $$ Ho6
  ihave Ho7 := (Entails.of_eq (rfl : ((oP7 L).view.loc (thrV d L) ↦[(oP7 L).view.set]{fullShare} fo : sProp 𝕄) = (oP7 L).view.loc (thrV d L) ↦[(oP7 L).view.set]{fullShare} fo)) $$ Ho7
  ihave Hs := (Entails.of_eq (rfl : ((sIdx).view.loc (thrV d L) ↦{fullShare} fs : sProp 𝕄) = (sIdx).view.loc (thrV d L) ↦{fullShare} fs)) $$ Hs
  ihave Hb0 := (Entails.of_eq (rfl : ((sB0).view.loc (thrV d L) ↦{fullShare} f0 : sProp 𝕄) = (sB0).view.loc (thrV d L) ↦{fullShare} f0)) $$ Hb0
  ihave Hb1 := (Entails.of_eq (rfl : ((sB1).view.loc (thrV d L) ↦{fullShare} f1 : sProp 𝕄) = (sB1).view.loc (thrV d L) ↦{fullShare} f1)) $$ Hb1
  sl_exec
  have hS : (sIdx).view.writes (Elt F) (sIdx).view.junk (tile_body.sl.Hs_64 d L ia fs) = halved d L ia := by
    refine (show (sIdx).view.writes (Elt F) (sIdx).view.junk (tile_body.sl.Hs_64 d L ia fs) = View.canon (tile_body.sl.Hs_64 d L ia fs) from
      View.read_writes_junk_eq_canon (Val := Elt F) (sIdx).view (tile_body.sl.Hs_64 d L ia fs)).trans ?_
    funext y
    refine View.canon_apply_of_pieces (Val := Elt F) (e := EltTy.i32) (halved d L ia) _ ?_ y ?_
    · unfold tile_body.sl.Hs_64
      simp only [List.forall_mem_cons, List.not_mem_nil, IsEmpty.forall_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals
        intro x
        sl_unfold_run_names
        simp only [shapeCast_self, View.readAt_apply, Memref.view_whole, View.read_whole, View.write_whole_univ]
        rfl
    · exact View.cover_of_tiledL (s := S1024) (Val := Elt F) (e := EltTy.i32) _ S16.size (by sl_kernel_rfl) y
  rw [hS]
  have hin0 := hin0_of_range d L ia hr
  have hin1 := hin1_of_range d L ia hr
  have hin2 := hin2_of_range d L ia hr
  have hin3 := hin3_of_range d L ia hr
  have hin4 := hin4_of_range d L ia hr
  have hin5 := hin5_of_range d L ia hr
  have hin6 := hin6_of_range d L ia hr
  have hin7 := hin7_of_range d L ia hr
  sl_exec
  sl_step
  isplitl [Ht Ht2 Hi Ho0 Ho1 Ho2 Ho3 Ho4 Ho5 Ho6 Ho7]
  · isplitl [Ht Ht2]
    · iapply ((pointsTo_share (PosShare.mem_left_op_right q)).2)
      isplitl [Ht] <;> iassumption
    isplitl [Hi]; · iexact Hi
    isplitl [Ho0]
    · iapply (Entails.of_eq (pointsTo_congr (q := fullShare)
        (f := (oP0 L).view.writes (Elt F) fo [⟨Rect.whole S128x128, tile_body.sl.dma0_1 d L tbl ia f0 hin0⟩]) (g := gathered tbl ia)
        (fun i hi => by
          rw [show (tile_body.sl.dma0_1 d L tbl ia f0 hin0) = gpay0 d L tbl ia hin0 from by unfold tile_body.sl.dma0_1; exact same_read_whole1 _ _ _]
          exact piece_value0 d L tbl ia fo hr hin0 i hi)))
      iexact Ho0
    isplitl [Ho1]
    · iapply (Entails.of_eq (pointsTo_congr (q := fullShare)
        (f := (oP1 L).view.writes (Elt F) fo [⟨Rect.whole S128x128, tile_body.sl.dma0_2 d L tbl ia f1 hin1⟩]) (g := gathered tbl ia)
        (fun i hi => by
          rw [show (tile_body.sl.dma0_2 d L tbl ia f1 hin1) = gpay1 d L tbl ia hin1 from by unfold tile_body.sl.dma0_2; exact same_read_whole2 _ _ _]
          exact piece_value1 d L tbl ia fo hr hin1 i hi)))
      iexact Ho1
    isplitl [Ho2]
    · iapply (Entails.of_eq (pointsTo_congr (q := fullShare)
        (f := (oP2 L).view.writes (Elt F) fo [⟨Rect.whole S128x128, tile_body.sl.dma0_3 d L tbl ia f0 hin0 hin2⟩]) (g := gathered tbl ia)
        (fun i hi => by
          rw [show (tile_body.sl.dma0_3 d L tbl ia f0 hin0 hin2) = gpay2 d L tbl ia hin2 from by unfold tile_body.sl.dma0_3; exact same_read_whole1 _ _ _]
          exact piece_value2 d L tbl ia fo hr hin2 i hi)))
      iexact Ho2
    isplitl [Ho3]
    · iapply (Entails.of_eq (pointsTo_congr (q := fullShare)
        (f := (oP3 L).view.writes (Elt F) fo [⟨Rect.whole S128x128, tile_body.sl.dma0_4 d L tbl ia f1 hin1 hin3⟩]) (g := gathered tbl ia)
        (fun i hi => by
          rw [show (tile_body.sl.dma0_4 d L tbl ia f1 hin1 hin3) = gpay3 d L tbl ia hin3 from by unfold tile_body.sl.dma0_4; exact same_read_whole2 _ _ _]
          exact piece_value3 d L tbl ia fo hr hin3 i hi)))
      iexact Ho3
    isplitl [Ho4]
    · iapply (Entails.of_eq (pointsTo_congr (q := fullShare)
        (f := (oP4 L).view.writes (Elt F) fo [⟨Rect.whole S128x128, tile_body.sl.dma0_5 d L tbl ia f0 hin0 hin2 hin4⟩]) (g := gathered tbl ia)
        (fun i hi => by
          rw [show (tile_body.sl.dma0_5 d L tbl ia f0 hin0 hin2 hin4) = gpay4 d L tbl ia hin4 from by unfold tile_body.sl.dma0_5; exact same_read_whole1 _ _ _]
          exact piece_value4 d L tbl ia fo hr hin4 i hi)))
      iexact Ho4
    isplitl [Ho5]
    · iapply (Entails.of_eq (pointsTo_congr (q := fullShare)
        (f := (oP5 L).view.writes (Elt F) fo [⟨Rect.whole S128x128, tile_body.sl.dma0_6 d L tbl ia f1 hin1 hin3 hin5⟩]) (g := gathered tbl ia)
        (fun i hi => by
          rw [show (tile_body.sl.dma0_6 d L tbl ia f1 hin1 hin3 hin5) = gpay5 d L tbl ia hin5 from by unfold tile_body.sl.dma0_6; exact same_read_whole2 _ _ _]
          exact piece_value5 d L tbl ia fo hr hin5 i hi)))
      iexact Ho5
    isplitl [Ho6]
    · iapply (Entails.of_eq (pointsTo_congr (q := fullShare)
        (f := (oP6 L).view.writes (Elt F) fo [⟨Rect.whole S128x128, tile_body.sl.dma0_7 d L tbl ia f0 hin0 hin2 hin4 hin6⟩]) (g := gathered tbl ia)
        (fun i hi => by
          rw [show (tile_body.sl.dma0_7 d L tbl ia f0 hin0 hin2 hin4 hin6) = gpay6 d L tbl ia hin6 from by unfold tile_body.sl.dma0_7; exact same_read_whole1 _ _ _]
          exact piece_value6 d L tbl ia fo hr hin6 i hi)))
      iexact Ho6
    · iapply (Entails.of_eq (pointsTo_congr (q := fullShare)
        (f := (oP7 L).view.writes (Elt F) fo [⟨Rect.whole S128x128, tile_body.sl.dma0_8 d L tbl ia f1 hin1 hin3 hin5 hin7⟩]) (g := gathered tbl ia)
        (fun i hi => by
          rw [show (tile_body.sl.dma0_8 d L tbl ia f1 hin1 hin3 hin5 hin7) = gpay7 d L tbl ia hin7 from by unfold tile_body.sl.dma0_8; exact same_read_whole2 _ _ _]
          exact piece_value7 d L tbl ia fo hr hin7 i hi)))
      iexact Ho7
  isplitl [Hs Hb0 Hb1 Hbufs]
  · isplitl [Hs]; · iexists _; iexact Hs
    isplitl [Hb0]; · iexists _; iexact Hb0
    isplitl [Hb1]; · iexists _; iexact Hb1
    iexact Hbufs
  isplitl [Hm0 Hm1 Hm2 Hm3 Hm4 Hm5 Hm6 Hm7 Hm8 Hm9 Hm10 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    iexact Hsems
  iexists _; isplitr
  swap; · iexact HO
  ipureintro
  repeat (first | refine ins_ok ?_ | exact fun p hp => .inl hp)

end Cert.KernelIdeal.Hand

end
-- ==== Proof.TcBodyI.lean ====
/-
  The body of the one TensorCore pallas_call: what its single whole store leaves in the output block, as a function of
  the five blocks it loads, and its run on whole staging buffers. Stated at any float instance.
-/
import proofs.«206720_g66460323938928_cont_9to1_m_1264_22_alg».proof.Proof.ArchI
import proofs.«206720_g66460323938928_cont_9to1_m_1264_22_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The body's accesses -/

/-- The whole of a block of 2048 rows of 128 floats. -/
abbrev rEmb : Rect S2048x128 := Rect.unit (s := S2048x128) ![0, 0] S2048x128.size inb_S2048x128_S2048x128_0_0
/-- The whole of a column of 2048 entries: the index words' blocks and the output's. -/
abbrev rOut : Rect S2048x1 := Rect.unit (s := S2048x1) ![0, 0] S2048x1.size inb_S2048x1_S2048x1_0_0
/-- The whole of the 64 by 64 block. -/
abbrev rRel : Rect S64x64 := Rect.unit (s := S64x64) ![0, 0] S64x64.size inb_S64x64_S64x64_0_0

/-! ## What the body leaves in the output block -/

/-- The output block after the body, from the five blocks it loads: its one store as a single piece whose payload is
    the skeleton's, taken at what the whole-block loads read. -/
def tcOut (x0 x1 : Vec F S2048x128 .f32) (x2 x3 : Vec F S2048x1 .i32) (x4 : Vec F S64x64 .f32) : Vec F S2048x1 .f32 :=
  View.canon [⟨rOut, k1_pay1 (View.ld x0 rEmb) (View.ld x1 rEmb) (View.ld x2 rOut) (View.ld x3 rOut) (View.ld x4 rRel)⟩]

/-- The one store is of the whole block, so it covers it. -/
theorem tcCover (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

/-! ## The body's triple -/

set_option maxHeartbeats 1000000 in
/-- The body on whole staging buffers, the five it reads at contents `x0 … x4` and the output's at anything, runs to the
    continuation holding the five as they were and the output's at `tcOut` of them: the body is its skeleton of six
    whole-block loads and one whole-block store, run one memory operation after the other. -/
theorem tc_sound_kernel (c : Dev nD) (E : Set ℕ) (i : grid1.Coords)
    (arg1 : Memref sig .tc .vmem S2048x128 .f32) (harg1 : arg1.IsWhole) (arg2 : Memref sig .tc .vmem S2048x128 .f32) (harg2 : arg2.IsWhole)
    (arg3 : Memref sig .tc .vmem S2048x1 .i32) (harg3 : arg3.IsWhole) (arg4 : Memref sig .tc .vmem S2048x1 .i32) (harg4 : arg4.IsWhole)
    (arg5 : Memref sig .tc .vmem S64x64 .f32) (harg5 : arg5.IsWhole) (arg6 : Memref sig .tc .vmem S2048x1 .f32) (harg6 : arg6.IsWhole)
    (x0 x1 : Vec F S2048x128 .f32) (x2 x3 : Vec F S2048x1 .i32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (tcOut x0 x1 x2 x3 x4)) -∗ K ⟨⟩))
      ⊢ wp frame (wpE (defs₀ (F := F)) Variants.none c none) E (cc1__tc_body i arg1 harg1 arg2 harg2 arg3 harg3 arg4 harg4 arg5 harg5 arg6 harg6) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tcCover _)

end Cert.KernelIdeal.Hand

end
-- ==== Proof.TcDatsI.lean ====
/-
  The proof data of the one TensorCore pipeline and its body obligation, over any contents of the six windows' arrays
  when the region is entered; and the closed form of the output array after the region.

  The five input windows' staging buffers hold their blocks of the entry contents at every grid point (the 64 by 64
  window is fetched at the first point only, but its block index never moves, so its buffer still holds that block);
  the body's one whole store leaves the output window's buffer at `tcOut` of the five blocks. Stated at any float
  instance.
-/
import proofs.«206720_g66460323938928_cont_9to1_m_1264_22_alg».proof.Proof.TcBodyI
import proofs.«206720_g66460323938928_cont_9to1_m_1264_22_alg».proof.Proof.Gen.KernelIdeal.Launch
import proofs.«206720_g66460323938928_cont_9to1_m_1264_22_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The windows' blocks -/

/-- Window `w`'s block at point `t`, read off its array's contents `A w` at the region's entry. -/
def tcIblk (c : Dev nD) (A : (w : Fin cfg1.W) → Buf (Elt F) ((cfg1.win w).arr.view.loc (c.tc : Thread nD τ)))
    (w : Fin cfg1.W) (t : Fin cfg1.N) : ((cfg1.win w).xblock (cfg1.grid.coords t)).Idx → Elt F (cfg1.win w).elt :=
  ((cfg1.win w).blk t).view.read (Elt F) (A w)

/-! ## The proof data -/

/-- The region's invariant on core `c`: the core's scoped buffers that are no staging buffer, at some contents each,
    and its generator register at some state. The body reads neither. -/
def tcΦ (c : Dev nD) : sProp 𝕄 :=
  iprop(Pipeline.scopedRest (Ix := HIx 1) (Name := ℕ) (U := UU) (Lvl := ℕ) (Val := Elt F) spec1 c ∗ ∃ r, prngReg c r)

/-- The proof data of the pipeline on core `c` over entry contents `A`: after the body at point `t` each input's
    buffer at its block and the output's at `tcOut` of the five blocks; nothing owed; the two windows that read one
    array hold half a share of it each, the others the full share. -/
def tcDats (c : Dev nD) (A : (w : Fin cfg1.W) → Buf (Elt F) ((cfg1.win w).arr.view.loc (c.tc : Thread nD τ))) :
    Dat τ (Elt F) (HIx 1) ℕ UU ℕ cfg1 c where
  A := A
  after w t := match w with
    | ⟨0, _⟩ => tcIblk c A 0 t
    | ⟨1, _⟩ => tcIblk c A 1 t
    | ⟨2, _⟩ => tcIblk c A 2 t
    | ⟨3, _⟩ => tcIblk c A 3 t
    | ⟨4, _⟩ => tcIblk c A 4 t
    | ⟨5, _⟩ => tcOut (tcIblk c A 0 t) (tcIblk c A 1 t) (tcIblk c A 2 t) (tcIblk c A 3 t) (tcIblk c A 4 t)
  Φ _ := tcΦ c
  q w := match w with
    | ⟨0, _⟩ => (fullShare : PosShare TreeShare).left
    | ⟨1, _⟩ => (fullShare : PosShare TreeShare).right
    | ⟨2, _⟩ => fullShare
    | ⟨3, _⟩ => fullShare
    | ⟨4, _⟩ => fullShare
    | ⟨5, _⟩ => fullShare
  owed _ := 0

variable (c : Dev nD) (A : (w : Fin cfg1.W) → Buf (Elt F) ((cfg1.win w).arr.view.loc (c.tc : Thread nD τ)))

/-- The proof data's arrays are the entry contents. -/
theorem tcA_eq (w : Fin cfg1.W) : (tcDats c A).A w = A w := by
  dsimp only [tcDats]

/-- What the body leaves, window by window. -/
theorem tcAfter0 (t : Fin cfg1.N) : (tcDats c A).after 0 t = tcIblk c A 0 t := by dsimp only [tcDats]
theorem tcAfter1 (t : Fin cfg1.N) : (tcDats c A).after 1 t = tcIblk c A 1 t := by dsimp only [tcDats]
theorem tcAfter2 (t : Fin cfg1.N) : (tcDats c A).after 2 t = tcIblk c A 2 t := by dsimp only [tcDats]
theorem tcAfter3 (t : Fin cfg1.N) : (tcDats c A).after 3 t = tcIblk c A 3 t := by dsimp only [tcDats]
theorem tcAfter4 (t : Fin cfg1.N) : (tcDats c A).after 4 t = tcIblk c A 4 t := by dsimp only [tcDats]
theorem tcAfter5 (t : Fin cfg1.N) : (tcDats c A).after 5 t
    = tcOut (tcIblk c A 0 t) (tcIblk c A 1 t) (tcIblk c A 2 t) (tcIblk c A 3 t) (tcIblk c A 4 t) := by dsimp only [tcDats]

/-- Each input's current staging buffer holds its block at every point, fetched there or not: unfetched, the block
    index has not moved, and the buffer still holds the previous point's block, which is this point's. -/
theorem tcBefore0 (t : Fin cfg1.N) (d) : (tcDats c A).before 0 t d = tcIblk c A 0 t :=
  ((tcDats c A).before_in_eq_fetched 0 rfl (fun _ => rfl) (fun _ _ _ => rfl)
    (fun t => by rw [tcAfter0]; unfold Dat.blockOf tcIblk; rw [tcA_eq]; try rfl) t d).trans
    (by unfold Dat.fetched Dat.blockOf tcIblk; rw [tcA_eq]; try rfl)
theorem tcBefore1 (t : Fin cfg1.N) (d) : (tcDats c A).before 1 t d = tcIblk c A 1 t :=
  ((tcDats c A).before_in_eq_fetched 1 rfl (fun _ => rfl) (fun _ _ _ => rfl)
    (fun t => by rw [tcAfter1]; unfold Dat.blockOf tcIblk; rw [tcA_eq]; try rfl) t d).trans
    (by unfold Dat.fetched Dat.blockOf tcIblk; rw [tcA_eq]; try rfl)
theorem tcBefore2 (t : Fin cfg1.N) (d) : (tcDats c A).before 2 t d = tcIblk c A 2 t :=
  ((tcDats c A).before_in_eq_fetched 2 rfl (fun _ => rfl) (fun _ _ _ => rfl)
    (fun t => by rw [tcAfter2]; unfold Dat.blockOf tcIblk; rw [tcA_eq]; try rfl) t d).trans
    (by unfold Dat.fetched Dat.blockOf tcIblk; rw [tcA_eq]; try rfl)
theorem tcBefore3 (t : Fin cfg1.N) (d) : (tcDats c A).before 3 t d = tcIblk c A 3 t :=
  ((tcDats c A).before_in_eq_fetched 3 rfl (fun _ => rfl) (fun _ _ _ => rfl)
    (fun t => by rw [tcAfter3]; unfold Dat.blockOf tcIblk; rw [tcA_eq]; try rfl) t d).trans
    (by unfold Dat.fetched Dat.blockOf tcIblk; rw [tcA_eq]; try rfl)
theorem tcBefore4 (t : Fin cfg1.N) (d) : (tcDats c A).before 4 t d = tcIblk c A 4 t :=
  ((tcDats c A).before_in_eq_fetched 4 rfl (fun _ => rfl) (fun _ _ _ => rfl)
    (fun t => by rw [tcAfter4]; unfold Dat.blockOf tcIblk; rw [tcA_eq]; try rfl) t d).trans
    (by unfold Dat.fetched Dat.blockOf tcIblk; rw [tcA_eq]; try rfl)

/-! ## The body obligation, at a generic point -/

/-- What the body is called with at point `t`, the windows one by one, -/
def tcBodyPre (t : Fin cfg1.N) : sProp 𝕄 :=
  iprop((tcDats c A).Φ t.castSucc ∗ (tcDats c A).owesAt (none : HIx 1) t.castSucc
    ∗ (∃ d, owns (c : Thread nD τ) (st1_0 t) fullShare ((tcDats c A).before 0 t d))
    ∗ (∃ d, owns (c : Thread nD τ) (st1_1 t) fullShare ((tcDats c A).before 1 t d))
    ∗ (∃ d, owns (c : Thread nD τ) (st1_2 t) fullShare ((tcDats c A).before 2 t d))
    ∗ (∃ d, owns (c : Thread nD τ) (st1_3 t) fullShare ((tcDats c A).before 3 t d))
    ∗ (∃ d, owns (c : Thread nD τ) (st1_4 t) fullShare ((tcDats c A).before 4 t d))
    ∗ (∃ d, owns (c : Thread nD τ) (st1_5 t) fullShare ((tcDats c A).before 5 t d)))

/-- and what it returns. -/
def tcBodyPost (t : Fin cfg1.N) : sProp 𝕄 :=
  iprop((tcDats c A).Φ t.succ ∗ (tcDats c A).owesAt (none : HIx 1) t.succ
    ∗ owns (c : Thread nD τ) (st1_0 t) fullShare ((tcDats c A).after 0 t)
    ∗ owns (c : Thread nD τ) (st1_1 t) fullShare ((tcDats c A).after 1 t)
    ∗ owns (c : Thread nD τ) (st1_2 t) fullShare ((tcDats c A).after 2 t)
    ∗ owns (c : Thread nD τ) (st1_3 t) fullShare ((tcDats c A).after 3 t)
    ∗ owns (c : Thread nD τ) (st1_4 t) fullShare ((tcDats c A).after 4 t)
    ∗ owns (c : Thread nD τ) (st1_5 t) fullShare ((tcDats c A).after 5 t))

/-- The body at any point: the inputs' buffers hold their blocks, so the body's triple applies; the invariant and the
    core's tallies pass through unread. -/
theorem tc_sound_body (t : Fin cfg1.N) :
    tcBodyPre c A t ⊢ wp frame (wpE (defs₀ (F := F)) Variants.none c none) Set.univ (bodyAt1 t) (fun _ => tcBodyPost c A t) := by
  unfold tcBodyPre tcBodyPost bodyAt1
  simp only [tcBefore0, tcBefore1, tcBefore2, tcBefore3, tcBefore4]
  rw [show (tcDats c A).Φ t.succ = (tcDats c A).Φ t.castSucc from rfl,
    show (tcDats c A).owesAt (none : HIx 1) t.succ = (tcDats c A).owesAt (none : HIx 1) t.castSucc from rfl,
    tcAfter0, tcAfter1, tcAfter2, tcAfter3, tcAfter4, tcAfter5]
  iintro ⟨HΦ, Ho, ⟨%d0, H0⟩, ⟨%d1, H1⟩, ⟨%d2, H2⟩, ⟨%d3, H3⟩, ⟨%d4, H4⟩, ⟨%d5, H5⟩⟩
  iapply (tc_sound_kernel c Set.univ (grid1.coords t) _ _ _ _ _ _ _ _ _ _ _ _
    (tcIblk c A 0 t) (tcIblk c A 1 t) (tcIblk c A 2 t) (tcIblk c A 3 t) (tcIblk c A 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point; the pipeline's waits are recorded at the index `none`. -/
theorem tc_body_obligation :
    BodyObligation (tcDats (F := F) c A) (defs₀ (F := F)) Variants.none (none : HIx 1) Set.univ := fun t => by
  rw [bigSep_W1, bigSep_W1]
  exact tc_sound_body c A t

/-! ## The output array after the region, in closed form -/

/-- What the body leaves in the output window's buffer at point `t`. -/
def tcAt (t : Fin cfg1.N) : Vec F S2048x1 .f32 :=
  tcOut (tcIblk c A 0 t) (tcIblk c A 1 t) (tcIblk c A 2 t) (tcIblk c A 3 t) (tcIblk c A 4 t)

/-- The grid point whose output block holds row `y 0` of the output array: the row divided by the block's 2048 rows. -/
def tcPoint (y : S16384x1.Idx) : Fin cfg1.N :=
  ⟨(y 0).val / 2048, by
    have h : (y 0).val < 16384 := (y 0).isLt
    rw [show cfg1.N = 8 from N_1]; omega⟩

/-- That row's place inside the block: the remainder. -/
def tcRow (y : S16384x1.Idx) : Fin 2048 := ⟨(y 0).val % 2048, Nat.mod_lt _ (by decide)⟩

/-- THE OUTPUT ARRAY AFTER THE REGION, as one function of the entry contents: at row `y 0`, what the body leaves at
    the point `(y 0) / 2048`, at row `(y 0) % 2048` of its block. -/
def tcFinal : S16384x1.Idx → Elt F .f32 :=
  fun y => tcAt c A (tcPoint y) (ValueIdx.ix2 (tcRow y) (0 : Fin 1))

/-- The output window's index map, decided over the grid: point `t` writes block row `t`, block column 0. -/
theorem tcIdx5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- What point `t` writes back is what the body left there. -/
theorem tcFlushed5 (t : Fin cfg1.N) : (tcDats c A).flushed 5 t = tcAt c A t := by
  show (cfg1.win 5).cut (grid1.coords t) ((tcDats c A).after 5 t) = _
  rw [tcAfter5]
  rfl

/-- A block of the output window read at an index of the block: the array at the block's place for it. -/
theorem tcRead5 (G : S16384x1.Idx → Elt F .f32) (t : Fin cfg1.N) (j : S2048x1.Idx) :
    ((cfg1.win 5).blk t).view.read (Elt F) G j = G (((cfg1.win 5).blk t).view.emb j) := rfl

/-- WHAT POINT `t` WRITES BACK is block `t` of `tcFinal`. -/
theorem tcFlushed5_eq (t : Fin cfg1.N) :
    (tcDats c A).flushed 5 t = ((cfg1.win 5).blk t).view.read (Elt F) (tcFinal c A) := by
  rw [tcFlushed5]
  obtain ⟨e0, e1⟩ := tcIdx5 t
  funext j
  refine Eq.trans ?_ (tcRead5 (tcFinal c A) t j).symm
  have hj0 : (j 0).val < 2048 := (j 0).isLt
  have hj1 : (j 1).val < 1 := (j 1).isLt
  have hy0 : ((((cfg1.win 5).blk t).view.emb j) 0).val = t.val * 2048 + (j 0).val := by
    show win1_5.index t (0 : Fin 2) * 2048 + 1 * (j 0).val = _
    rw [e0]; omega
  have hp : tcPoint (((cfg1.win 5).blk t).view.emb j) = t := Fin.ext (by
    show ((((cfg1.win 5).blk t).view.emb j) 0).val / 2048 = t.val
    rw [hy0]; omega)
  have hr : ValueIdx.ix2 (tcRow (((cfg1.win 5).blk t).view.emb j)) (0 : Fin 1) = j := by
    funext a
    match a with
    | ⟨0, _⟩ => exact Fin.ext (by
        show ((((cfg1.win 5).blk t).view.emb j) 0).val % 2048 = (j 0).val
        rw [hy0]; omega)
    | ⟨1, _⟩ => exact Fin.ext (by show 0 = (j 1).val; omega)
  unfold tcFinal
  rw [hp, hr]

/-- An index of the output array is in point `t`'s block iff each coordinate is in the block's range on its axis. -/
theorem tcMemBlk5 (t : Fin cfg1.N) (i : S16384x1.Idx) :
    i ∈ ((cfg1.win 5).blk t).view.set ↔ ∀ a : Fin 2, win1_5.index t a * S2048x1.size a ≤ (i a).val ∧ (i a).val < win1_5.index t a * S2048x1.size a + S2048x1.size a := by
  show i ∈ ((View.whole main_v5).slice (win1_5.rect t)).set ↔ _
  rw [View.set_slice_whole, Rect.mem_set_unit]
  exact Iff.rfl

/-- Every row of the output array is in the block of the point its quotient by 2048 names. -/
theorem tcCover5 (i : S16384x1.Idx) :
    ∃ t : Fin cfg1.N, (cfg1.win 5).flush t = true ∧ i ∈ ((cfg1.win 5).blk t).view.set := by
  refine ⟨tcPoint i, flush1_5 _, ?_⟩
  rw [tcMemBlk5]
  obtain ⟨e0, e1⟩ := tcIdx5 (tcPoint i)
  have hp : (tcPoint i).val = (i 0).val / 2048 := rfl
  have hi1 : (i 1).val < 1 := (i 1).isLt
  intro a
  match a with
  | ⟨0, _⟩ =>
    show win1_5.index (tcPoint i) (0 : Fin 2) * 2048 ≤ (i 0).val ∧ (i 0).val < win1_5.index (tcPoint i) (0 : Fin 2) * 2048 + 2048
    rw [e0, hp]; omega
  | ⟨1, _⟩ =>
    show win1_5.index (tcPoint i) (1 : Fin 2) * 1 ≤ (i 1).val ∧ (i 1).val < win1_5.index (tcPoint i) (1 : Fin 2) * 1 + 1
    rw [e1]; omega

/-- THE OUTPUT ARRAY AFTER THE REGION is `tcFinal` of the entry contents: the eight blocks tile it. -/
theorem tc_final : (tcDats c A).arrAt 5 cfg1.N = tcFinal c A :=
  (tcDats c A).arrAt_eq_of_cover 5 (tcFinal c A) (fun t _ => tcFlushed5_eq c A t) tcCover5

/-- An input window's array is never written back: after the region it holds its entry contents. -/
theorem tc_kept (w : Fin cfg1.W) (hw : w ≠ 5) : (tcDats c A).arrAt w cfg1.N = A w := by
  match w, hw with
  | ⟨0, _⟩, _ => exact ((tcDats c A).arrAt_in 0 rfl _).trans (tcA_eq c A 0)
  | ⟨1, _⟩, _ => exact ((tcDats c A).arrAt_in 1 rfl _).trans (tcA_eq c A 1)
  | ⟨2, _⟩, _ => exact ((tcDats c A).arrAt_in 2 rfl _).trans (tcA_eq c A 2)
  | ⟨3, _⟩, _ => exact ((tcDats c A).arrAt_in 3 rfl _).trans (tcA_eq c A 3)
  | ⟨4, _⟩, _ => exact ((tcDats c A).arrAt_in 4 rfl _).trans (tcA_eq c A 4)
  | ⟨5, _⟩, hw => exact absurd rfl hw

end Cert.KernelIdeal.Hand

end
-- ==== Proof.RegDefsI.lean ====
/-
  The TensorCore call's five buffers as its six windows see them: windows 0 and 1 both stage the gathered array.
-/
import proofs.«206720_g66460323938928_cont_9to1_m_1264_22_alg».proof.Proof.TcDatsI

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MT nD τ sig (HIx 1) (Elt F) ℕ UU ℕ

/-- The six windows' arrays at region entry, from the five buffers' contents. -/
def regC (d : Dev nD) (x2 : Buf (Elt F) ((SparseCore.T d : Thread nD τ).loc main_v2)) (x3 : Buf (Elt F) ((SparseCore.T d : Thread nD τ).loc main_v3)) (x4 : Buf (Elt F) ((SparseCore.T d : Thread nD τ).loc main_v4)) (x5 : Buf (Elt F) ((SparseCore.T d : Thread nD τ).loc main_arg3)) (x6 : Buf (Elt F) ((SparseCore.T d : Thread nD τ).loc main_v5)) :
    (w : Fin cfg1.W) → Buf (Elt F) ((cfg1.win w).arr.view.loc (d.tc : Thread nD τ))
  | ⟨0, _⟩ => x2 | ⟨1, _⟩ => x2 | ⟨2, _⟩ => x3 | ⟨3, _⟩ => x4 | ⟨4, _⟩ => x5 | ⟨5, _⟩ => x6

/-- The five buffers held whole. -/
def regArrs (d : Dev nD) (x2 : Buf (Elt F) ((SparseCore.T d : Thread nD τ).loc main_v2)) (x3 : Buf (Elt F) ((SparseCore.T d : Thread nD τ).loc main_v3)) (x4 : Buf (Elt F) ((SparseCore.T d : Thread nD τ).loc main_v4)) (x5 : Buf (Elt F) ((SparseCore.T d : Thread nD τ).loc main_arg3)) (x6 : Buf (Elt F) ((SparseCore.T d : Thread nD τ).loc main_v5)) : sProp 𝕄 :=
  iprop(((SparseCore.T d).loc main_v2 ↦{fullShare} x2) ∗ ((SparseCore.T d).loc main_v3 ↦{fullShare} x3) ∗ ((SparseCore.T d).loc main_v4 ↦{fullShare} x4) ∗ ((SparseCore.T d).loc main_arg3 ↦{fullShare} x5) ∗ ((SparseCore.T d).loc main_v5 ↦{fullShare} x6))

end Cert.KernelIdeal.Hand

end
-- ==== Proof.LaunchDefsI.lean ====
/-
  The SparseCore program's launch, its data: what the one SparseCore call hands each core and each task (read shares of
  the reshaped table and of the concatenated index array, the task's pieces of the output) and how a core's holdings
  split into its tasks'; @main's arrays, host operations and the valuation after each stage, up to the program's result.
-/
import proofs.«206720_g66460323938928_cont_9to1_m_1264_22_alg».proof.Proof.TileBodyI
import proofs.«206720_g66460323938928_cont_9to1_m_1264_22_alg».proof.Proof.RegDefsI
import Idealize.ShloMosaic.Lib.SparseCore.Launch
import Idealize.ShloMosaic.Lib.StableHlo.Run
import Idealize.ShloMosaic.Lib.Pipeline.Regions
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTokN shareTok shareDrop pointsTo_toks_split pointsTo_toks_join)
open Idealize.ShloMosaic.Tactic

variable {F : FTy → Type}

local notation "𝕄" => MT nD τ sig (HIx 1) (Elt F) ℕ UU ℕ

/-! ## What the SparseCore call hands over -/

abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-- Core `c`'s read share of an array the call lends whole, and within it subcore `i`'s. -/
abbrev qC (c : ℕ) : PosShare TreeShare := shareTokN fullShare c
abbrev qT (c i : ℕ) : PosShare TreeShare := shareTokN (qC c) i

/-- Eight chunks, one by one. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

section Pay

variable (tb : (d : Dev nD) → Buf (Elt F) (tLoc d)) (ix : (d : Dev nD) → Buf (Elt F) (iLoc d))

/-- What the task of core `c`, subcore `i` holds: its shares of the table and of the index array, and its eight pieces
    of the output at contents `fo`. -/
def tileRes (d : Dev nD) (c : Fin 2) (i : Fin 16) (fo : Buf (Elt F) (oLoc d)) : sProp 𝕄 :=
  iprop((tLoc d ↦{qT c.val i.val} tb d) ∗ (iLoc d ↦{qT c.val i.val} ix d)
    ∗ bigSep Finset.univ fun k : Fin 8 => oLoc d ↦[oSetT (c, i, k)]{fullShare} fo)

/-- What core `c` holds for its sixteen tasks. -/
def coreRes (d : Dev nD) (c : Fin 2) (fo : Buf (Elt F) (oLoc d)) : sProp 𝕄 :=
  iprop((tLoc d ↦{qC c.val} tb d) ∗ (iLoc d ↦{qC c.val} ix d)
    ∗ bigSep Finset.univ fun i : Fin 16 => bigSep Finset.univ fun k : Fin 8 => oLoc d ↦[oSetT (c, i, k)]{fullShare} fo)

variable [FloatOps F]

/-- The output after the call, as one function of what the call read. -/
def outAfter (d : Dev nD) : Buf (Elt F) (oLoc d) := gathered (tb d) (ix d)

variable (o₀ : (d : Dev nD) → Buf (Elt F) (oLoc d))

/-- The one call: each core its shares and its tasks' pieces, each task its own; the pieces come back at `outAfter`. -/
def P : (K (F := F)).Pay (nD := nD) (Val := Elt F) (Name := ℕ) (U := UU) where
  st := fun q d c => match q with | 0 => coreRes tb ix d c (o₀ d)
  dn := fun q d c => match q with | 0 => coreRes tb ix d c (outAfter tb ix d)
  go := fun q d c i => match q with | 0 => tileRes tb ix d c i (o₀ d)
  td := fun q d c i => match q with | 0 => tileRes tb ix d c i (outAfter tb ix d)
  x := fun _ _ => iprop(emp)

instance P_storable : (P (F := F) tb ix o₀).IsStorable where
  st q d c := match q with
    | 0 => by show BI.Storable (upEmb : UEmb _ 𝕄) (coreRes tb ix d c (o₀ d)); unfold coreRes; infer_instance
  dn q d c := match q with
    | 0 => by show BI.Storable (upEmb : UEmb _ 𝕄) (coreRes tb ix d c (outAfter tb ix d)); unfold coreRes; infer_instance
  go q d c i := match q with
    | 0 => by show BI.Storable (upEmb : UEmb _ 𝕄) (tileRes tb ix d c i (o₀ d)); unfold tileRes; infer_instance
  td q d c i := match q with
    | 0 => by show BI.Storable (upEmb : UEmb _ 𝕄) (tileRes tb ix d c i (outAfter tb ix d)); unfold tileRes; infer_instance

/-- A core's holdings split into its sixteen tasks', and the tasks' results gather into the core's: the shares by
    read tokens (the remainder kept for the way back), the pieces as they are. -/
theorem vecSplit : (K (F := F)).VecSplit' (P tb ix o₀) 0 := by
  intro d c
  show coreRes tb ix d c (o₀ d) ⊢ |={Set.univ}=> iprop(
      (bigSep Finset.univ fun i : Fin 16 => tileRes tb ix d c i (o₀ d))
      ∗ ((bigSep Finset.univ fun i : Fin 16 => tileRes tb ix d c i (outAfter tb ix d)) -∗ coreRes tb ix d c (outAfter tb ix d)))
  unfold coreRes tileRes
  rw [bigSep_sep', bigSep_sep', bigSep_sep', bigSep_sep']
  iintro ⟨Ht, Hi, Ho⟩
  ihave Ht := (pointsTo_toks_split (qC c.val) 16) $$ Ht
  icases Ht with ⟨Htr, Hts⟩
  ihave Hi := (pointsTo_toks_split (qC c.val) 16) $$ Hi
  icases Hi with ⟨Hir, His⟩
  imodintro
  isplitl [Hts His Ho]
  · isplitl [Hts]; · iexact Hts
    isplitl [His]; · iexact His
    iexact Ho
  iintro ⟨Hts, His, Ho⟩
  isplitl [Htr Hts]
  · iapply (pointsTo_toks_join (qC c.val) 16); isplitl [Htr] <;> iassumption
  isplitl [Hir His]
  · iapply (pointsTo_toks_join (qC c.val) 16); isplitl [Hir] <;> iassumption
  iexact Ho

end Pay

/-! ## @main's buffers, operations and their values -/

section MainDefs

abbrev rA0 : DevRef τ sig := Proc.devRef .tc (main_arg0 : Ref sig .tc)
abbrev rA1 : DevRef τ sig := Proc.devRef .tc (main_arg1 : Ref sig .tc)
abbrev rA2 : DevRef τ sig := Proc.devRef .tc (main_arg2 : Ref sig .tc)
abbrev rA3 : DevRef τ sig := Proc.devRef .tc (main_arg3 : Ref sig .tc)
abbrev rV0 : DevRef τ sig := Proc.devRef .tc (main_v0 : Ref sig .tc)
abbrev rV1 : DevRef τ sig := Proc.devRef .tc (main_v1 : Ref sig .tc)
abbrev rV2 : DevRef τ sig := Proc.devRef .tc (main_v2 : Ref sig .tc)
abbrev rV3 : DevRef τ sig := Proc.devRef .tc (main_v3 : Ref sig .tc)
abbrev rV4 : DevRef τ sig := Proc.devRef .tc (main_v4 : Ref sig .tc)
abbrev rV5 : DevRef τ sig := Proc.devRef .tc (main_v5 : Ref sig .tc)
abbrev rV6 : DevRef τ sig := Proc.devRef .tc (main_v6 : Ref sig .tc)

/-- The TensorCore's eleven unscoped arrays. -/
abbrev S11 : Finset (DevRef τ sig) := {rA0, rA1, rA2, rA3, rV0, rV1, rV2, rV3, rV4, rV5, rV6}

variable [FloatOps F]

abbrev op0 : HloOp τ sig (Elt F) := StableHlo.reshape main_arg2 main_v0 rfl shapeCasts_S1000000x64_S500000x128
abbrev op1 : HloOp τ sig (Elt F) :=
  StableHlo.binary main_arg0 main_arg1 main_v1 ((fun a b => concatenate S32768 0 [⟨S16384, a⟩, ⟨S16384, b⟩] concatenates_S16384_S16384_S32768_d0) : (⟨S16384, .i32⟩ : BufTy).Contents (Elt F) → (⟨S16384, .i32⟩ : BufTy).Contents (Elt F) → (⟨S32768, .i32⟩ : BufTy).Contents (Elt F))
abbrev op3 : HloOp τ sig (Elt F) := StableHlo.reshape main_arg0 main_v3 rfl shapeCasts_S16384_S16384x1
abbrev op4 : HloOp τ sig (Elt F) := StableHlo.reshape main_arg1 main_v4 rfl shapeCasts_S16384_S16384x1
abbrev op6 : HloOp τ sig (Elt F) := StableHlo.reshape main_v5 main_v6 rfl shapeCasts_S16384x1_S16384

theorem op0_sub : (op0 (F := F)).bufs ⊆ S11 := show ({rA2, rV0} : Finset (DevRef τ sig)) ⊆ S11 by decide
theorem op1_sub : (op1 (F := F)).bufs ⊆ S11 := show ({rA0, rA1, rV1} : Finset (DevRef τ sig)) ⊆ S11 by decide
theorem op3_sub : (op3 (F := F)).bufs ⊆ S11 := show ({rA0, rV3} : Finset (DevRef τ sig)) ⊆ S11 by decide
theorem op4_sub : (op4 (F := F)).bufs ⊆ S11 := show ({rA1, rV4} : Finset (DevRef τ sig)) ⊆ S11 by decide
theorem op6_sub : (op6 (F := F)).bufs ⊆ S11 := show ({rV5, rV6} : Finset (DevRef τ sig)) ⊆ S11 by decide

variable (m : (ℓ : Loc nD τ sig) → Buf (Elt F) ℓ)

/-- The launch valuation, and the valuation after the two operations before the SparseCore call. -/
def V0 (d : Dev nD) : Valuation τ sig (Elt F) := fun b => m (d, b)
def V2 (d : Dev nD) : Valuation τ sig (Elt F) := (op1 (F := F)).result ((op0 (F := F)).result (V0 m d))
/-- What the call reads and what it finds in the output. -/
def tbV (d : Dev nD) : Buf (Elt F) (tLoc d) := V2 m d rV0
def ixV (d : Dev nD) : Buf (Elt F) (iLoc d) := V2 m d rV1
def o₀V (d : Dev nD) : Buf (Elt F) (oLoc d) := V2 m d rV2
/-- After the call; after the two reshapes that follow it. -/
def V2' (d : Dev nD) : Valuation τ sig (Elt F) := Function.update (V2 m d) rV2 (outAfter (tbV m) (ixV m) d)
def V4 (d : Dev nD) : Valuation τ sig (Elt F) := (op4 (F := F)).result ((op3 (F := F)).result (V2' m d))

omit [FloatOps F] in
theorem held_take (c : Thread nD τ) (S : Finset (DevRef τ sig)) (V : Valuation τ sig (Elt F)) {b : DevRef τ sig} (hb : b ∈ S) :
    (held c S V : sProp 𝕄) = iprop(((c.1, b) ↦{fullShare} V b) ∗ held c (S.erase b) V) := SparseCore.bigSep_erase' hb

omit [FloatOps F] in
theorem held_put (c : Thread nD τ) (S : Finset (DevRef τ sig)) (V : Valuation τ sig (Elt F)) {b : DevRef τ sig} (hb : b ∈ S)
    (f : Buf (Elt F) ((c.1, b) : Loc nD τ sig)) :
    (held c S (Function.update V b f) : sProp 𝕄) = iprop(((c.1, b) ↦{fullShare} f) ∗ held c (S.erase b) V) := by
  rw [held_take c S _ hb, Function.update_self]
  congr 1
  exact bigSep_congr fun b' hb' => by rw [Function.update_of_ne (Finset.ne_of_mem_erase hb')]

omit [FloatOps F] in
theorem held_S11 (d : Dev nD) (W : Valuation τ sig (Elt F)) :
    (held (SparseCore.T d) S11 W : sProp 𝕄)
      = iprop(((SparseCore.T d).loc main_arg0 ↦{fullShare} W rA0) ∗ ((SparseCore.T d).loc main_arg1 ↦{fullShare} W rA1) ∗ ((SparseCore.T d).loc main_arg2 ↦{fullShare} W rA2) ∗ ((SparseCore.T d).loc main_arg3 ↦{fullShare} W rA3) ∗ ((SparseCore.T d).loc main_v0 ↦{fullShare} W rV0) ∗ ((SparseCore.T d).loc main_v1 ↦{fullShare} W rV1) ∗ ((SparseCore.T d).loc main_v2 ↦{fullShare} W rV2) ∗ ((SparseCore.T d).loc main_v3 ↦{fullShare} W rV3) ∗ ((SparseCore.T d).loc main_v4 ↦{fullShare} W rV4) ∗ ((SparseCore.T d).loc main_v5 ↦{fullShare} W rV5) ∗ ((SparseCore.T d).loc main_v6 ↦{fullShare} W rV6)) := by
  unfold held S11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped) = {main_arg0, main_arg1, main_arg2, main_arg3, main_v0, main_v1, main_v2, main_v3, main_v4, main_v5, main_v6} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (SparseCore.T d) S11 (V0 m d) := by
  rw [unscopedBufs_eq, held_S11]; rfl

omit [FloatOps F] in
/-- The output whole is its 256 pieces: by core, by subcore, by chunk. -/
theorem out_split (d : Dev nD) (f : Buf (Elt F) (oLoc d)) :
    (oLoc d ↦{fullShare} f : sProp 𝕄)
      = bigSep Finset.univ fun c : Fin (grid0.bound 0) => bigSep Finset.univ fun i : Fin (grid0.bound 1) => bigSep Finset.univ fun k : Fin 8 =>
          oLoc d ↦[oSetT (c, i, k)]{fullShare} f := by
  have h : (oLoc d ↦{fullShare} f : sProp 𝕄) = bigSep Finset.univ fun a : Fin (grid0.bound 0) × Fin (grid0.bound 1) × Fin 8 => oLoc d ↦[oSetT a]{fullShare} f := by
    rw [← pointsTo_biUnion Finset.univ (ℓ := oLoc d) oSetT oSet_disjoint, oSet_cover]; try rfl
  rw [h, bigSep_univ_prod]
  exact bigSep_congr fun c _ => bigSep_univ_prod _

end MainDefs

section Final

variable [FloatOps F]
variable (m : (ℓ : Loc nD τ sig) → Buf (Elt F) ℓ)

/-- After the TensorCore call; after the last reshape. -/
def V5 (d : Dev nD) : Valuation τ sig (Elt F) :=
  Function.update (V4 m d) rV5 (tcFinal d (regC d (V4 m d rV2) (V4 m d rV3) (V4 m d rV4) (V4 m d rA3) (V4 m d rV5)))
def V6 (d : Dev nD) : Valuation τ sig (Elt F) := (op6 (F := F)).result (V5 m d)

end Final

end Cert.KernelIdeal.Hand

end
-- ==== Proof.TcRegionI.lean ====
/-
  The TensorCore region of the program's main function, as one step: from the five buffers the region's windows
  stage held whole, the generator register and the core's tallies, the call of the pipeline runs to the same with the
  output buffer at the closed form of the entry contents.

  The two windows that read one buffer each take half a share of it on entry and give the halves back on exit; the
  other buffers go in and out whole; the body needs nothing else of the thread's state.
-/
import proofs.«206720_g66460323938928_cont_9to1_m_1264_22_alg».proof.Proof.RegDefsI
import Idealize.ShloMosaic.Lib.Pipeline.Regions
import Idealize.ShloMosaic.Lib.SparseCore.Threads

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The region's arrays -/

/-- The shares the proof data holds the six arrays at. -/
theorem tcShare0 (c : Dev nD) (A) : (tcDats (F := F) c A).share 0 = (fullShare : PosShare TreeShare).left := rfl
theorem tcShare1 (c : Dev nD) (A) : (tcDats (F := F) c A).share 1 = (fullShare : PosShare TreeShare).right := rfl
theorem tcShare2 (c : Dev nD) (A) : (tcDats (F := F) c A).share 2 = fullShare := rfl
theorem tcShare3 (c : Dev nD) (A) : (tcDats (F := F) c A).share 3 = fullShare := rfl
theorem tcShare4 (c : Dev nD) (A) : (tcDats (F := F) c A).share 4 = fullShare := rfl
theorem tcShare5 (c : Dev nD) (A) : (tcDats (F := F) c A).share 5 = fullShare := rfl

/-- The pipeline's arrays, window by window: the buffer the first two windows read at half a share each, the others at
    the full share. -/
theorem tcArrays_eq (c : Dev nD) (A) (G : (w : Fin cfg1.W) → Buf (Elt F) ((cfg1.win w).arr.view.loc (c.tc : Thread nD τ))) :
    ((tcDats (F := F) c A).arrays G : sProp 𝕄)
      = iprop(((SparseCore.T c : Thread nD τ).loc main_v2 ↦{(fullShare : PosShare TreeShare).left} G 0)
        ∗ ((SparseCore.T c : Thread nD τ).loc main_v2 ↦{(fullShare : PosShare TreeShare).right} G 1)
        ∗ ((SparseCore.T c : Thread nD τ).loc main_v3 ↦{fullShare} G 2) ∗ ((SparseCore.T c : Thread nD τ).loc main_v4 ↦{fullShare} G 3)
        ∗ ((SparseCore.T c : Thread nD τ).loc main_arg3 ↦{fullShare} G 4) ∗ ((SparseCore.T c : Thread nD τ).loc main_v5 ↦{fullShare} G 5)) := by
  unfold Dat.arrays
  rw [bigSep_W1, tcShare0, tcShare1, tcShare2, tcShare3, tcShare4, tcShare5,
    (arr_whole1 0).set_eq_univ, (arr_whole1 2).set_eq_univ, (arr_whole1 3).set_eq_univ,
    (arr_whole1 4).set_eq_univ, (arr_whole1 5).set_eq_univ]

/-- The arrays at entry: the buffers' contents, the first at its two halves. -/
theorem tcArrays_entry (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) :
    ((tcDats d (regC d x2 x3 x4 x5 x6)).arrays (fun w => (tcDats d (regC d x2 x3 x4 x5 x6)).arrAt w 0) : sProp 𝕄)
      = iprop(((SparseCore.T d : Thread nD τ).loc main_v2 ↦{(fullShare : PosShare TreeShare).left} x2)
        ∗ ((SparseCore.T d : Thread nD τ).loc main_v2 ↦{(fullShare : PosShare TreeShare).right} x2)
        ∗ ((SparseCore.T d : Thread nD τ).loc main_v3 ↦{fullShare} x3) ∗ ((SparseCore.T d : Thread nD τ).loc main_v4 ↦{fullShare} x4)
        ∗ ((SparseCore.T d : Thread nD τ).loc main_arg3 ↦{fullShare} x5) ∗ ((SparseCore.T d : Thread nD τ).loc main_v5 ↦{fullShare} x6)) :=
  tcArrays_eq d _ _

/-- The arrays at exit: the inputs as they were, the output at the closed form. -/
theorem tcArrays_exit (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) :
    ((tcDats d (regC d x2 x3 x4 x5 x6)).arrays (fun w => (tcDats d (regC d x2 x3 x4 x5 x6)).arrAt w cfg1.N) : sProp 𝕄)
      = iprop(((SparseCore.T d : Thread nD τ).loc main_v2 ↦{(fullShare : PosShare TreeShare).left} x2)
        ∗ ((SparseCore.T d : Thread nD τ).loc main_v2 ↦{(fullShare : PosShare TreeShare).right} x2)
        ∗ ((SparseCore.T d : Thread nD τ).loc main_v3 ↦{fullShare} x3) ∗ ((SparseCore.T d : Thread nD τ).loc main_v4 ↦{fullShare} x4)
        ∗ ((SparseCore.T d : Thread nD τ).loc main_arg3 ↦{fullShare} x5)
        ∗ ((SparseCore.T d : Thread nD τ).loc main_v5 ↦{fullShare} tcFinal d (regC d x2 x3 x4 x5 x6))) := by
  rw [tcArrays_eq, tc_final, tc_kept d _ 0 (by decide), tc_kept d _ 1 (by decide), tc_kept d _ 2 (by decide), tc_kept d _ 3 (by decide),
    tc_kept d _ 4 (by decide)]
  rfl

/-! ## The proof data on every core -/

/-- The program runs on one device: any two are equal. -/
theorem dev_eq (c d : Dev nD) : c = d := Subsingleton.elim c d

/-- No prefetched table: the admissible contents are the empty ones. -/
abbrev tcAdm : (p : Fin 1) → (pcfgs (F := F) p).Adm := fun p => (cfgs p).toPCfg_adm

/-- The entry contents on core `c`: the one device's, carried along the equation of the two. -/
def regCs (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (c : Dev nD) :
    (w : Fin cfg1.W) → Buf (Elt F) ((cfg1.win w).arr.view.loc (c.tc : Thread nD τ)) :=
  (dev_eq d c) ▸ regC d x2 x3 x4 x5 x6

theorem regCs_self (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) : regCs d x2 x3 x4 x5 x6 d = regC d x2 x3 x4 x5 x6 := rfl

/-- The proof data of the program's one pipeline on every core. -/
def tcPdats (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) :
    (p : Fin 1) → (c : Dev nD) → Dat τ (Elt F) (HIx 1) ℕ UU ℕ (Pipeline.pin (pcfgs (F := F)) tcAdm p) c :=
  fun _ c => tcDats c (regCs d x2 x3 x4 x5 x6 c)

set_option backward.isDefEq.respectTransparency.types false in
/-- THE REGION: the launch's layout, no semaphore of the kernel's own, the body obligation; entered from the five
    buffers held whole, the generator register and the core's tallies. -/
def tcSeg (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (g : PrngReg) (W : Waits sig (HIx 1)) :
    Pipeline.RegionSeg (pcfgs (F := F)) tcAdm (tcPdats d x2 x3 x4 x5 x6) (none : HIx 1) defs₀ 𝒱₀ (K (F := F)).L (K (F := F)).lev 0 where
  win := winFacts₀1
  block_pos := block_pos1
  stage_whole := stage_whole1
  K := PEmpty
  osem := fun k => k.elim
  ho := Pipeline.OwnSemFacts.none _
  hbody c := (tc_body_obligation c _).loose
  hwaits := Pipeline.hwaits_of_owed_zero _ _ _ _ (K (F := F)).L (K (F := F)).lev 0 fun _ _ => rfl
  pre _ := iprop(regArrs d x2 x3 x4 x5 x6 ∗ prngReg d g ∗ owes (SparseCore.T d : Thread nD τ) (0 : CellTallies nD τ sig (HIx 1)) W)
  post _ := iprop(regArrs d x2 x3 x4 x5 (tcFinal d (regC d x2 x3 x4 x5 x6)) ∗ (∃ r, prngReg d r)
    ∗ ∃ W', owes (SparseCore.T d : Thread nD τ) (0 : CellTallies nD τ sig (HIx 1)) W')
  X _ := iprop(∃ r, prngReg d r)
  Y _ := iprop(∃ r, prngReg d r)
  Z _ := iprop(emp)
  hentry c := by
    have hc := dev_eq c d; subst hc
    dsimp only [tcPdats]
    rw [regCs_self, tcArrays_entry]
    unfold regArrs
    have hsp : (((SparseCore.T c : Thread nD τ).loc main_v2 ↦{fullShare} x2) : sProp 𝕄)
        ⊢ iprop(((SparseCore.T c : Thread nD τ).loc main_v2 ↦{(fullShare : PosShare TreeShare).left} x2)
          ∗ ((SparseCore.T c : Thread nD τ).loc main_v2 ↦{(fullShare : PosShare TreeShare).right} x2)) :=
      (pointsTo_share (PosShare.mem_left_op_right fullShare)).1
    iintro ⟨⟨⟨H2, H3, H4, H5, H6⟩, Hg, HO⟩, -, -⟩
    ihave H2' := hsp $$ H2
    icases H2' with ⟨H2l, H2r⟩
    imodintro
    isplitl [H2l H2r H3 H4 H5 H6]
    · isplitl [H2l]; · iexact H2l
      isplitl [H2r]; · iexact H2r
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitl [Hg]; · iexists g; iexact Hg
    iempintro
  hin c := by
    have hc := dev_eq c d; subst hc
    dsimp only [tcPdats]
    rw [show (tcDats c (regCs c x2 x3 x4 x5 x6 c)).Φ 0 = tcΦ c from rfl]; unfold tcΦ
    iintro ⟨HX, -, Hr⟩
    isplitl [Hr]; · iexact Hr
    iexact HX
  hout c := by
    have hc := dev_eq c d; subst hc
    dsimp only [tcPdats]
    rw [Pipeline.ownSems0_none, show (tcDats c (regCs c x2 x3 x4 x5 x6 c)).Φ (Fin.last _) = tcΦ c from rfl]; unfold tcΦ
    iintro ⟨Hr, HX⟩
    isplitl [HX]; · iexact HX
    isplitr; · iempintro
    iexact Hr
  hexit c := by
    have hc := dev_eq c d; subst hc
    dsimp only [tcPdats]
    rw [regCs_self, tcArrays_exit]
    unfold regArrs
    have hjoin : iprop(((SparseCore.T c : Thread nD τ).loc main_v2 ↦{(fullShare : PosShare TreeShare).left} x2)
          ∗ ((SparseCore.T c : Thread nD τ).loc main_v2 ↦{(fullShare : PosShare TreeShare).right} x2))
        ⊢ ((((SparseCore.T c : Thread nD τ).loc main_v2 ↦{fullShare} x2)) : sProp 𝕄) :=
      (pointsTo_share (PosShare.mem_left_op_right fullShare)).2
    iintro ⟨⟨H2l, H2r, H3, H4, H5, H6⟩, HO, HY, -⟩
    ihave H2 := hjoin $$ [H2l H2r]
    · isplitl [H2l]; · iexact H2l
      iexact H2r
    imodintro
    isplitl [H2 H3 H4 H5 H6]
    · isplitl [H2]; · iexact H2
      isplitl [H3]; · iexact H3
      isplitl [H4]; · iexact H4
      isplitl [H5]; · iexact H5
      iexact H6
    isplitl [HY]; · iexact HY
    unfold Pipeline.Dat.owesAt Pipeline.owesWithin
    icases HO with ⟨%W', -, HO⟩; iexists W'; iexact HO

/-- The region's entry and exit states, read off the record. -/
theorem tcSeg_pre (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (g : PrngReg) (W : Waits sig (HIx 1)) (c : Dev nD) :
    (tcSeg d x2 x3 x4 x5 x6 g W).pre c
      = iprop(regArrs d x2 x3 x4 x5 x6 ∗ prngReg d g ∗ owes (SparseCore.T d : Thread nD τ) (0 : CellTallies nD τ sig (HIx 1)) W) := rfl
theorem tcSeg_post (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (g : PrngReg) (W : Waits sig (HIx 1)) (c : Dev nD) :
    (tcSeg d x2 x3 x4 x5 x6 g W).post c
      = iprop(regArrs d x2 x3 x4 x5 (tcFinal d (regC d x2 x3 x4 x5 x6)) ∗ (∃ r, prngReg d r)
          ∗ ∃ W', owes (SparseCore.T d : Thread nD τ) (0 : CellTallies nD τ sig (HIx 1)) W') := rfl

/-! ## The region's step -/

/-- The call as the extended body table sees it is the call of the certificate's table, lifted. -/
theorem tc_lift_step (d : Dev nD) (Q : PUnit → sProp 𝕄) :
    wp frame (wpE (D (F := F)) 𝒱 (SparseCore.T d : Thread nD τ) none) Set.univ (Prog.lift (.customCall (Pipeline.entry 0) ())) Q
      ⊢ wp frame (wpE ((K (F := F)).defs (D (F := F))) 𝒱 (SparseCore.T d : Thread nD τ) none) Set.univ
          (Prog.lift (.customCall (SparseCore.inner (Pipeline.entry 0)) ())) Q :=
  SparseCore.Cfg.wp_liftProg (K (F := F)) (D (F := F)) 𝒱 (SparseCore.T d : Thread nD τ) Set.univ none _ Q

/-- The staging cells of the pinned configurations are pairwise distinct. -/
theorem tcCellOf_inj : Function.Injective (Pipeline.cellOf (nD := nD) (τ := τ) (Pipeline.pin (pcfgs (F := F)) tcAdm)) := cellOf_inj

/-- THE REGION AS ONE STEP of the program's main function: from the thread's boundary, the five buffers held whole,
    the generator register, the core's tallies owing nothing, the level facts and the pipeline's ghost state, the call
    runs to the boundary, the buffers with the output at the closed form of the entry contents, the register at some
    state and the tallies still owing nothing. -/
theorem tc_region (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (g : PrngReg) (W : Waits sig (HIx 1)) (Q : PUnit → sProp 𝕄) :
    iprop((iprop(boundary (SparseCore.T d : Thread nD τ) ∗ regArrs d x2 x3 x4 x5 (tcFinal d (regC d x2 x3 x4 x5 x6))
            ∗ (∃ r, prngReg d r) ∗ (∃ W', owes (SparseCore.T d : Thread nD τ) (0 : CellTallies nD τ sig (HIx 1)) W')) -∗ Q ⟨⟩)
        ∗ boundary (SparseCore.T d : Thread nD τ) ∗ regArrs d x2 x3 x4 x5 x6 ∗ prngReg d g
        ∗ owes (SparseCore.T d : Thread nD τ) (0 : CellTallies nD τ sig (HIx 1)) W
        ∗ levAts (K (F := F)).L (K (F := F)).lev
        ∗ Pipeline.cellsGhost (Pipeline.pin (pcfgs (F := F)) (fun p => (cfgs p).toPCfg_adm)) EP 0 d
        ∗ Pipeline.toksInit (Pipeline.pin (pcfgs (F := F)) (fun p => (cfgs p).toPCfg_adm)) EP 0 d)
      ⊢ wp frame (wpE ((K (F := F)).defs (D (F := F))) 𝒱 (SparseCore.T d : Thread nD τ) none) Set.univ
          (Prog.lift (.customCall (SparseCore.inner (Pipeline.entry 0)) ())) Q := by
  have hstep := Pipeline.RegionSeg.wp (pcfgs (F := F)) tcAdm (tcPdats d x2 x3 x4 x5 x6) (none : HIx 1) tcCellOf_inj EP defs₀ 𝒱₀
    (K (F := F)).L (K (F := F)).lev (tcSeg d x2 x3 x4 x5 x6 g W) d none (fun u h => (Option.not_mem_none u h).elim)
    (α := PUnit) (fun _ => .ret ⟨⟩) Q
  rw [tcSeg_pre, tcSeg_post] at hstep
  refine BIBase.Entails.trans ?_ (tc_lift_step d Q)
  refine BIBase.Entails.trans ?_ hstep
  iintro ⟨HQ, Hb, Ha, Hg, HO, HL, Hc, Ht⟩
  isplitl [HQ]
  · iintro ⟨Hb, Ha, Hr, HO⟩
    rw [wp_ret]
    imodintro
    iapply HQ
    isplitl [Hb]; · iexact Hb
    isplitl [Ha]; · iexact Ha
    isplitl [Hr]; · iexact Hr
    iexact HO
  isplitl [Hb]; · iexact Hb
  isplitl [Ha Hg HO]
  · isplitl [Ha]; · iexact Ha
    isplitl [Hg]; · iexact Hg
    iexact HO
  isplitl [HL]; · iexact HL
  isplitl [Hc]; · iexact Hc
  iexact Ht

end Cert.KernelIdeal.Hand

end
-- ==== Proof.LaunchI.lean ====
/-
  The SparseCore program certified: from the tile kernel's task (run once at a symbolic grid point), the split of a
  core's holdings into its tasks', the launch element of the ghost state (the handshakes' rounds and the TensorCore
  pipeline's staging cells), and @main on the TensorCore — two host operations, the SparseCore call, two reshapes, the
  TensorCore call, a last reshape — every weakly fair execution of all the device's threads terminates without a
  fault, and the final memory holds the result array and the arguments at @main's last valuation.
-/
import proofs.«206720_g66460323938928_cont_9to1_m_1264_22_alg».proof.Proof.LaunchDefsI
import proofs.«206720_g66460323938928_cont_9to1_m_1264_22_alg».proof.Proof.TcRegionI
import Idealize.ShloMosaic.Lib.SparseCore.Launch
import Idealize.ShloMosaic.Lib.StableHlo.Run
import Idealize.ShloMosaic.Lib.Pipeline.Regions
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTokN shareTok shareDrop pointsTo_toks_split pointsTo_toks_join)
open Idealize.ShloMosaic.Tactic

variable {F : FTy → Type}

local notation "𝕄" => MT nD τ sig (HIx 1) (Elt F) ℕ UU ℕ

local notation "tblW" => (Memref.whole Cert.KernelIdeal.main_v0_scv : Memref Cert.KernelIdeal.sig Kind.scVector Space.hbm Cert.KernelIdeal.S500000x128 EltTy.f32)
local notation "idxW" => (Memref.whole Cert.KernelIdeal.main_v1_scv : Memref Cert.KernelIdeal.sig Kind.scVector Space.hbm Cert.KernelIdeal.S32768 EltTy.i32)
local notation "outW" => (Memref.whole Cert.KernelIdeal.main_v2_scv : Memref Cert.KernelIdeal.sig Kind.scVector Space.hbm Cert.KernelIdeal.S32768x128 EltTy.f32)
local notation "sIdx" => (Memref.whole Cert.KernelIdeal.cc0_scratch0 : Memref Cert.KernelIdeal.sig Kind.scVector Space.vmem Cert.KernelIdeal.S1024 EltTy.i32)
local notation "sB0" => (Memref.whole Cert.KernelIdeal.cc0_scratch1 : Memref Cert.KernelIdeal.sig Kind.scVector Space.vmem Cert.KernelIdeal.S128x128 EltTy.f32)
local notation "sB1" => (Memref.whole Cert.KernelIdeal.cc0_scratch2 : Memref Cert.KernelIdeal.sig Kind.scVector Space.vmem Cert.KernelIdeal.S128x128 EltTy.f32)

/-! ## The launch element -/

section Elem

/-- The one pipeline at its (trivially) admissible tables. -/
abbrev cfgsA : Fin 1 → Pipeline.Cfg sig Λ₀ := Pipeline.pin (pcfgs (F := F)) (fun p => (cfgs p).toPCfg_adm)
theorem hinjA : Function.Injective (Pipeline.cellOf (nD := nD) (τ := τ) (cfgsA (F := F))) := Gen.cellOf_inj

/-- The handshakes' rounds, the pipeline's staging cells' rounds, no transfer counted yet. -/
def u₀ : UU :=
  (initOf (K (F := F)).hsCells (K (F := F)).hsToks,
    (initOf (Pipeline.cells (cfgsA (F := F)) hinjA) (Pipeline.launchToks (cfgsA (F := F)) hinjA), 1))

/-- What @main's proof starts from beside the launch's deal: the pipeline's cells' ghost state and duty tokens. -/
def G (d : Dev nD) : sProp 𝕄 :=
  iprop(Pipeline.cellsGhost (cfgsA (F := F)) EP 0 d ∗ Pipeline.toksInit (cfgsA (F := F)) EP 0 d)

/-- The pipeline's component of the launch element, reached through the right factor's left. -/
theorem own_EP (x : UP) :
    (BI.own (((Emb.inl : Emb UP (UP × Counters)).trans (embR : Emb (UP × Counters) (MT nD τ sig (HIx 1) (Elt F) ℕ UU ℕ))) x) : sProp 𝕄)
      = BI.own (EP x) := rfl

theorem bigSep_emp' {I : Type} (s : Finset I) : (bigSep s fun _ => iprop(emp)) = (iprop(emp) : sProp 𝕄) := bigSep_emp_const s

variable (tb : (d : Dev nD) → Buf (Elt F) (tLoc d)) (ix : (d : Dev nD) → Buf (Elt F) (iLoc d)) (o₀ : (d : Dev nD) → Buf (Elt F) (oLoc d))
variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tb ix o₀).x q thr) := by
  unfold u₀
  iintro Hu
  ihave H := (ownU_pair _ _) $$ Hu
  icases H with ⟨HH, HR⟩
  ihave HR := (own_pair_emb embR _ _) $$ HR
  icases HR with ⟨HP, -⟩
  ihave HP := (Entails.of_eq (own_EP (F := F) _)) $$ HP
  imod (Pipeline.fund_ghost (cfgsA (F := F)) EP hinjA) $$ HP with ⟨Hg, Ht⟩
  imodintro
  isplitl [HH]; · iexact HH
  isplitl [Hg Ht]
  · unfold G
    rw [bigSep_sep']
    ihave Hg := (Entails.of_eq (bigSep_congr fun d _ =>
      bigSep_univ_of_subsingleton (Φ := fun p : Fin 1 => (Pipeline.cellsGhost (cfgsA (F := F)) EP p d : sProp 𝕄)) (0 : Fin 1))) $$ Hg
    ihave Ht := (Entails.of_eq (bigSep_congr fun d _ =>
      bigSep_univ_of_subsingleton (Φ := fun p : Fin 1 => (Pipeline.toksInit (cfgsA (F := F)) EP p d : sProp 𝕄)) (0 : Fin 1))) $$ Ht
    isplitl [Hg]
    · iexact Hg
    · iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Elem

/-! ## @main on the TensorCore -/

section Main

variable [FloatOps F] [∀ e, Nonempty (Elt F e)]
variable (m : (ℓ : Loc nD τ sig) → Buf (Elt F) ℓ) (ρ : Dev nD → PrngReg)

/-- What @main leaves the claim: its eleven arrays at their last values. -/
abbrev FIN (d : Dev nD) : sProp 𝕄 := held (SparseCore.T d) S11 (V6 m d)

abbrev PP : (K (F := F)).Pay (nD := nD) (Val := Elt F) (Name := ℕ) (U := UU) := P (tbV m) (ixV m) (o₀V m)

omit [FloatOps F] [∀ e, Nonempty (Elt F e)] in
/-- With one call every level is at most 7: any recorded set sits below 8. -/
theorem wbelow_any (d : Dev nD) (W : Waits sig (HIx 1)) : (K (F := F)).WBelow (SparseCore.T d) W (8 * 1) := by
  intro p _
  rcases hp : p.2 with _ | q
  · simp
  · have h1 := (K (F := F)).lev_some_le (SparseCore.T d, p.1) q
    have h2 := q.isLt
    omega

theorem st0_eq (d : Dev nD) :
    (bigSep Finset.univ fun c : Fin ((K (F := F)).nCore 0) => (PP m).st 0 d c)
      = bigSep Finset.univ fun c : Fin 2 => coreRes (tbV m) (ixV m) d c (o₀V m d) := rfl
theorem dn0_eq (d : Dev nD) :
    (bigSep Finset.univ fun c : Fin ((K (F := F)).nCore 0) => (PP m).dn 0 d c)
      = bigSep Finset.univ fun c : Fin 2 => coreRes (tbV m) (ixV m) d c (outAfter (tbV m) (ixV m) d) := rfl

/-- The whole arrays dealt to the two cores (the shares' remainders kept), and gathered back. -/
theorem core_deal (d : Dev nD) (fo : Buf (Elt F) (oLoc d)) :
    iprop((tLoc d ↦{fullShare} tbV m d) ∗ (iLoc d ↦{fullShare} ixV m d) ∗ (oLoc d ↦{fullShare} fo))
      ⊣⊢ (iprop((tLoc d ↦{shareDrop fullShare 2} tbV m d) ∗ (iLoc d ↦{shareDrop fullShare 2} ixV m d)
          ∗ bigSep Finset.univ fun c : Fin 2 => coreRes (tbV m) (ixV m) d c fo) : sProp 𝕄) := by
  unfold coreRes
  rw [bigSep_sep', bigSep_sep', out_split]
  constructor
  · iintro ⟨Ht, Hi, Ho⟩
    ihave Ht := (pointsTo_toks_split fullShare 2) $$ Ht
    icases Ht with ⟨Htr, Hts⟩
    ihave Hi := (pointsTo_toks_split fullShare 2) $$ Hi
    icases Hi with ⟨Hir, His⟩
    isplitl [Htr]; · iexact Htr
    isplitl [Hir]; · iexact Hir
    isplitl [Hts]; · iexact Hts
    isplitl [His]; · iexact His
    iexact Ho
  · iintro ⟨Htr, Hir, Hts, His, Ho⟩
    isplitl [Htr Hts]
    · iapply (pointsTo_toks_join fullShare 2); isplitl [Htr] <;> iassumption
    isplitl [Hir His]
    · iapply (pointsTo_toks_join fullShare 2); isplitl [Hir] <;> iassumption
    iexact Ho

set_option maxHeartbeats 4000000 in
/-- @main on device `d`'s TensorCore: the two operations before the call, the call (the arrays dealt to the cores and
    gathered back, the output at what the tasks left), the two reshapes, the TensorCore call, the last reshape. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held]
  simp only [main, wp_bind, wp_pure]
  iintro ⟨#Hctx, Hst, ⟨Hb, Hheld, -, Hprng⟩, Hcg, Hti⟩
  ihave #Hlv := ((K (F := F)).ctx_levAts (EH := EH) (P := PP m) κ) $$ Hctx
  -- the table reshaped, the index arrays concatenated
  iapply (wp_hlo_within 𝒱 (SparseCore.T d) none Set.univ (op := op0 (F := F)) (S := S11) op0_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := S11) op1_sub (V := (op0 (F := F)).result (V0 m d))) $$ [Hb Hheld]
  · isplitl [Hb]; · iexact Hb
    iexact Hheld
  iintro ⟨Hb, Hheld⟩
  rw [wp_ret]; imodintro
  ihave Hheld := (Entails.of_eq (show ((held (SparseCore.T d) S11 ((op1 (F := F)).result ((op0 (F := F)).result (V0 m d)))) : sProp 𝕄) = (held (SparseCore.T d) S11 (V2 m d)) from rfl)) $$ Hheld
  -- the call: the table, the index array and the output out of the set, dealt to the cores
  ihave Hh := (Entails.of_eq (held_take (SparseCore.T d) S11 (V2 m d) (b := rV2) (by decide))) $$ Hheld
  icases Hh with ⟨Ho, Hheld⟩
  ihave Hh := (Entails.of_eq (held_take (SparseCore.T d) (S11.erase rV2) (V2 m d) (b := rV1) (by decide))) $$ Hheld
  icases Hh with ⟨Hi, Hheld⟩
  ihave Hh := (Entails.of_eq (held_take (SparseCore.T d) ((S11.erase rV2).erase rV1) (V2 m d) (b := rV0) (by decide))) $$ Hheld
  icases Hh with ⟨Ht, Hheld⟩
  ihave Ht := (Entails.of_eq (show ((((SparseCore.T d : Thread nD τ).1, rV0) ↦{fullShare} V2 m d rV0) : sProp 𝕄) = (tLoc d ↦{fullShare} tbV m d) from rfl)) $$ Ht
  ihave Hi := (Entails.of_eq (show ((((SparseCore.T d : Thread nD τ).1, rV1) ↦{fullShare} V2 m d rV1) : sProp 𝕄) = (iLoc d ↦{fullShare} ixV m d) from rfl)) $$ Hi
  ihave Ho := (Entails.of_eq (show ((((SparseCore.T d : Thread nD τ).1, rV2) ↦{fullShare} V2 m d rV2) : sProp 𝕄) = (oLoc d ↦{fullShare} o₀V m d) from rfl)) $$ Ho
  ihave Hd := ((core_deal m d (o₀V m d)).1) $$ [Ht Hi Ho]
  · isplitl [Ht]; · iexact Ht
    isplitl [Hi]; · iexact Hi
    iexact Ho
  icases Hd with ⟨Htr, Hir, Hcores⟩
  iapply ((K (F := F)).wp_run (D (F := F)) 𝒱 (EH := EH) (P := PP m) κ d 0) $$ [Hst Hcores Hb Hheld Htr Hir Hprng Hcg Hti]
  isplitr; · iexact Hctx
  isplitl [Hst]; · iexact Hst
  isplitl [Hcores]
  · rw [st0_eq]; iexact Hcores
  iintro ⟨Hst, Hdn⟩
  ihave Hdn := (Entails.of_eq (dn0_eq m d)) $$ Hdn
  ihave Hc := ((core_deal m d (outAfter (tbV m) (ixV m) d)).2) $$ [Htr Hir Hdn]
  · isplitl [Htr]; · iexact Htr
    isplitl [Hir]; · iexact Hir
    iexact Hdn
  icases Hc with ⟨Ht, Hi, Ho⟩
  ihave Ht := (Entails.of_eq (show ((tLoc d ↦{fullShare} tbV m d) : sProp 𝕄) = (((SparseCore.T d : Thread nD τ).1, rV0) ↦{fullShare} V2 m d rV0) from rfl)) $$ Ht
  ihave Hi := (Entails.of_eq (show ((iLoc d ↦{fullShare} ixV m d) : sProp 𝕄) = (((SparseCore.T d : Thread nD τ).1, rV1) ↦{fullShare} V2 m d rV1) from rfl)) $$ Hi
  ihave Ho := (Entails.of_eq (show ((oLoc d ↦{fullShare} outAfter (tbV m) (ixV m) d) : sProp 𝕄) = (((SparseCore.T d : Thread nD τ).1, rV2) ↦{fullShare} (outAfter (tbV m) (ixV m) d : Buf (Elt F) (((SparseCore.T d : Thread nD τ).1, rV2) : Loc nD τ sig))) from rfl)) $$ Ho
  ihave Hheld := (Entails.of_eq (held_take (SparseCore.T d) ((S11.erase rV2).erase rV1) (V2 m d) (b := rV0) (by decide)).symm) $$ [Ht Hheld]
  · isplitl [Ht]; · iexact Ht
    iexact Hheld
  ihave Hheld := (Entails.of_eq (held_take (SparseCore.T d) (S11.erase rV2) (V2 m d) (b := rV1) (by decide)).symm) $$ [Hi Hheld]
  · isplitl [Hi]; · iexact Hi
    iexact Hheld
  ihave Hheld := (Entails.of_eq (held_put (SparseCore.T d) S11 (V2 m d) (b := rV2) (by decide) (outAfter (tbV m) (ixV m) d)).symm) $$ [Ho Hheld]
  · isplitl [Ho]; · iexact Ho
    iexact Hheld
  ihave Hheld := (Entails.of_eq (show ((held (SparseCore.T d) S11 (Function.update (V2 m d) rV2 (outAfter (tbV m) (ixV m) d))) : sProp 𝕄) = (held (SparseCore.T d) S11 (V2' m d)) from rfl)) $$ Hheld
  -- the index arrays as columns
  iapply (wp_hlo_within 𝒱 (SparseCore.T d) none Set.univ (op := op3 (F := F)) (S := S11) op3_sub (V := V2' m d)) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := S11) op4_sub (V := (op3 (F := F)).result (V2' m d))) $$ [Hb Hheld]
  · isplitl [Hb]; · iexact Hb
    iexact Hheld
  iintro ⟨Hb, Hheld⟩
  rw [wp_ret]; imodintro
  ihave Hheld := (Entails.of_eq (show ((held (SparseCore.T d) S11 ((op4 (F := F)).result ((op3 (F := F)).result (V2' m d)))) : sProp 𝕄) = (held (SparseCore.T d) S11 (V4 m d)) from rfl)) $$ Hheld
  -- the TensorCore call: its five arrays out of the set
  ihave Hh := (Entails.of_eq (held_take (SparseCore.T d) S11 (V4 m d) (b := rV5) (by decide))) $$ Hheld
  icases Hh with ⟨H6, Hheld⟩
  ihave Hh := (Entails.of_eq (held_take (SparseCore.T d) (S11.erase rV5) (V4 m d) (b := rA3) (by decide))) $$ Hheld
  icases Hh with ⟨H5, Hheld⟩
  ihave Hh := (Entails.of_eq (held_take (SparseCore.T d) ((S11.erase rV5).erase rA3) (V4 m d) (b := rV4) (by decide))) $$ Hheld
  icases Hh with ⟨H4, Hheld⟩
  ihave Hh := (Entails.of_eq (held_take (SparseCore.T d) (((S11.erase rV5).erase rA3).erase rV4) (V4 m d) (b := rV3) (by decide))) $$ Hheld
  icases Hh with ⟨H3, Hheld⟩
  ihave Hh := (Entails.of_eq (held_take (SparseCore.T d) ((((S11.erase rV5).erase rA3).erase rV4).erase rV3) (V4 m d) (b := rV2) (by decide))) $$ Hheld
  icases Hh with ⟨H2, Hheld⟩
  ihave H2 := (Entails.of_eq (show ((((SparseCore.T d : Thread nD τ).1, rV2) ↦{fullShare} V4 m d rV2) : sProp 𝕄) = ((SparseCore.T d : Thread nD τ).loc main_v2 ↦{fullShare} V4 m d rV2) from rfl)) $$ H2
  ihave H3 := (Entails.of_eq (show ((((SparseCore.T d : Thread nD τ).1, rV3) ↦{fullShare} V4 m d rV3) : sProp 𝕄) = ((SparseCore.T d : Thread nD τ).loc main_v3 ↦{fullShare} V4 m d rV3) from rfl)) $$ H3
  ihave H4 := (Entails.of_eq (show ((((SparseCore.T d : Thread nD τ).1, rV4) ↦{fullShare} V4 m d rV4) : sProp 𝕄) = ((SparseCore.T d : Thread nD τ).loc main_v4 ↦{fullShare} V4 m d rV4) from rfl)) $$ H4
  ihave H5 := (Entails.of_eq (show ((((SparseCore.T d : Thread nD τ).1, rA3) ↦{fullShare} V4 m d rA3) : sProp 𝕄) = ((SparseCore.T d : Thread nD τ).loc main_arg3 ↦{fullShare} V4 m d rA3) from rfl)) $$ H5
  ihave H6 := (Entails.of_eq (show ((((SparseCore.T d : Thread nD τ).1, rV5) ↦{fullShare} V4 m d rV5) : sProp 𝕄) = ((SparseCore.T d : Thread nD τ).loc main_v5 ↦{fullShare} V4 m d rV5) from rfl)) $$ H6
  unfold SparseCore.Cfg.tcSt
  icases Hst with ⟨⟨%W, %hW, HO⟩, Hat, Hrd, Hrs, Htoks⟩
  rw [(K (F := F)).Otc_end d (le_refl 1)]
  iapply (tc_region d (V4 m d rV2) (V4 m d rV3) (V4 m d rV4) (V4 m d rA3) (V4 m d rV5) (ρ d) W _) $$ [Hb Hheld H2 H3 H4 H5 H6 Hprng HO Hcg Hti Hat Hrd Hrs Htoks]
  isplitl [Hheld Hat Hrd Hrs Htoks]
  · unfold regArrs
    iintro ⟨Hb, ⟨H2, H3, H4, H5, H6⟩, -, ⟨%W', HO⟩⟩
    ihave H2 := (Entails.of_eq (show (((SparseCore.T d : Thread nD τ).loc main_v2 ↦{fullShare} V4 m d rV2) : sProp 𝕄) = (((SparseCore.T d : Thread nD τ).1, rV2) ↦{fullShare} V4 m d rV2) from rfl)) $$ H2
    ihave H3 := (Entails.of_eq (show (((SparseCore.T d : Thread nD τ).loc main_v3 ↦{fullShare} V4 m d rV3) : sProp 𝕄) = (((SparseCore.T d : Thread nD τ).1, rV3) ↦{fullShare} V4 m d rV3) from rfl)) $$ H3
    ihave H4 := (Entails.of_eq (show (((SparseCore.T d : Thread nD τ).loc main_v4 ↦{fullShare} V4 m d rV4) : sProp 𝕄) = (((SparseCore.T d : Thread nD τ).1, rV4) ↦{fullShare} V4 m d rV4) from rfl)) $$ H4
    ihave H5 := (Entails.of_eq (show (((SparseCore.T d : Thread nD τ).loc main_arg3 ↦{fullShare} V4 m d rA3) : sProp 𝕄) = (((SparseCore.T d : Thread nD τ).1, rA3) ↦{fullShare} V4 m d rA3) from rfl)) $$ H5
    ihave H6 := (Entails.of_eq (show (((SparseCore.T d : Thread nD τ).loc main_v5 ↦{fullShare} tcFinal d (regC d (V4 m d rV2) (V4 m d rV3) (V4 m d rV4) (V4 m d rA3) (V4 m d rV5))) : sProp 𝕄) = (((SparseCore.T d : Thread nD τ).1, rV5) ↦{fullShare} (tcFinal d (regC d (V4 m d rV2) (V4 m d rV3) (V4 m d rV4) (V4 m d rA3) (V4 m d rV5)) : Buf (Elt F) (((SparseCore.T d : Thread nD τ).1, rV5) : Loc nD τ sig))) from rfl)) $$ H6
    ihave Hheld := (Entails.of_eq (held_take (SparseCore.T d) ((((S11.erase rV5).erase rA3).erase rV4).erase rV3) (V4 m d) (b := rV2) (by decide)).symm) $$ [H2 Hheld]
    · isplitl [H2]; · iexact H2
      iexact Hheld
    ihave Hheld := (Entails.of_eq (held_take (SparseCore.T d) (((S11.erase rV5).erase rA3).erase rV4) (V4 m d) (b := rV3) (by decide)).symm) $$ [H3 Hheld]
    · isplitl [H3]; · iexact H3
      iexact Hheld
    ihave Hheld := (Entails.of_eq (held_take (SparseCore.T d) ((S11.erase rV5).erase rA3) (V4 m d) (b := rV4) (by decide)).symm) $$ [H4 Hheld]
    · isplitl [H4]; · iexact H4
      iexact Hheld
    ihave Hheld := (Entails.of_eq (held_take (SparseCore.T d) (S11.erase rV5) (V4 m d) (b := rA3) (by decide)).symm) $$ [H5 Hheld]
    · isplitl [H5]; · iexact H5
      iexact Hheld
    ihave Hheld := (Entails.of_eq (held_put (SparseCore.T d) S11 (V4 m d) (b := rV5) (by decide) (tcFinal d (regC d (V4 m d rV2) (V4 m d rV3) (V4 m d rV4) (V4 m d rA3) (V4 m d rV5)))).symm) $$ [H6 Hheld]
    · isplitl [H6]; · iexact H6
      iexact Hheld
    ihave Hheld := (Entails.of_eq (show ((held (SparseCore.T d) S11 (Function.update (V4 m d) rV5 (tcFinal d (regC d (V4 m d rV2) (V4 m d rV3) (V4 m d rV4) (V4 m d rA3) (V4 m d rV5))))) : sProp 𝕄) = (held (SparseCore.T d) S11 (V5 m d)) from rfl)) $$ Hheld
    -- the result as a vector
    iapply (wp_hlo_within 𝒱 (SparseCore.T d) none Set.univ (op := op6 (F := F)) (S := S11) op6_sub (V := V5 m d)) $$ [Hb Hheld]
    · isplitl [Hb]; · iexact Hb
      iexact Hheld
    iintro ⟨Hb, Hheld⟩
    rw [wp_ret]; imodintro
    ihave Hheld := (Entails.of_eq (show ((held (SparseCore.T d) S11 ((op6 (F := F)).result (V5 m d))) : sProp 𝕄) = (held (SparseCore.T d) S11 (V6 m d)) from rfl)) $$ Hheld
    imodintro
    isplitl [HO Hat Hrd Hrs Htoks]
    · isplitl [HO]
      · iexists W'; isplitr
        · ipureintro; exact wbelow_any d W'
        · iexact HO
      isplitl [Hat]; · iexact Hat
      isplitl [Hrd]; · iexact Hrd
      isplitl [Hrs]; · iexact Hrs
      iexact Htoks
    · iexact Hheld
  isplitl [Hb]; · iexact Hb
  isplitl [H2 H3 H4 H5 H6]
  · unfold regArrs
    isplitl [H2]; · iexact H2
    isplitl [H3]; · iexact H3
    isplitl [H4]; · iexact H4
    isplitl [H5]; · iexact H5
    iexact H6
  isplitl [Hprng]; · iexact Hprng
  isplitl [HO]; · iexact HO
  isplitr; · iexact Hlv
  isplitl [Hcg]; · iexact Hcg
  iexact Hti

end Main

/-! ## The tile kernel's obligation -/

section Obl

variable (tb : (d : Dev nD) → Buf (Elt F) (tLoc d)) (ix : (d : Dev nD) → Buf (Elt F) (iLoc d)) (o₀ : (d : Dev nD) → Buf (Elt F) (oLoc d))

/-- A task's holdings, as its body addresses them: the shares through the whole arrays' memrefs, the pieces through the
    body's own slices. -/
theorem tileRes_eq (d : Dev nD) (c : Fin 2) (i : Fin 16) (fo : Buf (Elt F) (oLoc d)) :
    (tileRes tb ix d c i fo : sProp 𝕄)
      = iprop(((tblW).view.loc (thrV d (coordsV c i)) ↦{qT c.val i.val} tb d) ∗ ((idxW).view.loc (thrV d (coordsV c i)) ↦{qT c.val i.val} ix d)
          ∗ ((oP0 (coordsV c i)).view.loc (thrV d (coordsV c i)) ↦[(oP0 (coordsV c i)).view.set]{fullShare} fo) ∗ ((oP1 (coordsV c i)).view.loc (thrV d (coordsV c i)) ↦[(oP1 (coordsV c i)).view.set]{fullShare} fo) ∗ ((oP2 (coordsV c i)).view.loc (thrV d (coordsV c i)) ↦[(oP2 (coordsV c i)).view.set]{fullShare} fo) ∗ ((oP3 (coordsV c i)).view.loc (thrV d (coordsV c i)) ↦[(oP3 (coordsV c i)).view.set]{fullShare} fo) ∗ ((oP4 (coordsV c i)).view.loc (thrV d (coordsV c i)) ↦[(oP4 (coordsV c i)).view.set]{fullShare} fo) ∗ ((oP5 (coordsV c i)).view.loc (thrV d (coordsV c i)) ↦[(oP5 (coordsV c i)).view.set]{fullShare} fo) ∗ ((oP6 (coordsV c i)).view.loc (thrV d (coordsV c i)) ↦[(oP6 (coordsV c i)).view.set]{fullShare} fo) ∗ ((oP7 (coordsV c i)).view.loc (thrV d (coordsV c i)) ↦[(oP7 (coordsV c i)).view.set]{fullShare} fo)) := by
  unfold tileRes
  rw [bigSep_fin8]
  rfl

variable [FloatOps F]

theorem defs₀_vector (c : Fin τ.nSC) (s : Fin τ.nSub) :
    defs₀ (F := F) (.scVector c s) 0 ()
      = SparseCore.onTile hcore0 Gen.hsub0 (fun c s => cc0_gather_k (coordsV c s)
          tblW (Memref.isWhole_whole _) idxW (Memref.isWhole_whole _) outW (Memref.isWhole_whole _)
          sIdx (Memref.isWhole_whole _) sB0 (Memref.isWhole_whole _) sB1 (Memref.isWhole_whole _)
          cc0_scratch3 cc0_scratch4 cc0_scoped0 cc0_scoped1 cc0_scoped2 cc0_scoped3 cc0_scoped4 cc0_scoped5 cc0_scoped6 cc0_scoped7 cc0_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every index word the call reads names a row of the original table. -/
def IdxOK : Prop := ∀ (d : Dev nD) (j : S32768.Idx), ((ix d : S32768.Idx → Elt F .i32) j).toNat < 1000000

theorem tileObl [∀ e, Nonempty (Elt F e)] (hF : (K (F := F)).Facts) (hix : IdxOK ix) :
    (K (F := F)).TileObl (D (F := F)) 𝒱 (P tb ix o₀) v₀ 0 := by
  intro d c i O W hO _ _
  simp only [show (P tb ix o₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((tile_body hF d (coordsV c i) (qT c.val i.val) (qT c.val i.val) (tb d) (ix d) (o₀ d) (hix d) O W hO).trans
    (wp_mono frame _ _ fun _ => BI.Entails.trans ?_ obl_post))
  · change (_ : sProp 𝕄) ⊢ _
    rw [show (P tb ix o₀).go 0 d c i = tileRes tb ix d c i (o₀ d) from rfl]
    iintro ⟨Hlv, -, Hgo, Hsb, Hss, HO⟩
    isplitl [Hlv]; · iexact Hlv
    isplitl [Hgo]
    · iapply (Entails.of_eq (tileRes_eq tb ix d c i (o₀ d))); iexact Hgo
    isplitl [Hsb]; · iexact Hsb
    isplitl [Hss]; · iexact Hss
    iexact HO
  · change (_ : sProp 𝕄) ⊢ _
    rw [show (P tb ix o₀).td 0 d c i = tileRes tb ix d c i (outAfter tb ix d) from rfl]
    iintro ⟨Htd, Hsb, Hss, HO⟩
    isplitl [Htd]
    · iapply (Entails.of_eq (tileRes_eq tb ix d c i (outAfter tb ix d)).symm); iexact Htd
    isplitl [Hsb]; · iexact Hsb
    isplitl [Hss]; · iexact Hss
    iexact HO

end Obl

/-! ## The program's run -/

section Run

variable [FloatOps F] [∀ e, Nonempty (Elt F e)]
variable (m : (ℓ : Loc nD τ sig) → Buf (Elt F) ℓ) (ρ : Dev nD → PrngReg)

/-- What the final state holds: the result and the four arguments at @main's last valuation. -/
def fq (d : Dev nD) (s' : Phys nD τ sig (Elt F)) : Prop :=
  s'.mem.mem ((SparseCore.T d : Thread nD τ).loc main_v6) = V6 m d rV6
  ∧ s'.mem.mem ((SparseCore.T d : Thread nD τ).loc main_arg0) = V6 m d rA0 ∧ s'.mem.mem ((SparseCore.T d : Thread nD τ).loc main_arg1) = V6 m d rA1
  ∧ s'.mem.mem ((SparseCore.T d : Thread nD τ).loc main_arg2) = V6 m d rA2 ∧ s'.mem.mem ((SparseCore.T d : Thread nD τ).loc main_arg3) = V6 m d rA3

theorem hfin (d : Dev nD) (s' : Phys nD τ sig (Elt F)) : iprop(FIN m d ∗ SI s') ⊢ (⌜fq m d s'⌝ : sProp 𝕄) := by
  unfold FIN
  rw [held_S11]
  iintro ⟨⟨Ha0, Ha1, Ha2, Ha3, -, -, -, -, -, -, Hv6⟩, HSI⟩
  ihave H := (persistent_entails_right (SI_pointsTo_agree (st := s') (ℓ := (SparseCore.T d : Thread nD τ).loc main_v6) (I := Finset.univ) (q := fullShare) (f := V6 m d rV6))) $$ [HSI Hv6]
  · isplitl [HSI] <;> iassumption
  icases H with ⟨%h6, HSI, -⟩
  ihave H := (persistent_entails_right (SI_pointsTo_agree (st := s') (ℓ := (SparseCore.T d : Thread nD τ).loc main_arg0) (I := Finset.univ) (q := fullShare) (f := V6 m d rA0))) $$ [HSI Ha0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := V6 m d rA1))) $$ [HSI Ha1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := V6 m d rA2))) $$ [HSI Ha2]
  · isplitl [HSI] <;> iassumption
  icases H with ⟨%h2, HSI, -⟩
  ihave H := (SI_pointsTo_agree (st := s') (ℓ := (SparseCore.T d : Thread nD τ).loc main_arg3) (I := Finset.univ) (q := fullShare) (f := V6 m d rA3)) $$ [HSI Ha3]
  · isplitl [HSI] <;> iassumption
  icases H with %h3
  ipureintro
  exact ⟨funext fun i => h6 i (Finset.mem_univ i), funext fun i => h0 i (Finset.mem_univ i), funext fun i => h1 i (Finset.mem_univ i),
    funext fun i => h2 i (Finset.mem_univ i), funext fun i => h3 i (Finset.mem_univ i)⟩

/-- The run's post: on every device the result array and the arguments at the last valuation. -/
def QC : PUnit × MemSt nD τ sig (Elt F) → Prop := fun r => ∀ c : Dev nD,
  r.2.mem ((SparseCore.T c : Thread nD τ).loc main_v6) = V6 m c rV6
  ∧ r.2.mem ((SparseCore.T c : Thread nD τ).loc main_arg0) = V6 m c rA0 ∧ r.2.mem ((SparseCore.T c : Thread nD τ).loc main_arg1) = V6 m c rA1
  ∧ r.2.mem ((SparseCore.T c : Thread nD τ).loc main_arg2) = V6 m c rA2 ∧ r.2.mem ((SparseCore.T c : Thread nD τ).loc main_arg3) = V6 m c rA3

/-- Every weakly fair execution of the device's threads — the TensorCore on @main, the sequencers and the vector
    subcores on their parts of the call — terminates without a fault, and leaves the result array and the arguments
    at @main's last valuation, provided every index word the call reads names a row of the table. -/
theorem run_main (hix : IdxOK (ixV m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (tbV m) (ixV m) (o₀V m) facts hix)
    (fun q _ => match q with | 0 => SparseCore.Cfg.VecSplit.of_plain (vecSplit (tbV m) (ixV m) (o₀V m)))
    m ρ main (G (F := F)) (FIN m) (u₀ (F := F)) (sep_elim_left.trans (hu₀ (tbV m) (ixV m) (o₀V m))) (hmain m ρ) (fq m) (hfin m) (QC m) (fun _ h => h)

end Run

end Cert.KernelIdeal.Hand

end
-- ==== Proof.ArchK.lean ====
/-
  The kernel's program as the launch theorem of a device with SparseCores sees it, and the ghost state of its
  proof: the handshakes' rounds (start, go, task done, done), the rounds of the one TensorCore pipeline's staging
  cells, and the counters of the transfers a tile issues and waits for itself. Stated at any float instance.
-/
import proofs.«206720_g66460323938928_cont_9to1_m_1264_22_alg».proof.Kernel
import proofs.«206720_g66460323938928_cont_9to1_m_1264_22_alg».proof.Proof.Gen.Kernel
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

example : CountersIn UU := inferInstance

end Cert.Kernel.Hand

end
-- ==== Proof.SlicesK.lean ====
/-
  The memory a vector subcore's task touches, spelt as the task's body slices it: its eight 128-row pieces of the
  gathered array, the eight 128-word slices of its index scratch, and its 1024 words of the index array. The task
  of core `c`, subcore `s` owns rows `2048 s + 1024 c + 128 k + [0, 128)`, `k < 8`, of the gathered array: the 256
  pieces over all tasks partition its 32768 rows.
-/
import proofs.«206720_g66460323938928_cont_9to1_m_1264_22_alg».proof.Proof.ArchK

noncomputable section

namespace Cert.Kernel.Hand

open Cert.Kernel Cert.Kernel.Gen
open Idealize.ShloMosaic
open Idealize.ShloMosaic.SparseCore (S V T)

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The vector subcore the grid point `L` runs on. -/
abbrev thrV (d : Dev nD) (L : grid0.Coords) : Thread nD τ := V d ((L 0).castLE hcore0) ((L 1).castLE hsub0)

abbrev oP0 (L : grid0.Coords) : Memref sig .scVector .hbm S128x128 .f32 := (Memref.whole main_v2_scv : Memref sig .scVector .hbm S32768x128 .f32).slice (Rect.unit (s := S32768x128) (k0_off2 L 0#32) S128x128.size (k0_off2_inb L 0)) (fun _ => rfl)
abbrev oP1 (L : grid0.Coords) : Memref sig .scVector .hbm S128x128 .f32 := (Memref.whole main_v2_scv : Memref sig .scVector .hbm S32768x128 .f32).slice (Rect.unit (s := S32768x128) (k0_off2 L 128#32) S128x128.size (k0_off2_inb L 1)) (fun _ => rfl)
abbrev oP2 (L : grid0.Coords) : Memref sig .scVector .hbm S128x128 .f32 := (Memref.whole main_v2_scv : Memref sig .scVector .hbm S32768x128 .f32).slice (Rect.unit (s := S32768x128) (k0_off2 L 256#32) S128x128.size (k0_off2_inb L 2)) (fun _ => rfl)
abbrev oP3 (L : grid0.Coords) : Memref sig .scVector .hbm S128x128 .f32 := (Memref.whole main_v2_scv : Memref sig .scVector .hbm S32768x128 .f32).slice (Rect.unit (s := S32768x128) (k0_off2 L 384#32) S128x128.size (k0_off2_inb L 3)) (fun _ => rfl)
abbrev oP4 (L : grid0.Coords) : Memref sig .scVector .hbm S128x128 .f32 := (Memref.whole main_v2_scv : Memref sig .scVector .hbm S32768x128 .f32).slice (Rect.unit (s := S32768x128) (k0_off2 L 512#32) S128x128.size (k0_off2_inb L 4)) (fun _ => rfl)
abbrev oP5 (L : grid0.Coords) : Memref sig .scVector .hbm S128x128 .f32 := (Memref.whole main_v2_scv : Memref sig .scVector .hbm S32768x128 .f32).slice (Rect.unit (s := S32768x128) (k0_off2 L 640#32) S128x128.size (k0_off2_inb L 5)) (fun _ => rfl)
abbrev oP6 (L : grid0.Coords) : Memref sig .scVector .hbm S128x128 .f32 := (Memref.whole main_v2_scv : Memref sig .scVector .hbm S32768x128 .f32).slice (Rect.unit (s := S32768x128) (k0_off2 L 768#32) S128x128.size (k0_off2_inb L 6)) (fun _ => rfl)
abbrev oP7 (L : grid0.Coords) : Memref sig .scVector .hbm S128x128 .f32 := (Memref.whole main_v2_scv : Memref sig .scVector .hbm S32768x128 .f32).slice (Rect.unit (s := S32768x128) (k0_off2 L 896#32) S128x128.size (k0_off2_inb L 7)) (fun _ => rfl)

abbrev iL0 : Memref sig .scVector .vmem S128 .i32 := (Memref.whole cc0_scratch0 : Memref sig .scVector .vmem S1024 .i32).slice (Rect.unit (s := S1024) ![0] S128.size inb_S1024_S128_0) (fun _ => rfl)
abbrev iL1 : Memref sig .scVector .vmem S128 .i32 := (Memref.whole cc0_scratch0 : Memref sig .scVector .vmem S1024 .i32).slice (Rect.unit (s := S1024) ![128] S128.size inb_S1024_S128_128) (fun _ => rfl)
abbrev iL2 : Memref sig .scVector .vmem S128 .i32 := (Memref.whole cc0_scratch0 : Memref sig .scVector .vmem S1024 .i32).slice (Rect.unit (s := S1024) ![256] S128.size inb_S1024_S128_256) (fun _ => rfl)
abbrev iL3 : Memref sig .scVector .vmem S128 .i32 := (Memref.whole cc0_scratch0 : Memref sig .scVector .vmem S1024 .i32).slice (Rect.unit (s := S1024) ![384] S128.size inb_S1024_S128_384) (fun _ => rfl)
abbrev iL4 : Memref sig .scVector .vmem S128 .i32 := (Memref.whole cc0_scratch0 : Memref sig .scVector .vmem S1024 .i32).slice (Rect.unit (s := S1024) ![512] S128.size inb_S1024_S128_512) (fun _ => rfl)
abbrev iL5 : Memref sig .scVector .vmem S128 .i32 := (Memref.whole cc0_scratch0 : Memref sig .scVector .vmem S1024 .i32).slice (Rect.unit (s := S1024) ![640] S128.size inb_S1024_S128_640) (fun _ => rfl)
abbrev iL6 : Memref sig .scVector .vmem S128 .i32 := (Memref.whole cc0_scratch0 : Memref sig .scVector .vmem S1024 .i32).slice (Rect.unit (s := S1024) ![768] S128.size inb_S1024_S128_768) (fun _ => rfl)
abbrev iL7 : Memref sig .scVector .vmem S128 .i32 := (Memref.whole cc0_scratch0 : Memref sig .scVector .vmem S1024 .i32).slice (Rect.unit (s := S1024) ![896] S128.size inb_S1024_S128_896) (fun _ => rfl)

/-- The tile's 1024 words of the index array, as the body slices them. -/
abbrev idxSl (L : grid0.Coords) : Memref sig .scVector .hbm S1024 .i32 :=
  (Memref.whole main_v1_scv : Memref sig .scVector .hbm S32768 .i32).slice (Rect.unit (s := S32768) (k0_off1 L) S1024.size (k0_off1_inb L)) (fun _ => rfl)

/-- The elements of piece `k` of the task at `L`. -/
def oSet (L : grid0.Coords) : Fin 8 → Finset S32768x128.Idx
  | 0 => (oP0 L).view.set | 1 => (oP1 L).view.set | 2 => (oP2 L).view.set | 3 => (oP3 L).view.set
  | 4 => (oP4 L).view.set | 5 => (oP5 L).view.set | 6 => (oP6 L).view.set | 7 => (oP7 L).view.set

/-- The same over (core, subcore, piece). -/
def oSetT (a : Fin (grid0.bound 0) × Fin (grid0.bound 1) × Fin 8) : Finset S32768x128.Idx := oSet (coordsV a.1 a.2.1) a.2.2

end Cert.Kernel.Hand

end
-- ==== Proof.SliceFactsK.lean ====
/-
  Facts about finite sets of array indices, none about a run.

  The eight 128-word slices of the 1024-word index scratch are intervals `[128 k, 128 k + 128)`, `k < 8`: carved one
  after another out of the whole they are each inside what the earlier ones left, and together they leave nothing.
  Piece `(c, s, k)` of the gathered array is the rows `2048 s + 1024 c + 128 k + [0, 128)` at every column; as
  `c < 2`, `s < 16`, `k < 8` the first rows `128 (16 s + 8 c + k)` run through the multiples of 128 below 32768 once
  each, so the 256 pieces are pairwise disjoint and cover the array.
-/
import proofs.«206720_g66460323938928_cont_9to1_m_1264_22_alg».proof.Proof.SlicesK

noncomputable section

namespace Cert.Kernel.Hand

open Cert.Kernel Cert.Kernel.Gen
open Idealize.ShloMosaic
open Idealize.ShloMosaic.SparseCore (S V T)

/-! ## The index scratch's slices -/

/-- The slice of the index scratch at offset `o` holds the indices from `o` to below `o + 128`. -/
theorem mem_scratch_slice (o : ℕ) (inb : ∀ a, (![o] : Fin 1 → ℕ) a + S128.size a ≤ S1024.size a) (y : S1024.Idx) :
    y ∈ ((Memref.whole cc0_scratch0 : Memref sig .scVector .vmem S1024 .i32).slice
        (Rect.unit (s := S1024) ![o] S128.size inb) (fun _ => rfl)).view.set
      ↔ o ≤ (y 0).val ∧ (y 0).val < o + 128 := by
  show y ∈ ((View.whole cc0_scratch0).slice (Rect.unit (s := S1024) ![o] S128.size inb)).set ↔ _
  rw [View.set_slice_whole, Rect.mem_set_unit]
  constructor
  · intro h; exact h 0
  · intro h a
    have ha : a = (0 : Fin 1) := Subsingleton.elim (α := Fin 1) a 0
    rw [ha]
    exact h

theorem mem_iL0 (y : S1024.Idx) : y ∈ (iL0).view.set ↔ 0 ≤ (y 0).val ∧ (y 0).val < 0 + 128 := mem_scratch_slice 0 _ y
theorem mem_iL1 (y : S1024.Idx) : y ∈ (iL1).view.set ↔ 128 ≤ (y 0).val ∧ (y 0).val < 128 + 128 := mem_scratch_slice 128 _ y
theorem mem_iL2 (y : S1024.Idx) : y ∈ (iL2).view.set ↔ 256 ≤ (y 0).val ∧ (y 0).val < 256 + 128 := mem_scratch_slice 256 _ y
theorem mem_iL3 (y : S1024.Idx) : y ∈ (iL3).view.set ↔ 384 ≤ (y 0).val ∧ (y 0).val < 384 + 128 := mem_scratch_slice 384 _ y
theorem mem_iL4 (y : S1024.Idx) : y ∈ (iL4).view.set ↔ 512 ≤ (y 0).val ∧ (y 0).val < 512 + 128 := mem_scratch_slice 512 _ y
theorem mem_iL5 (y : S1024.Idx) : y ∈ (iL5).view.set ↔ 640 ≤ (y 0).val ∧ (y 0).val < 640 + 128 := mem_scratch_slice 640 _ y
theorem mem_iL6 (y : S1024.Idx) : y ∈ (iL6).view.set ↔ 768 ≤ (y 0).val ∧ (y 0).val < 768 + 128 := mem_scratch_slice 768 _ y
theorem mem_iL7 (y : S1024.Idx) : y ∈ (iL7).view.set ↔ 896 ≤ (y 0).val ∧ (y 0).val < 896 + 128 := mem_scratch_slice 896 _ y

theorem hsub0 : (iL0).view.set ⊆ (Finset.univ : Finset S1024.Idx) := Finset.subset_univ _

theorem hsub1 : (iL1).view.set ⊆ ((Finset.univ : Finset S1024.Idx) \ (iL0).view.set) := by
  intro y hy
  have hk := (mem_iL1 y).1 hy
  have n0 : y ∉ (iL0).view.set := fun h => by have := (mem_iL0 y).1 h; omega
  exact Finset.mem_sdiff.2 ⟨Finset.mem_univ y, n0⟩

theorem hsub2 : (iL2).view.set ⊆ (((Finset.univ : Finset S1024.Idx) \ (iL0).view.set) \ (iL1).view.set) := by
  intro y hy
  have hk := (mem_iL2 y).1 hy
  have n0 : y ∉ (iL0).view.set := fun h => by have := (mem_iL0 y).1 h; omega
  have n1 : y ∉ (iL1).view.set := fun h => by have := (mem_iL1 y).1 h; omega
  exact Finset.mem_sdiff.2 ⟨Finset.mem_sdiff.2 ⟨Finset.mem_univ y, n0⟩, n1⟩

theorem hsub3 : (iL3).view.set ⊆ ((((Finset.univ : Finset S1024.Idx) \ (iL0).view.set) \ (iL1).view.set) \ (iL2).view.set) := by
  intro y hy
  have hk := (mem_iL3 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  exact Finset.mem_sdiff.2 ⟨Finset.mem_sdiff.2 ⟨Finset.mem_sdiff.2 ⟨Finset.mem_univ y, n0⟩, n1⟩, n2⟩

theorem hsub4 : (iL4).view.set ⊆ (((((Finset.univ : Finset S1024.Idx) \ (iL0).view.set) \ (iL1).view.set) \ (iL2).view.set) \ (iL3).view.set) := by
  intro y hy
  have hk := (mem_iL4 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  have n3 : y ∉ (iL3).view.set := fun h => by have := (mem_iL3 y).1 h; omega
  exact Finset.mem_sdiff.2 ⟨Finset.mem_sdiff.2 ⟨Finset.mem_sdiff.2 ⟨Finset.mem_sdiff.2 ⟨Finset.mem_univ y, n0⟩, n1⟩, n2⟩, n3⟩

theorem hsub5 : (iL5).view.set ⊆ ((((((Finset.univ : Finset S1024.Idx) \ (iL0).view.set) \ (iL1).view.set) \ (iL2).view.set) \ (iL3).view.set) \ (iL4).view.set) := by
  intro y hy
  have hk := (mem_iL5 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  have n3 : y ∉ (iL3).view.set := fun h => by have := (mem_iL3 y).1 h; omega
  have n4 : y ∉ (iL4).view.set := fun h => by have := (mem_iL4 y).1 h; omega
  exact Finset.mem_sdiff.2 ⟨Finset.mem_sdiff.2 ⟨Finset.mem_sdiff.2 ⟨Finset.mem_sdiff.2 ⟨Finset.mem_sdiff.2 ⟨Finset.mem_univ y, n0⟩, n1⟩, n2⟩, n3⟩, n4⟩

theorem hsub6 : (iL6).view.set ⊆ (((((((Finset.univ : Finset S1024.Idx) \ (iL0).view.set) \ (iL1).view.set) \ (iL2).view.set) \ (iL3).view.set) \ (iL4).view.set) \ (iL5).view.set) := by
  intro y hy
  have hk := (mem_iL6 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  have n3 : y ∉ (iL3).view.set := fun h => by have := (mem_iL3 y).1 h; omega
  have n4 : y ∉ (iL4).view.set := fun h => by have := (mem_iL4 y).1 h; omega
  have n5 : y ∉ (iL5).view.set := fun h => by have := (mem_iL5 y).1 h; omega
  exact Finset.mem_sdiff.2 ⟨Finset.mem_sdiff.2 ⟨Finset.mem_sdiff.2 ⟨Finset.mem_sdiff.2 ⟨Finset.mem_sdiff.2 ⟨Finset.mem_sdiff.2 ⟨Finset.mem_univ y, n0⟩, n1⟩, n2⟩, n3⟩, n4⟩, n5⟩

theorem hsub7 : (iL7).view.set ⊆ ((((((((Finset.univ : Finset S1024.Idx) \ (iL0).view.set) \ (iL1).view.set) \ (iL2).view.set) \ (iL3).view.set) \ (iL4).view.set) \ (iL5).view.set) \ (iL6).view.set) := by
  intro y hy
  have hk := (mem_iL7 y).1 hy
  have n0 : y ∉ (iL0).view.set := fun h => by have := (mem_iL0 y).1 h; omega
  have n1 : y ∉ (iL1).view.set := fun h => by have := (mem_iL1 y).1 h; omega
  have n2 : y ∉ (iL2).view.set := fun h => by have := (mem_iL2 y).1 h; omega
  have n3 : y ∉ (iL3).view.set := fun h => by have := (mem_iL3 y).1 h; omega
  have n4 : y ∉ (iL4).view.set := fun h => by have := (mem_iL4 y).1 h; omega
  have n5 : y ∉ (iL5).view.set := fun h => by have := (mem_iL5 y).1 h; omega
  have n6 : y ∉ (iL6).view.set := fun h => by have := (mem_iL6 y).1 h; omega
  exact Finset.mem_sdiff.2 ⟨Finset.mem_sdiff.2 ⟨Finset.mem_sdiff.2 ⟨Finset.mem_sdiff.2 ⟨Finset.mem_sdiff.2 ⟨Finset.mem_sdiff.2 ⟨Finset.mem_sdiff.2 ⟨Finset.mem_univ y, n0⟩, n1⟩, n2⟩, n3⟩, n4⟩, n5⟩, n6⟩

theorem rest_empty : ((((((((Finset.univ : Finset S1024.Idx) \ (iL0).view.set) \ (iL1).view.set) \ (iL2).view.set) \ (iL3).view.set) \ (iL4).view.set) \ (iL5).view.set) \ (iL6).view.set) \ (iL7).view.set = ∅ := by
  refine Finset.eq_empty_of_forall_notMem fun y hy => ?_
  have hlt : (y 0).val < 1024 := (y 0).isLt
  obtain ⟨hy, n7⟩ := Finset.mem_sdiff.1 hy
  obtain ⟨hy, n6⟩ := Finset.mem_sdiff.1 hy
  obtain ⟨hy, n5⟩ := Finset.mem_sdiff.1 hy
  obtain ⟨hy, n4⟩ := Finset.mem_sdiff.1 hy
  obtain ⟨hy, n3⟩ := Finset.mem_sdiff.1 hy
  obtain ⟨hy, n2⟩ := Finset.mem_sdiff.1 hy
  obtain ⟨hy, n1⟩ := Finset.mem_sdiff.1 hy
  obtain ⟨hy, n0⟩ := Finset.mem_sdiff.1 hy
  have a0 : ¬(0 ≤ (y 0).val ∧ (y 0).val < 0 + 128) := fun h => n0 ((mem_iL0 y).2 h)
  have a1 : ¬(128 ≤ (y 0).val ∧ (y 0).val < 128 + 128) := fun h => n1 ((mem_iL1 y).2 h)
  have a2 : ¬(256 ≤ (y 0).val ∧ (y 0).val < 256 + 128) := fun h => n2 ((mem_iL2 y).2 h)
  have a3 : ¬(384 ≤ (y 0).val ∧ (y 0).val < 384 + 128) := fun h => n3 ((mem_iL3 y).2 h)
  have a4 : ¬(512 ≤ (y 0).val ∧ (y 0).val < 512 + 128) := fun h => n4 ((mem_iL4 y).2 h)
  have a5 : ¬(640 ≤ (y 0).val ∧ (y 0).val < 640 + 128) := fun h => n5 ((mem_iL5 y).2 h)
  have a6 : ¬(768 ≤ (y 0).val ∧ (y 0).val < 768 + 128) := fun h => n6 ((mem_iL6 y).2 h)
  have a7 : ¬(896 ≤ (y 0).val ∧ (y 0).val < 896 + 128) := fun h => n7 ((mem_iL7 y).2 h)
  omega

/-! ## The gathered array's pieces -/

/-- A 128-row piece of the gathered array whose offsets are `(o, 0)` holds the indices of rows `o` to below `o + 128`, at
    every column. -/
theorem mem_piece (L : grid0.Coords) (w : BitVec 32) (inb : ∀ a, (k0_off2 L w) a + S128x128.size a ≤ S32768x128.size a)
    (o : ℕ) (ho : k0_off2 L w = ![o, 0]) (y : S32768x128.Idx) :
    y ∈ ((Memref.whole main_v2_scv : Memref sig .scVector .hbm S32768x128 .f32).slice
        (Rect.unit (s := S32768x128) (k0_off2 L w) S128x128.size inb) (fun _ => rfl)).view.set
      ↔ o ≤ (y 0).val ∧ (y 0).val < o + 128 := by
  show y ∈ ((View.whole main_v2_scv).slice (Rect.unit (s := S32768x128) (k0_off2 L w) S128x128.size inb)).set ↔ _
  rw [View.set_slice_whole, Rect.mem_set_unit]
  constructor
  · intro h
    have h0 := h (0 : Fin 2)
    rw [ho] at h0
    exact h0
  · intro h a
    rw [ho]
    match a with
    | ⟨0, _⟩ => exact h
    | ⟨1, _⟩ =>
      have h1 : (y (1 : Fin 2)).val < 128 := (y (1 : Fin 2)).isLt
      exact ⟨Nat.zero_le _, by show (y (1 : Fin 2)).val < 0 + 128; omega⟩

/-- Piece `k` of the task at `L`: rows `2048 (L 1) + 1024 (L 0) + 128 k` to below that plus 128. -/
theorem mem_oSet (L : grid0.Coords) (k : Fin 8) (y : S32768x128.Idx) :
    y ∈ oSet L k ↔ 2048 * (L 1).val + 1024 * (L 0).val + 128 * k.val ≤ (y 0).val
      ∧ (y 0).val < 2048 * (L 1).val + 1024 * (L 0).val + 128 * k.val + 128 := by
  match k with
  | ⟨0, _⟩ => exact mem_piece L _ _ _ (k0_off2_eq L ⟨0, by decide⟩) y
  | ⟨1, _⟩ => exact mem_piece L _ _ _ (k0_off2_eq L ⟨1, by decide⟩) y
  | ⟨2, _⟩ => exact mem_piece L _ _ _ (k0_off2_eq L ⟨2, by decide⟩) y
  | ⟨3, _⟩ => exact mem_piece L _ _ _ (k0_off2_eq L ⟨3, by decide⟩) y
  | ⟨4, _⟩ => exact mem_piece L _ _ _ (k0_off2_eq L ⟨4, by decide⟩) y
  | ⟨5, _⟩ => exact mem_piece L _ _ _ (k0_off2_eq L ⟨5, by decide⟩) y
  | ⟨6, _⟩ => exact mem_piece L _ _ _ (k0_off2_eq L ⟨6, by decide⟩) y
  | ⟨7, _⟩ => exact mem_piece L _ _ _ (k0_off2_eq L ⟨7, by decide⟩) y

/-- The first row of piece `(c, s, k)`. -/
theorem mem_oSetT (a : Fin (grid0.bound 0) × Fin (grid0.bound 1) × Fin 8) (y : S32768x128.Idx) :
    y ∈ oSetT a ↔ 2048 * a.2.1.val + 1024 * a.1.val + 128 * a.2.2.val ≤ (y 0).val
      ∧ (y 0).val < 2048 * a.2.1.val + 1024 * a.1.val + 128 * a.2.2.val + 128 :=
  mem_oSet (coordsV a.1 a.2.1) a.2.2 y

theorem oSet_disjoint : ∀ a ∈ (Finset.univ : Finset (Fin (grid0.bound 0) × Fin (grid0.bound 1) × Fin 8)),
    ∀ b ∈ (Finset.univ : Finset (Fin (grid0.bound 0) × Fin (grid0.bound 1) × Fin 8)), a ≠ b → Disjoint (oSetT a) (oSetT b) := by
  intro a _ b _ hab
  refine Finset.disjoint_left.2 fun y hya hyb => hab ?_
  have ha := (mem_oSetT a y).1 hya
  have hb := (mem_oSetT b y).1 hyb
  have hc : a.1.val < 2 := a.1.isLt
  have hc' : b.1.val < 2 := b.1.isLt
  have hk : a.2.2.val < 8 := a.2.2.isLt
  have hk' : b.2.2.val < 8 := b.2.2.isLt
  have e1 : a.1.val = b.1.val := by omega
  have e2 : a.2.1.val = b.2.1.val := by omega
  have e3 : a.2.2.val = b.2.2.val := by omega
  exact Prod.ext (Fin.ext e1) (Prod.ext (Fin.ext e2) (Fin.ext e3))

theorem oSet_cover : (Finset.univ : Finset (Fin (grid0.bound 0) × Fin (grid0.bound 1) × Fin 8)).biUnion oSetT = Finset.univ := by
  refine Finset.eq_univ_iff_forall.2 fun y => Finset.mem_biUnion.2 ?_
  have hy : (y 0).val < 32768 := (y 0).isLt
  refine ⟨(⟨(y 0).val % 2048 / 1024, by show (y 0).val % 2048 / 1024 < 2; omega⟩,
    ⟨(y 0).val / 2048, by show (y 0).val / 2048 < 16; omega⟩,
    ⟨(y 0).val % 1024 / 128, by omega⟩), Finset.mem_univ _, (mem_oSetT _ y).2 ?_⟩
  show 2048 * ((y 0).val / 2048) + 1024 * ((y 0).val % 2048 / 1024) + 128 * ((y 0).val % 1024 / 128) ≤ (y 0).val
    ∧ (y 0).val < 2048 * ((y 0).val / 2048) + 1024 * ((y 0).val % 2048 / 1024) + 128 * ((y 0).val % 1024 / 128) + 128
  omega

end Cert.Kernel.Hand

end
-- ==== Proof.TileDefsK.lean ====
/-
  What a vector subcore's task computes, as terms of the arrays it reads. The task copies its 1024 words of the index
  array into its scratch (`landed`), halves each (`halved`: a pair of 64-wide table rows shares one 128-wide row of the
  reshaped table), and gathers, 128 at a time, the rows of the reshaped table those halves name into rows
  `base + 128 k + [0, 128)` of the output. So the output, as ONE function of the table and the index array, holds at
  row `n` the table's row `idx[n] / 2` (`gathered`).
-/
import proofs.«206720_g66460323938928_cont_9to1_m_1264_22_alg».proof.Proof.SliceFactsK
import Idealize.ShloMosaic.Lib.SparseCore.Stream
import Idealize.ShloMosaic.Lib.ValueIdx

noncomputable section

namespace Cert.Kernel.Hand

open Cert.Kernel Cert.Kernel.Gen
open Idealize.ShloMosaic Idealize.ShloMosaic.ValueIdx
open Idealize.ShloMosaic.SparseCore (S V T)

variable {F : FTy → Type} [FloatOps F]

/-- The reshaped table as a gather's source: the whole of it, as the body slices it. -/
abbrev tblSl : Memref sig .scVector .hbm S500000x128 .f32 :=
  (Memref.whole main_v0_scv : Memref sig .scVector .hbm S500000x128 .f32).slice (Rect.unit (s := S500000x128) ![0, 0] S500000x128.size inb_S500000x128_S500000x128_0_0) (fun _ => rfl)

/-- What the copy of the tile's words lands in the index scratch. -/
def landed (d : Dev nD) (L : grid0.Coords) (ia : Buf (Elt F) ((Memref.whole main_v1_scv : Memref sig .scVector .hbm S32768 .i32).view.loc (thrV d L))) : IVec S1024 32 :=
  ReadAs.same.apply (View.read (Elt F) (idxSl L).view ia)

/-- The index scratch after the sixty-four shifts: every landed word halved. -/
def halved (d : Dev nD) (L : grid0.Coords) (ia : Buf (Elt F) ((Memref.whole main_v1_scv : Memref sig .scVector .hbm S32768 .i32).view.loc (thrV d L))) : IVec S1024 32 :=
  shrui (landed d L ia) (broadcast S1024 1#32)

/-- The output as one function of the reshaped table and the index array: row `n` is the table's row `idx[n] / 2`
    (total: the row number reduced modulo the table's 500000 rows, which on an index word below `10^6` changes nothing). -/
def gathered (tbl : S500000x128.Idx → Elt F .f32) (ia : S32768.Idx → Elt F .i32) : S32768x128.Idx → Elt F .f32 :=
  fun y => tbl (ix2 (⟨((ia (ix1 (⟨(y 0).val, (y 0).isLt⟩ : Fin 32768))).toNat / 2) % 500000, Nat.mod_lt _ (by decide)⟩ : Fin 500000)
    (⟨(y 1).val, (y 1).isLt⟩ : Fin 128))

/-- The payload of the gather over the `k`-th list slice, as the body's run spells it. -/
def gpay0 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL0).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL0).view (halved d L ia)) rfl hin)
def gpay1 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL1).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL1).view (halved d L ia)) rfl hin)
def gpay2 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL2).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL2).view (halved d L ia)) rfl hin)
def gpay3 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL3).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL3).view (halved d L ia)) rfl hin)
def gpay4 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL4).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL4).view (halved d L ia)) rfl hin)
def gpay5 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL5).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL5).view (halved d L ia)) rfl hin)
def gpay6 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL6).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL6).view (halved d L ia)) rfl hin)
def gpay7 (d : Dev nD) (L : grid0.Coords) (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (hin : ∀ x, ((iL7).view.read (Elt F) (halved d L ia) x).toNat < S500000x128.size gathers_S500000x128_S128x128.axis) : S128x128.Idx → Elt F .f32 :=
  SparseCore.gatherPayload gathers_S500000x128_S128x128 (View.read (Elt F) (tblSl).view tbl) (SparseCore.rows (View.read (Elt F) (iL7).view (halved d L ia)) rfl hin)

end Cert.Kernel.Hand

end
-- ==== Proof.TileValueK.lean ====
/-
  The value a vector subcore's task writes, as lemmas about terms; none about a run.

  Every word of the index array is below `10^6`, so its half is below the reshaped table's 500000 rows: each list the
  gathers read is in range. A buffer whose newest write is of the whole buffer reads back that write. And piece `k` of
  the task at `L`, at what the copy of the `k`-th gathered block wrote, is the one whole-array function `gathered`:
  row `2048 (L 1) + 1024 (L 0) + 128 k + j` holds the table's row `idx[that row] / 2`.
-/
import proofs.«206720_g66460323938928_cont_9to1_m_1264_22_alg».proof.Proof.TileDefsK
import Idealize.ShloMosaic.Lib.Writes

noncomputable section

namespace Cert.Kernel.Hand

open Cert.Kernel Cert.Kernel.Gen
open Idealize.ShloMosaic Idealize.ShloMosaic.ValueIdx
open Idealize.ShloMosaic.SparseCore (S V T)

variable {F : FTy → Type} [FloatOps F]

/-! ## The halved words are in range -/

/-- A logical shift right by one halves the word's number. -/
theorem shrui_one_toNat (w : BitVec 32) : (IntOp.shrui .vector w 1#32).toNat = w.toNat / 2 := by
  unfold IntOp.shrui
  rw [if_pos (by decide), BitVec.ushiftRight_eq', BitVec.toNat_ushiftRight]
  show w.toNat >>> 1 = w.toNat / 2
  rw [Nat.shiftRight_eq_div_pow]

/-- Each landed word is a word of the index array. -/
theorem landed_lt (d : Dev nD) (L : grid0.Coords)
    (ia : Buf (Elt F) ((Memref.whole main_v1_scv : Memref sig .scVector .hbm S32768 .i32).view.loc (thrV d L)))
    (hr : ∀ j, (ia j).toNat < 1000000) (i : S1024.Idx) : (landed d L ia i).toNat < 1000000 :=
  hr ((idxSl L).view.emb i)

/-- Each halved word is below 500000. -/
theorem halved_lt (d : Dev nD) (L : grid0.Coords)
    (ia : Buf (Elt F) ((Memref.whole main_v1_scv : Memref sig .scVector .hbm S32768 .i32).view.loc (thrV d L)))
    (hr : ∀ j, (ia j).toNat < 1000000) (i : S1024.Idx) : (halved d L ia i).toNat < 500000 := by
  have h := landed_lt d L ia hr i
  show (IntOp.shrui .vector (landed d L ia i) 1#32).toNat < 500000
  rw [shrui_one_toNat]
  omega

theorem hin0_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL0).view.read (Elt F) (halved d L ia) x).toNat < S500000x128.size gathers_S500000x128_S128x128.axis :=
  fun x => halved_lt d L ia hr ((iL0).view.emb x)

theorem hin1_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL1).view.read (Elt F) (halved d L ia) x).toNat < S500000x128.size gathers_S500000x128_S128x128.axis :=
  fun x => halved_lt d L ia hr ((iL1).view.emb x)

theorem hin2_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL2).view.read (Elt F) (halved d L ia) x).toNat < S500000x128.size gathers_S500000x128_S128x128.axis :=
  fun x => halved_lt d L ia hr ((iL2).view.emb x)

theorem hin3_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL3).view.read (Elt F) (halved d L ia) x).toNat < S500000x128.size gathers_S500000x128_S128x128.axis :=
  fun x => halved_lt d L ia hr ((iL3).view.emb x)

theorem hin4_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL4).view.read (Elt F) (halved d L ia) x).toNat < S500000x128.size gathers_S500000x128_S128x128.axis :=
  fun x => halved_lt d L ia hr ((iL4).view.emb x)

theorem hin5_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL5).view.read (Elt F) (halved d L ia) x).toNat < S500000x128.size gathers_S500000x128_S128x128.axis :=
  fun x => halved_lt d L ia hr ((iL5).view.emb x)

theorem hin6_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL6).view.read (Elt F) (halved d L ia) x).toNat < S500000x128.size gathers_S500000x128_S128x128.axis :=
  fun x => halved_lt d L ia hr ((iL6).view.emb x)

theorem hin7_of_range (d : Dev nD) (L : grid0.Coords)
    (ia : Buf (Elt F) ((Memref.whole main_v1_scv : Memref sig .scVector .hbm S32768 .i32).view.loc (thrV d L)))
    (hr : ∀ j, (ia j).toNat < 1000000) :
    ∀ x, ((iL7).view.read (Elt F) (halved d L ia) x).toNat < S500000x128.size gathers_S500000x128_S128x128.axis :=
  fun x => halved_lt d L ia hr ((iL7).view.emb x)

/-! ## A whole write read back -/

/-- The first gather buffer, its newest write one of the whole buffer, reads back that write. -/
theorem same_read_whole1
    (f0 : BufTy.Contents (Elt F) (Memref.whole cc0_scratch1 : Memref sig .scVector .vmem S128x128 .f32).view.ty)
    (g : S128x128.Idx → Elt F .f32) (rest : List (View.Piece (Elt F) cc0_scratch1.ty.shape cc0_scratch1.ty.elt)) :
    ReadAs.same.apply (View.read (Elt F) (Memref.whole cc0_scratch1 : Memref sig .scVector .vmem S128x128 .f32).view
      ((Memref.whole cc0_scratch1 : Memref sig .scVector .vmem S128x128 .f32).view.writes (Elt F) f0
        (⟨Rect.whole cc0_scratch1.ty.shape, g⟩ :: rest))) = g := by
  funext x
  have h := View.read_writes_cons_emb (Memref.whole cc0_scratch1 : Memref sig .scVector .vmem S128x128 .f32).view f0
    (Rect.whole cc0_scratch1.ty.shape) g rest x
  rw [Rect.emb_whole_apply] at h
  exact h

/-- The second gather buffer, its newest write one of the whole buffer, reads back that write. -/
theorem same_read_whole2
    (f0 : BufTy.Contents (Elt F) (Memref.whole cc0_scratch2 : Memref sig .scVector .vmem S128x128 .f32).view.ty)
    (g : S128x128.Idx → Elt F .f32) (rest : List (View.Piece (Elt F) cc0_scratch2.ty.shape cc0_scratch2.ty.elt)) :
    ReadAs.same.apply (View.read (Elt F) (Memref.whole cc0_scratch2 : Memref sig .scVector .vmem S128x128 .f32).view
      ((Memref.whole cc0_scratch2 : Memref sig .scVector .vmem S128x128 .f32).view.writes (Elt F) f0
        (⟨Rect.whole cc0_scratch2.ty.shape, g⟩ :: rest))) = g := by
  funext x
  have h := View.read_writes_cons_emb (Memref.whole cc0_scratch2 : Memref sig .scVector .vmem S128x128 .f32).view f0
    (Rect.whole cc0_scratch2.ty.shape) g rest x
  rw [Rect.emb_whole_apply] at h
  exact h

/-! ## A piece at what the copy of a gathered block wrote -/

/-- One write of a whole view's shape, at the element under index `x`, leaves the payload at `x`. -/
theorem writes_whole_emb {κ : Kind} {sp : Space} {s : Shape} {e : EltTy} (v : View sig κ sp s e)
    (f : v.ty.Contents (Elt F)) (g : s.Idx → Elt F e) (x : s.Idx) :
    v.writes (Elt F) f [⟨Rect.whole s, g⟩] (v.emb x) = _root_.cast (congrArg (Elt F) v.elt_eq.symm) (g x) := by
  rw [View.writes_singleton]
  have h := View.write_emb_of_mem (v := v.slice (Rect.whole s)) f g (Finset.mem_univ x)
  rw [View.emb_slice] at h
  have hx : ((Rect.whole s).emb.trans v.emb) x = v.emb x := by
    show v.emb ((Rect.whole s).emb x) = v.emb x
    rw [Rect.emb_whole_apply]
  rw [hx] at h
  exact h

/-- The coordinate of a rank-1 index at a row-major position is the position. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- Two rank-2 indices with equal coordinates are equal. -/
theorem idx2_ext {n0 n1 : ℕ} (i j : (⟨2, ![n0, n1]⟩ : Shape).Idx) (h0 : (i 0).val = (j 0).val) (h1 : (i 1).val = (j 1).val) :
    i = j := by
  funext a
  match a with
  | ⟨0, _⟩ => exact Fin.ext h0
  | ⟨1, _⟩ => exact Fin.ext h1

/-- Two rank-1 indices with equal coordinates are equal. -/
theorem idx1_ext {n : ℕ} (i j : (⟨1, ![n]⟩ : Shape).Idx) (h0 : (i 0).val = (j 0).val) : i = j := by
  funext a
  match a with
  | ⟨0, _⟩ => exact Fin.ext h0

/-- The piece of the gathered array at the offsets `k0_off2 L w`. -/
abbrev pieceAt (L : grid0.Coords) (w : BitVec 32) (inb : ∀ a, (k0_off2 L w) a + S128x128.size a ≤ S32768x128.size a) :
    Memref sig .scVector .hbm S128x128 .f32 :=
  (Memref.whole main_v2_scv : Memref sig .scVector .hbm S32768x128 .f32).slice
    (Rect.unit (s := S32768x128) (k0_off2 L w) S128x128.size inb) (fun _ => rfl)

/-- The slice of the index scratch at offset `p`. -/
abbrev listAt (p : ℕ) (inbL : ∀ a, (![p] : Fin 1 → ℕ) a + S128.size a ≤ S1024.size a) : Memref sig .scVector .vmem S128 .i32 :=
  (Memref.whole cc0_scratch0 : Memref sig .scVector .vmem S1024 .i32).slice (Rect.unit (s := S1024) ![p] S128.size inbL) (fun _ => rfl)

/-- The piece whose offsets are `(2048 (L 1) + 1024 (L 0) + p, 0)`, at what one write of the whole of it left when the
    payload is the gather over the list slice at offset `p` of the halved words, is `gathered`. -/
theorem piece_value_gen (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (w : BitVec 32) (inb : ∀ a, (k0_off2 L w) a + S128x128.size a ≤ S32768x128.size a)
    (p : ℕ) (inbL : ∀ a, (![p] : Fin 1 → ℕ) a + S128.size a ≤ S1024.size a)
    (ho : k0_off2 L w = ![2048 * (L 1).val + 1024 * (L 0).val + p, 0])
    (hin : ∀ x, ((listAt p inbL).view.read (Elt F) (halved d L ia) x).toNat
          < S500000x128.size gathers_S500000x128_S128x128.axis) :
    ∀ y ∈ (pieceAt L w inb).view.set,
      ((pieceAt L w inb).view.writes (Elt F) fo
          [⟨Rect.whole S128x128, SparseCore.gatherPayload gathers_S500000x128_S128x128 (View.read (Elt F) (tblSl).view tbl)
            (SparseCore.rows (View.read (Elt F) (listAt p inbL).view (halved d L ia)) rfl hin)⟩]) y
        = gathered tbl ia y := by
  intro y hy
  obtain ⟨x, -, rfl⟩ := Finset.mem_map.mp hy
  refine (writes_whole_emb (pieceAt L w inb).view fo _ x).trans ?_
  show tbl _ = tbl _
  refine congrArg tbl (idx2_ext (n0 := 500000) (n1 := 128) _ _ ?_ ?_)
  · -- the row: the halved word the list names for row `x 0`
    have hax := Shape.Gathers.idx_axis gathers_S500000x128_S128x128
      (SparseCore.rows (View.read (Elt F) (listAt p inbL).view (halved d L ia)) rfl hin) x
    have hI0 : ((((listAt p inbL).view.emb (S128.rowMajor.symm ((x (0 : Fin 2)).cast rfl)) : S1024.Idx)) 0).val = p + (x 0).val := by
      show p + 1 * ((S128.rowMajor.symm ((x (0 : Fin 2)).cast rfl)) 0).val = _
      rw [rowMajor_symm_val_one, Nat.one_mul]
      rfl
    -- the index array's word under that landed word is the word at the piece's own row
    have hJ : ((idxSl L).view.emb ((listAt p inbL).view.emb (S128.rowMajor.symm ((x (0 : Fin 2)).cast rfl))) : S32768.Idx)
        = ix1 (⟨((pieceAt L w inb).view.emb x 0).val, ((pieceAt L w inb).view.emb x 0).isLt⟩ : Fin 32768) := by
      refine idx1_ext _ _ ?_
      show k0_off1 L 0 + 1 * (((listAt p inbL).view.emb (S128.rowMajor.symm ((x (0 : Fin 2)).cast rfl)) : S1024.Idx) 0).val
        = k0_off2 L w 0 + 1 * (x 0).val
      rw [hI0, k0_off1_eq, ho]
      show 2048 * (L 1).val + 1024 * (L 0).val + 1 * (p + (x 0).val) = 2048 * (L 1).val + 1024 * (L 0).val + p + 1 * (x 0).val
      omega
    have hL : (tblSl.view.emb (gathers_S500000x128_S128x128.idx
          (SparseCore.rows (View.read (Elt F) (listAt p inbL).view (halved d L ia)) rfl hin) x) 0).val
        = (ia ((idxSl L).view.emb ((listAt p inbL).view.emb (S128.rowMajor.symm ((x (0 : Fin 2)).cast rfl))))).toNat / 2 := by
      show 0 + 1 * (gathers_S500000x128_S128x128.idx
          (SparseCore.rows (View.read (Elt F) (listAt p inbL).view (halved d L ia)) rfl hin) x gathers_S500000x128_S128x128.axis).val = _
      rw [hax]
      show 0 + 1 * (IntOp.shrui .vector (landed d L ia ((listAt p inbL).view.emb (S128.rowMajor.symm ((x (0 : Fin 2)).cast rfl)))) 1#32).toNat = _
      rw [shrui_one_toNat, Nat.zero_add, Nat.one_mul]
      rfl
    rw [hL, hJ]
    -- below 500000, so reducing modulo the table's rows changes nothing
    have hlt := hr (ix1 (⟨((pieceAt L w inb).view.emb x 0).val, ((pieceAt L w inb).view.emb x 0).isLt⟩ : Fin 32768))
    show _ = (ia (ix1 (⟨((pieceAt L w inb).view.emb x 0).val, ((pieceAt L w inb).view.emb x 0).isLt⟩ : Fin 32768))).toNat / 2 % 500000
    rw [Nat.mod_eq_of_lt (by omega)]
  · -- the column is the index's own
    generalize SparseCore.rows (View.read (Elt F) (listAt p inbL).view (halved d L ia)) rfl hin = R
    have hz := Shape.Gathers.idx_of_ne gathers_S500000x128_S128x128 R x (1 : Fin 2) (by decide)
    have hp : k0_off2 L w 1 = 0 := by rw [ho]; rfl
    show 0 + 1 * (gathers_S500000x128_S128x128.idx R x 1).val = k0_off2 L w 1 + 1 * (x 1).val
    rw [hz, hp]
    rfl

/-! ## The eight pieces of a task -/

theorem piece_value0 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL0).view.read (Elt F) (halved d L ia) x).toNat < S500000x128.size gathers_S500000x128_S128x128.axis) :
    ∀ y ∈ (oP0 L).view.set,
      ((oP0 L).view.writes (Elt F) fo [⟨Rect.whole S128x128, gpay0 d L tbl ia hin⟩]) y = gathered tbl ia y :=
  piece_value_gen d L tbl ia fo hr 0#32 (k0_off2_inb L 0) 0 inb_S1024_S128_0 (k0_off2_eq L ⟨0, by decide⟩) hin

theorem piece_value1 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL1).view.read (Elt F) (halved d L ia) x).toNat < S500000x128.size gathers_S500000x128_S128x128.axis) :
    ∀ y ∈ (oP1 L).view.set,
      ((oP1 L).view.writes (Elt F) fo [⟨Rect.whole S128x128, gpay1 d L tbl ia hin⟩]) y = gathered tbl ia y :=
  piece_value_gen d L tbl ia fo hr 128#32 (k0_off2_inb L 1) 128 inb_S1024_S128_128 (k0_off2_eq L ⟨1, by decide⟩) hin

theorem piece_value2 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL2).view.read (Elt F) (halved d L ia) x).toNat < S500000x128.size gathers_S500000x128_S128x128.axis) :
    ∀ y ∈ (oP2 L).view.set,
      ((oP2 L).view.writes (Elt F) fo [⟨Rect.whole S128x128, gpay2 d L tbl ia hin⟩]) y = gathered tbl ia y :=
  piece_value_gen d L tbl ia fo hr 256#32 (k0_off2_inb L 2) 256 inb_S1024_S128_256 (k0_off2_eq L ⟨2, by decide⟩) hin

theorem piece_value3 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL3).view.read (Elt F) (halved d L ia) x).toNat < S500000x128.size gathers_S500000x128_S128x128.axis) :
    ∀ y ∈ (oP3 L).view.set,
      ((oP3 L).view.writes (Elt F) fo [⟨Rect.whole S128x128, gpay3 d L tbl ia hin⟩]) y = gathered tbl ia y :=
  piece_value_gen d L tbl ia fo hr 384#32 (k0_off2_inb L 3) 384 inb_S1024_S128_384 (k0_off2_eq L ⟨3, by decide⟩) hin

theorem piece_value4 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL4).view.read (Elt F) (halved d L ia) x).toNat < S500000x128.size gathers_S500000x128_S128x128.axis) :
    ∀ y ∈ (oP4 L).view.set,
      ((oP4 L).view.writes (Elt F) fo [⟨Rect.whole S128x128, gpay4 d L tbl ia hin⟩]) y = gathered tbl ia y :=
  piece_value_gen d L tbl ia fo hr 512#32 (k0_off2_inb L 4) 512 inb_S1024_S128_512 (k0_off2_eq L ⟨4, by decide⟩) hin

theorem piece_value5 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL5).view.read (Elt F) (halved d L ia) x).toNat < S500000x128.size gathers_S500000x128_S128x128.axis) :
    ∀ y ∈ (oP5 L).view.set,
      ((oP5 L).view.writes (Elt F) fo [⟨Rect.whole S128x128, gpay5 d L tbl ia hin⟩]) y = gathered tbl ia y :=
  piece_value_gen d L tbl ia fo hr 640#32 (k0_off2_inb L 5) 640 inb_S1024_S128_640 (k0_off2_eq L ⟨5, by decide⟩) hin

theorem piece_value6 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL6).view.read (Elt F) (halved d L ia) x).toNat < S500000x128.size gathers_S500000x128_S128x128.axis) :
    ∀ y ∈ (oP6 L).view.set,
      ((oP6 L).view.writes (Elt F) fo [⟨Rect.whole S128x128, gpay6 d L tbl ia hin⟩]) y = gathered tbl ia y :=
  piece_value_gen d L tbl ia fo hr 768#32 (k0_off2_inb L 6) 768 inb_S1024_S128_768 (k0_off2_eq L ⟨6, by decide⟩) hin

theorem piece_value7 (d : Dev nD) (L : grid0.Coords)
    (tbl : Buf (Elt F) ((Memref.whole main_v0_scv : Memref sig .scVector .hbm S500000x128 .f32).view.loc (thrV d L)))
    (ia : Buf (Elt F) ((Memref.whole main_v1_scv : Memref sig .scVector .hbm S32768 .i32).view.loc (thrV d L)))
    (fo : Buf (Elt F) ((Memref.whole main_v2_scv : Memref sig .scVector .hbm S32768x128 .f32).view.loc (thrV d L)))
    (hr : ∀ j, (ia j).toNat < 1000000)
    (hin : ∀ x, ((iL7).view.read (Elt F) (halved d L ia) x).toNat < S500000x128.size gathers_S500000x128_S128x128.axis) :
    ∀ y ∈ (oP7 L).view.set,
      ((oP7 L).view.writes (Elt F) fo [⟨Rect.whole S128x128, gpay7 d L tbl ia hin⟩]) y = gathered tbl ia y :=
  piece_value_gen d L tbl ia fo hr 896#32 (k0_off2_inb L 7) 896 inb_S1024_S128_896 (k0_off2_eq L ⟨7, by decide⟩) hin

end Cert.Kernel.Hand

end
-- ==== Proof.TileBodyK.lean ====
/-
  A vector subcore's task, run once at a symbolic grid point. The task copies its 1024 index words into a scratch,
  halves each of them in place (sixty-four 16-lane pieces), and then, for each of its eight chunks of 128 words, gathers
  the 128 table rows the halves name into one of two buffers and copies that buffer out to its 128 rows of the output;
  the next chunk's gather is issued before the previous one is waited for, so two gathers read the table at once, each
  on a semaphore and a buffer of its own.

  What is proved: holding a share of the table, a share of the index array and its eight pieces of the output, the task
  runs to its end without a fault, waits only on semaphores of its own, gives back its scratch and semaphores, and
  leaves each of its pieces at the ONE whole-array function `gathered` (row `n` of the output is the table's row
  `idx[n] / 2`). The scratch after the shifts is read back as one function (`halved`) by the cover of its sixty-four
  pieces; each gather's list is in range because every index word is below `10^6`.
-/
import proofs.«206720_g66460323938928_cont_9to1_m_1264_22_alg».proof.Proof.TileValueK
import proofs.«206720_g66460323938928_cont_9to1_m_1264_22_alg».proof.Proof.Gen.Kernel.Skeleton
import Idealize.ShloMosaic.Lib.SparseCore.Ops
import Idealize.ShloMosaic.Lib.Pipeline.FrameBody
import Idealize.ShloMosaic.Lib.Pipeline.Value
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tblW" => (Memref.whole Cert.Kernel.main_v0_scv : Memref Cert.Kernel.sig Kind.scVector Space.hbm Cert.Kernel.S500000x128 EltTy.f32)
local notation "idxW" => (Memref.whole Cert.Kernel.main_v1_scv : Memref Cert.Kernel.sig Kind.scVector Space.hbm Cert.Kernel.S32768 EltTy.i32)
local notation "outW" => (Memref.whole Cert.Kernel.main_v2_scv : Memref Cert.Kernel.sig Kind.scVector Space.hbm Cert.Kernel.S32768x128 EltTy.f32)
local notation "sIdx" => (Memref.whole Cert.Kernel.cc0_scratch0 : Memref Cert.Kernel.sig Kind.scVector Space.vmem Cert.Kernel.S1024 EltTy.i32)
local notation "sB0" => (Memref.whole Cert.Kernel.cc0_scratch1 : Memref Cert.Kernel.sig Kind.scVector Space.vmem Cert.Kernel.S128x128 EltTy.f32)
local notation "sB1" => (Memref.whole Cert.Kernel.cc0_scratch2 : Memref Cert.Kernel.sig Kind.scVector Space.vmem Cert.Kernel.S128x128 EltTy.f32)

omit [FloatOps F] in
/-- The subcore's eleven DMA semaphores are among its own cells: they are them, at zero, and the rest. -/
theorem ownSems0_V' (d : Dev nD) (L : grid0.Coords) :
    (ownSems0 (thrV d L) : sProp 𝕄)
      = iprop(semVal ((thrV d L, SemLoc.dma cc0_scratch3.sem) : GSem nD τ sig) 0 ∗ semVal ((thrV d L, SemLoc.dma cc0_scratch4.sem) : GSem nD τ sig) 0 ∗ semVal ((thrV d L, SemLoc.dma cc0_scoped0.sem) : GSem nD τ sig) 0 ∗ semVal ((thrV d L, SemLoc.dma cc0_scoped1.sem) : GSem nD τ sig) 0 ∗ semVal ((thrV d L, SemLoc.dma cc0_scoped2.sem) : GSem nD τ sig) 0 ∗ semVal ((thrV d L, SemLoc.dma cc0_scoped3.sem) : GSem nD τ sig) 0 ∗ semVal ((thrV d L, SemLoc.dma cc0_scoped4.sem) : GSem nD τ sig) 0 ∗ semVal ((thrV d L, SemLoc.dma cc0_scoped5.sem) : GSem nD τ sig) 0 ∗ semVal ((thrV d L, SemLoc.dma cc0_scoped6.sem) : GSem nD τ sig) 0 ∗ semVal ((thrV d L, SemLoc.dma cc0_scoped7.sem) : GSem nD τ sig) 0 ∗ semVal ((thrV d L, SemLoc.dma cc0_scoped8.sem) : GSem nD τ sig) 0
          ∗ bigSep ((((((((((((ownCells (thrV d L)).erase ((thrV d L, SemLoc.dma cc0_scratch3.sem) : GSem nD τ sig)).erase ((thrV d L, SemLoc.dma cc0_scratch4.sem) : GSem nD τ sig)).erase ((thrV d L, SemLoc.dma cc0_scoped0.sem) : GSem nD τ sig)).erase ((thrV d L, SemLoc.dma cc0_scoped1.sem) : GSem nD τ sig)).erase ((thrV d L, SemLoc.dma cc0_scoped2.sem) : GSem nD τ sig)).erase ((thrV d L, SemLoc.dma cc0_scoped3.sem) : GSem nD τ sig)).erase ((thrV d L, SemLoc.dma cc0_scoped4.sem) : GSem nD τ sig)).erase ((thrV d L, SemLoc.dma cc0_scoped5.sem) : GSem nD τ sig)).erase ((thrV d L, SemLoc.dma cc0_scoped6.sem) : GSem nD τ sig)).erase ((thrV d L, SemLoc.dma cc0_scoped7.sem) : GSem nD τ sig)).erase ((thrV d L, SemLoc.dma cc0_scoped8.sem) : GSem nD τ sig)) fun g => semVal g 0) := by
  unfold SparseCore.Cfg.ownSems0
  rw [SparseCore.bigSep_erase' ((mem_ownCells (g := ((thrV d L, SemLoc.dma cc0_scratch3.sem) : GSem nD τ sig))).mpr ⟨rfl, by show (SemLoc.dma cc0_scratch3.sem : SemLoc sig).isScoped .scVector = true; decide⟩),
    SparseCore.bigSep_erase' (Finset.mem_erase.mpr ⟨fun e => absurd (Prod.mk.inj e).2 (by decide), (mem_ownCells (g := ((thrV d L, SemLoc.dma cc0_scratch4.sem) : GSem nD τ sig))).mpr ⟨rfl, by show (SemLoc.dma cc0_scratch4.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := ((thrV d L, SemLoc.dma cc0_scoped0.sem) : GSem nD τ sig))).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped1.sem) : GSem nD τ sig))).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped2.sem) : GSem nD τ sig))).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped3.sem) : GSem nD τ sig))).mpr ⟨rfl, by show (SemLoc.dma cc0_scoped3.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped4.sem) : GSem nD τ sig))).mpr ⟨rfl, by show (SemLoc.dma cc0_scoped4.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped5.sem) : GSem nD τ sig))).mpr ⟨rfl, by show (SemLoc.dma cc0_scoped5.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped6.sem) : GSem nD τ sig))).mpr ⟨rfl, by show (SemLoc.dma cc0_scoped6.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped7.sem) : GSem nD τ sig))).mpr ⟨rfl, by show (SemLoc.dma cc0_scoped7.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := ((thrV d L, SemLoc.dma cc0_scoped8.sem) : GSem nD τ sig))).mpr ⟨rfl, by show (SemLoc.dma cc0_scoped8.sem : SemLoc sig).isScoped .scVector = true; decide⟩⟩⟩⟩⟩⟩⟩⟩⟩⟩⟩)]

omit [FloatOps F] in
/-- The three scratch buffers are among the subcore's own: they are them, at some contents, and the rest. -/
theorem ownBufs_V' (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f)
          ∗ bigSep ((((ownRefs (τ := τ) (.scVector ((L 0).castLE hcore0) ((L 1).castLE Gen.hsub0))).erase ((Proc.scVector ((L 0).castLE hcore0) ((L 1).castLE Gen.hsub0)).devRef cc0_scratch0)).erase ((Proc.scVector ((L 0).castLE hcore0) ((L 1).castLE Gen.hsub0)).devRef cc0_scratch1)).erase ((Proc.scVector ((L 0).castLE hcore0) ((L 1).castLE Gen.hsub0)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE Gen.hsub0)) (b := ((Proc.scVector ((L 0).castLE hcore0) ((L 1).castLE Gen.hsub0)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector ((L 0).castLE hcore0) ((L 1).castLE Gen.hsub0)) (b := ((Proc.scVector ((L 0).castLE hcore0) ((L 1).castLE Gen.hsub0)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector ((L 0).castLE hcore0) ((L 1).castLE Gen.hsub0)) (b := ((Proc.scVector ((L 0).castLE hcore0) ((L 1).castLE Gen.hsub0)).devRef cc0_scratch2)) rfl⟩⟩)]

omit [FloatOps F] in
/-- A wait at index `none` recorded beyond `W` keeps "every recorded pair is in `W` or at `none`". -/
theorem ins_ok {thr' : SemLoc sig} {W W' : Waits sig (HIx 1)} (h : ∀ p ∈ W', p ∈ W ∨ p.2 = none) :
    ∀ p ∈ insert (thr', (default : HIx 1)) W', p ∈ W ∨ p.2 = none := by
  intro p hp
  rcases Finset.mem_insert.mp hp with rfl | hp
  · exact .inr rfl
  · exact h p hp

set_option maxHeartbeats 16000000 in
/-- The task of the vector subcore at grid point `L`: from a share of the reshaped table, a share of the index array
    and its eight pieces of the output, it ends holding the same shares and the pieces at the one whole-array
    function `gathered`, its scratch and semaphores given back, every wait of its own at index `none`. -/
theorem tile_body [∀ e, Nonempty (Elt F e)] (hF : (K (F := F)).Facts) (d : Dev nD) (L : grid0.Coords) (q qi : PosShare TreeShare)
    (tbl : Buf (Elt F) ((tblW).view.loc (thrV d L))) (ia : Buf (Elt F) ((idxW).view.loc (thrV d L))) (fo : Buf (Elt F) ((outW).view.loc (thrV d L)))
    (hr : ∀ j, (ia j).toNat < 1000000)
    (O : CellTallies nD τ sig (HIx 1)) (W : Waits sig (HIx 1)) (hO : ∀ g, O g none = 0) :
    iprop(levAts (K (F := F)).L (K (F := F)).lev
        ∗ (((tblW).view.loc (thrV d L) ↦{q} tbl) ∗ ((idxW).view.loc (thrV d L) ↦{qi} ia)
          ∗ ((oP0 L).view.loc (thrV d L) ↦[(oP0 L).view.set]{fullShare} fo) ∗ ((oP1 L).view.loc (thrV d L) ↦[(oP1 L).view.set]{fullShare} fo) ∗ ((oP2 L).view.loc (thrV d L) ↦[(oP2 L).view.set]{fullShare} fo) ∗ ((oP3 L).view.loc (thrV d L) ↦[(oP3 L).view.set]{fullShare} fo) ∗ ((oP4 L).view.loc (thrV d L) ↦[(oP4 L).view.set]{fullShare} fo) ∗ ((oP5 L).view.loc (thrV d L) ↦[(oP5 L).view.set]{fullShare} fo) ∗ ((oP6 L).view.loc (thrV d L) ↦[(oP6 L).view.set]{fullShare} fo) ∗ ((oP7 L).view.loc (thrV d L) ↦[(oP7 L).view.set]{fullShare} fo))
        ∗ scopedBufs (thrV d L) ∗ scopedSems0 (thrV d L) ∗ owes (thrV d L) O W)
      ⊢ wp frame (wpE (defs₀ (F := F)) 𝒱₀ (thrV d L) none) Set.univ
          (cc0_gather_k L tblW (Memref.isWhole_whole _) idxW (Memref.isWhole_whole _) outW (Memref.isWhole_whole _)
            sIdx (Memref.isWhole_whole _) sB0 (Memref.isWhole_whole _) sB1 (Memref.isWhole_whole _)
            cc0_scratch3 cc0_scratch4 cc0_scoped0 cc0_scoped1 cc0_scoped2 cc0_scoped3 cc0_scoped4 cc0_scoped5 cc0_scoped6 cc0_scoped7 cc0_scoped8)
          fun _ => (iprop((((tblW).view.loc (thrV d L) ↦{q} tbl) ∗ ((idxW).view.loc (thrV d L) ↦{qi} ia)
          ∗ ((oP0 L).view.loc (thrV d L) ↦[(oP0 L).view.set]{fullShare} (gathered tbl ia)) ∗ ((oP1 L).view.loc (thrV d L) ↦[(oP1 L).view.set]{fullShare} (gathered tbl ia)) ∗ ((oP2 L).view.loc (thrV d L) ↦[(oP2 L).view.set]{fullShare} (gathered tbl ia)) ∗ ((oP3 L).view.loc (thrV d L) ↦[(oP3 L).view.set]{fullShare} (gathered tbl ia)) ∗ ((oP4 L).view.loc (thrV d L) ↦[(oP4 L).view.set]{fullShare} (gathered tbl ia)) ∗ ((oP5 L).view.loc (thrV d L) ↦[(oP5 L).view.set]{fullShare} (gathered tbl ia)) ∗ ((oP6 L).view.loc (thrV d L) ↦[(oP6 L).view.set]{fullShare} (gathered tbl ia)) ∗ ((oP7 L).view.loc (thrV d L) ↦[(oP7 L).view.set]{fullShare} (gathered tbl ia)))
            ∗ scopedBufs (thrV d L) ∗ scopedSems0 (thrV d L) ∗ ∃ W', ⌜∀ p ∈ W', p ∈ W ∨ p.2 = none⌝ ∗ owes (thrV d L) O W') : sProp 𝕄) := by
  simp only [cc0_gather_k_eq_skeleton]; unfold cc0_gather_k_skel
  rw [(K (F := F)).scopedBufs_V hF d _ _, SparseCore.Cfg.scopedSems0_V (Val := Elt F) d _ _, ownSems0_V', ownBufs_V']
  iintro ⟨#Hlv, ⟨Ht, Hi, Ho0, Ho1, Ho2, Ho3, Ho4, Ho5, Ho6, Ho7⟩, ⟨⟨%fs, Hs⟩, ⟨%f0, Hb0⟩, ⟨%f1, Hb1⟩, Hbufs⟩, ⟨Hm0, Hm1, Hm2, Hm3, Hm4, Hm5, Hm6, Hm7, Hm8, Hm9, Hm10, Hsems⟩, HO⟩
  ihave Hmw := ((K (F := F)).mayWaits_none (thr := (thrV d L)) hO) $$ Hlv
  ihave Ht := ((pointsTo_share (PosShare.mem_left_op_right q)).1) $$ Ht
  icases Ht with ⟨Ht, Ht2⟩
  ihave Ht := (Entails.of_eq (rfl : ((tblW).view.loc (thrV d L) ↦{q.left} tbl : sProp 𝕄) = (tblW).view.loc (thrV d L) ↦{q.left} tbl)) $$ Ht
  ihave Ht2 := (Entails.of_eq (rfl : ((tblW).view.loc (thrV d L) ↦{q.right} tbl : sProp 𝕄) = (tblW).view.loc (thrV d L) ↦{q.right} tbl)) $$ Ht2
  ihave Hi := (Entails.of_eq (rfl : ((idxW).view.loc (thrV d L) ↦{qi} ia : sProp 𝕄) = (idxW).view.loc (thrV d L) ↦{qi} ia)) $$ Hi
  ihave Ho0 := (Entails.of_eq (rfl : ((oP0 L).view.loc (thrV d L) ↦[(oP0 L).view.set]{fullShare} fo : sProp 𝕄) = (oP0 L).view.loc (thrV d L) ↦[(oP0 L).view.set]{fullShare} fo)) $$ Ho0
  ihave Ho1 := (Entails.of_eq (rfl : ((oP1 L).view.loc (thrV d L) ↦[(oP1 L).view.set]{fullShare} fo : sProp 𝕄) = (oP1 L).view.loc (thrV d L) ↦[(oP1 L).view.set]{fullShare} fo)) $$ Ho1
  ihave Ho2 := (Entails.of_eq (rfl : ((oP2 L).view.loc (thrV d L) ↦[(oP2 L).view.set]{fullShare} fo : sProp 𝕄) = (oP2 L).view.loc (thrV d L) ↦[(oP2 L).view.set]{fullShare} fo)) $$ Ho2
  ihave Ho3 := (Entails.of_eq (rfl : ((oP3 L).view.loc (thrV d L) ↦[(oP3 L).view.set]{fullShare} fo : sProp 𝕄) = (oP3 L).view.loc (thrV d L) ↦[(oP3 L).view.set]{fullShare} fo)) $$ Ho3
  ihave Ho4 := (Entails.of_eq (rfl : ((oP4 L).view.loc (thrV d L) ↦[(oP4 L).view.set]{fullShare} fo : sProp 𝕄) = (oP4 L).view.loc (thrV d L) ↦[(oP4 L).view.set]{fullShare} fo)) $$ Ho4
  ihave Ho5 := (Entails.of_eq (rfl : ((oP5 L).view.loc (thrV d L) ↦[(oP5 L).view.set]{fullShare} fo : sProp 𝕄) = (oP5 L).view.loc (thrV d L) ↦[(oP5 L).view.set]{fullShare} fo)) $$ Ho5
  ihave Ho6 := (Entails.of_eq (rfl : ((oP6 L).view.loc (thrV d L) ↦[(oP6 L).view.set]{fullShare} fo : sProp 𝕄) = (oP6 L).view.loc (thrV d L) ↦[(oP6 L).view.set]{fullShare} fo)) $$ Ho6
  ihave Ho7 := (Entails.of_eq (rfl : ((oP7 L).view.loc (thrV d L) ↦[(oP7 L).view.set]{fullShare} fo : sProp 𝕄) = (oP7 L).view.loc (thrV d L) ↦[(oP7 L).view.set]{fullShare} fo)) $$ Ho7
  ihave Hs := (Entails.of_eq (rfl : ((sIdx).view.loc (thrV d L) ↦{fullShare} fs : sProp 𝕄) = (sIdx).view.loc (thrV d L) ↦{fullShare} fs)) $$ Hs
  ihave Hb0 := (Entails.of_eq (rfl : ((sB0).view.loc (thrV d L) ↦{fullShare} f0 : sProp 𝕄) = (sB0).view.loc (thrV d L) ↦{fullShare} f0)) $$ Hb0
  ihave Hb1 := (Entails.of_eq (rfl : ((sB1).view.loc (thrV d L) ↦{fullShare} f1 : sProp 𝕄) = (sB1).view.loc (thrV d L) ↦{fullShare} f1)) $$ Hb1
  sl_exec
  have hS : (sIdx).view.writes (Elt F) (sIdx).view.junk (tile_body.sl.Hs_64 d L ia fs) = halved d L ia := by
    refine (show (sIdx).view.writes (Elt F) (sIdx).view.junk (tile_body.sl.Hs_64 d L ia fs) = View.canon (tile_body.sl.Hs_64 d L ia fs) from
      View.read_writes_junk_eq_canon (Val := Elt F) (sIdx).view (tile_body.sl.Hs_64 d L ia fs)).trans ?_
    funext y
    refine View.canon_apply_of_pieces (Val := Elt F) (e := EltTy.i32) (halved d L ia) _ ?_ y ?_
    · unfold tile_body.sl.Hs_64
      simp only [List.forall_mem_cons, List.not_mem_nil, IsEmpty.forall_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals
        intro x
        sl_unfold_run_names
        simp only [shapeCast_self, View.readAt_apply, Memref.view_whole, View.read_whole, View.write_whole_univ]
        rfl
    · exact View.cover_of_tiledL (s := S1024) (Val := Elt F) (e := EltTy.i32) _ S16.size (by sl_kernel_rfl) y
  rw [hS]
  have hin0 := hin0_of_range d L ia hr
  have hin1 := hin1_of_range d L ia hr
  have hin2 := hin2_of_range d L ia hr
  have hin3 := hin3_of_range d L ia hr
  have hin4 := hin4_of_range d L ia hr
  have hin5 := hin5_of_range d L ia hr
  have hin6 := hin6_of_range d L ia hr
  have hin7 := hin7_of_range d L ia hr
  sl_exec
  sl_step
  isplitl [Ht Ht2 Hi Ho0 Ho1 Ho2 Ho3 Ho4 Ho5 Ho6 Ho7]
  · isplitl [Ht Ht2]
    · iapply ((pointsTo_share (PosShare.mem_left_op_right q)).2)
      isplitl [Ht] <;> iassumption
    isplitl [Hi]; · iexact Hi
    isplitl [Ho0]
    · iapply (Entails.of_eq (pointsTo_congr (q := fullShare)
        (f := (oP0 L).view.writes (Elt F) fo [⟨Rect.whole S128x128, tile_body.sl.dma0_1 d L tbl ia f0 hin0⟩]) (g := gathered tbl ia)
        (fun i hi => by
          rw [show (tile_body.sl.dma0_1 d L tbl ia f0 hin0) = gpay0 d L tbl ia hin0 from by unfold tile_body.sl.dma0_1; exact same_read_whole1 _ _ _]
          exact piece_value0 d L tbl ia fo hr hin0 i hi)))
      iexact Ho0
    isplitl [Ho1]
    · iapply (Entails.of_eq (pointsTo_congr (q := fullShare)
        (f := (oP1 L).view.writes (Elt F) fo [⟨Rect.whole S128x128, tile_body.sl.dma0_2 d L tbl ia f1 hin1⟩]) (g := gathered tbl ia)
        (fun i hi => by
          rw [show (tile_body.sl.dma0_2 d L tbl ia f1 hin1) = gpay1 d L tbl ia hin1 from by unfold tile_body.sl.dma0_2; exact same_read_whole2 _ _ _]
          exact piece_value1 d L tbl ia fo hr hin1 i hi)))
      iexact Ho1
    isplitl [Ho2]
    · iapply (Entails.of_eq (pointsTo_congr (q := fullShare)
        (f := (oP2 L).view.writes (Elt F) fo [⟨Rect.whole S128x128, tile_body.sl.dma0_3 d L tbl ia f0 hin0 hin2⟩]) (g := gathered tbl ia)
        (fun i hi => by
          rw [show (tile_body.sl.dma0_3 d L tbl ia f0 hin0 hin2) = gpay2 d L tbl ia hin2 from by unfold tile_body.sl.dma0_3; exact same_read_whole1 _ _ _]
          exact piece_value2 d L tbl ia fo hr hin2 i hi)))
      iexact Ho2
    isplitl [Ho3]
    · iapply (Entails.of_eq (pointsTo_congr (q := fullShare)
        (f := (oP3 L).view.writes (Elt F) fo [⟨Rect.whole S128x128, tile_body.sl.dma0_4 d L tbl ia f1 hin1 hin3⟩]) (g := gathered tbl ia)
        (fun i hi => by
          rw [show (tile_body.sl.dma0_4 d L tbl ia f1 hin1 hin3) = gpay3 d L tbl ia hin3 from by unfold tile_body.sl.dma0_4; exact same_read_whole2 _ _ _]
          exact piece_value3 d L tbl ia fo hr hin3 i hi)))
      iexact Ho3
    isplitl [Ho4]
    · iapply (Entails.of_eq (pointsTo_congr (q := fullShare)
        (f := (oP4 L).view.writes (Elt F) fo [⟨Rect.whole S128x128, tile_body.sl.dma0_5 d L tbl ia f0 hin0 hin2 hin4⟩]) (g := gathered tbl ia)
        (fun i hi => by
          rw [show (tile_body.sl.dma0_5 d L tbl ia f0 hin0 hin2 hin4) = gpay4 d L tbl ia hin4 from by unfold tile_body.sl.dma0_5; exact same_read_whole1 _ _ _]
          exact piece_value4 d L tbl ia fo hr hin4 i hi)))
      iexact Ho4
    isplitl [Ho5]
    · iapply (Entails.of_eq (pointsTo_congr (q := fullShare)
        (f := (oP5 L).view.writes (Elt F) fo [⟨Rect.whole S128x128, tile_body.sl.dma0_6 d L tbl ia f1 hin1 hin3 hin5⟩]) (g := gathered tbl ia)
        (fun i hi => by
          rw [show (tile_body.sl.dma0_6 d L tbl ia f1 hin1 hin3 hin5) = gpay5 d L tbl ia hin5 from by unfold tile_body.sl.dma0_6; exact same_read_whole2 _ _ _]
          exact piece_value5 d L tbl ia fo hr hin5 i hi)))
      iexact Ho5
    isplitl [Ho6]
    · iapply (Entails.of_eq (pointsTo_congr (q := fullShare)
        (f := (oP6 L).view.writes (Elt F) fo [⟨Rect.whole S128x128, tile_body.sl.dma0_7 d L tbl ia f0 hin0 hin2 hin4 hin6⟩]) (g := gathered tbl ia)
        (fun i hi => by
          rw [show (tile_body.sl.dma0_7 d L tbl ia f0 hin0 hin2 hin4 hin6) = gpay6 d L tbl ia hin6 from by unfold tile_body.sl.dma0_7; exact same_read_whole1 _ _ _]
          exact piece_value6 d L tbl ia fo hr hin6 i hi)))
      iexact Ho6
    · iapply (Entails.of_eq (pointsTo_congr (q := fullShare)
        (f := (oP7 L).view.writes (Elt F) fo [⟨Rect.whole S128x128, tile_body.sl.dma0_8 d L tbl ia f1 hin1 hin3 hin5 hin7⟩]) (g := gathered tbl ia)
        (fun i hi => by
          rw [show (tile_body.sl.dma0_8 d L tbl ia f1 hin1 hin3 hin5 hin7) = gpay7 d L tbl ia hin7 from by unfold tile_body.sl.dma0_8; exact same_read_whole2 _ _ _]
          exact piece_value7 d L tbl ia fo hr hin7 i hi)))
      iexact Ho7
  isplitl [Hs Hb0 Hb1 Hbufs]
  · isplitl [Hs]; · iexists _; iexact Hs
    isplitl [Hb0]; · iexists _; iexact Hb0
    isplitl [Hb1]; · iexists _; iexact Hb1
    iexact Hbufs
  isplitl [Hm0 Hm1 Hm2 Hm3 Hm4 Hm5 Hm6 Hm7 Hm8 Hm9 Hm10 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    iexact Hsems
  iexists _; isplitr
  swap; · iexact HO
  ipureintro
  repeat (first | refine ins_ok ?_ | exact fun p hp => .inl hp)

end Cert.Kernel.Hand

end
-- ==== Proof.TcBodyK.lean ====
/-
  The body of the one TensorCore pallas_call: what its single whole store leaves in the output block, as a function of
  the five blocks it loads, and its run on whole staging buffers. Stated at any float instance.
-/
import proofs.«206720_g66460323938928_cont_9to1_m_1264_22_alg».proof.Proof.ArchK
import proofs.«206720_g66460323938928_cont_9to1_m_1264_22_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The body's accesses -/

/-- The whole of a block of 2048 rows of 128 floats. -/
abbrev rEmb : Rect S2048x128 := Rect.unit (s := S2048x128) ![0, 0] S2048x128.size inb_S2048x128_S2048x128_0_0
/-- The whole of a column of 2048 entries: the index words' blocks and the output's. -/
abbrev rOut : Rect S2048x1 := Rect.unit (s := S2048x1) ![0, 0] S2048x1.size inb_S2048x1_S2048x1_0_0
/-- The whole of the 64 by 64 block. -/
abbrev rRel : Rect S64x64 := Rect.unit (s := S64x64) ![0, 0] S64x64.size inb_S64x64_S64x64_0_0

/-! ## What the body leaves in the output block -/

/-- The output block after the body, from the five blocks it loads: its one store as a single piece whose payload is
    the skeleton's, taken at what the whole-block loads read. -/
def tcOut (x0 x1 : Vec F S2048x128 .f32) (x2 x3 : Vec F S2048x1 .i32) (x4 : Vec F S64x64 .f32) : Vec F S2048x1 .f32 :=
  View.canon [⟨rOut, k1_pay1 (View.ld x0 rEmb) (View.ld x1 rEmb) (View.ld x2 rOut) (View.ld x3 rOut) (View.ld x4 rRel)⟩]

/-- The one store is of the whole block, so it covers it. -/
theorem tcCover (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

/-! ## The body's triple -/

set_option maxHeartbeats 1000000 in
/-- The body on whole staging buffers, the five it reads at contents `x0 … x4` and the output's at anything, runs to the
    continuation holding the five as they were and the output's at `tcOut` of them: the body is its skeleton of six
    whole-block loads and one whole-block store, run one memory operation after the other. -/
theorem tc_sound_kernel (c : Dev nD) (E : Set ℕ) (i : grid1.Coords)
    (arg1 : Memref sig .tc .vmem S2048x128 .f32) (harg1 : arg1.IsWhole) (arg2 : Memref sig .tc .vmem S2048x128 .f32) (harg2 : arg2.IsWhole)
    (arg3 : Memref sig .tc .vmem S2048x1 .i32) (harg3 : arg3.IsWhole) (arg4 : Memref sig .tc .vmem S2048x1 .i32) (harg4 : arg4.IsWhole)
    (arg5 : Memref sig .tc .vmem S64x64 .f32) (harg5 : arg5.IsWhole) (arg6 : Memref sig .tc .vmem S2048x1 .f32) (harg6 : arg6.IsWhole)
    (x0 x1 : Vec F S2048x128 .f32) (x2 x3 : Vec F S2048x1 .i32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (tcOut x0 x1 x2 x3 x4)) -∗ K ⟨⟩))
      ⊢ wp frame (wpE (defs₀ (F := F)) Variants.none c none) E (cc1__tc_body i arg1 harg1 arg2 harg2 arg3 harg3 arg4 harg4 arg5 harg5 arg6 harg6) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tcCover _)

end Cert.Kernel.Hand

end
-- ==== Proof.TcDatsK.lean ====
/-
  The proof data of the one TensorCore pipeline and its body obligation, over any contents of the six windows' arrays
  when the region is entered; and the closed form of the output array after the region.

  The five input windows' staging buffers hold their blocks of the entry contents at every grid point (the 64 by 64
  window is fetched at the first point only, but its block index never moves, so its buffer still holds that block);
  the body's one whole store leaves the output window's buffer at `tcOut` of the five blocks. Stated at any float
  instance.
-/
import proofs.«206720_g66460323938928_cont_9to1_m_1264_22_alg».proof.Proof.TcBodyK
import proofs.«206720_g66460323938928_cont_9to1_m_1264_22_alg».proof.Proof.Gen.Kernel.Launch
import proofs.«206720_g66460323938928_cont_9to1_m_1264_22_alg».proof.Proof.Gen.Kernel.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The windows' blocks -/

/-- Window `w`'s block at point `t`, read off its array's contents `A w` at the region's entry. -/
def tcIblk (c : Dev nD) (A : (w : Fin cfg1.W) → Buf (Elt F) ((cfg1.win w).arr.view.loc (c.tc : Thread nD τ)))
    (w : Fin cfg1.W) (t : Fin cfg1.N) : ((cfg1.win w).xblock (cfg1.grid.coords t)).Idx → Elt F (cfg1.win w).elt :=
  ((cfg1.win w).blk t).view.read (Elt F) (A w)

/-! ## The proof data -/

/-- The region's invariant on core `c`: the core's scoped buffers that are no staging buffer, at some contents each,
    and its generator register at some state. The body reads neither. -/
def tcΦ (c : Dev nD) : sProp 𝕄 :=
  iprop(Pipeline.scopedRest (Ix := HIx 1) (Name := ℕ) (U := UU) (Lvl := ℕ) (Val := Elt F) spec1 c ∗ ∃ r, prngReg c r)

/-- The proof data of the pipeline on core `c` over entry contents `A`: after the body at point `t` each input's
    buffer at its block and the output's at `tcOut` of the five blocks; nothing owed; the two windows that read one
    array hold half a share of it each, the others the full share. -/
def tcDats (c : Dev nD) (A : (w : Fin cfg1.W) → Buf (Elt F) ((cfg1.win w).arr.view.loc (c.tc : Thread nD τ))) :
    Dat τ (Elt F) (HIx 1) ℕ UU ℕ cfg1 c where
  A := A
  after w t := match w with
    | ⟨0, _⟩ => tcIblk c A 0 t
    | ⟨1, _⟩ => tcIblk c A 1 t
    | ⟨2, _⟩ => tcIblk c A 2 t
    | ⟨3, _⟩ => tcIblk c A 3 t
    | ⟨4, _⟩ => tcIblk c A 4 t
    | ⟨5, _⟩ => tcOut (tcIblk c A 0 t) (tcIblk c A 1 t) (tcIblk c A 2 t) (tcIblk c A 3 t) (tcIblk c A 4 t)
  Φ _ := tcΦ c
  q w := match w with
    | ⟨0, _⟩ => (fullShare : PosShare TreeShare).left
    | ⟨1, _⟩ => (fullShare : PosShare TreeShare).right
    | ⟨2, _⟩ => fullShare
    | ⟨3, _⟩ => fullShare
    | ⟨4, _⟩ => fullShare
    | ⟨5, _⟩ => fullShare
  owed _ := 0

variable (c : Dev nD) (A : (w : Fin cfg1.W) → Buf (Elt F) ((cfg1.win w).arr.view.loc (c.tc : Thread nD τ)))

/-- The proof data's arrays are the entry contents. -/
theorem tcA_eq (w : Fin cfg1.W) : (tcDats c A).A w = A w := by
  dsimp only [tcDats]

/-- What the body leaves, window by window. -/
theorem tcAfter0 (t : Fin cfg1.N) : (tcDats c A).after 0 t = tcIblk c A 0 t := by dsimp only [tcDats]
theorem tcAfter1 (t : Fin cfg1.N) : (tcDats c A).after 1 t = tcIblk c A 1 t := by dsimp only [tcDats]
theorem tcAfter2 (t : Fin cfg1.N) : (tcDats c A).after 2 t = tcIblk c A 2 t := by dsimp only [tcDats]
theorem tcAfter3 (t : Fin cfg1.N) : (tcDats c A).after 3 t = tcIblk c A 3 t := by dsimp only [tcDats]
theorem tcAfter4 (t : Fin cfg1.N) : (tcDats c A).after 4 t = tcIblk c A 4 t := by dsimp only [tcDats]
theorem tcAfter5 (t : Fin cfg1.N) : (tcDats c A).after 5 t
    = tcOut (tcIblk c A 0 t) (tcIblk c A 1 t) (tcIblk c A 2 t) (tcIblk c A 3 t) (tcIblk c A 4 t) := by dsimp only [tcDats]

/-- Each input's current staging buffer holds its block at every point, fetched there or not: unfetched, the block
    index has not moved, and the buffer still holds the previous point's block, which is this point's. -/
theorem tcBefore0 (t : Fin cfg1.N) (d) : (tcDats c A).before 0 t d = tcIblk c A 0 t :=
  ((tcDats c A).before_in_eq_fetched 0 rfl (fun _ => rfl) (fun _ _ _ => rfl)
    (fun t => by rw [tcAfter0]; unfold Dat.blockOf tcIblk; rw [tcA_eq]; try rfl) t d).trans
    (by unfold Dat.fetched Dat.blockOf tcIblk; rw [tcA_eq]; try rfl)
theorem tcBefore1 (t : Fin cfg1.N) (d) : (tcDats c A).before 1 t d = tcIblk c A 1 t :=
  ((tcDats c A).before_in_eq_fetched 1 rfl (fun _ => rfl) (fun _ _ _ => rfl)
    (fun t => by rw [tcAfter1]; unfold Dat.blockOf tcIblk; rw [tcA_eq]; try rfl) t d).trans
    (by unfold Dat.fetched Dat.blockOf tcIblk; rw [tcA_eq]; try rfl)
theorem tcBefore2 (t : Fin cfg1.N) (d) : (tcDats c A).before 2 t d = tcIblk c A 2 t :=
  ((tcDats c A).before_in_eq_fetched 2 rfl (fun _ => rfl) (fun _ _ _ => rfl)
    (fun t => by rw [tcAfter2]; unfold Dat.blockOf tcIblk; rw [tcA_eq]; try rfl) t d).trans
    (by unfold Dat.fetched Dat.blockOf tcIblk; rw [tcA_eq]; try rfl)
theorem tcBefore3 (t : Fin cfg1.N) (d) : (tcDats c A).before 3 t d = tcIblk c A 3 t :=
  ((tcDats c A).before_in_eq_fetched 3 rfl (fun _ => rfl) (fun _ _ _ => rfl)
    (fun t => by rw [tcAfter3]; unfold Dat.blockOf tcIblk; rw [tcA_eq]; try rfl) t d).trans
    (by unfold Dat.fetched Dat.blockOf tcIblk; rw [tcA_eq]; try rfl)
theorem tcBefore4 (t : Fin cfg1.N) (d) : (tcDats c A).before 4 t d = tcIblk c A 4 t :=
  ((tcDats c A).before_in_eq_fetched 4 rfl (fun _ => rfl) (fun _ _ _ => rfl)
    (fun t => by rw [tcAfter4]; unfold Dat.blockOf tcIblk; rw [tcA_eq]; try rfl) t d).trans
    (by unfold Dat.fetched Dat.blockOf tcIblk; rw [tcA_eq]; try rfl)

/-! ## The body obligation, at a generic point -/

/-- What the body is called with at point `t`, the windows one by one, -/
def tcBodyPre (t : Fin cfg1.N) : sProp 𝕄 :=
  iprop((tcDats c A).Φ t.castSucc ∗ (tcDats c A).owesAt (none : HIx 1) t.castSucc
    ∗ (∃ d, owns (c : Thread nD τ) (st1_0 t) fullShare ((tcDats c A).before 0 t d))
    ∗ (∃ d, owns (c : Thread nD τ) (st1_1 t) fullShare ((tcDats c A).before 1 t d))
    ∗ (∃ d, owns (c : Thread nD τ) (st1_2 t) fullShare ((tcDats c A).before 2 t d))
    ∗ (∃ d, owns (c : Thread nD τ) (st1_3 t) fullShare ((tcDats c A).before 3 t d))
    ∗ (∃ d, owns (c : Thread nD τ) (st1_4 t) fullShare ((tcDats c A).before 4 t d))
    ∗ (∃ d, owns (c : Thread nD τ) (st1_5 t) fullShare ((tcDats c A).before 5 t d)))

/-- and what it returns. -/
def tcBodyPost (t : Fin cfg1.N) : sProp 𝕄 :=
  iprop((tcDats c A).Φ t.succ ∗ (tcDats c A).owesAt (none : HIx 1) t.succ
    ∗ owns (c : Thread nD τ) (st1_0 t) fullShare ((tcDats c A).after 0 t)
    ∗ owns (c : Thread nD τ) (st1_1 t) fullShare ((tcDats c A).after 1 t)
    ∗ owns (c : Thread nD τ) (st1_2 t) fullShare ((tcDats c A).after 2 t)
    ∗ owns (c : Thread nD τ) (st1_3 t) fullShare ((tcDats c A).after 3 t)
    ∗ owns (c : Thread nD τ) (st1_4 t) fullShare ((tcDats c A).after 4 t)
    ∗ owns (c : Thread nD τ) (st1_5 t) fullShare ((tcDats c A).after 5 t))

/-- The body at any point: the inputs' buffers hold their blocks, so the body's triple applies; the invariant and the
    core's tallies pass through unread. -/
theorem tc_sound_body (t : Fin cfg1.N) :
    tcBodyPre c A t ⊢ wp frame (wpE (defs₀ (F := F)) Variants.none c none) Set.univ (bodyAt1 t) (fun _ => tcBodyPost c A t) := by
  unfold tcBodyPre tcBodyPost bodyAt1
  simp only [tcBefore0, tcBefore1, tcBefore2, tcBefore3, tcBefore4]
  rw [show (tcDats c A).Φ t.succ = (tcDats c A).Φ t.castSucc from rfl,
    show (tcDats c A).owesAt (none : HIx 1) t.succ = (tcDats c A).owesAt (none : HIx 1) t.castSucc from rfl,
    tcAfter0, tcAfter1, tcAfter2, tcAfter3, tcAfter4, tcAfter5]
  iintro ⟨HΦ, Ho, ⟨%d0, H0⟩, ⟨%d1, H1⟩, ⟨%d2, H2⟩, ⟨%d3, H3⟩, ⟨%d4, H4⟩, ⟨%d5, H5⟩⟩
  iapply (tc_sound_kernel c Set.univ (grid1.coords t) _ _ _ _ _ _ _ _ _ _ _ _
    (tcIblk c A 0 t) (tcIblk c A 1 t) (tcIblk c A 2 t) (tcIblk c A 3 t) (tcIblk c A 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point; the pipeline's waits are recorded at the index `none`. -/
theorem tc_body_obligation :
    BodyObligation (tcDats (F := F) c A) (defs₀ (F := F)) Variants.none (none : HIx 1) Set.univ := fun t => by
  rw [bigSep_W1, bigSep_W1]
  exact tc_sound_body c A t

/-! ## The output array after the region, in closed form -/

/-- What the body leaves in the output window's buffer at point `t`. -/
def tcAt (t : Fin cfg1.N) : Vec F S2048x1 .f32 :=
  tcOut (tcIblk c A 0 t) (tcIblk c A 1 t) (tcIblk c A 2 t) (tcIblk c A 3 t) (tcIblk c A 4 t)

/-- The grid point whose output block holds row `y 0` of the output array: the row divided by the block's 2048 rows. -/
def tcPoint (y : S16384x1.Idx) : Fin cfg1.N :=
  ⟨(y 0).val / 2048, by
    have h : (y 0).val < 16384 := (y 0).isLt
    rw [show cfg1.N = 8 from N_1]; omega⟩

/-- That row's place inside the block: the remainder. -/
def tcRow (y : S16384x1.Idx) : Fin 2048 := ⟨(y 0).val % 2048, Nat.mod_lt _ (by decide)⟩

/-- THE OUTPUT ARRAY AFTER THE REGION, as one function of the entry contents: at row `y 0`, what the body leaves at
    the point `(y 0) / 2048`, at row `(y 0) % 2048` of its block. -/
def tcFinal : S16384x1.Idx → Elt F .f32 :=
  fun y => tcAt c A (tcPoint y) (ValueIdx.ix2 (tcRow y) (0 : Fin 1))

/-- The output window's index map, decided over the grid: point `t` writes block row `t`, block column 0. -/
theorem tcIdx5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- What point `t` writes back is what the body left there. -/
theorem tcFlushed5 (t : Fin cfg1.N) : (tcDats c A).flushed 5 t = tcAt c A t := by
  show (cfg1.win 5).cut (grid1.coords t) ((tcDats c A).after 5 t) = _
  rw [tcAfter5]
  rfl

/-- A block of the output window read at an index of the block: the array at the block's place for it. -/
theorem tcRead5 (G : S16384x1.Idx → Elt F .f32) (t : Fin cfg1.N) (j : S2048x1.Idx) :
    ((cfg1.win 5).blk t).view.read (Elt F) G j = G (((cfg1.win 5).blk t).view.emb j) := rfl

/-- WHAT POINT `t` WRITES BACK is block `t` of `tcFinal`. -/
theorem tcFlushed5_eq (t : Fin cfg1.N) :
    (tcDats c A).flushed 5 t = ((cfg1.win 5).blk t).view.read (Elt F) (tcFinal c A) := by
  rw [tcFlushed5]
  obtain ⟨e0, e1⟩ := tcIdx5 t
  funext j
  refine Eq.trans ?_ (tcRead5 (tcFinal c A) t j).symm
  have hj0 : (j 0).val < 2048 := (j 0).isLt
  have hj1 : (j 1).val < 1 := (j 1).isLt
  have hy0 : ((((cfg1.win 5).blk t).view.emb j) 0).val = t.val * 2048 + (j 0).val := by
    show win1_5.index t (0 : Fin 2) * 2048 + 1 * (j 0).val = _
    rw [e0]; omega
  have hp : tcPoint (((cfg1.win 5).blk t).view.emb j) = t := Fin.ext (by
    show ((((cfg1.win 5).blk t).view.emb j) 0).val / 2048 = t.val
    rw [hy0]; omega)
  have hr : ValueIdx.ix2 (tcRow (((cfg1.win 5).blk t).view.emb j)) (0 : Fin 1) = j := by
    funext a
    match a with
    | ⟨0, _⟩ => exact Fin.ext (by
        show ((((cfg1.win 5).blk t).view.emb j) 0).val % 2048 = (j 0).val
        rw [hy0]; omega)
    | ⟨1, _⟩ => exact Fin.ext (by show 0 = (j 1).val; omega)
  unfold tcFinal
  rw [hp, hr]

/-- An index of the output array is in point `t`'s block iff each coordinate is in the block's range on its axis. -/
theorem tcMemBlk5 (t : Fin cfg1.N) (i : S16384x1.Idx) :
    i ∈ ((cfg1.win 5).blk t).view.set ↔ ∀ a : Fin 2, win1_5.index t a * S2048x1.size a ≤ (i a).val ∧ (i a).val < win1_5.index t a * S2048x1.size a + S2048x1.size a := by
  show i ∈ ((View.whole main_v5).slice (win1_5.rect t)).set ↔ _
  rw [View.set_slice_whole, Rect.mem_set_unit]
  exact Iff.rfl

/-- Every row of the output array is in the block of the point its quotient by 2048 names. -/
theorem tcCover5 (i : S16384x1.Idx) :
    ∃ t : Fin cfg1.N, (cfg1.win 5).flush t = true ∧ i ∈ ((cfg1.win 5).blk t).view.set := by
  refine ⟨tcPoint i, flush1_5 _, ?_⟩
  rw [tcMemBlk5]
  obtain ⟨e0, e1⟩ := tcIdx5 (tcPoint i)
  have hp : (tcPoint i).val = (i 0).val / 2048 := rfl
  have hi1 : (i 1).val < 1 := (i 1).isLt
  intro a
  match a with
  | ⟨0, _⟩ =>
    show win1_5.index (tcPoint i) (0 : Fin 2) * 2048 ≤ (i 0).val ∧ (i 0).val < win1_5.index (tcPoint i) (0 : Fin 2) * 2048 + 2048
    rw [e0, hp]; omega
  | ⟨1, _⟩ =>
    show win1_5.index (tcPoint i) (1 : Fin 2) * 1 ≤ (i 1).val ∧ (i 1).val < win1_5.index (tcPoint i) (1 : Fin 2) * 1 + 1
    rw [e1]; omega

/-- THE OUTPUT ARRAY AFTER THE REGION is `tcFinal` of the entry contents: the eight blocks tile it. -/
theorem tc_final : (tcDats c A).arrAt 5 cfg1.N = tcFinal c A :=
  (tcDats c A).arrAt_eq_of_cover 5 (tcFinal c A) (fun t _ => tcFlushed5_eq c A t) tcCover5

/-- An input window's array is never written back: after the region it holds its entry contents. -/
theorem tc_kept (w : Fin cfg1.W) (hw : w ≠ 5) : (tcDats c A).arrAt w cfg1.N = A w := by
  match w, hw with
  | ⟨0, _⟩, _ => exact ((tcDats c A).arrAt_in 0 rfl _).trans (tcA_eq c A 0)
  | ⟨1, _⟩, _ => exact ((tcDats c A).arrAt_in 1 rfl _).trans (tcA_eq c A 1)
  | ⟨2, _⟩, _ => exact ((tcDats c A).arrAt_in 2 rfl _).trans (tcA_eq c A 2)
  | ⟨3, _⟩, _ => exact ((tcDats c A).arrAt_in 3 rfl _).trans (tcA_eq c A 3)
  | ⟨4, _⟩, _ => exact ((tcDats c A).arrAt_in 4 rfl _).trans (tcA_eq c A 4)
  | ⟨5, _⟩, hw => exact absurd rfl hw

end Cert.Kernel.Hand

end
-- ==== Proof.RegDefsK.lean ====
/-
  The TensorCore call's five buffers as its six windows see them: windows 0 and 1 both stage the gathered array.
-/
import proofs.«206720_g66460323938928_cont_9to1_m_1264_22_alg».proof.Proof.TcDatsK

noncomputable section

namespace Cert.Kernel.Hand

open Cert.Kernel Cert.Kernel.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MT nD τ sig (HIx 1) (Elt F) ℕ UU ℕ

/-- The six windows' arrays at region entry, from the five buffers' contents. -/
def regC (d : Dev nD) (x2 : Buf (Elt F) ((SparseCore.T d : Thread nD τ).loc main_v2)) (x3 : Buf (Elt F) ((SparseCore.T d : Thread nD τ).loc main_v3)) (x4 : Buf (Elt F) ((SparseCore.T d : Thread nD τ).loc main_v4)) (x5 : Buf (Elt F) ((SparseCore.T d : Thread nD τ).loc main_arg3)) (x6 : Buf (Elt F) ((SparseCore.T d : Thread nD τ).loc main_v5)) :
    (w : Fin cfg1.W) → Buf (Elt F) ((cfg1.win w).arr.view.loc (d.tc : Thread nD τ))
  | ⟨0, _⟩ => x2 | ⟨1, _⟩ => x2 | ⟨2, _⟩ => x3 | ⟨3, _⟩ => x4 | ⟨4, _⟩ => x5 | ⟨5, _⟩ => x6

/-- The five buffers held whole. -/
def regArrs (d : Dev nD) (x2 : Buf (Elt F) ((SparseCore.T d : Thread nD τ).loc main_v2)) (x3 : Buf (Elt F) ((SparseCore.T d : Thread nD τ).loc main_v3)) (x4 : Buf (Elt F) ((SparseCore.T d : Thread nD τ).loc main_v4)) (x5 : Buf (Elt F) ((SparseCore.T d : Thread nD τ).loc main_arg3)) (x6 : Buf (Elt F) ((SparseCore.T d : Thread nD τ).loc main_v5)) : sProp 𝕄 :=
  iprop(((SparseCore.T d).loc main_v2 ↦{fullShare} x2) ∗ ((SparseCore.T d).loc main_v3 ↦{fullShare} x3) ∗ ((SparseCore.T d).loc main_v4 ↦{fullShare} x4) ∗ ((SparseCore.T d).loc main_arg3 ↦{fullShare} x5) ∗ ((SparseCore.T d).loc main_v5 ↦{fullShare} x6))

end Cert.Kernel.Hand

end
-- ==== Proof.LaunchDefsK.lean ====
/-
  The SparseCore program's launch, its data: what the one SparseCore call hands each core and each task (read shares of
  the reshaped table and of the concatenated index array, the task's pieces of the output) and how a core's holdings
  split into its tasks'; @main's arrays, host operations and the valuation after each stage, up to the program's result.
-/
import proofs.«206720_g66460323938928_cont_9to1_m_1264_22_alg».proof.Proof.TileBodyK
import proofs.«206720_g66460323938928_cont_9to1_m_1264_22_alg».proof.Proof.RegDefsK
import Idealize.ShloMosaic.Lib.SparseCore.Launch
import Idealize.ShloMosaic.Lib.StableHlo.Run
import Idealize.ShloMosaic.Lib.Pipeline.Regions
import Idealize.ShloMosaic.Lib.Transfers
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTokN shareTok shareDrop pointsTo_toks_split pointsTo_toks_join)
open Idealize.ShloMosaic.Tactic

variable {F : FTy → Type}

local notation "𝕄" => MT nD τ sig (HIx 1) (Elt F) ℕ UU ℕ

/-! ## What the SparseCore call hands over -/

abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-- Core `c`'s read share of an array the call lends whole, and within it subcore `i`'s. -/
abbrev qC (c : ℕ) : PosShare TreeShare := shareTokN fullShare c
abbrev qT (c i : ℕ) : PosShare TreeShare := shareTokN (qC c) i

/-- Eight chunks, one by one. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

section Pay

variable (tb : (d : Dev nD) → Buf (Elt F) (tLoc d)) (ix : (d : Dev nD) → Buf (Elt F) (iLoc d))

/-- What the task of core `c`, subcore `i` holds: its shares of the table and of the index array, and its eight pieces
    of the output at contents `fo`. -/
def tileRes (d : Dev nD) (c : Fin 2) (i : Fin 16) (fo : Buf (Elt F) (oLoc d)) : sProp 𝕄 :=
  iprop((tLoc d ↦{qT c.val i.val} tb d) ∗ (iLoc d ↦{qT c.val i.val} ix d)
    ∗ bigSep Finset.univ fun k : Fin 8 => oLoc d ↦[oSetT (c, i, k)]{fullShare} fo)

/-- What core `c` holds for its sixteen tasks. -/
def coreRes (d : Dev nD) (c : Fin 2) (fo : Buf (Elt F) (oLoc d)) : sProp 𝕄 :=
  iprop((tLoc d ↦{qC c.val} tb d) ∗ (iLoc d ↦{qC c.val} ix d)
    ∗ bigSep Finset.univ fun i : Fin 16 => bigSep Finset.univ fun k : Fin 8 => oLoc d ↦[oSetT (c, i, k)]{fullShare} fo)

variable [FloatOps F]

/-- The output after the call, as one function of what the call read. -/
def outAfter (d : Dev nD) : Buf (Elt F) (oLoc d) := gathered (tb d) (ix d)

variable (o₀ : (d : Dev nD) → Buf (Elt F) (oLoc d))

/-- The one call: each core its shares and its tasks' pieces, each task its own; the pieces come back at `outAfter`. -/
def P : (K (F := F)).Pay (nD := nD) (Val := Elt F) (Name := ℕ) (U := UU) where
  st := fun q d c => match q with | 0 => coreRes tb ix d c (o₀ d)
  dn := fun q d c => match q with | 0 => coreRes tb ix d c (outAfter tb ix d)
  go := fun q d c i => match q with | 0 => tileRes tb ix d c i (o₀ d)
  td := fun q d c i => match q with | 0 => tileRes tb ix d c i (outAfter tb ix d)
  x := fun _ _ => iprop(emp)

instance P_storable : (P (F := F) tb ix o₀).IsStorable where
  st q d c := match q with
    | 0 => by show BI.Storable (upEmb : UEmb _ 𝕄) (coreRes tb ix d c (o₀ d)); unfold coreRes; infer_instance
  dn q d c := match q with
    | 0 => by show BI.Storable (upEmb : UEmb _ 𝕄) (coreRes tb ix d c (outAfter tb ix d)); unfold coreRes; infer_instance
  go q d c i := match q with
    | 0 => by show BI.Storable (upEmb : UEmb _ 𝕄) (tileRes tb ix d c i (o₀ d)); unfold tileRes; infer_instance
  td q d c i := match q with
    | 0 => by show BI.Storable (upEmb : UEmb _ 𝕄) (tileRes tb ix d c i (outAfter tb ix d)); unfold tileRes; infer_instance

/-- A core's holdings split into its sixteen tasks', and the tasks' results gather into the core's: the shares by
    read tokens (the remainder kept for the way back), the pieces as they are. -/
theorem vecSplit : (K (F := F)).VecSplit' (P tb ix o₀) 0 := by
  intro d c
  show coreRes tb ix d c (o₀ d) ⊢ |={Set.univ}=> iprop(
      (bigSep Finset.univ fun i : Fin 16 => tileRes tb ix d c i (o₀ d))
      ∗ ((bigSep Finset.univ fun i : Fin 16 => tileRes tb ix d c i (outAfter tb ix d)) -∗ coreRes tb ix d c (outAfter tb ix d)))
  unfold coreRes tileRes
  rw [bigSep_sep', bigSep_sep', bigSep_sep', bigSep_sep']
  iintro ⟨Ht, Hi, Ho⟩
  ihave Ht := (pointsTo_toks_split (qC c.val) 16) $$ Ht
  icases Ht with ⟨Htr, Hts⟩
  ihave Hi := (pointsTo_toks_split (qC c.val) 16) $$ Hi
  icases Hi with ⟨Hir, His⟩
  imodintro
  isplitl [Hts His Ho]
  · isplitl [Hts]; · iexact Hts
    isplitl [His]; · iexact His
    iexact Ho
  iintro ⟨Hts, His, Ho⟩
  isplitl [Htr Hts]
  · iapply (pointsTo_toks_join (qC c.val) 16); isplitl [Htr] <;> iassumption
  isplitl [Hir His]
  · iapply (pointsTo_toks_join (qC c.val) 16); isplitl [Hir] <;> iassumption
  iexact Ho

end Pay

/-! ## @main's buffers, operations and their values -/

section MainDefs

abbrev rA0 : DevRef τ sig := Proc.devRef .tc (main_arg0 : Ref sig .tc)
abbrev rA1 : DevRef τ sig := Proc.devRef .tc (main_arg1 : Ref sig .tc)
abbrev rA2 : DevRef τ sig := Proc.devRef .tc (main_arg2 : Ref sig .tc)
abbrev rA3 : DevRef τ sig := Proc.devRef .tc (main_arg3 : Ref sig .tc)
abbrev rV0 : DevRef τ sig := Proc.devRef .tc (main_v0 : Ref sig .tc)
abbrev rV1 : DevRef τ sig := Proc.devRef .tc (main_v1 : Ref sig .tc)
abbrev rV2 : DevRef τ sig := Proc.devRef .tc (main_v2 : Ref sig .tc)
abbrev rV3 : DevRef τ sig := Proc.devRef .tc (main_v3 : Ref sig .tc)
abbrev rV4 : DevRef τ sig := Proc.devRef .tc (main_v4 : Ref sig .tc)
abbrev rV5 : DevRef τ sig := Proc.devRef .tc (main_v5 : Ref sig .tc)
abbrev rV6 : DevRef τ sig := Proc.devRef .tc (main_v6 : Ref sig .tc)

/-- The TensorCore's eleven unscoped arrays. -/
abbrev S11 : Finset (DevRef τ sig) := {rA0, rA1, rA2, rA3, rV0, rV1, rV2, rV3, rV4, rV5, rV6}

variable [FloatOps F]

abbrev op0 : HloOp τ sig (Elt F) := StableHlo.reshape main_arg2 main_v0 rfl shapeCasts_S1000000x64_S500000x128
abbrev op1 : HloOp τ sig (Elt F) :=
  StableHlo.binary main_arg0 main_arg1 main_v1 ((fun a b => concatenate S32768 0 [⟨S16384, a⟩, ⟨S16384, b⟩] concatenates_S16384_S16384_S32768_d0) : (⟨S16384, .i32⟩ : BufTy).Contents (Elt F) → (⟨S16384, .i32⟩ : BufTy).Contents (Elt F) → (⟨S32768, .i32⟩ : BufTy).Contents (Elt F))
abbrev op3 : HloOp τ sig (Elt F) := StableHlo.reshape main_arg0 main_v3 rfl shapeCasts_S16384_S16384x1
abbrev op4 : HloOp τ sig (Elt F) := StableHlo.reshape main_arg1 main_v4 rfl shapeCasts_S16384_S16384x1
abbrev op6 : HloOp τ sig (Elt F) := StableHlo.reshape main_v5 main_v6 rfl shapeCasts_S16384x1_S16384

theorem op0_sub : (op0 (F := F)).bufs ⊆ S11 := show ({rA2, rV0} : Finset (DevRef τ sig)) ⊆ S11 by decide
theorem op1_sub : (op1 (F := F)).bufs ⊆ S11 := show ({rA0, rA1, rV1} : Finset (DevRef τ sig)) ⊆ S11 by decide
theorem op3_sub : (op3 (F := F)).bufs ⊆ S11 := show ({rA0, rV3} : Finset (DevRef τ sig)) ⊆ S11 by decide
theorem op4_sub : (op4 (F := F)).bufs ⊆ S11 := show ({rA1, rV4} : Finset (DevRef τ sig)) ⊆ S11 by decide
theorem op6_sub : (op6 (F := F)).bufs ⊆ S11 := show ({rV5, rV6} : Finset (DevRef τ sig)) ⊆ S11 by decide

variable (m : (ℓ : Loc nD τ sig) → Buf (Elt F) ℓ)

/-- The launch valuation, and the valuation after the two operations before the SparseCore call. -/
def V0 (d : Dev nD) : Valuation τ sig (Elt F) := fun b => m (d, b)
def V2 (d : Dev nD) : Valuation τ sig (Elt F) := (op1 (F := F)).result ((op0 (F := F)).result (V0 m d))
/-- What the call reads and what it finds in the output. -/
def tbV (d : Dev nD) : Buf (Elt F) (tLoc d) := V2 m d rV0
def ixV (d : Dev nD) : Buf (Elt F) (iLoc d) := V2 m d rV1
def o₀V (d : Dev nD) : Buf (Elt F) (oLoc d) := V2 m d rV2
/-- After the call; after the two reshapes that follow it. -/
def V2' (d : Dev nD) : Valuation τ sig (Elt F) := Function.update (V2 m d) rV2 (outAfter (tbV m) (ixV m) d)
def V4 (d : Dev nD) : Valuation τ sig (Elt F) := (op4 (F := F)).result ((op3 (F := F)).result (V2' m d))

omit [FloatOps F] in
theorem held_take (c : Thread nD τ) (S : Finset (DevRef τ sig)) (V : Valuation τ sig (Elt F)) {b : DevRef τ sig} (hb : b ∈ S) :
    (held c S V : sProp 𝕄) = iprop(((c.1, b) ↦{fullShare} V b) ∗ held c (S.erase b) V) := SparseCore.bigSep_erase' hb

omit [FloatOps F] in
theorem held_put (c : Thread nD τ) (S : Finset (DevRef τ sig)) (V : Valuation τ sig (Elt F)) {b : DevRef τ sig} (hb : b ∈ S)
    (f : Buf (Elt F) ((c.1, b) : Loc nD τ sig)) :
    (held c S (Function.update V b f) : sProp 𝕄) = iprop(((c.1, b) ↦{fullShare} f) ∗ held c (S.erase b) V) := by
  rw [held_take c S _ hb, Function.update_self]
  congr 1
  exact bigSep_congr fun b' hb' => by rw [Function.update_of_ne (Finset.ne_of_mem_erase hb')]

omit [FloatOps F] in
theorem held_S11 (d : Dev nD) (W : Valuation τ sig (Elt F)) :
    (held (SparseCore.T d) S11 W : sProp 𝕄)
      = iprop(((SparseCore.T d).loc main_arg0 ↦{fullShare} W rA0) ∗ ((SparseCore.T d).loc main_arg1 ↦{fullShare} W rA1) ∗ ((SparseCore.T d).loc main_arg2 ↦{fullShare} W rA2) ∗ ((SparseCore.T d).loc main_arg3 ↦{fullShare} W rA3) ∗ ((SparseCore.T d).loc main_v0 ↦{fullShare} W rV0) ∗ ((SparseCore.T d).loc main_v1 ↦{fullShare} W rV1) ∗ ((SparseCore.T d).loc main_v2 ↦{fullShare} W rV2) ∗ ((SparseCore.T d).loc main_v3 ↦{fullShare} W rV3) ∗ ((SparseCore.T d).loc main_v4 ↦{fullShare} W rV4) ∗ ((SparseCore.T d).loc main_v5 ↦{fullShare} W rV5) ∗ ((SparseCore.T d).loc main_v6 ↦{fullShare} W rV6)) := by
  unfold held S11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped) = {main_arg0, main_arg1, main_arg2, main_arg3, main_v0, main_v1, main_v2, main_v3, main_v4, main_v5, main_v6} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (SparseCore.T d) S11 (V0 m d) := by
  rw [unscopedBufs_eq, held_S11]; rfl

omit [FloatOps F] in
/-- The output whole is its 256 pieces: by core, by subcore, by chunk. -/
theorem out_split (d : Dev nD) (f : Buf (Elt F) (oLoc d)) :
    (oLoc d ↦{fullShare} f : sProp 𝕄)
      = bigSep Finset.univ fun c : Fin (grid0.bound 0) => bigSep Finset.univ fun i : Fin (grid0.bound 1) => bigSep Finset.univ fun k : Fin 8 =>
          oLoc d ↦[oSetT (c, i, k)]{fullShare} f := by
  have h : (oLoc d ↦{fullShare} f : sProp 𝕄) = bigSep Finset.univ fun a : Fin (grid0.bound 0) × Fin (grid0.bound 1) × Fin 8 => oLoc d ↦[oSetT a]{fullShare} f := by
    rw [← pointsTo_biUnion Finset.univ (ℓ := oLoc d) oSetT oSet_disjoint, oSet_cover]; try rfl
  rw [h, bigSep_univ_prod]
  exact bigSep_congr fun c _ => bigSep_univ_prod _

end MainDefs

section Final

variable [FloatOps F]
variable (m : (ℓ : Loc nD τ sig) → Buf (Elt F) ℓ)

/-- After the TensorCore call; after the last reshape. -/
def V5 (d : Dev nD) : Valuation τ sig (Elt F) :=
  Function.update (V4 m d) rV5 (tcFinal d (regC d (V4 m d rV2) (V4 m d rV3) (V4 m d rV4) (V4 m d rA3) (V4 m d rV5)))
def V6 (d : Dev nD) : Valuation τ sig (Elt F) := (op6 (F := F)).result (V5 m d)

end Final

end Cert.Kernel.Hand

end
-- ==== Proof.TcRegionK.lean ====
/-
  The TensorCore region of the program's main function, as one step: from the five buffers the region's windows
  stage held whole, the generator register and the core's tallies, the call of the pipeline runs to the same with the
  output buffer at the closed form of the entry contents.

  The two windows that read one buffer each take half a share of it on entry and give the halves back on exit; the
  other buffers go in and out whole; the body needs nothing else of the thread's state.
-/
import proofs.«206720_g66460323938928_cont_9to1_m_1264_22_alg».proof.Proof.RegDefsK
import Idealize.ShloMosaic.Lib.Pipeline.Regions
import Idealize.ShloMosaic.Lib.SparseCore.Threads

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The region's arrays -/

/-- The shares the proof data holds the six arrays at. -/
theorem tcShare0 (c : Dev nD) (A) : (tcDats (F := F) c A).share 0 = (fullShare : PosShare TreeShare).left := rfl
theorem tcShare1 (c : Dev nD) (A) : (tcDats (F := F) c A).share 1 = (fullShare : PosShare TreeShare).right := rfl
theorem tcShare2 (c : Dev nD) (A) : (tcDats (F := F) c A).share 2 = fullShare := rfl
theorem tcShare3 (c : Dev nD) (A) : (tcDats (F := F) c A).share 3 = fullShare := rfl
theorem tcShare4 (c : Dev nD) (A) : (tcDats (F := F) c A).share 4 = fullShare := rfl
theorem tcShare5 (c : Dev nD) (A) : (tcDats (F := F) c A).share 5 = fullShare := rfl

/-- The pipeline's arrays, window by window: the buffer the first two windows read at half a share each, the others at
    the full share. -/
theorem tcArrays_eq (c : Dev nD) (A) (G : (w : Fin cfg1.W) → Buf (Elt F) ((cfg1.win w).arr.view.loc (c.tc : Thread nD τ))) :
    ((tcDats (F := F) c A).arrays G : sProp 𝕄)
      = iprop(((SparseCore.T c : Thread nD τ).loc main_v2 ↦{(fullShare : PosShare TreeShare).left} G 0)
        ∗ ((SparseCore.T c : Thread nD τ).loc main_v2 ↦{(fullShare : PosShare TreeShare).right} G 1)
        ∗ ((SparseCore.T c : Thread nD τ).loc main_v3 ↦{fullShare} G 2) ∗ ((SparseCore.T c : Thread nD τ).loc main_v4 ↦{fullShare} G 3)
        ∗ ((SparseCore.T c : Thread nD τ).loc main_arg3 ↦{fullShare} G 4) ∗ ((SparseCore.T c : Thread nD τ).loc main_v5 ↦{fullShare} G 5)) := by
  unfold Dat.arrays
  rw [bigSep_W1, tcShare0, tcShare1, tcShare2, tcShare3, tcShare4, tcShare5,
    (arr_whole1 0).set_eq_univ, (arr_whole1 2).set_eq_univ, (arr_whole1 3).set_eq_univ,
    (arr_whole1 4).set_eq_univ, (arr_whole1 5).set_eq_univ]

/-- The arrays at entry: the buffers' contents, the first at its two halves. -/
theorem tcArrays_entry (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) :
    ((tcDats d (regC d x2 x3 x4 x5 x6)).arrays (fun w => (tcDats d (regC d x2 x3 x4 x5 x6)).arrAt w 0) : sProp 𝕄)
      = iprop(((SparseCore.T d : Thread nD τ).loc main_v2 ↦{(fullShare : PosShare TreeShare).left} x2)
        ∗ ((SparseCore.T d : Thread nD τ).loc main_v2 ↦{(fullShare : PosShare TreeShare).right} x2)
        ∗ ((SparseCore.T d : Thread nD τ).loc main_v3 ↦{fullShare} x3) ∗ ((SparseCore.T d : Thread nD τ).loc main_v4 ↦{fullShare} x4)
        ∗ ((SparseCore.T d : Thread nD τ).loc main_arg3 ↦{fullShare} x5) ∗ ((SparseCore.T d : Thread nD τ).loc main_v5 ↦{fullShare} x6)) :=
  tcArrays_eq d _ _

/-- The arrays at exit: the inputs as they were, the output at the closed form. -/
theorem tcArrays_exit (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) :
    ((tcDats d (regC d x2 x3 x4 x5 x6)).arrays (fun w => (tcDats d (regC d x2 x3 x4 x5 x6)).arrAt w cfg1.N) : sProp 𝕄)
      = iprop(((SparseCore.T d : Thread nD τ).loc main_v2 ↦{(fullShare : PosShare TreeShare).left} x2)
        ∗ ((SparseCore.T d : Thread nD τ).loc main_v2 ↦{(fullShare : PosShare TreeShare).right} x2)
        ∗ ((SparseCore.T d : Thread nD τ).loc main_v3 ↦{fullShare} x3) ∗ ((SparseCore.T d : Thread nD τ).loc main_v4 ↦{fullShare} x4)
        ∗ ((SparseCore.T d : Thread nD τ).loc main_arg3 ↦{fullShare} x5)
        ∗ ((SparseCore.T d : Thread nD τ).loc main_v5 ↦{fullShare} tcFinal d (regC d x2 x3 x4 x5 x6))) := by
  rw [tcArrays_eq, tc_final, tc_kept d _ 0 (by decide), tc_kept d _ 1 (by decide), tc_kept d _ 2 (by decide), tc_kept d _ 3 (by decide),
    tc_kept d _ 4 (by decide)]
  rfl

/-! ## The proof data on every core -/

/-- The program runs on one device: any two are equal. -/
theorem dev_eq (c d : Dev nD) : c = d := Subsingleton.elim c d

/-- No prefetched table: the admissible contents are the empty ones. -/
abbrev tcAdm : (p : Fin 1) → (pcfgs (F := F) p).Adm := fun p => (cfgs p).toPCfg_adm

/-- The entry contents on core `c`: the one device's, carried along the equation of the two. -/
def regCs (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (c : Dev nD) :
    (w : Fin cfg1.W) → Buf (Elt F) ((cfg1.win w).arr.view.loc (c.tc : Thread nD τ)) :=
  (dev_eq d c) ▸ regC d x2 x3 x4 x5 x6

theorem regCs_self (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) : regCs d x2 x3 x4 x5 x6 d = regC d x2 x3 x4 x5 x6 := rfl

/-- The proof data of the program's one pipeline on every core. -/
def tcPdats (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) :
    (p : Fin 1) → (c : Dev nD) → Dat τ (Elt F) (HIx 1) ℕ UU ℕ (Pipeline.pin (pcfgs (F := F)) tcAdm p) c :=
  fun _ c => tcDats c (regCs d x2 x3 x4 x5 x6 c)

set_option backward.isDefEq.respectTransparency.types false in
/-- THE REGION: the launch's layout, no semaphore of the kernel's own, the body obligation; entered from the five
    buffers held whole, the generator register and the core's tallies. -/
def tcSeg (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (g : PrngReg) (W : Waits sig (HIx 1)) :
    Pipeline.RegionSeg (pcfgs (F := F)) tcAdm (tcPdats d x2 x3 x4 x5 x6) (none : HIx 1) defs₀ 𝒱₀ (K (F := F)).L (K (F := F)).lev 0 where
  win := winFacts₀1
  block_pos := block_pos1
  stage_whole := stage_whole1
  K := PEmpty
  osem := fun k => k.elim
  ho := Pipeline.OwnSemFacts.none _
  hbody c := (tc_body_obligation c _).loose
  hwaits := Pipeline.hwaits_of_owed_zero _ _ _ _ (K (F := F)).L (K (F := F)).lev 0 fun _ _ => rfl
  pre _ := iprop(regArrs d x2 x3 x4 x5 x6 ∗ prngReg d g ∗ owes (SparseCore.T d : Thread nD τ) (0 : CellTallies nD τ sig (HIx 1)) W)
  post _ := iprop(regArrs d x2 x3 x4 x5 (tcFinal d (regC d x2 x3 x4 x5 x6)) ∗ (∃ r, prngReg d r)
    ∗ ∃ W', owes (SparseCore.T d : Thread nD τ) (0 : CellTallies nD τ sig (HIx 1)) W')
  X _ := iprop(∃ r, prngReg d r)
  Y _ := iprop(∃ r, prngReg d r)
  Z _ := iprop(emp)
  hentry c := by
    have hc := dev_eq c d; subst hc
    dsimp only [tcPdats]
    rw [regCs_self, tcArrays_entry]
    unfold regArrs
    have hsp : (((SparseCore.T c : Thread nD τ).loc main_v2 ↦{fullShare} x2) : sProp 𝕄)
        ⊢ iprop(((SparseCore.T c : Thread nD τ).loc main_v2 ↦{(fullShare : PosShare TreeShare).left} x2)
          ∗ ((SparseCore.T c : Thread nD τ).loc main_v2 ↦{(fullShare : PosShare TreeShare).right} x2)) :=
      (pointsTo_share (PosShare.mem_left_op_right fullShare)).1
    iintro ⟨⟨⟨H2, H3, H4, H5, H6⟩, Hg, HO⟩, -, -⟩
    ihave H2' := hsp $$ H2
    icases H2' with ⟨H2l, H2r⟩
    imodintro
    isplitl [H2l H2r H3 H4 H5 H6]
    · isplitl [H2l]; · iexact H2l
      isplitl [H2r]; · iexact H2r
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitl [Hg]; · iexists g; iexact Hg
    iempintro
  hin c := by
    have hc := dev_eq c d; subst hc
    dsimp only [tcPdats]
    rw [show (tcDats c (regCs c x2 x3 x4 x5 x6 c)).Φ 0 = tcΦ c from rfl]; unfold tcΦ
    iintro ⟨HX, -, Hr⟩
    isplitl [Hr]; · iexact Hr
    iexact HX
  hout c := by
    have hc := dev_eq c d; subst hc
    dsimp only [tcPdats]
    rw [Pipeline.ownSems0_none, show (tcDats c (regCs c x2 x3 x4 x5 x6 c)).Φ (Fin.last _) = tcΦ c from rfl]; unfold tcΦ
    iintro ⟨Hr, HX⟩
    isplitl [HX]; · iexact HX
    isplitr; · iempintro
    iexact Hr
  hexit c := by
    have hc := dev_eq c d; subst hc
    dsimp only [tcPdats]
    rw [regCs_self, tcArrays_exit]
    unfold regArrs
    have hjoin : iprop(((SparseCore.T c : Thread nD τ).loc main_v2 ↦{(fullShare : PosShare TreeShare).left} x2)
          ∗ ((SparseCore.T c : Thread nD τ).loc main_v2 ↦{(fullShare : PosShare TreeShare).right} x2))
        ⊢ ((((SparseCore.T c : Thread nD τ).loc main_v2 ↦{fullShare} x2)) : sProp 𝕄) :=
      (pointsTo_share (PosShare.mem_left_op_right fullShare)).2
    iintro ⟨⟨H2l, H2r, H3, H4, H5, H6⟩, HO, HY, -⟩
    ihave H2 := hjoin $$ [H2l H2r]
    · isplitl [H2l]; · iexact H2l
      iexact H2r
    imodintro
    isplitl [H2 H3 H4 H5 H6]
    · isplitl [H2]; · iexact H2
      isplitl [H3]; · iexact H3
      isplitl [H4]; · iexact H4
      isplitl [H5]; · iexact H5
      iexact H6
    isplitl [HY]; · iexact HY
    unfold Pipeline.Dat.owesAt Pipeline.owesWithin
    icases HO with ⟨%W', -, HO⟩; iexists W'; iexact HO

/-- The region's entry and exit states, read off the record. -/
theorem tcSeg_pre (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (g : PrngReg) (W : Waits sig (HIx 1)) (c : Dev nD) :
    (tcSeg d x2 x3 x4 x5 x6 g W).pre c
      = iprop(regArrs d x2 x3 x4 x5 x6 ∗ prngReg d g ∗ owes (SparseCore.T d : Thread nD τ) (0 : CellTallies nD τ sig (HIx 1)) W) := rfl
theorem tcSeg_post (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (g : PrngReg) (W : Waits sig (HIx 1)) (c : Dev nD) :
    (tcSeg d x2 x3 x4 x5 x6 g W).post c
      = iprop(regArrs d x2 x3 x4 x5 (tcFinal d (regC d x2 x3 x4 x5 x6)) ∗ (∃ r, prngReg d r)
          ∗ ∃ W', owes (SparseCore.T d : Thread nD τ) (0 : CellTallies nD τ sig (HIx 1)) W') := rfl

/-! ## The region's step -/

/-- The call as the extended body table sees it is the call of the certificate's table, lifted. -/
theorem tc_lift_step (d : Dev nD) (Q : PUnit → sProp 𝕄) :
    wp frame (wpE (D (F := F)) 𝒱 (SparseCore.T d : Thread nD τ) none) Set.univ (Prog.lift (.customCall (Pipeline.entry 0) ())) Q
      ⊢ wp frame (wpE ((K (F := F)).defs (D (F := F))) 𝒱 (SparseCore.T d : Thread nD τ) none) Set.univ
          (Prog.lift (.customCall (SparseCore.inner (Pipeline.entry 0)) ())) Q :=
  SparseCore.Cfg.wp_liftProg (K (F := F)) (D (F := F)) 𝒱 (SparseCore.T d : Thread nD τ) Set.univ none _ Q

/-- The staging cells of the pinned configurations are pairwise distinct. -/
theorem tcCellOf_inj : Function.Injective (Pipeline.cellOf (nD := nD) (τ := τ) (Pipeline.pin (pcfgs (F := F)) tcAdm)) := cellOf_inj

/-- THE REGION AS ONE STEP of the program's main function: from the thread's boundary, the five buffers held whole,
    the generator register, the core's tallies owing nothing, the level facts and the pipeline's ghost state, the call
    runs to the boundary, the buffers with the output at the closed form of the entry contents, the register at some
    state and the tallies still owing nothing. -/
theorem tc_region (d : Dev nD) (x2 : Buf (Elt F) ((SparseCore.T d : Thread nD τ).loc main_v2)) (x3 : Buf (Elt F) ((SparseCore.T d : Thread nD τ).loc main_v3))
    (x4 : Buf (Elt F) ((SparseCore.T d : Thread nD τ).loc main_v4)) (x5 : Buf (Elt F) ((SparseCore.T d : Thread nD τ).loc main_arg3))
    (x6 : Buf (Elt F) ((SparseCore.T d : Thread nD τ).loc main_v5)) (g : PrngReg) (W : Waits sig (HIx 1)) (Q : PUnit → sProp 𝕄) :
    iprop((iprop(boundary (SparseCore.T d : Thread nD τ) ∗ regArrs d x2 x3 x4 x5 (tcFinal d (regC d x2 x3 x4 x5 x6))
            ∗ (∃ r, prngReg d r) ∗ (∃ W', owes (SparseCore.T d : Thread nD τ) (0 : CellTallies nD τ sig (HIx 1)) W')) -∗ Q ⟨⟩)
        ∗ boundary (SparseCore.T d : Thread nD τ) ∗ regArrs d x2 x3 x4 x5 x6 ∗ prngReg d g
        ∗ owes (SparseCore.T d : Thread nD τ) (0 : CellTallies nD τ sig (HIx 1)) W
        ∗ levAts (K (F := F)).L (K (F := F)).lev
        ∗ Pipeline.cellsGhost (Pipeline.pin (pcfgs (F := F)) (fun p => (cfgs p).toPCfg_adm)) EP 0 d
        ∗ Pipeline.toksInit (Pipeline.pin (pcfgs (F := F)) (fun p => (cfgs p).toPCfg_adm)) EP 0 d)
      ⊢ wp frame (wpE ((K (F := F)).defs (D (F := F))) 𝒱 (SparseCore.T d : Thread nD τ) none) Set.univ
          (Prog.lift (.customCall (SparseCore.inner (Pipeline.entry 0)) ())) Q := by
  have hstep := Pipeline.RegionSeg.wp (pcfgs (F := F)) tcAdm (tcPdats d x2 x3 x4 x5 x6) (none : HIx 1) tcCellOf_inj EP defs₀ 𝒱₀
    (K (F := F)).L (K (F := F)).lev (tcSeg d x2 x3 x4 x5 x6 g W) d none (fun u h => (Option.not_mem_none u h).elim)
    (α := PUnit) (fun _ => .ret ⟨⟩) Q
  rw [tcSeg_pre, tcSeg_post] at hstep
  refine BIBase.Entails.trans ?_ (tc_lift_step d Q)
  refine BIBase.Entails.trans ?_ hstep
  iintro ⟨HQ, Hb, Ha, Hg, HO, HL, Hc, Ht⟩
  isplitl [HQ]
  · iintro ⟨Hb, Ha, Hr, HO⟩
    rw [wp_ret]
    imodintro
    iapply HQ
    isplitl [Hb]; · iexact Hb
    isplitl [Ha]; · iexact Ha
    isplitl [Hr]; · iexact Hr
    iexact HO
  isplitl [Hb]; · iexact Hb
  isplitl [Ha Hg HO]
  · isplitl [Ha]; · iexact Ha
    isplitl [Hg]; · iexact Hg
    iexact HO
  isplitl [HL]; · iexact HL
  isplitl [Hc]; · iexact Hc
  iexact Ht

end Cert.Kernel.Hand

end
-- ==== Proof.LaunchK.lean ====
/-
  The SparseCore program certified: from the tile kernel's task (run once at a symbolic grid point), the split of a
  core's holdings into its tasks', the launch element of the ghost state (the handshakes' rounds and the TensorCore
  pipeline's staging cells), and @main on the TensorCore — two host operations, the SparseCore call, two reshapes, the
  TensorCore call, a last reshape — every weakly fair execution of all the device's threads terminates without a
  fault, and the final memory holds the result array and the arguments at @main's last valuation.
-/
import proofs.«206720_g66460323938928_cont_9to1_m_1264_22_alg».proof.Proof.LaunchDefsK
import proofs.«206720_g66460323938928_cont_9to1_m_1264_22_alg».proof.Proof.TcRegionK
import Idealize.ShloMosaic.Lib.SparseCore.Launch
import Idealize.ShloMosaic.Lib.StableHlo.Run
import Idealize.ShloMosaic.Lib.Pipeline.Regions
import Idealize.ShloMosaic.Lib.Transfers
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTokN shareTok shareDrop pointsTo_toks_split pointsTo_toks_join)
open Idealize.ShloMosaic.Tactic

variable {F : FTy → Type}

local notation "𝕄" => MT nD τ sig (HIx 1) (Elt F) ℕ UU ℕ

local notation "tblW" => (Memref.whole Cert.Kernel.main_v0_scv : Memref Cert.Kernel.sig Kind.scVector Space.hbm Cert.Kernel.S500000x128 EltTy.f32)
local notation "idxW" => (Memref.whole Cert.Kernel.main_v1_scv : Memref Cert.Kernel.sig Kind.scVector Space.hbm Cert.Kernel.S32768 EltTy.i32)
local notation "outW" => (Memref.whole Cert.Kernel.main_v2_scv : Memref Cert.Kernel.sig Kind.scVector Space.hbm Cert.Kernel.S32768x128 EltTy.f32)
local notation "sIdx" => (Memref.whole Cert.Kernel.cc0_scratch0 : Memref Cert.Kernel.sig Kind.scVector Space.vmem Cert.Kernel.S1024 EltTy.i32)
local notation "sB0" => (Memref.whole Cert.Kernel.cc0_scratch1 : Memref Cert.Kernel.sig Kind.scVector Space.vmem Cert.Kernel.S128x128 EltTy.f32)
local notation "sB1" => (Memref.whole Cert.Kernel.cc0_scratch2 : Memref Cert.Kernel.sig Kind.scVector Space.vmem Cert.Kernel.S128x128 EltTy.f32)

/-! ## The launch element -/

section Elem

/-- The one pipeline at its (trivially) admissible tables. -/
abbrev cfgsA : Fin 1 → Pipeline.Cfg sig Λ₀ := Pipeline.pin (pcfgs (F := F)) (fun p => (cfgs p).toPCfg_adm)
theorem hinjA : Function.Injective (Pipeline.cellOf (nD := nD) (τ := τ) (cfgsA (F := F))) := Gen.cellOf_inj

/-- The handshakes' rounds, the pipeline's staging cells' rounds, no transfer counted yet. -/
def u₀ : UU :=
  (initOf (K (F := F)).hsCells (K (F := F)).hsToks,
    (initOf (Pipeline.cells (cfgsA (F := F)) hinjA) (Pipeline.launchToks (cfgsA (F := F)) hinjA), 1))

/-- What @main's proof starts from beside the launch's deal: the pipeline's cells' ghost state and duty tokens. -/
def G (d : Dev nD) : sProp 𝕄 :=
  iprop(Pipeline.cellsGhost (cfgsA (F := F)) EP 0 d ∗ Pipeline.toksInit (cfgsA (F := F)) EP 0 d)

/-- The pipeline's component of the launch element, reached through the right factor's left. -/
theorem own_EP (x : UP) :
    (BI.own (((Emb.inl : Emb UP (UP × Counters)).trans (embR : Emb (UP × Counters) (MT nD τ sig (HIx 1) (Elt F) ℕ UU ℕ))) x) : sProp 𝕄)
      = BI.own (EP x) := rfl

theorem bigSep_emp' {I : Type} (s : Finset I) : (bigSep s fun _ => iprop(emp)) = (iprop(emp) : sProp 𝕄) := bigSep_emp_const s

variable (tb : (d : Dev nD) → Buf (Elt F) (tLoc d)) (ix : (d : Dev nD) → Buf (Elt F) (iLoc d)) (o₀ : (d : Dev nD) → Buf (Elt F) (oLoc d))
variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tb ix o₀).x q thr) := by
  unfold u₀
  iintro Hu
  ihave H := (ownU_pair _ _) $$ Hu
  icases H with ⟨HH, HR⟩
  ihave HR := (own_pair_emb embR _ _) $$ HR
  icases HR with ⟨HP, -⟩
  ihave HP := (Entails.of_eq (own_EP (F := F) _)) $$ HP
  imod (Pipeline.fund_ghost (cfgsA (F := F)) EP hinjA) $$ HP with ⟨Hg, Ht⟩
  imodintro
  isplitl [HH]; · iexact HH
  isplitl [Hg Ht]
  · unfold G
    rw [bigSep_sep']
    ihave Hg := (Entails.of_eq (bigSep_congr fun d _ =>
      bigSep_univ_of_subsingleton (Φ := fun p : Fin 1 => (Pipeline.cellsGhost (cfgsA (F := F)) EP p d : sProp 𝕄)) (0 : Fin 1))) $$ Hg
    ihave Ht := (Entails.of_eq (bigSep_congr fun d _ =>
      bigSep_univ_of_subsingleton (Φ := fun p : Fin 1 => (Pipeline.toksInit (cfgsA (F := F)) EP p d : sProp 𝕄)) (0 : Fin 1))) $$ Ht
    isplitl [Hg]
    · iexact Hg
    · iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Elem

/-! ## @main on the TensorCore -/

section Main

variable [FloatOps F] [∀ e, Nonempty (Elt F e)]
variable (m : (ℓ : Loc nD τ sig) → Buf (Elt F) ℓ) (ρ : Dev nD → PrngReg)

/-- What @main leaves the claim: its eleven arrays at their last values. -/
abbrev FIN (d : Dev nD) : sProp 𝕄 := held (SparseCore.T d) S11 (V6 m d)

abbrev PP : (K (F := F)).Pay (nD := nD) (Val := Elt F) (Name := ℕ) (U := UU) := P (tbV m) (ixV m) (o₀V m)

omit [FloatOps F] [∀ e, Nonempty (Elt F e)] in
/-- With one call every level is at most 7: any recorded set sits below 8. -/
theorem wbelow_any (d : Dev nD) (W : Waits sig (HIx 1)) : (K (F := F)).WBelow (SparseCore.T d) W (8 * 1) := by
  intro p _
  rcases hp : p.2 with _ | q
  · simp
  · have h1 := (K (F := F)).lev_some_le (SparseCore.T d, p.1) q
    have h2 := q.isLt
    omega

theorem st0_eq (d : Dev nD) :
    (bigSep Finset.univ fun c : Fin ((K (F := F)).nCore 0) => (PP m).st 0 d c)
      = bigSep Finset.univ fun c : Fin 2 => coreRes (tbV m) (ixV m) d c (o₀V m d) := rfl
theorem dn0_eq (d : Dev nD) :
    (bigSep Finset.univ fun c : Fin ((K (F := F)).nCore 0) => (PP m).dn 0 d c)
      = bigSep Finset.univ fun c : Fin 2 => coreRes (tbV m) (ixV m) d c (outAfter (tbV m) (ixV m) d) := rfl

/-- The whole arrays dealt to the two cores (the shares' remainders kept), and gathered back. -/
theorem core_deal (d : Dev nD) (fo : Buf (Elt F) (oLoc d)) :
    iprop((tLoc d ↦{fullShare} tbV m d) ∗ (iLoc d ↦{fullShare} ixV m d) ∗ (oLoc d ↦{fullShare} fo))
      ⊣⊢ (iprop((tLoc d ↦{shareDrop fullShare 2} tbV m d) ∗ (iLoc d ↦{shareDrop fullShare 2} ixV m d)
          ∗ bigSep Finset.univ fun c : Fin 2 => coreRes (tbV m) (ixV m) d c fo) : sProp 𝕄) := by
  unfold coreRes
  rw [bigSep_sep', bigSep_sep', out_split]
  constructor
  · iintro ⟨Ht, Hi, Ho⟩
    ihave Ht := (pointsTo_toks_split fullShare 2) $$ Ht
    icases Ht with ⟨Htr, Hts⟩
    ihave Hi := (pointsTo_toks_split fullShare 2) $$ Hi
    icases Hi with ⟨Hir, His⟩
    isplitl [Htr]; · iexact Htr
    isplitl [Hir]; · iexact Hir
    isplitl [Hts]; · iexact Hts
    isplitl [His]; · iexact His
    iexact Ho
  · iintro ⟨Htr, Hir, Hts, His, Ho⟩
    isplitl [Htr Hts]
    · iapply (pointsTo_toks_join fullShare 2); isplitl [Htr] <;> iassumption
    isplitl [Hir His]
    · iapply (pointsTo_toks_join fullShare 2); isplitl [Hir] <;> iassumption
    iexact Ho

set_option maxHeartbeats 4000000 in
/-- @main on device `d`'s TensorCore: the two operations before the call, the call (the arrays dealt to the cores and
    gathered back, the output at what the tasks left), the two reshapes, the TensorCore call, the last reshape. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held]
  simp only [main, wp_bind, wp_pure]
  iintro ⟨#Hctx, Hst, ⟨Hb, Hheld, -, Hprng⟩, Hcg, Hti⟩
  ihave #Hlv := ((K (F := F)).ctx_levAts (EH := EH) (P := PP m) κ) $$ Hctx
  -- the table reshaped, the index arrays concatenated
  iapply (wp_hlo_within 𝒱 (SparseCore.T d) none Set.univ (op := op0 (F := F)) (S := S11) op0_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := S11) op1_sub (V := (op0 (F := F)).result (V0 m d))) $$ [Hb Hheld]
  · isplitl [Hb]; · iexact Hb
    iexact Hheld
  iintro ⟨Hb, Hheld⟩
  rw [wp_ret]; imodintro
  ihave Hheld := (Entails.of_eq (show ((held (SparseCore.T d) S11 ((op1 (F := F)).result ((op0 (F := F)).result (V0 m d)))) : sProp 𝕄) = (held (SparseCore.T d) S11 (V2 m d)) from rfl)) $$ Hheld
  -- the call: the table, the index array and the output out of the set, dealt to the cores
  ihave Hh := (Entails.of_eq (held_take (SparseCore.T d) S11 (V2 m d) (b := rV2) (by decide))) $$ Hheld
  icases Hh with ⟨Ho, Hheld⟩
  ihave Hh := (Entails.of_eq (held_take (SparseCore.T d) (S11.erase rV2) (V2 m d) (b := rV1) (by decide))) $$ Hheld
  icases Hh with ⟨Hi, Hheld⟩
  ihave Hh := (Entails.of_eq (held_take (SparseCore.T d) ((S11.erase rV2).erase rV1) (V2 m d) (b := rV0) (by decide))) $$ Hheld
  icases Hh with ⟨Ht, Hheld⟩
  ihave Ht := (Entails.of_eq (show ((((SparseCore.T d : Thread nD τ).1, rV0) ↦{fullShare} V2 m d rV0) : sProp 𝕄) = (tLoc d ↦{fullShare} tbV m d) from rfl)) $$ Ht
  ihave Hi := (Entails.of_eq (show ((((SparseCore.T d : Thread nD τ).1, rV1) ↦{fullShare} V2 m d rV1) : sProp 𝕄) = (iLoc d ↦{fullShare} ixV m d) from rfl)) $$ Hi
  ihave Ho := (Entails.of_eq (show ((((SparseCore.T d : Thread nD τ).1, rV2) ↦{fullShare} V2 m d rV2) : sProp 𝕄) = (oLoc d ↦{fullShare} o₀V m d) from rfl)) $$ Ho
  ihave Hd := ((core_deal m d (o₀V m d)).1) $$ [Ht Hi Ho]
  · isplitl [Ht]; · iexact Ht
    isplitl [Hi]; · iexact Hi
    iexact Ho
  icases Hd with ⟨Htr, Hir, Hcores⟩
  iapply ((K (F := F)).wp_run (D (F := F)) 𝒱 (EH := EH) (P := PP m) κ d 0) $$ [Hst Hcores Hb Hheld Htr Hir Hprng Hcg Hti]
  isplitr; · iexact Hctx
  isplitl [Hst]; · iexact Hst
  isplitl [Hcores]
  · rw [st0_eq]; iexact Hcores
  iintro ⟨Hst, Hdn⟩
  ihave Hdn := (Entails.of_eq (dn0_eq m d)) $$ Hdn
  ihave Hc := ((core_deal m d (outAfter (tbV m) (ixV m) d)).2) $$ [Htr Hir Hdn]
  · isplitl [Htr]; · iexact Htr
    isplitl [Hir]; · iexact Hir
    iexact Hdn
  icases Hc with ⟨Ht, Hi, Ho⟩
  ihave Ht := (Entails.of_eq (show ((tLoc d ↦{fullShare} tbV m d) : sProp 𝕄) = (((SparseCore.T d : Thread nD τ).1, rV0) ↦{fullShare} V2 m d rV0) from rfl)) $$ Ht
  ihave Hi := (Entails.of_eq (show ((iLoc d ↦{fullShare} ixV m d) : sProp 𝕄) = (((SparseCore.T d : Thread nD τ).1, rV1) ↦{fullShare} V2 m d rV1) from rfl)) $$ Hi
  ihave Ho := (Entails.of_eq (show ((oLoc d ↦{fullShare} outAfter (tbV m) (ixV m) d) : sProp 𝕄) = (((SparseCore.T d : Thread nD τ).1, rV2) ↦{fullShare} (outAfter (tbV m) (ixV m) d : Buf (Elt F) (((SparseCore.T d : Thread nD τ).1, rV2) : Loc nD τ sig))) from rfl)) $$ Ho
  ihave Hheld := (Entails.of_eq (held_take (SparseCore.T d) ((S11.erase rV2).erase rV1) (V2 m d) (b := rV0) (by decide)).symm) $$ [Ht Hheld]
  · isplitl [Ht]; · iexact Ht
    iexact Hheld
  ihave Hheld := (Entails.of_eq (held_take (SparseCore.T d) (S11.erase rV2) (V2 m d) (b := rV1) (by decide)).symm) $$ [Hi Hheld]
  · isplitl [Hi]; · iexact Hi
    iexact Hheld
  ihave Hheld := (Entails.of_eq (held_put (SparseCore.T d) S11 (V2 m d) (b := rV2) (by decide) (outAfter (tbV m) (ixV m) d)).symm) $$ [Ho Hheld]
  · isplitl [Ho]; · iexact Ho
    iexact Hheld
  ihave Hheld := (Entails.of_eq (show ((held (SparseCore.T d) S11 (Function.update (V2 m d) rV2 (outAfter (tbV m) (ixV m) d))) : sProp 𝕄) = (held (SparseCore.T d) S11 (V2' m d)) from rfl)) $$ Hheld
  -- the index arrays as columns
  iapply (wp_hlo_within 𝒱 (SparseCore.T d) none Set.univ (op := op3 (F := F)) (S := S11) op3_sub (V := V2' m d)) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := S11) op4_sub (V := (op3 (F := F)).result (V2' m d))) $$ [Hb Hheld]
  · isplitl [Hb]; · iexact Hb
    iexact Hheld
  iintro ⟨Hb, Hheld⟩
  rw [wp_ret]; imodintro
  ihave Hheld := (Entails.of_eq (show ((held (SparseCore.T d) S11 ((op4 (F := F)).result ((op3 (F := F)).result (V2' m d)))) : sProp 𝕄) = (held (SparseCore.T d) S11 (V4 m d)) from rfl)) $$ Hheld
  -- the TensorCore call: its five arrays out of the set
  ihave Hh := (Entails.of_eq (held_take (SparseCore.T d) S11 (V4 m d) (b := rV5) (by decide))) $$ Hheld
  icases Hh with ⟨H6, Hheld⟩
  ihave Hh := (Entails.of_eq (held_take (SparseCore.T d) (S11.erase rV5) (V4 m d) (b := rA3) (by decide))) $$ Hheld
  icases Hh with ⟨H5, Hheld⟩
  ihave Hh := (Entails.of_eq (held_take (SparseCore.T d) ((S11.erase rV5).erase rA3) (V4 m d) (b := rV4) (by decide))) $$ Hheld
  icases Hh with ⟨H4, Hheld⟩
  ihave Hh := (Entails.of_eq (held_take (SparseCore.T d) (((S11.erase rV5).erase rA3).erase rV4) (V4 m d) (b := rV3) (by decide))) $$ Hheld
  icases Hh with ⟨H3, Hheld⟩
  ihave Hh := (Entails.of_eq (held_take (SparseCore.T d) ((((S11.erase rV5).erase rA3).erase rV4).erase rV3) (V4 m d) (b := rV2) (by decide))) $$ Hheld
  icases Hh with ⟨H2, Hheld⟩
  ihave H2 := (Entails.of_eq (show ((((SparseCore.T d : Thread nD τ).1, rV2) ↦{fullShare} V4 m d rV2) : sProp 𝕄) = ((SparseCore.T d : Thread nD τ).loc main_v2 ↦{fullShare} V4 m d rV2) from rfl)) $$ H2
  ihave H3 := (Entails.of_eq (show ((((SparseCore.T d : Thread nD τ).1, rV3) ↦{fullShare} V4 m d rV3) : sProp 𝕄) = ((SparseCore.T d : Thread nD τ).loc main_v3 ↦{fullShare} V4 m d rV3) from rfl)) $$ H3
  ihave H4 := (Entails.of_eq (show ((((SparseCore.T d : Thread nD τ).1, rV4) ↦{fullShare} V4 m d rV4) : sProp 𝕄) = ((SparseCore.T d : Thread nD τ).loc main_v4 ↦{fullShare} V4 m d rV4) from rfl)) $$ H4
  ihave H5 := (Entails.of_eq (show ((((SparseCore.T d : Thread nD τ).1, rA3) ↦{fullShare} V4 m d rA3) : sProp 𝕄) = ((SparseCore.T d : Thread nD τ).loc main_arg3 ↦{fullShare} V4 m d rA3) from rfl)) $$ H5
  ihave H6 := (Entails.of_eq (show ((((SparseCore.T d : Thread nD τ).1, rV5) ↦{fullShare} V4 m d rV5) : sProp 𝕄) = ((SparseCore.T d : Thread nD τ).loc main_v5 ↦{fullShare} V4 m d rV5) from rfl)) $$ H6
  unfold SparseCore.Cfg.tcSt
  icases Hst with ⟨⟨%W, %hW, HO⟩, Hat, Hrd, Hrs, Htoks⟩
  rw [(K (F := F)).Otc_end d (le_refl 1)]
  iapply (tc_region d (V4 m d rV2) (V4 m d rV3) (V4 m d rV4) (V4 m d rA3) (V4 m d rV5) (ρ d) W _) $$ [Hb Hheld H2 H3 H4 H5 H6 Hprng HO Hcg Hti Hat Hrd Hrs Htoks]
  isplitl [Hheld Hat Hrd Hrs Htoks]
  · unfold regArrs
    iintro ⟨Hb, ⟨H2, H3, H4, H5, H6⟩, -, ⟨%W', HO⟩⟩
    ihave H2 := (Entails.of_eq (show (((SparseCore.T d : Thread nD τ).loc main_v2 ↦{fullShare} V4 m d rV2) : sProp 𝕄) = (((SparseCore.T d : Thread nD τ).1, rV2) ↦{fullShare} V4 m d rV2) from rfl)) $$ H2
    ihave H3 := (Entails.of_eq (show (((SparseCore.T d : Thread nD τ).loc main_v3 ↦{fullShare} V4 m d rV3) : sProp 𝕄) = (((SparseCore.T d : Thread nD τ).1, rV3) ↦{fullShare} V4 m d rV3) from rfl)) $$ H3
    ihave H4 := (Entails.of_eq (show (((SparseCore.T d : Thread nD τ).loc main_v4 ↦{fullShare} V4 m d rV4) : sProp 𝕄) = (((SparseCore.T d : Thread nD τ).1, rV4) ↦{fullShare} V4 m d rV4) from rfl)) $$ H4
    ihave H5 := (Entails.of_eq (show (((SparseCore.T d : Thread nD τ).loc main_arg3 ↦{fullShare} V4 m d rA3) : sProp 𝕄) = (((SparseCore.T d : Thread nD τ).1, rA3) ↦{fullShare} V4 m d rA3) from rfl)) $$ H5
    ihave H6 := (Entails.of_eq (show (((SparseCore.T d : Thread nD τ).loc main_v5 ↦{fullShare} tcFinal d (regC d (V4 m d rV2) (V4 m d rV3) (V4 m d rV4) (V4 m d rA3) (V4 m d rV5))) : sProp 𝕄) = (((SparseCore.T d : Thread nD τ).1, rV5) ↦{fullShare} (tcFinal d (regC d (V4 m d rV2) (V4 m d rV3) (V4 m d rV4) (V4 m d rA3) (V4 m d rV5)) : Buf (Elt F) (((SparseCore.T d : Thread nD τ).1, rV5) : Loc nD τ sig))) from rfl)) $$ H6
    ihave Hheld := (Entails.of_eq (held_take (SparseCore.T d) ((((S11.erase rV5).erase rA3).erase rV4).erase rV3) (V4 m d) (b := rV2) (by decide)).symm) $$ [H2 Hheld]
    · isplitl [H2]; · iexact H2
      iexact Hheld
    ihave Hheld := (Entails.of_eq (held_take (SparseCore.T d) (((S11.erase rV5).erase rA3).erase rV4) (V4 m d) (b := rV3) (by decide)).symm) $$ [H3 Hheld]
    · isplitl [H3]; · iexact H3
      iexact Hheld
    ihave Hheld := (Entails.of_eq (held_take (SparseCore.T d) ((S11.erase rV5).erase rA3) (V4 m d) (b := rV4) (by decide)).symm) $$ [H4 Hheld]
    · isplitl [H4]; · iexact H4
      iexact Hheld
    ihave Hheld := (Entails.of_eq (held_take (SparseCore.T d) (S11.erase rV5) (V4 m d) (b := rA3) (by decide)).symm) $$ [H5 Hheld]
    · isplitl [H5]; · iexact H5
      iexact Hheld
    ihave Hheld := (Entails.of_eq (held_put (SparseCore.T d) S11 (V4 m d) (b := rV5) (by decide) (tcFinal d (regC d (V4 m d rV2) (V4 m d rV3) (V4 m d rV4) (V4 m d rA3) (V4 m d rV5)))).symm) $$ [H6 Hheld]
    · isplitl [H6]; · iexact H6
      iexact Hheld
    ihave Hheld := (Entails.of_eq (show ((held (SparseCore.T d) S11 (Function.update (V4 m d) rV5 (tcFinal d (regC d (V4 m d rV2) (V4 m d rV3) (V4 m d rV4) (V4 m d rA3) (V4 m d rV5))))) : sProp 𝕄) = (held (SparseCore.T d) S11 (V5 m d)) from rfl)) $$ Hheld
    -- the result as a vector
    iapply (wp_hlo_within 𝒱 (SparseCore.T d) none Set.univ (op := op6 (F := F)) (S := S11) op6_sub (V := V5 m d)) $$ [Hb Hheld]
    · isplitl [Hb]; · iexact Hb
      iexact Hheld
    iintro ⟨Hb, Hheld⟩
    rw [wp_ret]; imodintro
    ihave Hheld := (Entails.of_eq (show ((held (SparseCore.T d) S11 ((op6 (F := F)).result (V5 m d))) : sProp 𝕄) = (held (SparseCore.T d) S11 (V6 m d)) from rfl)) $$ Hheld
    imodintro
    isplitl [HO Hat Hrd Hrs Htoks]
    · isplitl [HO]
      · iexists W'; isplitr
        · ipureintro; exact wbelow_any d W'
        · iexact HO
      isplitl [Hat]; · iexact Hat
      isplitl [Hrd]; · iexact Hrd
      isplitl [Hrs]; · iexact Hrs
      iexact Htoks
    · iexact Hheld
  isplitl [Hb]; · iexact Hb
  isplitl [H2 H3 H4 H5 H6]
  · unfold regArrs
    isplitl [H2]; · iexact H2
    isplitl [H3]; · iexact H3
    isplitl [H4]; · iexact H4
    isplitl [H5]; · iexact H5
    iexact H6
  isplitl [Hprng]; · iexact Hprng
  isplitl [HO]; · iexact HO
  isplitr; · iexact Hlv
  isplitl [Hcg]; · iexact Hcg
  iexact Hti

end Main

/-! ## The tile kernel's obligation -/

section Obl

variable (tb : (d : Dev nD) → Buf (Elt F) (tLoc d)) (ix : (d : Dev nD) → Buf (Elt F) (iLoc d)) (o₀ : (d : Dev nD) → Buf (Elt F) (oLoc d))

/-- A task's holdings, as its body addresses them: the shares through the whole arrays' memrefs, the pieces through the
    body's own slices. -/
theorem tileRes_eq (d : Dev nD) (c : Fin 2) (i : Fin 16) (fo : Buf (Elt F) (oLoc d)) :
    (tileRes tb ix d c i fo : sProp 𝕄)
      = iprop(((tblW).view.loc (thrV d (coordsV c i)) ↦{qT c.val i.val} tb d) ∗ ((idxW).view.loc (thrV d (coordsV c i)) ↦{qT c.val i.val} ix d)
          ∗ ((oP0 (coordsV c i)).view.loc (thrV d (coordsV c i)) ↦[(oP0 (coordsV c i)).view.set]{fullShare} fo) ∗ ((oP1 (coordsV c i)).view.loc (thrV d (coordsV c i)) ↦[(oP1 (coordsV c i)).view.set]{fullShare} fo) ∗ ((oP2 (coordsV c i)).view.loc (thrV d (coordsV c i)) ↦[(oP2 (coordsV c i)).view.set]{fullShare} fo) ∗ ((oP3 (coordsV c i)).view.loc (thrV d (coordsV c i)) ↦[(oP3 (coordsV c i)).view.set]{fullShare} fo) ∗ ((oP4 (coordsV c i)).view.loc (thrV d (coordsV c i)) ↦[(oP4 (coordsV c i)).view.set]{fullShare} fo) ∗ ((oP5 (coordsV c i)).view.loc (thrV d (coordsV c i)) ↦[(oP5 (coordsV c i)).view.set]{fullShare} fo) ∗ ((oP6 (coordsV c i)).view.loc (thrV d (coordsV c i)) ↦[(oP6 (coordsV c i)).view.set]{fullShare} fo) ∗ ((oP7 (coordsV c i)).view.loc (thrV d (coordsV c i)) ↦[(oP7 (coordsV c i)).view.set]{fullShare} fo)) := by
  unfold tileRes
  rw [bigSep_fin8]
  rfl

variable [FloatOps F]

theorem defs₀_vector (c : Fin τ.nSC) (s : Fin τ.nSub) :
    defs₀ (F := F) (.scVector c s) 0 ()
      = SparseCore.onTile hcore0 Gen.hsub0 (fun c s => cc0_gather_k (coordsV c s)
          tblW (Memref.isWhole_whole _) idxW (Memref.isWhole_whole _) outW (Memref.isWhole_whole _)
          sIdx (Memref.isWhole_whole _) sB0 (Memref.isWhole_whole _) sB1 (Memref.isWhole_whole _)
          cc0_scratch3 cc0_scratch4 cc0_scoped0 cc0_scoped1 cc0_scoped2 cc0_scoped3 cc0_scoped4 cc0_scoped5 cc0_scoped6 cc0_scoped7 cc0_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every index word the call reads names a row of the original table. -/
def IdxOK : Prop := ∀ (d : Dev nD) (j : S32768.Idx), ((ix d : S32768.Idx → Elt F .i32) j).toNat < 1000000

theorem tileObl [∀ e, Nonempty (Elt F e)] (hF : (K (F := F)).Facts) (hix : IdxOK ix) :
    (K (F := F)).TileObl (D (F := F)) 𝒱 (P tb ix o₀) v₀ 0 := by
  intro d c i O W hO _ _
  simp only [show (P tb ix o₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((tile_body hF d (coordsV c i) (qT c.val i.val) (qT c.val i.val) (tb d) (ix d) (o₀ d) (hix d) O W hO).trans
    (wp_mono frame _ _ fun _ => BI.Entails.trans ?_ obl_post))
  · change (_ : sProp 𝕄) ⊢ _
    rw [show (P tb ix o₀).go 0 d c i = tileRes tb ix d c i (o₀ d) from rfl]
    iintro ⟨Hlv, -, Hgo, Hsb, Hss, HO⟩
    isplitl [Hlv]; · iexact Hlv
    isplitl [Hgo]
    · iapply (Entails.of_eq (tileRes_eq tb ix d c i (o₀ d))); iexact Hgo
    isplitl [Hsb]; · iexact Hsb
    isplitl [Hss]; · iexact Hss
    iexact HO
  · change (_ : sProp 𝕄) ⊢ _
    rw [show (P tb ix o₀).td 0 d c i = tileRes tb ix d c i (outAfter tb ix d) from rfl]
    iintro ⟨Htd, Hsb, Hss, HO⟩
    isplitl [Htd]
    · iapply (Entails.of_eq (tileRes_eq tb ix d c i (outAfter tb ix d)).symm); iexact Htd
    isplitl [Hsb]; · iexact Hsb
    isplitl [Hss]; · iexact Hss
    iexact HO

end Obl

/-! ## The program's run -/

section Run

variable [FloatOps F] [∀ e, Nonempty (Elt F e)]
variable (m : (ℓ : Loc nD τ sig) → Buf (Elt F) ℓ) (ρ : Dev nD → PrngReg)

/-- What the final state holds: the result and the four arguments at @main's last valuation. -/
def fq (d : Dev nD) (s' : Phys nD τ sig (Elt F)) : Prop :=
  s'.mem.mem ((SparseCore.T d : Thread nD τ).loc main_v6) = V6 m d rV6
  ∧ s'.mem.mem ((SparseCore.T d : Thread nD τ).loc main_arg0) = V6 m d rA0 ∧ s'.mem.mem ((SparseCore.T d : Thread nD τ).loc main_arg1) = V6 m d rA1
  ∧ s'.mem.mem ((SparseCore.T d : Thread nD τ).loc main_arg2) = V6 m d rA2 ∧ s'.mem.mem ((SparseCore.T d : Thread nD τ).loc main_arg3) = V6 m d rA3

theorem hfin (d : Dev nD) (s' : Phys nD τ sig (Elt F)) : iprop(FIN m d ∗ SI s') ⊢ (⌜fq m d s'⌝ : sProp 𝕄) := by
  unfold FIN
  rw [held_S11]
  iintro ⟨⟨Ha0, Ha1, Ha2, Ha3, -, -, -, -, -, -, Hv6⟩, HSI⟩
  ihave H := (persistent_entails_right (SI_pointsTo_agree (st := s') (ℓ := (SparseCore.T d : Thread nD τ).loc main_v6) (I := Finset.univ) (q := fullShare) (f := V6 m d rV6))) $$ [HSI Hv6]
  · isplitl [HSI] <;> iassumption
  icases H with ⟨%h6, HSI, -⟩
  ihave H := (persistent_entails_right (SI_pointsTo_agree (st := s') (ℓ := (SparseCore.T d : Thread nD τ).loc main_arg0) (I := Finset.univ) (q := fullShare) (f := V6 m d rA0))) $$ [HSI Ha0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := V6 m d rA1))) $$ [HSI Ha1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := V6 m d rA2))) $$ [HSI Ha2]
  · isplitl [HSI] <;> iassumption
  icases H with ⟨%h2, HSI, -⟩
  ihave H := (SI_pointsTo_agree (st := s') (ℓ := (SparseCore.T d : Thread nD τ).loc main_arg3) (I := Finset.univ) (q := fullShare) (f := V6 m d rA3)) $$ [HSI Ha3]
  · isplitl [HSI] <;> iassumption
  icases H with %h3
  ipureintro
  exact ⟨funext fun i => h6 i (Finset.mem_univ i), funext fun i => h0 i (Finset.mem_univ i), funext fun i => h1 i (Finset.mem_univ i),
    funext fun i => h2 i (Finset.mem_univ i), funext fun i => h3 i (Finset.mem_univ i)⟩

/-- The run's post: on every device the result array and the arguments at the last valuation. -/
def QC : PUnit × MemSt nD τ sig (Elt F) → Prop := fun r => ∀ c : Dev nD,
  r.2.mem ((SparseCore.T c : Thread nD τ).loc main_v6) = V6 m c rV6
  ∧ r.2.mem ((SparseCore.T c : Thread nD τ).loc main_arg0) = V6 m c rA0 ∧ r.2.mem ((SparseCore.T c : Thread nD τ).loc main_arg1) = V6 m c rA1
  ∧ r.2.mem ((SparseCore.T c : Thread nD τ).loc main_arg2) = V6 m c rA2 ∧ r.2.mem ((SparseCore.T c : Thread nD τ).loc main_arg3) = V6 m c rA3

/-- Every weakly fair execution of the device's threads — the TensorCore on @main, the sequencers and the vector
    subcores on their parts of the call — terminates without a fault, and leaves the result array and the arguments
    at @main's last valuation, provided every index word the call reads names a row of the table. -/
theorem run_main (hix : IdxOK (ixV m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (tbV m) (ixV m) (o₀V m) facts hix)
    (fun q _ => match q with | 0 => SparseCore.Cfg.VecSplit.of_plain (vecSplit (tbV m) (ixV m) (o₀V m)))
    m ρ main (G (F := F)) (FIN m) (u₀ (F := F)) (sep_elim_left.trans (hu₀ (tbV m) (ixV m) (o₀V m))) (hmain m ρ) (fq m) (hfin m) (QC m) (fun _ h => h)

end Run

end Cert.Kernel.Hand

end
-- ==== Proof.KernelValI.lean ====
/-
  The kernel program's result as ONE function of its four argument arrays: the table reshaped to 128-wide rows and
  the two index arrays concatenated (the two host operations before the SparseCore call); the gathered rows; the
  index arrays as columns (the two reshapes after it); the TensorCore call's output array from those as the
  region finds them; and the last reshape to a vector.
-/
import proofs.«206720_g66460323938928_cont_9to1_m_1264_22_alg».proof.Proof.TcDatsI
import proofs.«206720_g66460323938928_cont_9to1_m_1264_22_alg».proof.Proof.TileDefsI

noncomputable section

namespace Cert.KernelIdeal.Hand

open Cert.KernelIdeal Cert.KernelIdeal.Gen
open Idealize.ShloMosaic Idealize.ShloMosaic.TcCoe
open Idealize.ShloMosaic.SparseCore (S V T)
open Idealize.SL.Sem

variable {F : FTy → Type} [FloatOps F]

/-- The table at 128-wide rows: two 64-wide rows side by side. -/
def tblOf (a2 : FVec F S1000000x64 .f32) : FVec F S500000x128 .f32 := shapeCast S500000x128 a2 shapeCasts_S1000000x64_S500000x128
/-- The subjects' words followed by the objects'. -/
def idxOf (a0 a1 : IVec S16384 32) : IVec S32768 32 :=
  concatenate S32768 0 [⟨S16384, a0⟩, ⟨S16384, a1⟩] concatenates_S16384_S16384_S32768_d0

/-- The six windows' arrays as the TensorCore region finds them (the output array at anything). -/
def regA (c : Dev nD) (a0 a1 : IVec S16384 32) (a2 : FVec F S1000000x64 .f32) (a3 : FVec F S64x64 .f32) (junk : FVec F S16384x1 .f32) :
    (w : Fin cfg1.W) → Buf (Elt F) ((cfg1.win w).arr.view.loc (c.tc : Thread nD τ))
  | ⟨0, _⟩ => gathered (tblOf a2) (idxOf a0 a1)
  | ⟨1, _⟩ => gathered (tblOf a2) (idxOf a0 a1)
  | ⟨2, _⟩ => shapeCast S16384x1 a0 shapeCasts_S16384_S16384x1
  | ⟨3, _⟩ => shapeCast S16384x1 a1 shapeCasts_S16384_S16384x1
  | ⟨4, _⟩ => a3
  | ⟨5, _⟩ => junk

/-- The program's result. -/
def kernelVal (c : Dev nD) (a0 a1 : IVec S16384 32) (a2 : FVec F S1000000x64 .f32) (a3 : FVec F S64x64 .f32) (junk : FVec F S16384x1 .f32) :
    FVec F S16384 .f32 :=
  shapeCast S16384 (tcFinal c (regA c a0 a1 a2 a3 junk)) shapeCasts_S16384x1_S16384

end Cert.KernelIdeal.Hand

end
-- ==== Proof.ConcatI.lean ====
/-
  The concatenation of the two index arrays, read at an index: the first 16384 entries are the first array's, the next
  16384 the second's; so a bound every word of both arrays obeys, every word of the concatenation obeys.
-/
import proofs.«206720_g66460323938928_cont_9to1_m_1264_22_alg».proof.KernelIdeal
import proofs.«206720_g66460323938928_cont_9to1_m_1264_22_alg».proof.Proof.Gen.KernelIdeal
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

/-- Below 16384 the concatenation reads the first array. -/
theorem concat_lo (a b : IVec S16384 32) (n : Fin 16384) :
    concatenate S32768 0 [⟨S16384, a⟩, ⟨S16384, b⟩] concatenates_S16384_S16384_S32768_d0 (ix1 (⟨n.val, by omega⟩ : Fin 32768))
      = a (ix1 n) :=
  concatenate_pair_apply_left (t := S32768) (s₁ := S16384) (s₂ := S16384) 0 a b concatenates_S16384_S16384_S32768_d0
    (ix1 (⟨n.val, by omega⟩ : Fin 32768)) rfl (ix1 n) (fun c => by
      match c with
      | ⟨0, _⟩ => rfl)

/-- From 16384 on it reads the second array, 16384 entries back. -/
theorem concat_hi (a b : IVec S16384 32) (n : Fin 16384) :
    concatenate S32768 0 [⟨S16384, a⟩, ⟨S16384, b⟩] concatenates_S16384_S16384_S32768_d0 (ix1 (⟨16384 + n.val, by omega⟩ : Fin 32768))
      = b (ix1 n) :=
  concatenate_pair_apply_right (t := S32768) (s₁ := S16384) (s₂ := S16384) 0 a b concatenates_S16384_S16384_S32768_d0
    (ix1 (⟨16384 + n.val, by omega⟩ : Fin 32768)) rfl rfl (ix1 n)
    (fun c hc => absurd (Subsingleton.elim (α := Fin 1) _ _) hc)
    (Nat.add_comm n.val 16384)

/-- A bound on every word of both arrays bounds every word of the concatenation. -/
theorem concat_range (a b : IVec S16384 32) (N : ℕ) (ha : ∀ j, (a j).toNat < N) (hb : ∀ j, (b j).toNat < N) :
    ∀ j, (concatenate S32768 0 [⟨S16384, a⟩, ⟨S16384, b⟩] concatenates_S16384_S16384_S32768_d0 j).toNat < N := by
  intro j
  have hj : (j 0).val < 32768 := (j 0).isLt
  by_cases h : (j 0).val < 16384
  · have e : j = ix1 (⟨(j 0).val, hj⟩ : Fin 32768) := eq_ix1 j
    have hv := (congrArg (concatenate S32768 0 [⟨S16384, a⟩, ⟨S16384, b⟩] concatenates_S16384_S16384_S32768_d0) e).trans
      (concat_lo a b ⟨(j 0).val, h⟩)
    rw [hv]
    exact ha _
  · have hn : (j 0).val - 16384 < 16384 := by omega
    have hs : 16384 + ((j 0).val - 16384) < 32768 := by omega
    have e : j = ix1 (⟨16384 + ((j 0).val - 16384), hs⟩ : Fin 32768) :=
      (eq_ix1 j).trans (congrArg ix1 (Fin.ext (Nat.add_sub_cancel' (Nat.le_of_not_lt h)).symm))
    have hv := (congrArg (concatenate S32768 0 [⟨S16384, a⟩, ⟨S16384, b⟩] concatenates_S16384_S16384_S32768_d0) e).trans
      (concat_hi a b ⟨(j 0).val - 16384, hn⟩)
    rw [hv]
    exact hb _

end Cert.KernelIdeal.Hand

end
-- ==== Proof.FinalValI.lean ====
/-
  The program's final valuation, as terms of the launch contents; no run. The four arguments are never written, so the
  last valuation holds them as launched. The result array is the last reshape of what the TensorCore call leaves, and the
  five buffers that call reads hold, when it starts, the gathered rows of the reshaped table at the concatenated index
  words, the two index arrays as columns, the 64 by 64 block, and the output array as launched: the one function of the
  arguments the program computes. And the concatenated index words are in range when both index arrays are.
-/
import proofs.«206720_g66460323938928_cont_9to1_m_1264_22_alg».proof.Proof.LaunchDefsI
import proofs.«206720_g66460323938928_cont_9to1_m_1264_22_alg».proof.Proof.KernelValI
import proofs.«206720_g66460323938928_cont_9to1_m_1264_22_alg».proof.Proof.ConcatI

noncomputable section

namespace Cert.KernelIdeal.Hand

open Cert.KernelIdeal Cert.KernelIdeal.Gen
open Idealize.ShloMosaic
open Idealize.ShloMosaic.SparseCore (S V T)

variable {F : FTy → Type} [FloatOps F]
variable (m : (ℓ : Loc nD τ sig) → Buf (Elt F) ℓ) (d : Dev nD)

/-! ## A buffer no operation up to a stage writes holds what it held at launch -/

/-- Before the SparseCore call only `main_v0` and `main_v1` are written. -/
theorem V2_of_ne (r : Ref sig .tc) (h0 : r ≠ main_v0) (h1 : r ≠ main_v1) :
    V2 m d (Proc.devRef .tc r) = m (d, Proc.devRef .tc r) := by
  unfold V2 V0
  rw [StableHlo.binary_result_ne (h := h1) .., StableHlo.reshape_result_ne (h := h0) ..]

/-- The call writes `main_v2`. -/
theorem V2'_of_ne (r : Ref sig .tc) (h0 : r ≠ main_v0) (h1 : r ≠ main_v1) (h2 : r ≠ main_v2) :
    V2' m d (Proc.devRef .tc r) = m (d, Proc.devRef .tc r) := by
  unfold V2'
  rw [Function.update_of_ne (StableHlo.devRef_ne_of_ne h2), V2_of_ne m d r h0 h1]

/-- The two reshapes after it write `main_v3` and `main_v4`. -/
theorem V4_of_ne (r : Ref sig .tc) (h0 : r ≠ main_v0) (h1 : r ≠ main_v1) (h2 : r ≠ main_v2) (h3 : r ≠ main_v3) (h4 : r ≠ main_v4) :
    V4 m d (Proc.devRef .tc r) = m (d, Proc.devRef .tc r) := by
  unfold V4
  rw [StableHlo.reshape_result_ne (h := h4) .., StableHlo.reshape_result_ne (h := h3) .., V2'_of_ne m d r h0 h1 h2]

/-- The TensorCore call writes `main_v5`, the last reshape `main_v6`. -/
theorem V6_of_ne (r : Ref sig .tc) (h0 : r ≠ main_v0) (h1 : r ≠ main_v1) (h2 : r ≠ main_v2) (h3 : r ≠ main_v3) (h4 : r ≠ main_v4)
    (h5 : r ≠ main_v5) (h6 : r ≠ main_v6) : V6 m d (Proc.devRef .tc r) = m (d, Proc.devRef .tc r) := by
  unfold V6 V5
  rw [StableHlo.reshape_result_ne (h := h6) .., Function.update_of_ne (StableHlo.devRef_ne_of_ne h5), V4_of_ne m d r h0 h1 h2 h3 h4]

/-! ## The arguments are never written -/

theorem V6_arg0 : V6 m d rA0 = m ((SparseCore.T d : Thread nD τ).loc main_arg0) :=
  V6_of_ne m d main_arg0 (by decide) (by decide) (by decide) (by decide) (by decide) (by decide) (by decide)
theorem V6_arg1 : V6 m d rA1 = m ((SparseCore.T d : Thread nD τ).loc main_arg1) :=
  V6_of_ne m d main_arg1 (by decide) (by decide) (by decide) (by decide) (by decide) (by decide) (by decide)
theorem V6_arg2 : V6 m d rA2 = m ((SparseCore.T d : Thread nD τ).loc main_arg2) :=
  V6_of_ne m d main_arg2 (by decide) (by decide) (by decide) (by decide) (by decide) (by decide) (by decide)
theorem V6_arg3 : V6 m d rA3 = m ((SparseCore.T d : Thread nD τ).loc main_arg3) :=
  V6_of_ne m d main_arg3 (by decide) (by decide) (by decide) (by decide) (by decide) (by decide) (by decide)

/-! ## What the SparseCore call reads -/

/-- The table the call reads is the launched table at 128-wide rows. -/
theorem tbV_eq : tbV m d = tblOf (m ((SparseCore.T d : Thread nD τ).loc main_arg2)) := by
  unfold tbV V2 V0
  rw [StableHlo.binary_result_ne (h := (by decide : main_v0 ≠ main_v1)) .., StableHlo.reshape_result']
  rfl

/-- The index words the call reads are the two launched index arrays, one after the other. -/
theorem ixV_eq : ixV m d = idxOf (m ((SparseCore.T d : Thread nD τ).loc main_arg0)) (m ((SparseCore.T d : Thread nD τ).loc main_arg1)) := by
  unfold ixV V2 V0
  rw [StableHlo.binary_result', StableHlo.reshape_result_ne (h := (by decide : main_arg0 ≠ main_v0)) ..,
    StableHlo.reshape_result_ne (h := (by decide : main_arg1 ≠ main_v0)) ..]
  rfl

/-! ## What the TensorCore call reads -/

/-- The gathered array, when the TensorCore call starts: the gathered rows of the launched table at the launched words. -/
theorem V4_rV2 : V4 m d rV2 = gathered (tblOf (m ((SparseCore.T d : Thread nD τ).loc main_arg2)))
    (idxOf (m ((SparseCore.T d : Thread nD τ).loc main_arg0)) (m ((SparseCore.T d : Thread nD τ).loc main_arg1))) := by
  unfold V4
  rw [StableHlo.reshape_result_ne (h := (by decide : main_v2 ≠ main_v4)) ..,
    StableHlo.reshape_result_ne (h := (by decide : main_v2 ≠ main_v3)) ..]
  unfold V2'
  rw [Function.update_self]
  unfold outAfter
  rw [tbV_eq, ixV_eq]

/-- The first index array as a column. -/
theorem V4_rV3 : V4 m d rV3 = shapeCast S16384x1 (m ((SparseCore.T d : Thread nD τ).loc main_arg0)) shapeCasts_S16384_S16384x1 := by
  unfold V4
  rw [StableHlo.reshape_result_ne (h := (by decide : main_v3 ≠ main_v4)) .., StableHlo.reshape_result',
    V2'_of_ne m d main_arg0 (by decide) (by decide) (by decide)]
  rfl

/-- The second index array as a column. -/
theorem V4_rV4 : V4 m d rV4 = shapeCast S16384x1 (m ((SparseCore.T d : Thread nD τ).loc main_arg1)) shapeCasts_S16384_S16384x1 := by
  unfold V4
  rw [StableHlo.reshape_result', StableHlo.reshape_result_ne (h := (by decide : main_arg1 ≠ main_v3)) ..,
    V2'_of_ne m d main_arg1 (by decide) (by decide) (by decide)]
  rfl

/-- The six windows' arrays the region finds are the ones the program's one function names. -/
theorem regC_V4 : regC d (V4 m d rV2) (V4 m d rV3) (V4 m d rV4) (V4 m d rA3) (V4 m d rV5)
    = regA d (m ((SparseCore.T d : Thread nD τ).loc main_arg0)) (m ((SparseCore.T d : Thread nD τ).loc main_arg1))
        (m ((SparseCore.T d : Thread nD τ).loc main_arg2)) (m ((SparseCore.T d : Thread nD τ).loc main_arg3))
        (m ((SparseCore.T d : Thread nD τ).loc main_v5)) := by
  rw [V4_rV2, V4_rV3, V4_rV4, V4_of_ne m d main_arg3 (by decide) (by decide) (by decide) (by decide) (by decide),
    V4_of_ne m d main_v5 (by decide) (by decide) (by decide) (by decide) (by decide)]
  funext w
  match w with
  | ⟨0, _⟩ => rfl
  | ⟨1, _⟩ => rfl
  | ⟨2, _⟩ => rfl
  | ⟨3, _⟩ => rfl
  | ⟨4, _⟩ => rfl
  | ⟨5, _⟩ => rfl

/-! ## The result -/

theorem V6_result : V6 m d rV6 = kernelVal d (m ((SparseCore.T d : Thread nD τ).loc main_arg0)) (m ((SparseCore.T d : Thread nD τ).loc main_arg1))
    (m ((SparseCore.T d : Thread nD τ).loc main_arg2)) (m ((SparseCore.T d : Thread nD τ).loc main_arg3))
    (m ((SparseCore.T d : Thread nD τ).loc main_v5)) := by
  unfold V6
  rw [StableHlo.reshape_result']
  unfold V5
  rw [Function.update_self, regC_V4]
  rfl

/-! ## The words the SparseCore call reads are in range -/

theorem ixV_range (h0 : ∀ j, (m ((SparseCore.T d : Thread nD τ).loc main_arg0) j).toNat < 1000000)
    (h1 : ∀ j, (m ((SparseCore.T d : Thread nD τ).loc main_arg1) j).toNat < 1000000) :
    ∀ j : S32768.Idx, ((ixV m d : S32768.Idx → Elt F .i32) j).toNat < 1000000 := by
  rw [ixV_eq]
  exact concat_range _ _ 1000000 h0 h1

end Cert.KernelIdeal.Hand

end
-- ==== Proof.KernelValK.lean ====
/-
  The kernel program's result as ONE function of its four argument arrays: the table reshaped to 128-wide rows and
  the two index arrays concatenated (the two host operations before the SparseCore call); the gathered rows; the
  index arrays as columns (the two reshapes after it); the TensorCore call's output array from those as the
  region finds them; and the last reshape to a vector.
-/
import proofs.«206720_g66460323938928_cont_9to1_m_1264_22_alg».proof.Proof.TcDatsK
import proofs.«206720_g66460323938928_cont_9to1_m_1264_22_alg».proof.Proof.TileDefsK

noncomputable section

namespace Cert.Kernel.Hand

open Cert.Kernel Cert.Kernel.Gen
open Idealize.ShloMosaic Idealize.ShloMosaic.TcCoe
open Idealize.ShloMosaic.SparseCore (S V T)
open Idealize.SL.Sem

variable {F : FTy → Type} [FloatOps F]

/-- The table at 128-wide rows: two 64-wide rows side by side. -/
def tblOf (a2 : FVec F S1000000x64 .f32) : FVec F S500000x128 .f32 := shapeCast S500000x128 a2 shapeCasts_S1000000x64_S500000x128
/-- The subjects' words followed by the objects'. -/
def idxOf (a0 a1 : IVec S16384 32) : IVec S32768 32 :=
  concatenate S32768 0 [⟨S16384, a0⟩, ⟨S16384, a1⟩] concatenates_S16384_S16384_S32768_d0

/-- The six windows' arrays as the TensorCore region finds them (the output array at anything). -/
def regA (c : Dev nD) (a0 a1 : IVec S16384 32) (a2 : FVec F S1000000x64 .f32) (a3 : FVec F S64x64 .f32) (junk : FVec F S16384x1 .f32) :
    (w : Fin cfg1.W) → Buf (Elt F) ((cfg1.win w).arr.view.loc (c.tc : Thread nD τ))
  | ⟨0, _⟩ => gathered (tblOf a2) (idxOf a0 a1)
  | ⟨1, _⟩ => gathered (tblOf a2) (idxOf a0 a1)
  | ⟨2, _⟩ => shapeCast S16384x1 a0 shapeCasts_S16384_S16384x1
  | ⟨3, _⟩ => shapeCast S16384x1 a1 shapeCasts_S16384_S16384x1
  | ⟨4, _⟩ => a3
  | ⟨5, _⟩ => junk

/-- The program's result. -/
def kernelVal (c : Dev nD) (a0 a1 : IVec S16384 32) (a2 : FVec F S1000000x64 .f32) (a3 : FVec F S64x64 .f32) (junk : FVec F S16384x1 .f32) :
    FVec F S16384 .f32 :=
  shapeCast S16384 (tcFinal c (regA c a0 a1 a2 a3 junk)) shapeCasts_S16384x1_S16384

end Cert.Kernel.Hand

end
-- ==== Proof.ConcatK.lean ====
/-
  The concatenation of the two index arrays, read at an index: the first 16384 entries are the first array's, the next
  16384 the second's; so a bound every word of both arrays obeys, every word of the concatenation obeys.
-/
import proofs.«206720_g66460323938928_cont_9to1_m_1264_22_alg».proof.Kernel
import proofs.«206720_g66460323938928_cont_9to1_m_1264_22_alg».proof.Proof.Gen.Kernel
import Idealize.ShloMosaic.Lib.ValueIdx
import Idealize.ShloMosaic.Lib.Pipeline.Value

noncomputable section

namespace Cert.Kernel.Hand

open Cert.Kernel Cert.Kernel.Gen
open Idealize.ShloMosaic Idealize.ShloMosaic.ValueIdx

/-- Below 16384 the concatenation reads the first array. -/
theorem concat_lo (a b : IVec S16384 32) (n : Fin 16384) :
    concatenate S32768 0 [⟨S16384, a⟩, ⟨S16384, b⟩] concatenates_S16384_S16384_S32768_d0 (ix1 (⟨n.val, by omega⟩ : Fin 32768))
      = a (ix1 n) :=
  concatenate_pair_apply_left (t := S32768) (s₁ := S16384) (s₂ := S16384) 0 a b concatenates_S16384_S16384_S32768_d0
    (ix1 (⟨n.val, by omega⟩ : Fin 32768)) rfl (ix1 n) (fun c => by
      match c with
      | ⟨0, _⟩ => rfl)

/-- From 16384 on it reads the second array, 16384 entries back. -/
theorem concat_hi (a b : IVec S16384 32) (n : Fin 16384) :
    concatenate S32768 0 [⟨S16384, a⟩, ⟨S16384, b⟩] concatenates_S16384_S16384_S32768_d0 (ix1 (⟨16384 + n.val, by omega⟩ : Fin 32768))
      = b (ix1 n) :=
  concatenate_pair_apply_right (t := S32768) (s₁ := S16384) (s₂ := S16384) 0 a b concatenates_S16384_S16384_S32768_d0
    (ix1 (⟨16384 + n.val, by omega⟩ : Fin 32768)) rfl rfl (ix1 n)
    (fun c hc => absurd (Subsingleton.elim (α := Fin 1) _ _) hc)
    (Nat.add_comm n.val 16384)

/-- A bound on every word of both arrays bounds every word of the concatenation. -/
theorem concat_range (a b : IVec S16384 32) (N : ℕ) (ha : ∀ j, (a j).toNat < N) (hb : ∀ j, (b j).toNat < N) :
    ∀ j, (concatenate S32768 0 [⟨S16384, a⟩, ⟨S16384, b⟩] concatenates_S16384_S16384_S32768_d0 j).toNat < N := by
  intro j
  have hj : (j 0).val < 32768 := (j 0).isLt
  by_cases h : (j 0).val < 16384
  · have e : j = ix1 (⟨(j 0).val, hj⟩ : Fin 32768) := eq_ix1 j
    have hv := (congrArg (concatenate S32768 0 [⟨S16384, a⟩, ⟨S16384, b⟩] concatenates_S16384_S16384_S32768_d0) e).trans
      (concat_lo a b ⟨(j 0).val, h⟩)
    rw [hv]
    exact ha _
  · have hn : (j 0).val - 16384 < 16384 := by omega
    have hs : 16384 + ((j 0).val - 16384) < 32768 := by omega
    have e : j = ix1 (⟨16384 + ((j 0).val - 16384), hs⟩ : Fin 32768) :=
      (eq_ix1 j).trans (congrArg ix1 (Fin.ext (Nat.add_sub_cancel' (Nat.le_of_not_lt h)).symm))
    have hv := (congrArg (concatenate S32768 0 [⟨S16384, a⟩, ⟨S16384, b⟩] concatenates_S16384_S16384_S32768_d0) e).trans
      (concat_hi a b ⟨(j 0).val - 16384, hn⟩)
    rw [hv]
    exact hb _

end Cert.Kernel.Hand

end
-- ==== Proof.FinalValK.lean ====
/-
  The program's final valuation, as terms of the launch contents; no run. The four arguments are never written, so the
  last valuation holds them as launched. The result array is the last reshape of what the TensorCore call leaves, and the
  five buffers that call reads hold, when it starts, the gathered rows of the reshaped table at the concatenated index
  words, the two index arrays as columns, the 64 by 64 block, and the output array as launched: the one function of the
  arguments the program computes. And the concatenated index words are in range when both index arrays are.
-/
import proofs.«206720_g66460323938928_cont_9to1_m_1264_22_alg».proof.Proof.LaunchDefsK
import proofs.«206720_g66460323938928_cont_9to1_m_1264_22_alg».proof.Proof.KernelValK
import proofs.«206720_g66460323938928_cont_9to1_m_1264_22_alg».proof.Proof.ConcatK

noncomputable section

namespace Cert.Kernel.Hand

open Cert.Kernel Cert.Kernel.Gen
open Idealize.ShloMosaic
open Idealize.ShloMosaic.SparseCore (S V T)

variable {F : FTy → Type} [FloatOps F]
variable (m : (ℓ : Loc nD τ sig) → Buf (Elt F) ℓ) (d : Dev nD)

/-! ## A buffer no operation up to a stage writes holds what it held at launch -/

/-- Before the SparseCore call only `main_v0` and `main_v1` are written. -/
theorem V2_of_ne (r : Ref sig .tc) (h0 : r ≠ main_v0) (h1 : r ≠ main_v1) :
    V2 m d (Proc.devRef .tc r) = m (d, Proc.devRef .tc r) := by
  unfold V2 V0
  rw [StableHlo.binary_result_ne (h := h1) .., StableHlo.reshape_result_ne (h := h0) ..]

/-- The call writes `main_v2`. -/
theorem V2'_of_ne (r : Ref sig .tc) (h0 : r ≠ main_v0) (h1 : r ≠ main_v1) (h2 : r ≠ main_v2) :
    V2' m d (Proc.devRef .tc r) = m (d, Proc.devRef .tc r) := by
  unfold V2'
  rw [Function.update_of_ne (StableHlo.devRef_ne_of_ne h2), V2_of_ne m d r h0 h1]

/-- The two reshapes after it write `main_v3` and `main_v4`. -/
theorem V4_of_ne (r : Ref sig .tc) (h0 : r ≠ main_v0) (h1 : r ≠ main_v1) (h2 : r ≠ main_v2) (h3 : r ≠ main_v3) (h4 : r ≠ main_v4) :
    V4 m d (Proc.devRef .tc r) = m (d, Proc.devRef .tc r) := by
  unfold V4
  rw [StableHlo.reshape_result_ne (h := h4) .., StableHlo.reshape_result_ne (h := h3) .., V2'_of_ne m d r h0 h1 h2]

/-- The TensorCore call writes `main_v5`, the last reshape `main_v6`. -/
theorem V6_of_ne (r : Ref sig .tc) (h0 : r ≠ main_v0) (h1 : r ≠ main_v1) (h2 : r ≠ main_v2) (h3 : r ≠ main_v3) (h4 : r ≠ main_v4)
    (h5 : r ≠ main_v5) (h6 : r ≠ main_v6) : V6 m d (Proc.devRef .tc r) = m (d, Proc.devRef .tc r) := by
  unfold V6 V5
  rw [StableHlo.reshape_result_ne (h := h6) .., Function.update_of_ne (StableHlo.devRef_ne_of_ne h5), V4_of_ne m d r h0 h1 h2 h3 h4]

/-! ## The arguments are never written -/

theorem V6_arg0 : V6 m d rA0 = m ((SparseCore.T d : Thread nD τ).loc main_arg0) :=
  V6_of_ne m d main_arg0 (by decide) (by decide) (by decide) (by decide) (by decide) (by decide) (by decide)
theorem V6_arg1 : V6 m d rA1 = m ((SparseCore.T d : Thread nD τ).loc main_arg1) :=
  V6_of_ne m d main_arg1 (by decide) (by decide) (by decide) (by decide) (by decide) (by decide) (by decide)
theorem V6_arg2 : V6 m d rA2 = m ((SparseCore.T d : Thread nD τ).loc main_arg2) :=
  V6_of_ne m d main_arg2 (by decide) (by decide) (by decide) (by decide) (by decide) (by decide) (by decide)
theorem V6_arg3 : V6 m d rA3 = m ((SparseCore.T d : Thread nD τ).loc main_arg3) :=
  V6_of_ne m d main_arg3 (by decide) (by decide) (by decide) (by decide) (by decide) (by decide) (by decide)

/-! ## What the SparseCore call reads -/

/-- The table the call reads is the launched table at 128-wide rows. -/
theorem tbV_eq : tbV m d = tblOf (m ((SparseCore.T d : Thread nD τ).loc main_arg2)) := by
  unfold tbV V2 V0
  rw [StableHlo.binary_result_ne (h := (by decide : main_v0 ≠ main_v1)) .., StableHlo.reshape_result']
  rfl

/-- The index words the call reads are the two launched index arrays, one after the other. -/
theorem ixV_eq : ixV m d = idxOf (m ((SparseCore.T d : Thread nD τ).loc main_arg0)) (m ((SparseCore.T d : Thread nD τ).loc main_arg1)) := by
  unfold ixV V2 V0
  rw [StableHlo.binary_result', StableHlo.reshape_result_ne (h := (by decide : main_arg0 ≠ main_v0)) ..,
    StableHlo.reshape_result_ne (h := (by decide : main_arg1 ≠ main_v0)) ..]
  rfl

/-! ## What the TensorCore call reads -/

/-- The gathered array, when the TensorCore call starts: the gathered rows of the launched table at the launched words. -/
theorem V4_rV2 : V4 m d rV2 = gathered (tblOf (m ((SparseCore.T d : Thread nD τ).loc main_arg2)))
    (idxOf (m ((SparseCore.T d : Thread nD τ).loc main_arg0)) (m ((SparseCore.T d : Thread nD τ).loc main_arg1))) := by
  unfold V4
  rw [StableHlo.reshape_result_ne (h := (by decide : main_v2 ≠ main_v4)) ..,
    StableHlo.reshape_result_ne (h := (by decide : main_v2 ≠ main_v3)) ..]
  unfold V2'
  rw [Function.update_self]
  unfold outAfter
  rw [tbV_eq, ixV_eq]

/-- The first index array as a column. -/
theorem V4_rV3 : V4 m d rV3 = shapeCast S16384x1 (m ((SparseCore.T d : Thread nD τ).loc main_arg0)) shapeCasts_S16384_S16384x1 := by
  unfold V4
  rw [StableHlo.reshape_result_ne (h := (by decide : main_v3 ≠ main_v4)) .., StableHlo.reshape_result',
    V2'_of_ne m d main_arg0 (by decide) (by decide) (by decide)]
  rfl

/-- The second index array as a column. -/
theorem V4_rV4 : V4 m d rV4 = shapeCast S16384x1 (m ((SparseCore.T d : Thread nD τ).loc main_arg1)) shapeCasts_S16384_S16384x1 := by
  unfold V4
  rw [StableHlo.reshape_result', StableHlo.reshape_result_ne (h := (by decide : main_arg1 ≠ main_v3)) ..,
    V2'_of_ne m d main_arg1 (by decide) (by decide) (by decide)]
  rfl

/-- The six windows' arrays the region finds are the ones the program's one function names. -/
theorem regC_V4 : regC d (V4 m d rV2) (V4 m d rV3) (V4 m d rV4) (V4 m d rA3) (V4 m d rV5)
    = regA d (m ((SparseCore.T d : Thread nD τ).loc main_arg0)) (m ((SparseCore.T d : Thread nD τ).loc main_arg1))
        (m ((SparseCore.T d : Thread nD τ).loc main_arg2)) (m ((SparseCore.T d : Thread nD τ).loc main_arg3))
        (m ((SparseCore.T d : Thread nD τ).loc main_v5)) := by
  rw [V4_rV2, V4_rV3, V4_rV4, V4_of_ne m d main_arg3 (by decide) (by decide) (by decide) (by decide) (by decide),
    V4_of_ne m d main_v5 (by decide) (by decide) (by decide) (by decide) (by decide)]
  funext w
  match w with
  | ⟨0, _⟩ => rfl
  | ⟨1, _⟩ => rfl
  | ⟨2, _⟩ => rfl
  | ⟨3, _⟩ => rfl
  | ⟨4, _⟩ => rfl
  | ⟨5, _⟩ => rfl

/-! ## The result -/

theorem V6_result : V6 m d rV6 = kernelVal d (m ((SparseCore.T d : Thread nD τ).loc main_arg0)) (m ((SparseCore.T d : Thread nD τ).loc main_arg1))
    (m ((SparseCore.T d : Thread nD τ).loc main_arg2)) (m ((SparseCore.T d : Thread nD τ).loc main_arg3))
    (m ((SparseCore.T d : Thread nD τ).loc main_v5)) := by
  unfold V6
  rw [StableHlo.reshape_result']
  unfold V5
  rw [Function.update_self, regC_V4]
  rfl

/-! ## The words the SparseCore call reads are in range -/

theorem ixV_range (h0 : ∀ j, (m ((SparseCore.T d : Thread nD τ).loc main_arg0) j).toNat < 1000000)
    (h1 : ∀ j, (m ((SparseCore.T d : Thread nD τ).loc main_arg1) j).toNat < 1000000) :
    ∀ j : S32768.Idx, ((ixV m d : S32768.Idx → Elt F .i32) j).toNat < 1000000 := by
  rw [ixV_eq]
  exact concat_range _ _ 1000000 h0 h1

end Cert.Kernel.Hand

end
-- ==== Proof.TcValue.lean ====
/-
  The value the TensorCore body stores at a row, at the ideal instance: the logistic of the bilinear form of the two
  halves the row's index words select, with the 64 by 64 block between them. Every product and sum is the exact one on
  the extended reals.
-/
import proofs.«206720_g66460323938928_cont_9to1_m_1264_22_alg».proof.Proof.TcBodyI
import Idealize.ShloMosaic.Lib.ValueIdx
import Idealize.ShloMosaic.Lib.ValueLayout
import Idealize.ShloMosaic.Lib.Pipeline.Value
import Idealize.ShloMosaic.PureOps.Ideal.Laws

noncomputable section

namespace Cert.Spec

open Idealize.ShloMosaic Idealize.ShloMosaic.ValueIdx

/-- The half of a 128-wide row that a word's parity selects: columns 64..127 for an odd word, columns 0..63 for an even one. -/
def half (w : BitVec 32) (x : FVec Ideal ⟨2, ![2048, 128]⟩ .f32) (r : Fin 2048) (k : Fin 64) : EReal :=
  if w &&& 1#32 = 1#32 then x (ix2 r ⟨64 + k.val, by omega⟩) else x (ix2 r ⟨k.val, by omega⟩)

end Cert.Spec

namespace Cert.KernelIdeal.Hand

open Cert.KernelIdeal Cert.KernelIdeal.Gen
open Idealize.ShloMosaic Idealize.ShloMosaic.ValueIdx
open scoped BigOperators

/-! ## Two column layouts read at an index -/

section Layout
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The parity test of a word -/

/-- A select on "the word's low bit is set", as the program computes it (an `and` with 1 compared with 1), is the `if`
    on that equation. -/
theorem select_parity {α : Type} (w : BitVec 32) (A B : α) :
    Scalar.select (IntOp.cmpi .eq (IntOp.andi w 1#32) 1#32) A B = if w &&& 1#32 = 1#32 then A else B := by
  unfold Scalar.select IntOp.cmpi IntOp.andi
  by_cases h : w &&& 1#32 = 1#32
  · simp [h]
  · have hb : (w &&& 1#32 == 1#32) = false := beq_eq_false_iff_ne.mpr h
    rw [if_neg h, hb]
    rfl

/-! ## The three non-pointwise steps of the payload, each read at an index -/

/-- The logistic of a vector at an index is the logistic of its element. -/
theorem logistic_apply {s : Shape} {φ : FTy} (v : FVec Ideal s φ) (i : s.Idx) : logistic v i = Ideal.logistic (v i) := rfl

/-- The sum along the rows, kept as a column, then the logistic: at row `r` the logistic of the row's sum. -/
theorem logistic_rowsum_apply (m : FVec Ideal S2048x64 .f32) (h : S2048x64.Reduces [1] S2048) (hφ : FKind.Formats .f32)
    (hacc : (0x00000000#32 : BitVec 32) = FKind.add.neutral .f32 hφ) (hc : S2048.ShapeCasts S2048x1) (r : Fin 2048) :
    logistic (shapeCast S2048x1 (multiReduction .add [1] S2048 m 0x00000000#32 h hφ hacc) hc) (ix2 r (0 : Fin 1))
      = Ideal.logistic (∑ k : Fin 64, m (ix2 r k)) := by
  rw [logistic_apply, shapeCast_a_a1_apply]
  refine congrArg Ideal.logistic ?_
  refine (Ideal.multiReduction_add_single m _ h hφ hacc (ix1 r)).trans ?_
  refine Finset.sum_congr rfl fun k _ => congrArg m ?_
  funext ax; apply Fin.ext
  match ax with
  | ⟨0, _⟩ => rfl
  | ⟨1, _⟩ => rfl

/-- The half of a row the program's select takes — the parity test of the row's word broadcast along the row, over the
    two column slices of the block — is `Cert.Spec.half` of that word. -/
theorem select_half_apply (x : FVec Ideal S2048x128 .f32) (w : IVec S2048x1 32)
    (h1 : S2048x1.ShapeCasts S2048x1) (h2 : S2048x128.ShapeCasts S2048x128) (hb : S2048x1.Broadcasts S2048x64)
    (hs64 : S2048x128.Slices ![0, 64] S2048x64) (hs0 : S2048x128.Slices ![0, 0] S2048x64) (r : Fin 2048) (k : Fin 64) :
    select (broadcastTo S2048x64 (shapeCast S2048x1 (cmpi .eq (andi (shapeCast S2048x1 w h1) (broadcast S2048x1 1#32)) (broadcast S2048x1 1#32)) h1) hb)
        (extractStridedSlice S2048x64 ![0, 64] (shapeCast S2048x128 x h2) hs64)
        (extractStridedSlice S2048x64 ![0, 0] (shapeCast S2048x128 x h2) hs0) (ix2 r k)
      = Cert.Spec.half (w (ix2 r (0 : Fin 1))) x r k := by
  rw [select_apply, broadcastTo_a1_ab_apply, shapeCast_self, shapeCast_self, shapeCast_self]
  rw [slice2_axis1_apply 64 x hs64 r k ⟨64 + k.val, by omega⟩ rfl,
    slice2_axis1_apply 0 x hs0 r k ⟨k.val, by omega⟩ (Nat.zero_add _).symm]
  exact select_parity _ _ _

/-- The program's matrix product contracts the second axis of both operands: at `(r, k)` into the zero block it is the
    sum over `l` of the left operand at `(r, l)` times the right at `(k, l)`. -/
theorem matmul_rows_apply (A : FVec Ideal S2048x64 .f32) (B : FVec Ideal S64x64 .f32) (r : Fin 2048) (k : Fin 64) :
    matmul dot_S2048x64_S64x64_S2048x64_1_1_0_0_n_n none A B (constant (F := Ideal) S2048x64 .f32 0x00000000#32) (ix2 r k)
      = ∑ l : Fin 64, A (ix2 r l) * B (ix2 k l) := by
  show FloatOps.matmul _ none A B _ (ix2 r k) = _
  rw [Ideal.matmul_constant_zero_apply,
    ← Equiv.sum_comp (contrEquiv1 dot_S2048x64_S64x64_S2048x64_1_1_0_0_n_n 64 rfl rfl).symm]
  refine Finset.sum_congr rfl fun l _ => ?_
  have c := contrEquiv1_symm_val dot_S2048x64_S64x64_S2048x64_1_1_0_0_n_n 64 rfl rfl l
  have hl : dot_S2048x64_S64x64_S2048x64_1_1_0_0_n_n.lhsIdx (ix2 r k) ((contrEquiv1 _ 64 rfl rfl).symm l) = ix2 r l := by
    funext ax; apply Fin.ext
    match ax with
    | ⟨0, _⟩ => simp [DotDims.lhsIdx, dot_S2048x64_S64x64_S2048x64_1_1_0_0_n_n]; rfl
    | ⟨1, _⟩ => simp [DotDims.lhsIdx, dot_S2048x64_S64x64_S2048x64_1_1_0_0_n_n]; exact c
  have hr : dot_S2048x64_S64x64_S2048x64_1_1_0_0_n_n.rhsIdx (ix2 r k) ((contrEquiv1 _ 64 rfl rfl).symm l) = ix2 k l := by
    funext ax; apply Fin.ext
    match ax with
    | ⟨0, _⟩ => simp [DotDims.rhsIdx, dot_S2048x64_S64x64_S2048x64_1_1_0_0_n_n]; rfl
    | ⟨1, _⟩ => simp [DotDims.rhsIdx, dot_S2048x64_S64x64_S2048x64_1_1_0_0_n_n]; exact c
  rw [hl, hr]

/-! ## The stored value at a row -/

/-- The zero offsets of a whole-block access, as the constant function. -/
theorem off00 : (![0, 0] : Fin 2 → ℕ) = fun _ => 0 := by
  funext a
  match a with
  | ⟨0, _⟩ => rfl
  | ⟨1, _⟩ => rfl

/-- What the body stores at row `r` of the output block: the logistic of `∑ k, s[r, k] · ∑ l, o[r, l] · rel[k, l]`, where
    `s` and `o` are the halves of row `r` of the two 128-wide blocks that the row's two index words select. -/
theorem tcOut_apply (x0 x1 : Vec Ideal S2048x128 .f32) (x2 x3 : Vec Ideal S2048x1 .i32) (x4 : Vec Ideal S64x64 .f32) (r : Fin 2048) :
    tcOut (F := Ideal) x0 x1 x2 x3 x4 (ix2 r (0 : Fin 1))
      = Ideal.logistic (∑ k : Fin 64, Cert.Spec.half (x2 (ix2 r 0)) x0 r k * ∑ l : Fin 64, Cert.Spec.half (x3 (ix2 r 0)) x1 r l * x4 (ix2 k l)) := by
  unfold tcOut
  simp only [View.canon_unit_zero (S := S2048x1) off00, View.ld_unit_zero (S := S2048x128) off00,
    View.ld_unit_zero (S := S2048x1) off00, View.ld_unit_zero (S := S64x64) off00]
  unfold k1_pay1
  refine (logistic_rowsum_apply _ _ _ _ _ r).trans ?_
  refine congrArg Ideal.logistic (Finset.sum_congr rfl fun k _ => ?_)
  rw [mulf_apply, select_half_apply, matmul_rows_apply]
  refine congrArg (_ * ·) (Finset.sum_congr rfl fun l _ => ?_)
  rw [select_half_apply]

end Cert.KernelIdeal.Hand

end
-- ==== Proof.Spec.lean ====
/-
  The function both programs compute, stated once over the argument arrays and no program.

  For pair `n` let `s` and `o` be the table rows the words `sub n` and `obj n` name. The score is the logistic of the
  bilinear form `e_s · (R e_o) = ∑ k, emb[s, k] · ∑ l, emb[o, l] · rel[k, l]`, on the extended reals: every product and
  sum is the exact one, so the order of the sums and the grouping of the products are the only freedom, and both
  programs use this one.
-/
import Idealize.ShloMosaic.PureOps.Ideal
import Idealize.ShloMosaic.Lib.ValueIdx

noncomputable section

namespace Cert.Spec

open Idealize.ShloMosaic Idealize.ShloMosaic.ValueIdx
open scoped BigOperators

/-- The table row a 32-bit index word names. Total: the word reduced modulo the number of rows, which on a word below
    `10^6` (the only ones the precondition admits) is the word itself. -/
def rowOf (w : BitVec 32) : Fin 1000000 := ⟨w.toNat % 1000000, Nat.mod_lt _ (by decide)⟩

theorem rowOf_val_of_lt {w : BitVec 32} (h : w.toNat < 1000000) : (rowOf w).val = w.toNat := Nat.mod_eq_of_lt h

/-- The score of pair `n`: the logistic of `e_s · (R e_o)`. -/
def score (sub obj : IVec ⟨1, ![16384]⟩ 32) (emb : FVec Ideal ⟨2, ![1000000, 64]⟩ .f32) (rel : FVec Ideal ⟨2, ![64, 64]⟩ .f32)
    (n : Fin 16384) : EReal :=
  Ideal.logistic (∑ k : Fin 64, emb (ix2 (rowOf (sub (ix1 n))) k) * ∑ l : Fin 64, emb (ix2 (rowOf (obj (ix1 n))) l) * rel (ix2 k l))

end Cert.Spec

end
-- ==== Proof.HalfRow.lean ====
/-
  A table row read through the pairing of rows.

  Reshaping the `[1000000, 64]` table to `[500000, 128]` in row-major order puts rows `2 i` and `2 i + 1` side by side
  in row `i`: entry `(i, c)` of the reshaped table is entry `(2 i + c / 64, c % 64)` of the original. So of the paired
  row `w / 2`, the right half is row `w` when `w` is odd and the left half is row `w` when `w` is even; and `w` is odd
  exactly when its lowest bit is set.
-/
import proofs.«206720_g66460323938928_cont_9to1_m_1264_22_alg».proof.Proof.Spec
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

/-- The lowest bit of a word is set exactly when the word is odd. -/
theorem and_one_eq_one_iff (w : BitVec 32) : w &&& 1#32 = 1#32 ↔ w.toNat % 2 = 1 := by
  rw [← BitVec.toNat_inj, BitVec.toNat_and, show (1#32 : BitVec 32).toNat = 1 from rfl, Nat.and_one_is_mod]

/-- THE RESHAPED TABLE AT `(i, c)`: the original at row `2 i + c / 64`, column `c % 64`. -/
theorem reshape_apply {α : Type} (emb : (⟨2, ![1000000, 64]⟩ : Shape).Idx → α)
    (hc : (⟨2, ![1000000, 64]⟩ : Shape).ShapeCasts ⟨2, ![500000, 128]⟩) (i : Fin 500000) (c : Fin 128) :
    shapeCast ⟨2, ![500000, 128]⟩ emb hc (ix2 i c)
      = emb (ix2 (⟨2 * i.val + c.val / 64, by omega⟩ : Fin 1000000) (⟨c.val % 64, by omega⟩ : Fin 64)) := by
  refine shapeCast_apply emb hc _ _ ?_
  rw [Shape.rowMajor_val_two, Shape.rowMajor_val_two]
  show (2 * i.val + c.val / 64) * 64 + c.val % 64 = i.val * 128 + c.val
  omega

/-- Two rank-2 indices with equal coordinates are equal. -/
theorem ix2_eq {n0 n1 : Nat} {a a' : Fin n0} {b b' : Fin n1} (ha : a.val = a'.val) (hb : b.val = b'.val) :
    ix2 a b = ix2 a' b' := by
  rw [Fin.ext ha, Fin.ext hb]

/-- THE HALF OF THE PAIRED ROW THE WORD'S PARITY PICKS IS THE WORD'S OWN ROW. -/
theorem half_of_gathered (emb : FVec Ideal ⟨2, ![1000000, 64]⟩ .f32)
    (hc : (⟨2, ![1000000, 64]⟩ : Shape).ShapeCasts ⟨2, ![500000, 128]⟩)
    (w : BitVec 32) (hw : w.toNat < 1000000) (x : FVec Ideal ⟨2, ![2048, 128]⟩ .f32) (r : Fin 2048)
    (hx : ∀ c : Fin 128, x (ix2 r c)
      = shapeCast ⟨2, ![500000, 128]⟩ emb hc (ix2 (⟨w.toNat / 2, by omega⟩ : Fin 500000) c)) (k : Fin 64) :
    (if w &&& 1#32 = 1#32 then x (ix2 r (⟨64 + k.val, by omega⟩ : Fin 128)) else x (ix2 r (⟨k.val, by omega⟩ : Fin 128)))
      = emb (ix2 (Cert.Spec.rowOf w) k) := by
  have hrow : (rowOf w).val = w.toNat := rowOf_val_of_lt hw
  have hk := k.isLt
  by_cases hodd : w &&& 1#32 = 1#32
  · have ho := (and_one_eq_one_iff w).1 hodd
    rw [if_pos hodd, hx, reshape_apply]
    refine congrArg emb (ix2_eq ?_ ?_)
    · show 2 * (w.toNat / 2) + (64 + k.val) / 64 = (rowOf w).val
      rw [hrow]; omega
    · show (64 + k.val) % 64 = k.val
      omega
  · have he : w.toNat % 2 ≠ 1 := fun h => hodd ((and_one_eq_one_iff w).2 h)
    rw [if_neg hodd, hx, reshape_apply]
    refine congrArg emb (ix2_eq ?_ ?_)
    · show 2 * (w.toNat / 2) + k.val / 64 = (rowOf w).val
      rw [hrow]; omega
    · show k.val % 64 = k.val
      omega

end Cert.Spec

end
-- ==== Proof.KernelValueI.lean ====
/-
  The kernel program's result at an index is the specification, at the ideal instance, where both index arrays are
  in range.

  Output row `n = 2048 t + r` is written at grid point `t`, row `r` of the block. There the first 128-wide block's
  row is gathered row `n` — the paired table row the subject's word halved names —, the second's is gathered row
  `16384 + n` — the object's —, the two index columns hold the two words themselves, and the last block is the whole
  relation. The half of each paired row its word's parity picks is the word's own table row, so the stored value is
  the logistic of the bilinear form of the two rows: the specification.
-/
import proofs.«206720_g66460323938928_cont_9to1_m_1264_22_alg».proof.Proof.KernelValI
import proofs.«206720_g66460323938928_cont_9to1_m_1264_22_alg».proof.Proof.TcValue
import proofs.«206720_g66460323938928_cont_9to1_m_1264_22_alg».proof.Proof.HalfRow
import proofs.«206720_g66460323938928_cont_9to1_m_1264_22_alg».proof.Proof.Spec
import proofs.«206720_g66460323938928_cont_9to1_m_1264_22_alg».proof.Proof.ConcatI

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.SparseCore (S V T)
open Idealize.SL.Sem
open scoped BigOperators

variable {F : FTy → Type} [FloatOps F]

/-! ## The input windows' index maps, decided over the grid -/

theorem tcIdx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem tcIdx1 : ∀ t : Fin cfg1.N, win1_1.index t (0 : Fin 2) = t.val + 8 ∧ win1_1.index t (1 : Fin 2) = 0 :=
  (by decide +kernel : ∀ t : Fin grid1.N, win1_1.index t (0 : Fin 2) = t.val + 8 ∧ win1_1.index t (1 : Fin 2) = 0)
theorem tcIdx2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem tcIdx3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem tcIdx4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-! ## The input windows' blocks read at an index, over any array -/

/-- Window 0's block at point `t`, row `r`: the array's row `2048 t + r`. -/
theorem tcBlk0_apply (G : S32768x128.Idx → Elt F .f32) (t : Fin cfg1.N) (r : Fin 2048) (cc : Fin 128)
    (m : Fin 32768) (hm : m.val = 2048 * t.val + r.val) :
    ((cfg1.win 0).blk t).view.read (Elt F) G (ix2 r cc) = G (ix2 m cc) := by
  obtain ⟨e0, e1⟩ := tcIdx0 t
  show G (((cfg1.win 0).blk t).view.emb (ix2 r cc)) = G (ix2 m cc)
  refine congrArg G ?_
  funext a; apply Fin.ext
  match a with
  | ⟨0, _⟩ => show win1_0.index t (0 : Fin 2) * 2048 + 1 * r.val = m.val; rw [e0, hm]; omega
  | ⟨1, _⟩ => show win1_0.index t (1 : Fin 2) * 128 + 1 * cc.val = cc.val; rw [e1]; omega

/-- Window 1's block at point `t`, row `r`: the array's row `16384 + 2048 t + r`. -/
theorem tcBlk1_apply (G : S32768x128.Idx → Elt F .f32) (t : Fin cfg1.N) (r : Fin 2048) (cc : Fin 128)
    (m : Fin 32768) (hm : m.val = 16384 + (2048 * t.val + r.val)) :
    ((cfg1.win 1).blk t).view.read (Elt F) G (ix2 r cc) = G (ix2 m cc) := by
  obtain ⟨e0, e1⟩ := tcIdx1 t
  show G (((cfg1.win 1).blk t).view.emb (ix2 r cc)) = G (ix2 m cc)
  refine congrArg G ?_
  funext a; apply Fin.ext
  match a with
  | ⟨0, _⟩ => show win1_1.index t (0 : Fin 2) * 2048 + 1 * r.val = m.val; rw [e0, hm]; omega
  | ⟨1, _⟩ => show win1_1.index t (1 : Fin 2) * 128 + 1 * cc.val = cc.val; rw [e1]; omega

/-- Window 2's block at point `t`, row `r`: the column's row `2048 t + r`. -/
theorem tcBlk2_apply (G : S16384x1.Idx → Elt F .i32) (t : Fin cfg1.N) (r : Fin 2048) (u : Fin 1)
    (m : Fin 16384) (hm : m.val = 2048 * t.val + r.val) :
    ((cfg1.win 2).blk t).view.read (Elt F) G (ix2 r u) = G (ix2 m u) := by
  obtain ⟨e0, e1⟩ := tcIdx2 t
  show G (((cfg1.win 2).blk t).view.emb (ix2 r u)) = G (ix2 m u)
  refine congrArg G ?_
  funext a; apply Fin.ext
  match a with
  | ⟨0, _⟩ => show win1_2.index t (0 : Fin 2) * 2048 + 1 * r.val = m.val; rw [e0, hm]; omega
  | ⟨1, _⟩ => show win1_2.index t (1 : Fin 2) * 1 + 1 * u.val = u.val; rw [e1]; omega

/-- Window 3's block at point `t`, row `r`: the column's row `2048 t + r`. -/
theorem tcBlk3_apply (G : S16384x1.Idx → Elt F .i32) (t : Fin cfg1.N) (r : Fin 2048) (u : Fin 1)
    (m : Fin 16384) (hm : m.val = 2048 * t.val + r.val) :
    ((cfg1.win 3).blk t).view.read (Elt F) G (ix2 r u) = G (ix2 m u) := by
  obtain ⟨e0, e1⟩ := tcIdx3 t
  show G (((cfg1.win 3).blk t).view.emb (ix2 r u)) = G (ix2 m u)
  refine congrArg G ?_
  funext a; apply Fin.ext
  match a with
  | ⟨0, _⟩ => show win1_3.index t (0 : Fin 2) * 2048 + 1 * r.val = m.val; rw [e0, hm]; omega
  | ⟨1, _⟩ => show win1_3.index t (1 : Fin 2) * 1 + 1 * u.val = u.val; rw [e1]; omega

/-- Window 4's block at every point is the whole array. -/
theorem tcBlk4_apply (G : S64x64.Idx → Elt F .f32) (t : Fin cfg1.N) (k l : Fin 64) :
    ((cfg1.win 4).blk t).view.read (Elt F) G (ix2 k l) = G (ix2 k l) := by
  obtain ⟨e0, e1⟩ := tcIdx4 t
  show G (((cfg1.win 4).blk t).view.emb (ix2 k l)) = G (ix2 k l)
  refine congrArg G ?_
  funext a; apply Fin.ext
  match a with
  | ⟨0, _⟩ => show win1_4.index t (0 : Fin 2) * 64 + 1 * k.val = k.val; rw [e0]; omega
  | ⟨1, _⟩ => show win1_4.index t (1 : Fin 2) * 64 + 1 * l.val = l.val; rw [e1]; omega

/-! ## From the blocks' rows to the specification -/

/-- A column read back as a vector: `[a, 1]` cast to `[a]` reads, at `i`, the column's entry of row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- THE STORED VALUE IS THE SCORE, from what the five blocks hold at the row: the two 128-wide rows are the paired
    table rows the two words halved name, the two column entries are the words, the last block is the relation. -/
theorem score_of_blocks (a0 a1 : IVec S16384 32) (a2 : FVec Ideal S1000000x64 .f32) (a3 : FVec Ideal S64x64 .f32)
    (n : Fin 16384) (h0 : (a0 (ix1 n)).toNat < 1000000) (h1 : (a1 (ix1 n)).toNat < 1000000)
    (x0 x1 : Vec Ideal S2048x128 .f32) (x2 x3 : Vec Ideal S2048x1 .i32) (x4 : Vec Ideal S64x64 .f32) (r : Fin 2048)
    (hx0 : ∀ cc : Fin 128, x0 (ix2 r cc)
      = shapeCast S500000x128 a2 shapeCasts_S1000000x64_S500000x128 (ix2 (⟨(a0 (ix1 n)).toNat / 2, by omega⟩ : Fin 500000) cc))
    (hx1 : ∀ cc : Fin 128, x1 (ix2 r cc)
      = shapeCast S500000x128 a2 shapeCasts_S1000000x64_S500000x128 (ix2 (⟨(a1 (ix1 n)).toNat / 2, by omega⟩ : Fin 500000) cc))
    (hx2 : x2 (ix2 r (0 : Fin 1)) = a0 (ix1 n)) (hx3 : x3 (ix2 r (0 : Fin 1)) = a1 (ix1 n))
    (hx4 : ∀ k l : Fin 64, x4 (ix2 k l) = a3 (ix2 k l)) :
    tcOut (F := Ideal) x0 x1 x2 x3 x4 (ix2 r (0 : Fin 1)) = Cert.Spec.score a0 a1 a2 a3 n := by
  rw [tcOut_apply, hx2, hx3]
  unfold Cert.Spec.score
  refine congrArg Ideal.logistic (Finset.sum_congr rfl fun k _ => ?_)
  have e0 : Cert.Spec.half (a0 (ix1 n)) x0 r k = a2 (ix2 (Cert.Spec.rowOf (a0 (ix1 n))) k) :=
    Cert.Spec.half_of_gathered a2 shapeCasts_S1000000x64_S500000x128 (a0 (ix1 n)) h0 x0 r hx0 k
  rw [e0]
  refine congrArg (_ * ·) (Finset.sum_congr rfl fun l _ => ?_)
  have e1 : Cert.Spec.half (a1 (ix1 n)) x1 r l = a2 (ix2 (Cert.Spec.rowOf (a1 (ix1 n))) l) :=
    Cert.Spec.half_of_gathered a2 shapeCasts_S1000000x64_S500000x128 (a1 (ix1 n)) h1 x1 r hx1 l
  rw [e1, hx4]

/-- A gathered row, where the index word is below `10^6`: the reduction modulo the table's rows does nothing. -/
theorem gathered_apply (tbl : S500000x128.Idx → Elt F .f32) (ia : S32768.Idx → Elt F .i32) (m : Fin 32768) (cc : Fin 128)
    (w : BitVec 32) (hw : w.toNat < 1000000) (hia : ia (ix1 m) = w) :
    gathered tbl ia (ix2 m cc) = tbl (ix2 (⟨w.toNat / 2, by omega⟩ : Fin 500000) cc) := by
  unfold gathered
  refine congrArg tbl (Cert.Spec.ix2_eq ?_ rfl)
  show ((ia (ix1 m)).toNat / 2) % 500000 = w.toNat / 2
  rw [hia]
  exact Nat.mod_eq_of_lt (by omega)

/-- THE OUTPUT ARRAY'S ROW `n` IS THE SCORE, over any entry contents that read, index by index, as the region finds
    them: the gathered rows twice, the two index arrays as columns, the relation. -/
theorem tcFinal_eq_score (c : Dev nD) (A : (w : Fin cfg1.W) → Buf (Elt Ideal) ((cfg1.win w).arr.view.loc (c.tc : Thread nD τ)))
    (a0 a1 : IVec S16384 32) (a2 : FVec Ideal S1000000x64 .f32) (a3 : FVec Ideal S64x64 .f32)
    (h0 : ∀ j, (a0 j).toNat < 1000000) (h1 : ∀ j, (a1 j).toNat < 1000000) (n : Fin 16384)
    (hA0 : ∀ (m : Fin 32768) (cc : Fin 128), A 0 (ix2 m cc) = gathered (tblOf a2) (idxOf a0 a1) (ix2 m cc))
    (hA1 : ∀ (m : Fin 32768) (cc : Fin 128), A 1 (ix2 m cc) = gathered (tblOf a2) (idxOf a0 a1) (ix2 m cc))
    (hA2 : ∀ m : Fin 16384, A 2 (ix2 m (0 : Fin 1)) = a0 (ix1 m))
    (hA3 : ∀ m : Fin 16384, A 3 (ix2 m (0 : Fin 1)) = a1 (ix1 m))
    (hA4 : ∀ k l : Fin 64, A 4 (ix2 k l) = a3 (ix2 k l)) :
    tcFinal (F := Ideal) c A (ix2 n (0 : Fin 1)) = Cert.Spec.score a0 a1 a2 a3 n := by
  have hn := n.isLt
  have hq : (tcPoint (ix2 n (0 : Fin 1))).val = n.val / 2048 := rfl
  have hr : (tcRow (ix2 n (0 : Fin 1))).val = n.val % 2048 := rfl
  have hsum : 2048 * (tcPoint (ix2 n (0 : Fin 1))).val + (tcRow (ix2 n (0 : Fin 1))).val = n.val := by
    rw [hq, hr]; omega
  unfold tcFinal tcAt
  refine score_of_blocks a0 a1 a2 a3 n (h0 _) (h1 _) _ _ _ _ _ _ (fun cc => ?_) (fun cc => ?_) ?_ ?_ (fun k l => ?_)
  · -- the first block's row: gathered row n, the subject's word
    unfold tcIblk
    rw [tcBlk0_apply (A 0) _ _ cc (⟨n.val, by omega⟩ : Fin 32768) hsum.symm, hA0]
    exact gathered_apply (tblOf a2) (idxOf a0 a1) _ cc (a0 (ix1 n)) (h0 _) (concat_lo a0 a1 n)
  · -- the second block's row: gathered row 16384 + n, the object's word
    unfold tcIblk
    rw [tcBlk1_apply (A 1) _ _ cc (⟨16384 + n.val, by omega⟩ : Fin 32768) (by show 16384 + n.val = _; omega), hA1]
    exact gathered_apply (tblOf a2) (idxOf a0 a1) _ cc (a1 (ix1 n)) (h1 _) (concat_hi a0 a1 n)
  · unfold tcIblk
    rw [tcBlk2_apply (A 2) _ _ (0 : Fin 1) n hsum.symm, hA2]
  · unfold tcIblk
    rw [tcBlk3_apply (A 3) _ _ (0 : Fin 1) n hsum.symm, hA3]
  · unfold tcIblk
    rw [tcBlk4_apply (A 4), hA4]

/-! ## The result -/

/-- THE KERNEL PROGRAM'S RESULT AT `n` IS THE SPECIFICATION, where both index arrays are in range. -/
theorem kernel_value (c : Dev nD) (a0 a1 : IVec S16384 32) (a2 : FVec Ideal S1000000x64 .f32) (a3 : FVec Ideal S64x64 .f32)
    (junk : FVec Ideal S16384x1 .f32)
    (h0 : ∀ j, (a0 j).toNat < 1000000) (h1 : ∀ j, (a1 j).toNat < 1000000) (n : Fin 16384) :
    kernelVal (F := Ideal) c a0 a1 a2 a3 junk (ValueIdx.ix1 n) = Cert.Spec.score a0 a1 a2 a3 n := by
  unfold kernelVal
  rw [shapeCast_a1_a_apply]
  exact tcFinal_eq_score c (regA c a0 a1 a2 a3 junk) a0 a1 a2 a3 h0 h1 n
    (fun _ _ => rfl) (fun _ _ => rfl)
    (fun m => shapeCast_a_a1_apply a0 shapeCasts_S16384_S16384x1 m (0 : Fin 1))
    (fun m => shapeCast_a_a1_apply a1 shapeCasts_S16384_S16384x1 m (0 : Fin 1))
    (fun _ _ => rfl)

end Cert.KernelIdeal.Hand

end
-- ==== Proof.RefRun.lean ====
/-
  The reference program's run, read back by hand.

  The program is a straight line once its two calls of the row-lookup function (and that function's call of the
  three-way select) are written out at their call sites over each call's own buffers: sixty-two operations, each
  writing one buffer from buffers written before it. Every weakly fair execution therefore terminates with each
  buffer at the fold of the operations over the launch contents; at the result buffer that fold is the composed
  term `refG` of the four arguments, and no operation writes an argument.
-/
import proofs.«206720_g66460323938928_cont_9to1_m_1264_22_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The index words with a negative one wrapped: a word below zero read signed has the row count added. -/
def wrap (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The wrapped words as a column, the gather's start indices. -/
def col (idx : IVec S16384 32) : IVec S16384x1 32 :=
  broadcastInDim S16384x1 ![0] bcast_S16384_S16384x1_0 (wrap idx)

/-- Per row, whether the wrapped word lies in `[0, 999999]` read signed: the conjunction of the two comparisons,
    reduced by AND along the column's one entry. -/
def inRange (idx : IVec S16384 32) : IVec S16384 1 :=
  Host.reduce IntOp.andi
    (andi
      (cmpi .sge (col idx) (broadcastInDim S16384x1 ![] bcast_S_S16384x1 (constantI S_ 32 0#32)))
      (cmpi .sle (col idx)
        (broadcastInDim S16384x1 ![0, 1] bcast_S1x1_S16384x1_0_1
          (broadcastInDim S1x1 ![1] bcast_S1_S1x1_1 (constantI S1 32 999999#32)))))
    (constantI S_ 1 1#1) reducesTo_S16384x1_S16384_d1 h_S_

/-- The row lookup in fill mode, as one term: the rows are gathered at the wrapped words (the gather clamps a word
    outside the table), and a row is kept where its word is in range and replaced by the fill literal elsewhere. -/
def take (tbl : FVec F S1000000x64 .f32) (idx : IVec S16384 32) : FVec F S16384x64 .f32 :=
  select (broadcastInDim S16384x64 ![0] bcast_S16384_S16384x64_0 (inRange idx))
    (Host.gather gather_S1000000x64_S16384x1_S16384x64_1_0_n_n_0_1_164 tbl (col idx))
    (broadcastInDim S16384x64 ![] bcast_S_S16384x64 (constant S_ .f32 0x7FC00000#32))

/-- The result as one term of the four arguments: the looked-up rows of the second index array contracted with
    the transposed relation, multiplied entrywise by the looked-up rows of the first, summed along each row from
    zero, divided by one, and passed through `1 / (1 + exp (-x))`. -/
def refG (a0 a1 : IVec S16384 32) (a2 : FVec Ideal S1000000x64 .f32) (a3 : FVec Ideal S64x64 .f32) :
    FVec Ideal S16384 .f32 :=
  Host.divf (broadcastInDim S16384 ![] bcast_S_S16384 (constant S_ .f32 0x3F800000#32))
    (addf (broadcastInDim S16384 ![] bcast_S_S16384 (constant S_ .f32 0x3F800000#32))
      (Host.exp (Host.negf (Host.divf
        (Host.reduceAdd
          (mulf (take a2 a0)
            (Host.dotGeneral dot_S16384x64_S64x64_S16384x64_1_0_0_1_n_n none (take a2 a1)
              (transpose S64x64 [1, 0] a3 transposes_S64x64_S64x64_1_0)))
          (constant S_ .f32 0x00000000#32) reducesTo_S16384x64_S16384_d1 h_S_)
        (broadcastInDim S16384 ![] bcast_S_S16384 (constant S_ .f32 0x3F800000#32))))))

/-- The sixty-two operations in order: the row lookup's twenty-three over the first call's buffers (the seventh
    the inner select), the same over the second call's, then the sixteen of the main function. -/
abbrev ops : List (HloOp τ sig (Elt F)) :=
  [
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg2) main_call1.v5 main_call1.v13 (fun x i => Host.gather gather_S1000000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select,
    unary main_arg3 main_v2 ((transpose S64x64 [1, 0] · transposes_S64x64_S64x64_1_0) : (⟨S64x64, .f32⟩ : BufTy).Contents (Elt F) → (⟨S64x64, .f32⟩ : BufTy).Contents (Elt F)),
    binary main_v1 main_v2 main_v3 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    binary main_v0 main_v3 main_v4 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v4 main_cst main_v5 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_0 (constant S_ .f32 0x3F800000#32),
    unary main_cst_0 main_v6 (broadcastInDim S16384 ![] bcast_S_S16384 : (⟨S_, .f32⟩ : BufTy).Contents (Elt F) → (⟨S16384, .f32⟩ : BufTy).Contents (Elt F)),
    binary main_v5 main_v6 main_v7 (Host.divf : (⟨S16384, .f32⟩ : BufTy).Contents (Elt F) → (⟨S16384, .f32⟩ : BufTy).Contents (Elt F) → (⟨S16384, .f32⟩ : BufTy).Contents (Elt F)),
    unary main_v7 main_v8 (Host.negf : (⟨S16384, .f32⟩ : BufTy).Contents (Elt F) → (⟨S16384, .f32⟩ : BufTy).Contents (Elt F)),
    unary main_v8 main_v9 (Host.exp : (⟨S16384, .f32⟩ : BufTy).Contents (Elt F) → (⟨S16384, .f32⟩ : BufTy).Contents (Elt F)),
    nullary main_cst_1 (constant S_ .f32 0x3F800000#32),
    unary main_cst_1 main_v10 (broadcastInDim S16384 ![] bcast_S_S16384 : (⟨S_, .f32⟩ : BufTy).Contents (Elt F) → (⟨S16384, .f32⟩ : BufTy).Contents (Elt F)),
    binary main_v10 main_v9 main_v11 (addf : (⟨S16384, .f32⟩ : BufTy).Contents (Elt F) → (⟨S16384, .f32⟩ : BufTy).Contents (Elt F) → (⟨S16384, .f32⟩ : BufTy).Contents (Elt F)),
    nullary main_cst_2 (constant S_ .f32 0x3F800000#32),
    unary main_cst_2 main_v12 (broadcastInDim S16384 ![] bcast_S_S16384 : (⟨S_, .f32⟩ : BufTy).Contents (Elt F) → (⟨S16384, .f32⟩ : BufTy).Contents (Elt F)),
    binary main_v12 main_v11 main_v13 (Host.divf : (⟨S16384, .f32⟩ : BufTy).Contents (Elt F) → (⟨S16384, .f32⟩ : BufTy).Contents (Elt F) → (⟨S16384, .f32⟩ : BufTy).Contents (Elt F)) ]

set_option maxRecDepth 4096 in
/-- The main function is that straight line: the two functions unfolded at their calls and sequencing
    reassociated, both sides are one chain of steps. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub ..⟩

set_option maxRecDepth 16384 in
/-- The fold at the result buffer is `refG` of the launch contents of the four arguments: each operation's
    result at its own buffer is its function's value and at any other buffer what was there. -/
theorem out_eq (V : Valuation τ sig (Elt Ideal)) :
    after ops V (main_v13 : DevRef τ sig)
      = refG (V (main_arg0 : DevRef τ sig)) (V (main_arg1 : DevRef τ sig)) (V (main_arg2 : DevRef τ sig))
          (V (main_arg3 : DevRef τ sig)) := by
  after_results_simp
  simp only [TRef.toBuf, TRef.ofBuf, cast_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On the one device, from any memory with zero counters: every weakly fair execution of the reference
    terminates with the result buffer at `refG` of the arguments' launch contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v13)
            = refG (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v13).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.LibGatherRows.lean ====
/-
  `stablehlo.gather` of whole rows of a rank-2 operand, read at an index.

  What `jnp.take(x, idx, axis = 0)` of a table `x : [N, C]` at an integer array `idx : [R]` lowers to: `lax.gather` with
  offset_dims `[1]`, collapsed_slice_dims `[0]`, start_index_map `[0]`, slice_sizes `[1, C]` and index_vector_dim 1
  over the indices as a column `[R, 1]`. Result element `(r, n)` is `x` at row `idx[r, 0]` — read as a signed integer
  and clamped into `[0, N − 1]`, as StableHLO's gather clamps every start index — and column `n`.
-/
import Idealize.ShloMosaic.Lib.ValueIdx

namespace Idealize.ShloMosaic.ValueIdx

section TakeRows
variable {α : Type}

/-- Those dimension numbers for an operand `[N, C]`, start indices `[R, 1]` and result `[R, C]`; their conditions `wf`
    are decided on a program's literal shapes. -/
abbrev takeRowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, n)`: the operand at row `idx[r, 0]`, read signed and clamped into `[0, N − 1]`, and
    column `n`. -/
theorem gather_takeRows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (takeRowsDims N R C wf) x idx y
      = x (ix2 ⟨min (idx (ix2 (y 0) ⟨0, Nat.one_pos⟩)).toInt.toNat (N - 1), by omega⟩ (y 1)) := by
  unfold Host.gather
  refine congrArg x ?_
  rw [eq_ix2 ((takeRowsDims N R C wf).operandIdx y idx)]
  have h0 : (takeRowsDims N R C wf).operandIdx y idx 0
      = (⟨min (idx (ix2 (y 0) ⟨0, Nat.one_pos⟩)).toInt.toNat (N - 1), by omega⟩ : Fin N) := by
    refine Fin.ext ?_
    show (takeRowsDims N R C wf).start y idx 0 + (takeRowsDims N R C wf).batchCoord y 0
      + (takeRowsDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N R C wf).startIndexMap from List.mem_singleton.mpr rfl)]
    have hsi : ∀ c : Fin (takeRowsDims N R C wf).startIndexMap.length,
        (takeRowsDims N R C wf).siIdx y c = ix2 (y 0) ⟨0, Nat.one_pos⟩ := by
      intro c
      funext b; refine Fin.ext ?_
      match b with
      | ⟨0, _⟩ => rfl
      | ⟨1, _⟩ =>
        show c.val = 0
        exact Nat.lt_one_iff.mp c.isLt
    rw [hsi]
    rfl
  have h1 : (takeRowsDims N R C wf).operandIdx y idx 1 = y 1 := by
    refine Fin.ext ?_
    show (takeRowsDims N R C wf).start y idx 1 + (takeRowsDims N R C wf).batchCoord y 1
      + (takeRowsDims N R C wf).offCoord y 1 = _
    rw [GatherDims.batchCoord_eq_zero _ _ _ List.not_mem_nil, Nat.add_zero]
    unfold GatherDims.start
    rw [dif_neg (show (1 : Fin 2) ∉ (takeRowsDims N R C wf).startIndexMap from
      fun h => absurd (congrArg Fin.val (List.mem_singleton.mp h)) Nat.one_ne_zero), Nat.zero_add]
    unfold GatherDims.offCoord
    rw [dif_pos (show (1 : Fin 2) ∈ (takeRowsDims N R C wf).sKept from (GatherDims.mem_sKept _ _).mpr
      ⟨fun h => absurd (congrArg Fin.val (List.mem_singleton.mp h)) Nat.one_ne_zero, List.not_mem_nil⟩)]
    rfl
  rw [h0, h1]
  rfl

end TakeRows

end Idealize.ShloMosaic.ValueIdx
-- ==== Proof.RefValue.lean ====
/-
  The reference's result, read at an index, is the specification — where both index arrays are in range.

  With every index word below 10^6: a word is not negative, so the wrap keeps it; it lies in `[0, 999999]`, so the
  range bit of its row is 1 and the fill select keeps the gathered row; the gather's clamp of a word already inside the
  table is the word, so the gathered row is the table's row the word names. The transposed relation contracted with
  the second looked-up array is `∑ l, e_o[n, l] · rel[k, l]`; the row sum from zero is the plain sum; a quotient by one
  is the dividend; and `1 / (1 + exp (-x))` is the logistic of `x` by definition.
-/
import proofs.«206720_g66460323938928_cont_9to1_m_1264_22_alg».proof.Proof.RefRun
import proofs.«206720_g66460323938928_cont_9to1_m_1264_22_alg».proof.Proof.Spec
import proofs.«206720_g66460323938928_cont_9to1_m_1264_22_alg».proof.Proof.LibGatherRows
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

variable {F : FTy → Type} [FloatOps F]

/-! ## A word below 10^6 -/

section Words
variable {w : BitVec 32}

/-- Its signed reading is its unsigned one. -/
theorem toInt_of_lt (h : w.toNat < 1000000) : w.toInt = (w.toNat : Int) :=
  BitVec.toInt_eq_toNat_of_lt (by omega)

/-- It is not below zero read signed. -/
theorem slt_zero_of_lt (h : w.toNat < 1000000) : IntOp.cmpi .slt w 0#32 = 0#1 := by
  refine eq_zero_of_ne_one ?_
  rw [IntOp.cmpi_slt, toInt_of_lt h, show (0#32 : BitVec 32).toInt = 0 from by decide]
  omega

/-- It is at least zero read signed. -/
theorem sge_zero_of_lt (h : w.toNat < 1000000) : IntOp.cmpi .sge w 0#32 = 1#1 := by
  rw [IntOp.cmpi_sge, toInt_of_lt h, show (0#32 : BitVec 32).toInt = 0 from by decide]
  omega

/-- It is at most 999999 read signed. -/
theorem sle_max_of_lt (h : w.toNat < 1000000) : IntOp.cmpi .sle w 999999#32 = 1#1 := by
  rw [IntOp.cmpi_sle, toInt_of_lt h, show (999999#32 : BitVec 32).toInt = 999999 from by decide]
  omega

end Words

/-! ## The row lookup, in range -/

/-- The wrap keeps a word that is not negative. -/
theorem wrap_apply (idx : IVec S16384 32) (h : ∀ j, (idx j).toNat < 1000000) (j : S16384.Idx) :
    wrap idx j = idx j := by
  show Scalar.select (IntOp.cmpi .slt (idx j) 0#32) _ (idx j) = idx j
  rw [slt_zero_of_lt (h j), select_zero]

/-- The column of start indices at row `i 0` is the wrapped word of that row. -/
theorem col_apply (idx : IVec S16384 32) (i : S16384x1.Idx) : col idx i = wrap idx (ix1 (i 0)) := by
  unfold col
  exact broadcastInDim_apply _ _ _ _ _ (fun a => match a with | ⟨0, _⟩ => rfl)

/-- A left fold by AND from 1 over ones is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- Every row's range bit is 1. -/
theorem inRange_apply (idx : IVec S16384 32) (h : ∀ j, (idx j).toNat < 1000000) (j : S16384.Idx) :
    inRange idx j = 1#1 := by
  unfold inRange
  rw [Host.reduce_eq_foldl]
  refine foldl_andi_one _ (fun i => ?_) _
  show IntOp.andi (IntOp.cmpi .sge (col idx i) 0#32) (IntOp.cmpi .sle (col idx i) 999999#32) = 1#1
  rw [col_apply, wrap_apply idx h, sge_zero_of_lt (h _), sle_max_of_lt (h _)]
  decide

/-- The program's gather record is the whole-rows one. -/
theorem gatherRec_eq :
    gather_S1000000x64_S16384x1_S16384x64_1_0_n_n_0_1_164
      = takeRowsDims 1000000 16384 64 gather_S1000000x64_S16384x1_S16384x64_1_0_n_n_0_1_164_wf := rfl

/-- THE LOOKUP AT `(n, k)`: the table at the row the word names and column `k`. -/
theorem take_apply (tbl : FVec F S1000000x64 .f32) (idx : IVec S16384 32) (h : ∀ j, (idx j).toNat < 1000000)
    (n : Fin 16384) (k : Fin 64) :
    take tbl idx (ix2 n k) = tbl (ix2 (Cert.Spec.rowOf (idx (ix1 n))) k) := by
  unfold take
  rw [select_apply, gatherRec_eq]
  rw [broadcastInDim_apply ![0] bcast_S16384_S16384x64_0 (inRange idx) (ix2 n k) (ix1 n)
    (fun a => match a with | ⟨0, _⟩ => rfl)]
  rw [inRange_apply idx h, select_one, gather_takeRows_apply (by decide)]
  refine congrArg tbl (congrArg (fun r => ix2 r k) (Fin.ext ?_))
  show min (col idx (ix2 n ⟨0, Nat.one_pos⟩)).toInt.toNat (1000000 - 1) = (Cert.Spec.rowOf (idx (ix1 n))).val
  rw [col_apply, wrap_apply idx h, Cert.Spec.rowOf_val_of_lt (h _)]
  show min (idx (ix1 n)).toInt.toNat (1000000 - 1) = (idx (ix1 n)).toNat
  rw [toInt_of_lt (h _), Int.toNat_natCast]
  have := h (ix1 n)
  omega

/-! ## The contraction, the row sum, the quotient by one -/

/-- The program's dot record is the plain `M×K` by `K×N` one. -/
theorem dotRec_eq : dot_S16384x64_S64x64_S16384x64_1_0_0_1_n_n = DotDims.plain 16384 64 64 := rfl

/-- THE PRODUCT AT `(n, k)`: the sum over the contracted axis of the operands' products. -/
theorem dot_apply (A : FVec Ideal S16384x64 .f32) (B : FVec Ideal S64x64 .f32) (n : Fin 16384) (k : Fin 64) :
    Host.dotGeneral dot_S16384x64_S64x64_S16384x64_1_0_0_1_n_n none A B (ix2 n k)
      = ∑ l : Fin 64, A (ix2 n l) * B (ix2 l k) := by
  simp only [Host.dotGeneral]
  rw [dotRec_eq, Ideal.dotGeneral_apply,
    ← Equiv.sum_comp (contrEquiv1 (DotDims.plain 16384 64 64) 64 rfl rfl).symm]
  refine Finset.sum_congr rfl (fun l _ => ?_)
  have hl : (DotDims.plain 16384 64 64).lhsIdx (ix2 n k) ((contrEquiv1 (DotDims.plain 16384 64 64) 64 rfl rfl).symm l)
      = ix2 n l := by
    funext a
    match a with
    | ⟨0, _⟩ => exact Fin.ext rfl
    | ⟨1, _⟩ => exact Fin.ext rfl
  have hr : (DotDims.plain 16384 64 64).rhsIdx (ix2 n k) ((contrEquiv1 (DotDims.plain 16384 64 64) 64 rfl rfl).symm l)
      = ix2 l k := by
    funext a
    match a with
    | ⟨0, _⟩ => exact Fin.ext rfl
    | ⟨1, _⟩ => exact Fin.ext rfl
  rw [hl, hr]

/-- THE ROW SUM AT `n`, from zero: the plain sum of the row. -/
theorem rowSum_apply (X : FVec Ideal S16384x64 .f32) (n : Fin 16384) :
    Host.reduceAdd X (constant S_ .f32 0x00000000#32) reducesTo_S16384x64_S16384_d1 h_S_ (ix1 n)
      = ∑ k : Fin 64, X (ix2 n k) := by
  rw [hostReduceAdd_apply,
    Ideal.hostReduceAdd_single reducesTo_S16384x64_S16384_d1 (by decide : S16384x64.Reduces [1] S16384),
    constant_apply, Ideal.ofBits_zero_f32, zero_add]
  refine Finset.sum_congr rfl (fun k _ => congrArg X ?_)
  funext c
  match c with
  | ⟨0, _⟩ => exact Fin.ext rfl
  | ⟨1, _⟩ => exact Fin.ext rfl

/-- A quotient by one is the dividend, at the infinities too: the inverse of one is one. -/
theorem div_one (x : EReal) : Ideal.div x 1 = x := by
  unfold Ideal.div
  rw [if_neg one_ne_zero, inv_one, mul_one]

/-- The broadcast literal `0x3F800000` reads one everywhere. -/
theorem bcastOne_apply (j : S16384.Idx) :
    broadcastInDim S16384 ![] bcast_S_S16384 (constant (F := Ideal) S_ .f32 0x3F800000#32) j = 1 := by
  rw [broadcastInDim_scalar_apply, constant_apply, Ideal.ofBits_one_f32]

/-! ## The result -/

/-- THE REFERENCE'S RESULT AT `n` IS THE SPECIFICATION, where both index arrays are in range. -/
theorem refG_apply (a0 a1 : IVec S16384 32) (a2 : FVec Ideal S1000000x64 .f32) (a3 : FVec Ideal S64x64 .f32)
    (h0 : ∀ j, (a0 j).toNat < 1000000) (h1 : ∀ j, (a1 j).toNat < 1000000) (n : Fin 16384) :
    refG a0 a1 a2 a3 (ix1 n) = Cert.Spec.score a0 a1 a2 a3 n := by
  unfold refG Cert.Spec.score
  rw [hostDivf_apply, addf_apply, bcastOne_apply]
  show Ideal.logistic (Ideal.div _ _) = _
  rw [bcastOne_apply, div_one, rowSum_apply]
  refine congrArg Ideal.logistic (Finset.sum_congr rfl (fun k _ => ?_))
  rw [mulf_apply, take_apply a2 a0 h0, dot_apply]
  refine congrArg _ (Finset.sum_congr rfl (fun l _ => ?_))
  rw [take_apply a2 a1 h1, transpose_ix2_apply]

end Cert.ReferenceIdeal.RefValue

end
-- ==== Proof.PreRange.lean ====
/-
  The input-domain precondition, read back at the two index arrays.

  The precondition is one bit: the conjunction of "every table entry is finite", "every relation entry is
  finite", and, for each of the two index arrays, "every word w satisfies 0 ≤ w ≤ 999999 read signed", each
  an all-reduction by AND from 1. When the bit is 1 every conjunct is 1, hence every element of each compared
  array is 1, and a 32-bit word between 0 and 999999 signed has the same reading unsigned: it is below 10^6.
  Only the two integer conjuncts are used, so the statement holds at every float instance.
-/
import proofs.«206720_g66460323938928_cont_9to1_m_1264_22_alg».proof.Pre_input_domain
import proofs.«206720_g66460323938928_cont_9to1_m_1264_22_alg».proof.Proof.Gen.Pre_input_domain
import Idealize.ShloMosaic.Lib.ReduceAll

namespace Cert.PreRange

open Idealize.ShloMosaic Cert.Pre_input_domain Cert.Pre_input_domain.Gen

/-- The rank-0 shape has one index. -/
instance : Subsingleton S_.Idx := ⟨fun a b => funext fun d => d.elim0⟩

/-- A word between 0 and 999999 read signed is below 10^6 read unsigned. -/
theorem toNat_lt_of_signed (w : BitVec 32) (h0 : IntOp.cmpi .sge w 0#32 = 1#1)
    (h1 : IntOp.cmpi .sle w 999999#32 = 1#1) : w.toNat < 1000000 := by
  rw [IntOp.cmpi_sge] at h0
  rw [IntOp.cmpi_sle] at h1
  have z : (0#32 : BitVec 32).toInt = 0 := by decide
  have n : (999999#32 : BitVec 32).toInt = 999999 := by decide
  have c := BitVec.toInt_eq_toNat_cond w
  have hw := w.isLt
  rw [z] at h0
  rw [n] at h1
  split at c <;> omega

/-- The precondition's bit is 1 only if every word of both index arrays is below 10^6. -/
theorem ranges {F : FTy → Type} [FloatOps F] (a0 a1 : IVec Cert.Pre_input_domain.S16384 32)
    (a2 : FVec F Cert.Pre_input_domain.S1000000x64 .f32) (a3 : FVec F Cert.Pre_input_domain.S64x64 .f32)
    (h : Cert.Pre_input_domain.fn (F := F) a0 a1 a2 a3 = (fun _ => 1#1)) :
    (∀ j, (a0 j).toNat < 1000000) ∧ (∀ j, (a1 j).toNat < 1000000) := by
  have e := congrFun h (fun d => d.elim0)
  dsimp only [Cert.Pre_input_domain.fn, Cert.Pre_input_domain.fn_part1] at e
  simp only [andi] at e
  rw [IntOp.andi_eq_one, IntOp.andi_eq_one] at e
  obtain ⟨⟨-, e0⟩, e1⟩ := e
  refine ⟨fun j => ?_, fun j => ?_⟩
  · have b := Host.reduce_andi_all _ _ _ _ _ e0 j
    simp only [andi, cmpi, broadcastInDim, constantI] at b
    rw [IntOp.andi_eq_one] at b
    exact toNat_lt_of_signed _ b.1 b.2
  · have b := Host.reduce_andi_all _ _ _ _ _ e1 j
    simp only [andi, cmpi, broadcastInDim, constantI] at b
    rw [IntOp.andi_eq_one] at b
    exact toNat_lt_of_signed _ b.1 b.2

end Cert.PreRange
-- ==== Proof.lean ====
/-
  The certificate's five claims for the knowledge-graph scoring kernel: pairs of table rows are gathered on the
  SparseCore (two 64-wide rows share one 128-wide row of the reshaped table, the index's parity picks the half) and
  scored on the TensorCore as the logistic of the bilinear form `e_s · (R e_o)`; the reference takes the rows with
  `jnp.take` and computes the same form on the host.

  The two kernel frames are the SparseCore program's run (every thread of the device: the TensorCore on @main, the
  sequencers, the thirty-two vector subcores) with the values dropped, at the word-level and at the ideal instance,
  under the precondition's index ranges, which keep every gathered row inside the table. The reference's frame is
  its run. The idealization rewrote nothing. At the ideal instance both results are, index by index, the one function
  `Cert.Spec.score` of the argument arrays: sums and products of extended reals in the same order on both sides, the
  logistic one function, the reference's division by one the identity.
-/
import proofs.«206720_g66460323938928_cont_9to1_m_1264_22_alg».proof.Defs
import proofs.«206720_g66460323938928_cont_9to1_m_1264_22_alg».proof.Proof.Gen.Kernel
import proofs.«206720_g66460323938928_cont_9to1_m_1264_22_alg».proof.Proof.Gen.KernelIdeal
import proofs.«206720_g66460323938928_cont_9to1_m_1264_22_alg».proof.Proof.Gen.ReferenceIdeal
import proofs.«206720_g66460323938928_cont_9to1_m_1264_22_alg».proof.Proof.Gen.Pre_input_domain
import proofs.«206720_g66460323938928_cont_9to1_m_1264_22_alg».proof.Proof.LaunchI
import proofs.«206720_g66460323938928_cont_9to1_m_1264_22_alg».proof.Proof.LaunchK
import proofs.«206720_g66460323938928_cont_9to1_m_1264_22_alg».proof.Proof.FinalValI
import proofs.«206720_g66460323938928_cont_9to1_m_1264_22_alg».proof.Proof.FinalValK
import proofs.«206720_g66460323938928_cont_9to1_m_1264_22_alg».proof.Proof.KernelValueI
import proofs.«206720_g66460323938928_cont_9to1_m_1264_22_alg».proof.Proof.RefValue
import proofs.«206720_g66460323938928_cont_9to1_m_1264_22_alg».proof.Proof.PreRange
import Idealize.ShloMosaic.Adequacy
import Idealize.ShloMosaic.Init

noncomputable section

namespace Cert.Proof

open Idealize.ShloMosaic Idealize.SL.Sem

/-- The word-level program runs to its end and leaves its arguments as they were. -/
theorem frame_kernel : Cert.frame_Kernel := fun m ρ hpre =>
  (θ_run Cert.Kernel.defs _ _).mono
    (fun _ h c => ⟨(h c).2.1.trans (Cert.Kernel.Hand.V6_arg0 m c), (h c).2.2.1.trans (Cert.Kernel.Hand.V6_arg1 m c),
      (h c).2.2.2.1.trans (Cert.Kernel.Hand.V6_arg2 m c), (h c).2.2.2.2.trans (Cert.Kernel.Hand.V6_arg3 m c)⟩)
    (Cert.Kernel.Hand.run_main (F := Bits) m ρ fun d =>
      Cert.Kernel.Hand.ixV_range m d (Cert.PreRange.ranges _ _ _ _ (hpre d)).1 (Cert.PreRange.ranges _ _ _ _ (hpre d)).2)

/-- So does the idealized one. -/
theorem frame_kernelIdeal : Cert.frame_KernelIdeal := fun m ρ hpre =>
  (θ_run Cert.KernelIdeal.defs _ _).mono
    (fun _ h c => ⟨(h c).2.1.trans (Cert.KernelIdeal.Hand.V6_arg0 m c), (h c).2.2.1.trans (Cert.KernelIdeal.Hand.V6_arg1 m c),
      (h c).2.2.2.1.trans (Cert.KernelIdeal.Hand.V6_arg2 m c), (h c).2.2.2.2.trans (Cert.KernelIdeal.Hand.V6_arg3 m c)⟩)
    (Cert.KernelIdeal.Hand.run_main (F := Ideal) m ρ fun d =>
      Cert.KernelIdeal.Hand.ixV_range m d (Cert.PreRange.ranges _ _ _ _ (hpre d)).1 (Cert.PreRange.ranges _ _ _ _ (hpre d)).2)

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

/-- At the ideal instance both programs end with the score of every pair. -/
theorem algebraic : Cert.algebraic_KernelIdeal_ReferenceIdeal := by
  intro m ρ m' ρ' hpre hagree
  have hr := fun c => Cert.PreRange.ranges _ _ _ _ (hpre c)
  refine ⟨fun c => Cert.KernelIdeal.Hand.V6 m c Cert.KernelIdeal.Hand.rV6, ?_, ?_⟩
  · exact (θ_run Cert.KernelIdeal.defs _ _).mono
      (fun _ h c => ⟨(h c).1, (h c).2.1.trans (Cert.KernelIdeal.Hand.V6_arg0 m c), (h c).2.2.1.trans (Cert.KernelIdeal.Hand.V6_arg1 m c),
        (h c).2.2.2.1.trans (Cert.KernelIdeal.Hand.V6_arg2 m c), (h c).2.2.2.2.trans (Cert.KernelIdeal.Hand.V6_arg3 m c)⟩)
      (Cert.KernelIdeal.Hand.run_main (F := Ideal) m ρ fun d => Cert.KernelIdeal.Hand.ixV_range m d (hr d).1 (hr d).2)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2]
    show _ = Cert.KernelIdeal.Hand.V6 m c Cert.KernelIdeal.Hand.rV6
    rw [Cert.KernelIdeal.Hand.V6_result m c]
    funext i
    obtain ⟨n, rfl⟩ : ∃ n : Fin 16384, i = ValueIdx.ix1 n := ⟨i 0, ValueIdx.eq_ix1 i⟩
    rw [Cert.ReferenceIdeal.RefValue.refG_apply _ _ _ _ (hr c).1 (hr c).2 n,
      Cert.KernelIdeal.Hand.kernel_value c _ _ _ _ _ (hr c).1 (hr c).2 n]

theorem claim : Cert.Claim :=
  ⟨Cert.Kernel.Gen.facts, Cert.KernelIdeal.Gen.facts, Cert.ReferenceIdeal.Gen.facts, Cert.Pre_input_domain.Gen.facts,
    frame_kernel, frame_kernelIdeal, frame_reference, trivial, algebraic⟩

end Cert.Proof

end
